-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000x32 : Shape := ⟨2, ![1600000, 32]⟩
abbrev S1600000 : Shape := ⟨1, ![1600000]⟩
abbrev S64x64 : Shape := ⟨2, ![64, 64]⟩
abbrev S64 : Shape := ⟨1, ![64]⟩
abbrev S288x64 : Shape := ⟨2, ![288, 64]⟩
abbrev S192x64 : Shape := ⟨2, ![192, 64]⟩
abbrev S64x1 : Shape := ⟨2, ![64, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S288x64 : S_.BroadcastsInDim S288x64 (![] : Fin 0 → Fin S288x64.rank)
  reducesTo_S288x64_S_d0_1 : S288x64.ReducesTo [0, 1] S_
  bcast_S_S192x64 : S_.BroadcastsInDim S192x64 (![] : Fin 0 → Fin S192x64.rank)
  reducesTo_S192x64_S_d0_1 : S192x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S64 .f32) (main_arg10 : FVec F S192x64 .f32) (main_arg11 : FVec F S64 .f32) (main_arg12 : FVec F S64x1 .f32) (main_arg13 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S192x64 .f32 := Host.absf main_arg10
  let main_cst_14 : FVec F S_ .f32 := constant S_ .f32 0x7F800000#32
  let main_v40 : FVec F S192x64 .f32 := broadcastInDim S192x64 ![] bcast_S_S192x64 main_cst_14
  let main_v41 : IVec S192x64 1 := cmpf .olt main_v39 main_v40
  let main_c_15 : IVec S_ 1 := constantI S_ 1 1#1
  let main_v42 : IVec S_ 1 := (fun x v => Host.reduce IntOp.andi x v reducesTo_S192x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg12
  let main_cst_18 : FVec F S_ .f32 := constant S_ .f32 0x7F800000#32
  let main_v50 : FVec F S64x1 .f32 := broadcastInDim S64x1 ![] bcast_S_S64x1 main_cst_18
  fn_part3 (F := F) main_arg13 main_v48 main_v49 main_v50

def fn_part1 {F : FTy → Type} [FloatOps F] (main_arg6 : FVec F S288x64 .f32) (main_arg7 : FVec F S64 .f32) (main_arg8 : FVec F S192x64 .f32) (main_arg9 : FVec F S64 .f32) (main_arg10 : FVec F S192x64 .f32) (main_arg11 : FVec F S64 .f32) (main_arg12 : FVec F S64x1 .f32) (main_arg13 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S288x64 .f32 := Host.absf main_arg6
  let main_cst_6 : FVec F S_ .f32 := constant S_ .f32 0x7F800000#32
  let main_v20 : FVec F S288x64 .f32 := broadcastInDim S288x64 ![] bcast_S_S288x64 main_cst_6
  let main_v21 : IVec S288x64 1 := cmpf .olt main_v19 main_v20
  let main_c_7 : IVec S_ 1 := constantI S_ 1 1#1
  let main_v22 : IVec S_ 1 := (fun x v => Host.reduce IntOp.andi x v reducesTo_S288x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S192x64 .f32 := Host.absf main_arg8
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x32 .f32) (main_arg1 : FVec F S1600000x32 .f32) (main_arg2 : IVec S1600000 32) (main_arg3 : IVec S1600000 32) (main_arg4 : FVec F S64x64 .f32) (main_arg5 : FVec F S64 .f32) (main_arg6 : FVec F S288x64 .f32) (main_arg7 : FVec F S64 .f32) (main_arg8 : FVec F S192x64 .f32) (main_arg9 : FVec F S64 .f32) (main_arg10 : FVec F S192x64 .f32) (main_arg11 : FVec F S64 .f32) (main_arg12 : FVec F S64x1 .f32) (main_arg13 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000x32 .f32 := Host.absf main_arg1
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_v13 main_v16
-- ==== Kernel.lean ====
abbrev S100000x32 : Shape := ⟨2, ![100000, 32]⟩
abbrev S1600000x32 : Shape := ⟨2, ![1600000, 32]⟩
abbrev S1600000 : Shape := ⟨1, ![1600000]⟩
abbrev S64x64 : Shape := ⟨2, ![64, 64]⟩
abbrev S64 : Shape := ⟨1, ![64]⟩
abbrev S288x64 : Shape := ⟨2, ![288, 64]⟩
abbrev S192x64 : Shape := ⟨2, ![192, 64]⟩
abbrev S64x1 : Shape := ⟨2, ![64, 1]⟩
abbrev S1 : Shape := ⟨1, ![1]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S16000x64 : Shape := ⟨2, ![16000, 64]⟩
abbrev S100000x64 : Shape := ⟨2, ![100000, 64]⟩
abbrev S100000 : Shape := ⟨1, ![100000]⟩
abbrev S100000x1 : Shape := ⟨2, ![100000, 1]⟩
abbrev S100000x96 : Shape := ⟨2, ![100000, 96]⟩
abbrev S1600000x96 : Shape := ⟨2, ![1600000, 96]⟩
abbrev S100000x288 : Shape := ⟨2, ![100000, 288]⟩
abbrev S10000x288 : Shape := ⟨2, ![10000, 288]⟩
abbrev S10000x64 : Shape := ⟨2, ![10000, 64]⟩
abbrev S100000x192 : Shape := ⟨2, ![100000, 192]⟩
abbrev S10000x192 : Shape := ⟨2, ![10000, 192]⟩
abbrev S1x1 : Shape := ⟨2, ![1, 1]⟩

abbrev nBuf : Space → Nat
  | .hbm => 194
  | .vmem => 27
  | .smem => 0
  | _ => 0

abbrev hbmTy0_0 (i : Nat) : BufTy := match i % 128 with
  | 0 => ⟨S100000x32, .f32⟩
  | 1 => ⟨S1600000x32, .f32⟩
  | 2 => ⟨S1600000, .i32⟩
  | 3 => ⟨S1600000, .i32⟩
  | 4 => ⟨S64x64, .f32⟩
  | 5 => ⟨S64, .f32⟩
  | 6 => ⟨S288x64, .f32⟩
  | 7 => ⟨S64, .f32⟩
  | 8 => ⟨S192x64, .f32⟩
  | 9 => ⟨S64, .f32⟩
  | 10 => ⟨S192x64, .f32⟩
  | 11 => ⟨S64, .f32⟩
  | 12 => ⟨S64x1, .f32⟩
  | 13 => ⟨S1, .f32⟩
  | 14 => ⟨S100000x32, .i1⟩
  | 15 => ⟨S_, .f32⟩
  | 16 => ⟨S100000x32, .f32⟩
  | 17 => ⟨S100000x32, .f32⟩
  | 18 => ⟨S_, .f32⟩
  | 19 => ⟨S100000x32, .f32⟩
  | 20 => ⟨S100000x32, .i1⟩
  | 21 => ⟨S_, .f32⟩
  | 22 => ⟨S100000x32, .f32⟩
  | 23 => ⟨S100000x32, .f32⟩
  | 24 => ⟨S_, .f32⟩
  | 25 => ⟨S100000x32, .f32⟩
  | 26 => ⟨S100000x32, .i1⟩
  | 27 => ⟨S_, .f32⟩
  | 28 => ⟨S100000x32, .f32⟩
  | 29 => ⟨S100000x32, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x32, .f32⟩
  | 39 => ⟨S1600000x64, .f32⟩
  | 40 => ⟨S1x64, .f32⟩
  | 41 => ⟨S1600000x64, .f32⟩
  | 42 => ⟨S_, .f32⟩
  | 43 => ⟨S100000x64, .f32⟩
  | 44 => ⟨S1600000x1, .i32⟩
  | 45 => ⟨S100000x64, .f32⟩
  | 46 => ⟨S100000x64, .i1⟩
  | 47 => ⟨S_, .f32⟩
  | 48 => ⟨S100000x64, .f32⟩
  | 49 => ⟨S100000x64, .f32⟩
  | 50 => ⟨S_, .f32⟩
  | 51 => ⟨S100000x64, .f32⟩
  | 52 => ⟨S100000x64, .i1⟩
  | 53 => ⟨S_, .f32⟩
  | 54 => ⟨S100000x64, .f32⟩
  | 55 => ⟨S100000x64, .f32⟩
  | 56 => ⟨S_, .f32⟩
  | 57 => ⟨S100000x64, .f32⟩
  | 58 => ⟨S100000x64, .i1⟩
  | 59 => ⟨S_, .f32⟩
  | 60 => ⟨S100000x64, .f32⟩
  | 61 => ⟨S100000x64, .f32⟩
  | 62 => ⟨S_, .f32⟩
  | 63 => ⟨S1600000, .f32⟩
  | 64 => ⟨S_, .f32⟩
  | 65 => ⟨S100000, .f32⟩
  | 66 => ⟨S1600000x1, .i32⟩
  | 67 => ⟨S100000, .f32⟩
  | 68 => ⟨S_, .f32⟩
  | 69 => ⟨S100000, .f32⟩
  | 70 => ⟨S100000, .f32⟩
  | 71 => ⟨S_, .f32⟩
  | 72 => ⟨S100000, .f32⟩
  | 73 => ⟨S100000, .f32⟩
  | 74 => ⟨S100000x1, .f32⟩
  | 75 => ⟨S100000x96, .f32⟩
  | 76 => ⟨S100000x96, .f32⟩
  | 77 => ⟨S100000x96, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000x96, .f32⟩
  | 87 => ⟨S_, .f32⟩
  | 88 => ⟨S100000x96, .f32⟩
  | 89 => ⟨S1600000x1, .i32⟩
  | 90 => ⟨S100000x96, .f32⟩
  | 91 => ⟨S100000x96, .f32⟩
  | 92 => ⟨S100000x96, .f32⟩
  | 93 => ⟨S100000x96, .f32⟩
  | 94 => ⟨S100000x96, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x96, .f32⟩
  | 104 => ⟨S_, .f32⟩
  | 105 => ⟨S100000x96, .f32⟩
  | 106 => ⟨S1600000x1, .i32⟩
  | 107 => ⟨S100000x96, .f32⟩
  | 108 => ⟨S100000x96, .f32⟩
  | 109 => ⟨S100000x96, .f32⟩
  | 110 => ⟨S100000x288, .f32⟩
  | 111 => ⟨S1x64, .f32⟩
  | 112 => ⟨S100000x64, .f32⟩
  | 113 => ⟨S100000x64, .f32⟩
  | 114 => ⟨S100000x64, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x64, .f32⟩
  | 124 => ⟨S_, .f32⟩
  | 125 => ⟨S100000x64, .f32⟩
  | 126 => ⟨S1600000x1, .i32⟩
  | 127 => ⟨S100000x64, .f32⟩
  | _ => ⟨S100000x32, .f32⟩

abbrev hbmTy0_1 (i : Nat) : BufTy := match i % 128 with
  | 0 => ⟨S100000x64, .f32⟩
  | 1 => ⟨S100000x64, .f32⟩
  | 2 => ⟨S100000x64, .f32⟩
  | 3 => ⟨S100000x64, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000x64, .f32⟩
  | 13 => ⟨S_, .f32⟩
  | 14 => ⟨S100000x64, .f32⟩
  | 15 => ⟨S1600000x1, .i32⟩
  | 16 => ⟨S100000x64, .f32⟩
  | 17 => ⟨S100000x64, .f32⟩
  | 18 => ⟨S100000x64, .f32⟩
  | 19 => ⟨S100000x192, .f32⟩
  | 20 => ⟨S1x64, .f32⟩
  | 21 => ⟨S100000x64, .f32⟩
  | 22 => ⟨S100000x64, .f32⟩
  | 23 => ⟨S100000x64, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x64, .f32⟩
  | 33 => ⟨S_, .f32⟩
  | 34 => ⟨S100000x64, .f32⟩
  | 35 => ⟨S1600000x1, .i32⟩
  | 36 => ⟨S100000x64, .f32⟩
  | 37 => ⟨S100000x64, .f32⟩
  | 38 => ⟨S100000x64, .f32⟩
  | 39 => ⟨S100000x64, .f32⟩
  | 40 => ⟨S100000x64, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x64, .f32⟩
  | 50 => ⟨S_, .f32⟩
  | 51 => ⟨S100000x64, .f32⟩
  | 52 => ⟨S1600000x1, .i32⟩
  | 53 => ⟨S100000x64, .f32⟩
  | 54 => ⟨S100000x64, .f32⟩
  | 55 => ⟨S100000x64, .f32⟩
  | 56 => ⟨S100000x192, .f32⟩
  | 57 => ⟨S1x64, .f32⟩
  | 58 => ⟨S100000x64, .f32⟩
  | 59 => ⟨S1x64, .f32⟩
  | 60 => ⟨S_, .f32⟩
  | 61 => ⟨S1x64, .f32⟩
  | 62 => ⟨S1x64, .f32⟩
  | 63 => ⟨S1x1, .f32⟩
  | 64 => ⟨S1x1, .f32⟩
  | 65 => ⟨S1x1, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S16000x64, .f32⟩
  | .local _ .vmem, ⟨1, _⟩ => ⟨S16000x64, .f32⟩
  | .local _ .vmem, ⟨2, _⟩ => ⟨S64x64, .f32⟩
  | .local _ .vmem, ⟨3, _⟩ => ⟨S1x64, .f32⟩
  | .local _ .vmem, ⟨4, _⟩ => ⟨S16000x64, .f32⟩
  | .local _ .vmem, ⟨5, _⟩ => ⟨S16000x64, .f32⟩
  | .local _ .vmem, ⟨6, _⟩ => ⟨S10000x288, .f32⟩
  | .local _ .vmem, ⟨7, _⟩ => ⟨S10000x288, .f32⟩
  | .local _ .vmem, ⟨8, _⟩ => ⟨S288x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x192, .f32⟩
  | .local _ .vmem, ⟨13, _⟩ => ⟨S10000x192, .f32⟩
  | .local _ .vmem, ⟨14, _⟩ => ⟨S192x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S10000x192, .f32⟩
  | .local _ .vmem, ⟨19, _⟩ => ⟨S10000x192, .f32⟩
  | .local _ .vmem, ⟨20, _⟩ => ⟨S192x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S1x64, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_cst : Ref sig .tc := ⟨.hbm, 15, rfl⟩
abbrev main_call0_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_cst_1 : Ref sig .tc := ⟨.hbm, 21, rfl⟩
abbrev main_call0_call1_v0 : Ref sig .tc := ⟨.hbm, 22, rfl⟩
abbrev main_call0_v4 : Ref sig .tc := ⟨.hbm, 23, rfl⟩
abbrev main_call0_cst_2 : Ref sig .tc := ⟨.hbm, 24, rfl⟩
abbrev main_call0_v5 : Ref sig .tc := ⟨.hbm, 25, rfl⟩
abbrev main_call0_v6 : Ref sig .tc := ⟨.hbm, 26, rfl⟩
abbrev main_call0_cst_3 : Ref sig .tc := ⟨.hbm, 27, rfl⟩
abbrev main_call0_call2_v0 : Ref sig .tc := ⟨.hbm, 28, rfl⟩
abbrev main_v0 : Ref sig .tc := ⟨.hbm, 29, rfl⟩
abbrev main_c : Ref sig .tc := ⟨.hbm, 30, rfl⟩
abbrev main_v1 : Ref sig .tc := ⟨.hbm, 31, rfl⟩
abbrev main_v2 : Ref sig .tc := ⟨.hbm, 32, rfl⟩
abbrev main_c_0 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_call1_v0 : Ref sig .tc := ⟨.hbm, 46, rfl⟩
abbrev main_call1_cst : Ref sig .tc := ⟨.hbm, 47, rfl⟩
abbrev main_call1_call0_v0 : Ref sig .tc := ⟨.hbm, 48, rfl⟩
abbrev main_call1_v1 : Ref sig .tc := ⟨.hbm, 49, rfl⟩
abbrev main_call1_cst_0 : Ref sig .tc := ⟨.hbm, 50, rfl⟩
abbrev main_call1_v2 : Ref sig .tc := ⟨.hbm, 51, rfl⟩
abbrev main_call1_v3 : Ref sig .tc := ⟨.hbm, 52, rfl⟩
abbrev main_call1_cst_1 : Ref sig .tc := ⟨.hbm, 53, rfl⟩
abbrev main_call1_call1_v0 : Ref sig .tc := ⟨.hbm, 54, rfl⟩
abbrev main_call1_v4 : Ref sig .tc := ⟨.hbm, 55, rfl⟩
abbrev main_call1_cst_2 : Ref sig .tc := ⟨.hbm, 56, rfl⟩
abbrev main_call1_v5 : Ref sig .tc := ⟨.hbm, 57, rfl⟩
abbrev main_call1_v6 : Ref sig .tc := ⟨.hbm, 58, rfl⟩
abbrev main_call1_cst_3 : Ref sig .tc := ⟨.hbm, 59, rfl⟩
abbrev main_call1_call2_v0 : Ref sig .tc := ⟨.hbm, 60, rfl⟩
abbrev main_v14 : Ref sig .tc := ⟨.hbm, 61, rfl⟩
abbrev main_cst_1 : Ref sig .tc := ⟨.hbm, 62, rfl⟩
abbrev main_v15 : Ref sig .tc := ⟨.hbm, 63, rfl⟩
abbrev main_cst_2 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_cst_3 : Ref sig .tc := ⟨.hbm, 68, rfl⟩
abbrev main_v19 : Ref sig .tc := ⟨.hbm, 69, rfl⟩
abbrev main_v20 : Ref sig .tc := ⟨.hbm, 70, rfl⟩
abbrev main_cst_4 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_c_5 : Ref sig .tc := ⟨.hbm, 78, rfl⟩
abbrev main_v27 : Ref sig .tc := ⟨.hbm, 79, rfl⟩
abbrev main_v28 : Ref sig .tc := ⟨.hbm, 80, rfl⟩
abbrev main_c_6 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_cst_7 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_c_8 : Ref sig .tc := ⟨.hbm, 95, rfl⟩
abbrev main_v41 : Ref sig .tc := ⟨.hbm, 96, rfl⟩
abbrev main_v42 : Ref sig .tc := ⟨.hbm, 97, rfl⟩
abbrev main_c_9 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_cst_10 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_c_11 : Ref sig .tc := ⟨.hbm, 115, rfl⟩
abbrev main_v58 : Ref sig .tc := ⟨.hbm, 116, rfl⟩
abbrev main_v59 : Ref sig .tc := ⟨.hbm, 117, rfl⟩
abbrev main_c_12 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_cst_13 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_c_14 : Ref sig .tc := ⟨.hbm, 132, rfl⟩
abbrev main_v72 : Ref sig .tc := ⟨.hbm, 133, rfl⟩
abbrev main_v73 : Ref sig .tc := ⟨.hbm, 134, rfl⟩
abbrev main_c_15 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_cst_16 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_c_17 : Ref sig .tc := ⟨.hbm, 152, rfl⟩
abbrev main_v89 : Ref sig .tc := ⟨.hbm, 153, rfl⟩
abbrev main_v90 : Ref sig .tc := ⟨.hbm, 154, rfl⟩
abbrev main_c_18 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_cst_19 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_c_20 : Ref sig .tc := ⟨.hbm, 169, rfl⟩
abbrev main_v103 : Ref sig .tc := ⟨.hbm, 170, rfl⟩
abbrev main_v104 : Ref sig .tc := ⟨.hbm, 171, rfl⟩
abbrev main_c_21 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_cst_22 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_cst_23 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x288 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S288x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S192x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S192x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

class Facts₀ : Prop where
  bcast_S_S100000x32 : S_.BroadcastsInDim S100000x32 (![] : Fin 0 → Fin S100000x32.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x32_S1600000x32_S1600000x64_d1 : Shape.Concatenates [S1600000x32, S1600000x32] S1600000x64 1
  shapeCasts_S64_S1x64 : S64.ShapeCasts S1x64
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16000x64 : S1x64.Broadcasts S16000x64
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  concatenates_S100000x32_S100000x64_S100000x96_d1 : Shape.Concatenates [S100000x32, S100000x64] S100000x96 1
  bcast_S100000x1_S100000x96_0_1 : S100000x1.BroadcastsInDim S100000x96 (![0, 1] : Fin 2 → Fin S100000x96.rank)
  bcast_S_S100000x96 : S_.BroadcastsInDim S100000x96 (![] : Fin 0 → Fin S100000x96.rank)
  concatenates_S100000x96_S100000x96_S100000x96_S100000x288_d1 : Shape.Concatenates [S100000x96, S100000x96, S100000x96] S100000x288 1
  inb_S10000x288_S10000x288_0_0 : ∀ a, (![0, 0] : Fin 2 → Nat) a + S10000x288.size a ≤ S10000x288.size a
  h_S10000x288 : 0 < S10000x288.numel
  shapeCasts_S10000x288_S10000x288 : S10000x288.ShapeCasts S10000x288
  inb_S288x64_S288x64_0_0 : ∀ a, (![0, 0] : Fin 2 → Nat) a + S288x64.size a ≤ S288x64.size a
  h_S288x64 : 0 < S288x64.numel
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S100000x1_S100000x64_0_1 : S100000x1.BroadcastsInDim S100000x64 (![0, 1] : Fin 2 → Fin S100000x64.rank)
  concatenates_S100000x64_S100000x64_S100000x64_S100000x192_d1 : Shape.Concatenates [S100000x64, S100000x64, S100000x64] S100000x192 1
  inb_S10000x192_S10000x192_0_0 : ∀ a, (![0, 0] : Fin 2 → Nat) a + S10000x192.size a ≤ S10000x192.size a
  h_S10000x192 : 0 < S10000x192.numel
  shapeCasts_S10000x192_S10000x192 : S10000x192.ShapeCasts S10000x192
  inb_S192x64_S192x64_0_0 : ∀ a, (![0, 0] : Fin 2 → Nat) a + S192x64.size a ≤ S192x64.size a
  h_S192x64 : 0 < S192x64.numel
  shapeCasts_S10000x64_S10000x64 : S10000x64.ShapeCasts S10000x64
  reduces_S10000x64_S64 : S10000x64.Reduces [0] S64
  bcast_S_S1x64 : S_.BroadcastsInDim S1x64 (![] : Fin 0 → Fin S1x64.rank)
  bcast_S1_S1x1_1 : S1.BroadcastsInDim S1x1 (![1] : Fin 1 → Fin S1x1.rank)
  gather_S100000x32_S1600000x1_S1600000x32_1_0_n_n_0_1_132_wf : GatherDims.WF S100000x32 S1600000x1 S1600000x32 [1] [0] [] [0] [] 1 ![1, 32]
  dot_S16000x64_S64x64_S16000x64_1_0_0_1_n_n_wf : DotDims.WF S16000x64 S64x64 S16000x64 [1] [0] [0] [1] [] []
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  gather_S100000x96_S1600000x1_S1600000x96_1_0_n_n_0_1_196_wf : GatherDims.WF S100000x96 S1600000x1 S1600000x96 [1] [0] [] [0] [] 1 ![1, 96]
  scatter_S100000x96_S1600000x1_S1600000x96_1_0_0_1_wf : ScatterDims.WF S100000x96 S1600000x1 S1600000x96 [1] [0] [0] 1
  dot_S10000x288_S288x64_S10000x64_1_0_0_1_n_n_wf : DotDims.WF S10000x288 S288x64 S10000x64 [1] [0] [0] [1] [] []
  gather_S100000x64_S1600000x1_S1600000x64_1_0_n_n_0_1_164_wf : GatherDims.WF S100000x64 S1600000x1 S1600000x64 [1] [0] [] [0] [] 1 ![1, 64]
  dot_S10000x192_S192x64_S10000x64_1_0_0_1_n_n_wf : DotDims.WF S10000x192 S192x64 S10000x64 [1] [0] [0] [1] [] []
  dot_S1x64_S64x1_S1x1_1_0_0_1_n_n_wf : DotDims.WF S1x64 S64x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S1600000x64.size a
  hwx0_0 : ∀ i : grid0.Coords, EltTy.bits .f32 = 32 ∨ (Rect.block (s := S1600000x64) S16000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16000x64.size a ≤ S1600000x64.size a
  hwx0_3 : ∀ i : grid0.Coords, EltTy.bits .f32 = 32 ∨ (Rect.block (s := S1600000x64) S16000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x288.size a ≤ S100000x288.size a
  hwx1_0 : ∀ i : grid1.Coords, EltTy.bits .f32 = 32 ∨ (Rect.block (s := S100000x288) S10000x288.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S288x64.size a ≤ S288x64.size a
  hwx1_1 : ∀ i : grid1.Coords, EltTy.bits .f32 = 32 ∨ (Rect.block (s := S288x64) S288x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x192.size a ≤ S100000x192.size a
  hwx2_0 : ∀ i : grid2.Coords, EltTy.bits .f32 = 32 ∨ (Rect.block (s := S100000x192) S10000x192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S192x64.size a ≤ S192x64.size a
  hwx2_1 : ∀ i : grid2.Coords, EltTy.bits .f32 = 32 ∨ (Rect.block (s := S192x64) S192x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x192.size a ≤ S100000x192.size a
  hwx3_0 : ∀ i : grid3.Coords, EltTy.bits .f32 = 32 ∨ (Rect.block (s := S100000x192) S10000x192.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S192x64.size a ≤ S192x64.size a
  hwx3_1 : ∀ i : grid3.Coords, EltTy.bits .f32 = 32 ∨ (Rect.block (s := S192x64) S192x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x96_S1600000x1_S1600000x96_1_0_n_n_0_1_196 : GatherDims S100000x96 S1600000x1 S1600000x96 where
  offsetDims := [1]
  collapsedSliceDims := [0]
  operandBatchingDims := []
  startIndicesBatchingDims := []
  startIndexMap := [0]
  indexVectorDim := 1
  sliceSizes := ![1, 96]
  wf := gather_S100000x96_S1600000x1_S1600000x96_1_0_n_n_0_1_196_wf
def scatter_S100000x96_S1600000x1_S1600000x96_1_0_0_1 : ScatterDims S100000x96 S1600000x1 S1600000x96 where
  updateWindowDims := [1]
  insertedWindowDims := [0]
  scatterDimsToOperandDims := [0]
  indexVectorDim := 1
  wf := scatter_S100000x96_S1600000x1_S1600000x96_1_0_0_1_wf
def dot_S10000x288_S288x64_S10000x64_1_0_0_1_n_n : DotDims S10000x288 S288x64 S10000x64 where
  lhsContracting := [1]
  rhsContracting := [0]
  lhsNonContracting := [0]
  rhsNonContracting := [1]
  lhsBatch := []
  rhsBatch := []
  wf := dot_S10000x288_S288x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S10000x192_S192x64_S10000x64_1_0_0_1_n_n : DotDims S10000x192 S192x64 S10000x64 where
  lhsContracting := [1]
  rhsContracting := [0]
  lhsNonContracting := [0]
  rhsNonContracting := [1]
  lhsBatch := []
  rhsBatch := []
  wf := dot_S10000x192_S192x64_S10000x64_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

abbrev win0_0 : Pipeline.Window sig grid0 :=
  Pipeline.Window.ofSpec (Memref.whole main_v8) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S16000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v53) S10000x288.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S288x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v84) S10000x192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S192x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v85) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v86) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v115) S10000x192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S192x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v116) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v117) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v117) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v118) S1x64.size cc4_transform_1 reads4_1 true true 1 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

class Facts : Prop extends Facts₀ where

variable [Facts]
-- ==== ReferenceIdeal.lean ====
abbrev S100000x32 : Shape := ⟨2, ![100000, 32]⟩
abbrev S1600000x32 : Shape := ⟨2, ![1600000, 32]⟩
abbrev S1600000 : Shape := ⟨1, ![1600000]⟩
abbrev S64x64 : Shape := ⟨2, ![64, 64]⟩
abbrev S64 : Shape := ⟨1, ![64]⟩
abbrev S288x64 : Shape := ⟨2, ![288, 64]⟩
abbrev S192x64 : Shape := ⟨2, ![192, 64]⟩
abbrev S64x1 : Shape := ⟨2, ![64, 1]⟩
abbrev S1 : Shape := ⟨1, ![1]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x64 : Shape := ⟨2, ![100000, 64]⟩
abbrev S100000 : Shape := ⟨1, ![100000]⟩
abbrev S100000x1 : Shape := ⟨2, ![100000, 1]⟩
abbrev S100000x96 : Shape := ⟨2, ![100000, 96]⟩
abbrev S1600000x96 : Shape := ⟨2, ![1600000, 96]⟩
abbrev S100000x288 : Shape := ⟨2, ![100000, 288]⟩
abbrev S100000x192 : Shape := ⟨2, ![100000, 192]⟩
abbrev S1x1 : Shape := ⟨2, ![1, 1]⟩

abbrev nBuf : Space → Nat
  | .hbm => 216
  | .vmem => 0
  | .smem => 0
  | _ => 0

abbrev hbmTy0_0 (i : Nat) : BufTy := match i % 128 with
  | 0 => ⟨S100000x32, .f32⟩
  | 1 => ⟨S1600000x32, .f32⟩
  | 2 => ⟨S1600000, .i32⟩
  | 3 => ⟨S1600000, .i32⟩
  | 4 => ⟨S64x64, .f32⟩
  | 5 => ⟨S64, .f32⟩
  | 6 => ⟨S288x64, .f32⟩
  | 7 => ⟨S64, .f32⟩
  | 8 => ⟨S192x64, .f32⟩
  | 9 => ⟨S64, .f32⟩
  | 10 => ⟨S192x64, .f32⟩
  | 11 => ⟨S64, .f32⟩
  | 12 => ⟨S64x1, .f32⟩
  | 13 => ⟨S1, .f32⟩
  | 14 => ⟨S100000x32, .i1⟩
  | 15 => ⟨S_, .f32⟩
  | 16 => ⟨S100000x32, .f32⟩
  | 17 => ⟨S100000x32, .f32⟩
  | 18 => ⟨S_, .f32⟩
  | 19 => ⟨S100000x32, .f32⟩
  | 20 => ⟨S100000x32, .i1⟩
  | 21 => ⟨S_, .f32⟩
  | 22 => ⟨S100000x32, .f32⟩
  | 23 => ⟨S100000x32, .f32⟩
  | 24 => ⟨S_, .f32⟩
  | 25 => ⟨S100000x32, .f32⟩
  | 26 => ⟨S100000x32, .i1⟩
  | 27 => ⟨S_, .f32⟩
  | 28 => ⟨S100000x32, .f32⟩
  | 29 => ⟨S100000x32, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x32, .f32⟩
  | 39 => ⟨S1600000x64, .f32⟩
  | 40 => ⟨S1600000x64, .f32⟩
  | 41 => ⟨S1x64, .f32⟩
  | 42 => ⟨S1600000x64, .f32⟩
  | 43 => ⟨S1600000x64, .f32⟩
  | 44 => ⟨S_, .f32⟩
  | 45 => ⟨S1600000x64, .f32⟩
  | 46 => ⟨S1600000x64, .f32⟩
  | 47 => ⟨S_, .f32⟩
  | 48 => ⟨S100000x64, .f32⟩
  | 49 => ⟨S1600000x1, .i32⟩
  | 50 => ⟨S100000x64, .f32⟩
  | 51 => ⟨S100000x64, .i1⟩
  | 52 => ⟨S_, .f32⟩
  | 53 => ⟨S100000x64, .f32⟩
  | 54 => ⟨S100000x64, .f32⟩
  | 55 => ⟨S_, .f32⟩
  | 56 => ⟨S100000x64, .f32⟩
  | 57 => ⟨S100000x64, .i1⟩
  | 58 => ⟨S_, .f32⟩
  | 59 => ⟨S100000x64, .f32⟩
  | 60 => ⟨S100000x64, .f32⟩
  | 61 => ⟨S_, .f32⟩
  | 62 => ⟨S100000x64, .f32⟩
  | 63 => ⟨S100000x64, .i1⟩
  | 64 => ⟨S_, .f32⟩
  | 65 => ⟨S100000x64, .f32⟩
  | 66 => ⟨S100000x64, .f32⟩
  | 67 => ⟨S_, .f32⟩
  | 68 => ⟨S1600000, .f32⟩
  | 69 => ⟨S_, .f32⟩
  | 70 => ⟨S100000, .f32⟩
  | 71 => ⟨S1600000x1, .i32⟩
  | 72 => ⟨S100000, .f32⟩
  | 73 => ⟨S_, .f32⟩
  | 74 => ⟨S100000, .f32⟩
  | 75 => ⟨S100000, .f32⟩
  | 76 => ⟨S_, .f32⟩
  | 77 => ⟨S100000, .f32⟩
  | 78 => ⟨S100000, .f32⟩
  | 79 => ⟨S100000x1, .f32⟩
  | 80 => ⟨S100000x96, .f32⟩
  | 81 => ⟨S100000x96, .f32⟩
  | 82 => ⟨S100000x96, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x96, .f32⟩
  | 92 => ⟨S_, .f32⟩
  | 93 => ⟨S100000x96, .f32⟩
  | 94 => ⟨S1600000x1, .i32⟩
  | 95 => ⟨S100000x96, .f32⟩
  | 96 => ⟨S100000x96, .f32⟩
  | 97 => ⟨S100000x96, .f32⟩
  | 98 => ⟨S100000x96, .f32⟩
  | 99 => ⟨S100000x96, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x96, .f32⟩
  | 109 => ⟨S_, .f32⟩
  | 110 => ⟨S100000x96, .f32⟩
  | 111 => ⟨S1600000x1, .i32⟩
  | 112 => ⟨S100000x96, .f32⟩
  | 113 => ⟨S100000x96, .f32⟩
  | 114 => ⟨S100000x96, .f32⟩
  | 115 => ⟨S100000x288, .f32⟩
  | 116 => ⟨S100000x64, .f32⟩
  | 117 => ⟨S1x64, .f32⟩
  | 118 => ⟨S100000x64, .f32⟩
  | 119 => ⟨S100000x64, .f32⟩
  | 120 => ⟨S_, .f32⟩
  | 121 => ⟨S100000x64, .f32⟩
  | 122 => ⟨S100000x64, .f32⟩
  | 123 => ⟨S100000x64, .f32⟩
  | 124 => ⟨S100000x64, .f32⟩
  | 125 => ⟨S_, .i32⟩
  | 126 => ⟨S1600000, .i32⟩
  | 127 => ⟨S1600000, .i1⟩
  | _ => ⟨S100000x32, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x64, .f32⟩
  | 6 => ⟨S_, .f32⟩
  | 7 => ⟨S100000x64, .f32⟩
  | 8 => ⟨S1600000x1, .i32⟩
  | 9 => ⟨S100000x64, .f32⟩
  | 10 => ⟨S100000x64, .f32⟩
  | 11 => ⟨S100000x64, .f32⟩
  | 12 => ⟨S100000x64, .f32⟩
  | 13 => ⟨S100000x64, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x64, .f32⟩
  | 23 => ⟨S_, .f32⟩
  | 24 => ⟨S100000x64, .f32⟩
  | 25 => ⟨S1600000x1, .i32⟩
  | 26 => ⟨S100000x64, .f32⟩
  | 27 => ⟨S100000x64, .f32⟩
  | 28 => ⟨S100000x64, .f32⟩
  | 29 => ⟨S100000x192, .f32⟩
  | 30 => ⟨S100000x64, .f32⟩
  | 31 => ⟨S1x64, .f32⟩
  | 32 => ⟨S100000x64, .f32⟩
  | 33 => ⟨S100000x64, .f32⟩
  | 34 => ⟨S_, .f32⟩
  | 35 => ⟨S100000x64, .f32⟩
  | 36 => ⟨S100000x64, .f32⟩
  | 37 => ⟨S100000x64, .f32⟩
  | 38 => ⟨S100000x64, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x64, .f32⟩
  | 48 => ⟨S_, .f32⟩
  | 49 => ⟨S100000x64, .f32⟩
  | 50 => ⟨S1600000x1, .i32⟩
  | 51 => ⟨S100000x64, .f32⟩
  | 52 => ⟨S100000x64, .f32⟩
  | 53 => ⟨S100000x64, .f32⟩
  | 54 => ⟨S100000x64, .f32⟩
  | 55 => ⟨S100000x64, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x64, .f32⟩
  | 65 => ⟨S_, .f32⟩
  | 66 => ⟨S100000x64, .f32⟩
  | 67 => ⟨S1600000x1, .i32⟩
  | 68 => ⟨S100000x64, .f32⟩
  | 69 => ⟨S100000x64, .f32⟩
  | 70 => ⟨S100000x64, .f32⟩
  | 71 => ⟨S100000x192, .f32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S_, .f32⟩
  | 80 => ⟨S64, .f32⟩
  | 81 => ⟨S1x64, .f32⟩
  | 82 => ⟨S_, .f32⟩
  | 83 => ⟨S1x64, .f32⟩
  | 84 => ⟨S1x64, .f32⟩
  | 85 => ⟨S1x1, .f32⟩
  | 86 => ⟨S1x1, .f32⟩
  | 87 => ⟨S1x1, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_cst : Ref sig .tc := ⟨.hbm, 15, rfl⟩
abbrev main_call0_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_cst_1 : Ref sig .tc := ⟨.hbm, 21, rfl⟩
abbrev main_call0_call1_v0 : Ref sig .tc := ⟨.hbm, 22, rfl⟩
abbrev main_call0_v4 : Ref sig .tc := ⟨.hbm, 23, rfl⟩
abbrev main_call0_cst_2 : Ref sig .tc := ⟨.hbm, 24, rfl⟩
abbrev main_call0_v5 : Ref sig .tc := ⟨.hbm, 25, rfl⟩
abbrev main_call0_v6 : Ref sig .tc := ⟨.hbm, 26, rfl⟩
abbrev main_call0_cst_3 : Ref sig .tc := ⟨.hbm, 27, rfl⟩
abbrev main_call0_call2_v0 : Ref sig .tc := ⟨.hbm, 28, rfl⟩
abbrev main_v0 : Ref sig .tc := ⟨.hbm, 29, rfl⟩
abbrev main_c : Ref sig .tc := ⟨.hbm, 30, rfl⟩
abbrev main_v1 : Ref sig .tc := ⟨.hbm, 31, rfl⟩
abbrev main_v2 : Ref sig .tc := ⟨.hbm, 32, rfl⟩
abbrev main_c_0 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_call1_cst : Ref sig .tc := ⟨.hbm, 44, rfl⟩
abbrev main_call1_v0 : Ref sig .tc := ⟨.hbm, 45, rfl⟩
abbrev main_v13 : Ref sig .tc := ⟨.hbm, 46, rfl⟩
abbrev main_cst : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_call2_v0 : Ref sig .tc := ⟨.hbm, 51, rfl⟩
abbrev main_call2_cst : Ref sig .tc := ⟨.hbm, 52, rfl⟩
abbrev main_call2_call0_v0 : Ref sig .tc := ⟨.hbm, 53, rfl⟩
abbrev main_call2_v1 : Ref sig .tc := ⟨.hbm, 54, rfl⟩
abbrev main_call2_cst_0 : Ref sig .tc := ⟨.hbm, 55, rfl⟩
abbrev main_call2_v2 : Ref sig .tc := ⟨.hbm, 56, rfl⟩
abbrev main_call2_v3 : Ref sig .tc := ⟨.hbm, 57, rfl⟩
abbrev main_call2_cst_1 : Ref sig .tc := ⟨.hbm, 58, rfl⟩
abbrev main_call2_call1_v0 : Ref sig .tc := ⟨.hbm, 59, rfl⟩
abbrev main_call2_v4 : Ref sig .tc := ⟨.hbm, 60, rfl⟩
abbrev main_call2_cst_2 : Ref sig .tc := ⟨.hbm, 61, rfl⟩
abbrev main_call2_v5 : Ref sig .tc := ⟨.hbm, 62, rfl⟩
abbrev main_call2_v6 : Ref sig .tc := ⟨.hbm, 63, rfl⟩
abbrev main_call2_cst_3 : Ref sig .tc := ⟨.hbm, 64, rfl⟩
abbrev main_call2_call2_v0 : Ref sig .tc := ⟨.hbm, 65, rfl⟩
abbrev main_v17 : Ref sig .tc := ⟨.hbm, 66, rfl⟩
abbrev main_cst_1 : Ref sig .tc := ⟨.hbm, 67, rfl⟩
abbrev main_v18 : Ref sig .tc := ⟨.hbm, 68, rfl⟩
abbrev main_cst_2 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_cst_3 : Ref sig .tc := ⟨.hbm, 73, rfl⟩
abbrev main_v22 : Ref sig .tc := ⟨.hbm, 74, rfl⟩
abbrev main_v23 : Ref sig .tc := ⟨.hbm, 75, rfl⟩
abbrev main_cst_4 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_c_5 : Ref sig .tc := ⟨.hbm, 83, rfl⟩
abbrev main_v30 : Ref sig .tc := ⟨.hbm, 84, rfl⟩
abbrev main_v31 : Ref sig .tc := ⟨.hbm, 85, rfl⟩
abbrev main_c_6 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_cst_7 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_c_8 : Ref sig .tc := ⟨.hbm, 100, rfl⟩
abbrev main_v44 : Ref sig .tc := ⟨.hbm, 101, rfl⟩
abbrev main_v45 : Ref sig .tc := ⟨.hbm, 102, rfl⟩
abbrev main_c_9 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_cst_10 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_call3_cst : Ref sig .tc := ⟨.hbm, 120, rfl⟩
abbrev main_call3_v0 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_c_11 : Ref sig .tc := ⟨.hbm, 125, rfl⟩
abbrev main_v64 : Ref sig .tc := ⟨.hbm, 126, rfl⟩
abbrev main_v65 : Ref sig .tc := ⟨.hbm, 127, rfl⟩
abbrev main_c_12 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_cst_13 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_c_14 : Ref sig .tc := ⟨.hbm, 142, rfl⟩
abbrev main_v78 : Ref sig .tc := ⟨.hbm, 143, rfl⟩
abbrev main_v79 : Ref sig .tc := ⟨.hbm, 144, rfl⟩
abbrev main_c_15 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_cst_16 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_call4_cst : Ref sig .tc := ⟨.hbm, 162, rfl⟩
abbrev main_call4_v0 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_c_17 : Ref sig .tc := ⟨.hbm, 167, rfl⟩
abbrev main_v98 : Ref sig .tc := ⟨.hbm, 168, rfl⟩
abbrev main_v99 : Ref sig .tc := ⟨.hbm, 169, rfl⟩
abbrev main_c_18 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_cst_19 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_c_20 : Ref sig .tc := ⟨.hbm, 184, rfl⟩
abbrev main_v112 : Ref sig .tc := ⟨.hbm, 185, rfl⟩
abbrev main_v113 : Ref sig .tc := ⟨.hbm, 186, rfl⟩
abbrev main_c_21 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_cst_22 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_call5_cst : Ref sig .tc := ⟨.hbm, 204, rfl⟩
abbrev main_call5_v0 : Ref sig .tc := ⟨.hbm, 205, rfl⟩
abbrev main_v129 : Ref sig .tc := ⟨.hbm, 206, rfl⟩
abbrev main_cst_23 : Ref sig .tc := ⟨.hbm, 207, rfl⟩
abbrev main_v130 : Ref sig .tc := ⟨.hbm, 208, rfl⟩
abbrev main_v131 : Ref sig .tc := ⟨.hbm, 209, rfl⟩
abbrev main_cst_24 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩

abbrev nD : Nat := 1
abbrev τ : Topo := Topo.v7x

variable {F : FTy → Type} [FloatOps F]

class Facts₀ : Prop where
  bcast_S_S100000x32 : S_.BroadcastsInDim S100000x32 (![] : Fin 0 → Fin S100000x32.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x32_S1600000x32_S1600000x64_d1 : Shape.Concatenates [S1600000x32, S1600000x32] S1600000x64 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  concatenates_S100000x32_S100000x64_S100000x96_d1 : Shape.Concatenates [S100000x32, S100000x64] S100000x96 1
  bcast_S100000x1_S100000x96_0_1 : S100000x1.BroadcastsInDim S100000x96 (![0, 1] : Fin 2 → Fin S100000x96.rank)
  bcast_S_S100000x96 : S_.BroadcastsInDim S100000x96 (![] : Fin 0 → Fin S100000x96.rank)
  concatenates_S100000x96_S100000x96_S100000x96_S100000x288_d1 : Shape.Concatenates [S100000x96, S100000x96, S100000x96] S100000x288 1
  bcast_S1x64_S100000x64_0_1 : S1x64.BroadcastsInDim S100000x64 (![0, 1] : Fin 2 → Fin S100000x64.rank)
  bcast_S100000x1_S100000x64_0_1 : S100000x1.BroadcastsInDim S100000x64 (![0, 1] : Fin 2 → Fin S100000x64.rank)
  concatenates_S100000x64_S100000x64_S100000x64_S100000x192_d1 : Shape.Concatenates [S100000x64, S100000x64, S100000x64] S100000x192 1
  reducesTo_S100000x64_S64_d0 : S100000x64.ReducesTo [0] S64
  h_S_ : 0 < S_.numel
  bcast_S_S1x64 : S_.BroadcastsInDim S1x64 (![] : Fin 0 → Fin S1x64.rank)
  bcast_S1_S1x1_1 : S1.BroadcastsInDim S1x1 (![1] : Fin 1 → Fin S1x1.rank)
  gather_S100000x32_S1600000x1_S1600000x32_1_0_n_n_0_1_132_wf : GatherDims.WF S100000x32 S1600000x1 S1600000x32 [1] [0] [] [0] [] 1 ![1, 32]
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  gather_S100000x96_S1600000x1_S1600000x96_1_0_n_n_0_1_196_wf : GatherDims.WF S100000x96 S1600000x1 S1600000x96 [1] [0] [] [0] [] 1 ![1, 96]
  scatter_S100000x96_S1600000x1_S1600000x96_1_0_0_1_wf : ScatterDims.WF S100000x96 S1600000x1 S1600000x96 [1] [0] [0] 1
  dot_S100000x288_S288x64_S100000x64_1_0_0_1_n_n_wf : DotDims.WF S100000x288 S288x64 S100000x64 [1] [0] [0] [1] [] []
  gather_S100000x64_S1600000x1_S1600000x64_1_0_n_n_0_1_164_wf : GatherDims.WF S100000x64 S1600000x1 S1600000x64 [1] [0] [] [0] [] 1 ![1, 64]
  dot_S100000x192_S192x64_S100000x64_1_0_0_1_n_n_wf : DotDims.WF S100000x192 S192x64 S100000x64 [1] [0] [0] [1] [] []
  dot_S1x64_S64x1_S1x1_1_0_0_1_n_n_wf : DotDims.WF S1x64 S64x1 S1x1 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x96_S1600000x1_S1600000x96_1_0_n_n_0_1_196 : GatherDims S100000x96 S1600000x1 S1600000x96 where
  offsetDims := [1]
  collapsedSliceDims := [0]
  operandBatchingDims := []
  startIndicesBatchingDims := []
  startIndexMap := [0]
  indexVectorDim := 1
  sliceSizes := ![1, 96]
  wf := gather_S100000x96_S1600000x1_S1600000x96_1_0_n_n_0_1_196_wf
def scatter_S100000x96_S1600000x1_S1600000x96_1_0_0_1 : ScatterDims S100000x96 S1600000x1 S1600000x96 where
  updateWindowDims := [1]
  insertedWindowDims := [0]
  scatterDimsToOperandDims := [0]
  indexVectorDim := 1
  wf := scatter_S100000x96_S1600000x1_S1600000x96_1_0_0_1_wf
def dot_S100000x288_S288x64_S100000x64_1_0_0_1_n_n : DotDims S100000x288 S288x64 S100000x64 where
  lhsContracting := [1]
  rhsContracting := [0]
  lhsNonContracting := [0]
  rhsNonContracting := [1]
  lhsBatch := []
  rhsBatch := []
  wf := dot_S100000x288_S288x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

class Facts : Prop extends Facts₀ where

variable [Facts]
-- ==== Proof.Kernel.Dense0.lean ====
import proofs.«163259_j24927990186434_1_alg».proof.Proof.Gen.Kernel.Launch
import proofs.«163259_j24927990186434_1_alg».proof.Proof.Gen.Kernel.Skeleton
import proofs.«163259_j24927990186434_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel region 0: a row tile of a dense layer

Grid point `t` of this region holds rows `16000·t … 16000·t + 15999` of the `[·, 64]` operand, the whole
`[64, 64]` weight matrix and the `[1, 64]` bias row, and overwrites the same rows of the `[·, 64]` result with
`max (x · w + b, 0)`. The weight and bias blocks never move, so they are fetched once and stay in place; the
operand and result blocks move with the point. This file states what the body leaves in its four staging
buffers and proves the per-point obligation of the pipeline from it: the body reads its three inputs, writes the
result buffer whole, and touches nothing else.
-/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the point fetched it or an earlier
    one did and the block has not moved since. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the point fetched it or an earlier
    one did and the block has not moved since. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the point fetched it or an earlier
    one did and the block has not moved since. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole of each staging buffer, as the rectangle the body loads or stores. -/
abbrev rX0 : Rect S16000x64 := Rect.unit (s := S16000x64) ![0, 0] S16000x64.size inb_S16000x64_S16000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0
abbrev rO0 : Rect S16000x64 := Rect.unit (s := S16000x64) ![0, 0] S16000x64.size inb_S16000x64_S16000x64_0_0

/-- The result buffer after the body: one store of `max (x · w + b, 0)` over the whole buffer. -/
def out0_3 (x0 : Vec F S16000x64 .f32) (x1 : Vec F S64x64 .f32) (x2 : Vec F S1x64 .f32) : Vec F S16000x64 .f32 :=
  View.canon [⟨rO0, k0_pay1 (View.ld x0 rX0) (View.ld x1 rW0) (View.ld x2 rB0)⟩]

/-- That one store covers the buffer. -/
theorem cover0_3 (p0 : Vec F S16000x64 .f32) (y : S16000x64.Idx) :
    ∃ pc ∈ ([⟨rO0, p0⟩] : List (View.Piece (Elt F) S16000x64 .f32)), y ∈ pc.1.set :=
  View.cover_of_tiled [⟨rO0, p0⟩] S16000x64.size (by rfl) y

set_option maxHeartbeats 1000000 in
/-- The body on whole staging memrefs — the three inputs at known contents, the result at anything — runs to its
    continuation with the inputs unchanged and the result at `out0_3` of them. -/
theorem sound_kernel0 (c : Dev nD) (E : Set ℕ) (i : grid0.Coords) (arg1 : Memref sig .tc .vmem S16000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S16000x64 .f32) (harg4 : arg4.IsWhole)
    (x0 : Vec F S16000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__dense_relu_kernel i arg1 harg1 arg2 harg2 arg3 harg3 arg4 harg4) K := by
  simp only [cc0__dense_relu_kernel_eq_skeleton]; unfold cc0__dense_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each
    input buffer still at its block and the result buffer at `out0_3` of the three input blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.Kernel.Dense1.lean ====
import proofs.«163259_j24927990186434_1_alg».proof.Proof.Gen.Kernel.Launch
import proofs.«163259_j24927990186434_1_alg».proof.Proof.Gen.Kernel.Skeleton
import proofs.«163259_j24927990186434_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel region 1: a row tile of a dense layer

Grid point `t` of this region holds rows `10000·t … 10000·t + 9999` of the `[·, 288]` operand, the whole
`[288, 64]` weight matrix and the `[1, 64]` bias row, and overwrites the same rows of the `[·, 64]` result with
`max (x · w + b, 0)`. The weight and bias blocks never move, so they are fetched once and stay in place; the
operand and result blocks move with the point. This file states what the body leaves in its four staging
buffers and proves the per-point obligation of the pipeline from it: the body reads its three inputs, writes the
result buffer whole, and touches nothing else.
-/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the point fetched it or an earlier
    one did and the block has not moved since. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the point fetched it or an earlier
    one did and the block has not moved since. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the point fetched it or an earlier
    one did and the block has not moved since. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole of each staging buffer, as the rectangle the body loads or stores. -/
abbrev rX1 : Rect S10000x288 := Rect.unit (s := S10000x288) ![0, 0] S10000x288.size inb_S10000x288_S10000x288_0_0
abbrev rW1 : Rect S288x64 := Rect.unit (s := S288x64) ![0, 0] S288x64.size inb_S288x64_S288x64_0_0
abbrev rB1 : Rect S1x64 := Rect.unit (s := S1x64) ![0, 0] S1x64.size inb_S1x64_S1x64_0_0
abbrev rO1 : Rect S10000x64 := Rect.unit (s := S10000x64) ![0, 0] S10000x64.size inb_S10000x64_S10000x64_0_0

/-- The result buffer after the body: one store of `max (x · w + b, 0)` over the whole buffer. -/
def out1_3 (x0 : Vec F S10000x288 .f32) (x1 : Vec F S288x64 .f32) (x2 : Vec F S1x64 .f32) : Vec F S10000x64 .f32 :=
  View.canon [⟨rO1, k1_pay1 (View.ld x0 rX1) (View.ld x1 rW1) (View.ld x2 rB1)⟩]

/-- That one store covers the buffer. -/
theorem cover1_3 (p0 : Vec F S10000x64 .f32) (y : S10000x64.Idx) :
    ∃ pc ∈ ([⟨rO1, p0⟩] : List (View.Piece (Elt F) S10000x64 .f32)), y ∈ pc.1.set :=
  View.cover_of_tiled [⟨rO1, p0⟩] S10000x64.size (by rfl) y

set_option maxHeartbeats 1000000 in
/-- The body on whole staging memrefs — the three inputs at known contents, the result at anything — runs to its
    continuation with the inputs unchanged and the result at `out1_3` of them. -/
theorem sound_kernel1 (c : Dev nD) (E : Set ℕ) (i : grid1.Coords) (arg1 : Memref sig .tc .vmem S10000x288 .f32) (harg1 : arg1.IsWhole) (arg2 : Memref sig .tc .vmem S288x64 .f32) (harg2 : arg2.IsWhole)
    (arg3 : Memref sig .tc .vmem S1x64 .f32) (harg3 : arg3.IsWhole) (arg4 : Memref sig .tc .vmem S10000x64 .f32) (harg4 : arg4.IsWhole)
    (x0 : Vec F S10000x288 .f32) (x1 : Vec F S288x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__dense_relu_kernel i arg1 harg1 arg2 harg2 arg3 harg3 arg4 harg4) K := by
  simp only [cc1__dense_relu_kernel_eq_skeleton]; unfold cc1__dense_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each
    input buffer still at its block and the result buffer at `out1_3` of the three input blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Reg

end
-- ==== Proof.Kernel.Dense2.lean ====
import proofs.«163259_j24927990186434_1_alg».proof.Proof.Gen.Kernel.Launch
import proofs.«163259_j24927990186434_1_alg».proof.Proof.Gen.Kernel.Skeleton
import proofs.«163259_j24927990186434_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel region 2: a row tile of a dense layer

Grid point `t` of this region holds rows `10000·t … 10000·t + 9999` of the `[·, 192]` operand, the whole
`[192, 64]` weight matrix and the `[1, 64]` bias row, and overwrites the same rows of the `[·, 64]` result with
`max (x · w + b, 0)`. The weight and bias blocks never move, so they are fetched once and stay in place; the
operand and result blocks move with the point. This file states what the body leaves in its four staging
buffers and proves the per-point obligation of the pipeline from it: the body reads its three inputs, writes the
result buffer whole, and touches nothing else.
-/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, cut out of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the point fetched it or an earlier
    one did and the block has not moved since. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether the point fetched it or an earlier
    one did and the block has not moved since. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether the point fetched it or an earlier
    one did and the block has not moved since. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole of each staging buffer, as the rectangle the body loads or stores. -/
abbrev rX2 : Rect S10000x192 := Rect.unit (s := S10000x192) ![0, 0] S10000x192.size inb_S10000x192_S10000x192_0_0
abbrev rW2 : Rect S192x64 := Rect.unit (s := S192x64) ![0, 0] S192x64.size inb_S192x64_S192x64_0_0
abbrev rB2 : Rect S1x64 := Rect.unit (s := S1x64) ![0, 0] S1x64.size inb_S1x64_S1x64_0_0
abbrev rO2 : Rect S10000x64 := Rect.unit (s := S10000x64) ![0, 0] S10000x64.size inb_S10000x64_S10000x64_0_0

/-- The result buffer after the body: one store of `max (x · w + b, 0)` over the whole buffer. -/
def out2_3 (x0 : Vec F S10000x192 .f32) (x1 : Vec F S192x64 .f32) (x2 : Vec F S1x64 .f32) : Vec F S10000x64 .f32 :=
  View.canon [⟨rO2, k2_pay1 (View.ld x0 rX2) (View.ld x1 rW2) (View.ld x2 rB2)⟩]

/-- That one store covers the buffer. -/
theorem cover2_3 (p0 : Vec F S10000x64 .f32) (y : S10000x64.Idx) :
    ∃ pc ∈ ([⟨rO2, p0⟩] : List (View.Piece (Elt F) S10000x64 .f32)), y ∈ pc.1.set :=
  View.cover_of_tiled [⟨rO2, p0⟩] S10000x64.size (by rfl) y

set_option maxHeartbeats 1000000 in
/-- The body on whole staging memrefs — the three inputs at known contents, the result at anything — runs to its
    continuation with the inputs unchanged and the result at `out2_3` of them. -/
theorem sound_kernel2 (c : Dev nD) (E : Set ℕ) (i : grid2.Coords) (arg1 : Memref sig .tc .vmem S10000x192 .f32) (harg1 : arg1.IsWhole) (arg2 : Memref sig .tc .vmem S192x64 .f32) (harg2 : arg2.IsWhole)
    (arg3 : Memref sig .tc .vmem S1x64 .f32) (harg3 : arg3.IsWhole) (arg4 : Memref sig .tc .vmem S10000x64 .f32) (harg4 : arg4.IsWhole)
    (x0 : Vec F S10000x192 .f32) (x1 : Vec F S192x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__dense_relu_kernel i arg1 harg1 arg2 harg2 arg3 harg3 arg4 harg4) K := by
  simp only [cc2__dense_relu_kernel_eq_skeleton]; unfold cc2__dense_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the region finds them; after the body at point `t` each
    input buffer still at its block and the result buffer at `out2_3` of the three input blocks; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so `sound_kernel2` applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Reg

end
-- ==== Proof.Kernel.Dense3.lean ====
import proofs.«163259_j24927990186434_1_alg».proof.Proof.Gen.Kernel.Launch
import proofs.«163259_j24927990186434_1_alg».proof.Proof.Gen.Kernel.Skeleton
import proofs.«163259_j24927990186434_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel region 3: a row tile of a dense layer

Grid point `t` of this region holds rows `10000·t … 10000·t + 9999` of the `[·, 192]` operand, the whole
`[192, 64]` weight matrix and the `[1, 64]` bias row, and overwrites the same rows of the `[·, 64]` result with
`max (x · w + b, 0)`. The weight and bias blocks never move, so they are fetched once and stay in place; the
operand and result blocks move with the point. This file states what the body leaves in its four staging
buffers and proves the per-point obligation of the pipeline from it: the body reads its three inputs, writes the
result buffer whole, and touches nothing else.
-/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, cut out of its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether the point fetched it or an earlier
    one did and the block has not moved since. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether the point fetched it or an earlier
    one did and the block has not moved since. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether the point fetched it or an earlier
    one did and the block has not moved since. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole of each staging buffer, as the rectangle the body loads or stores. -/
abbrev rX3 : Rect S10000x192 := Rect.unit (s := S10000x192) ![0, 0] S10000x192.size inb_S10000x192_S10000x192_0_0
abbrev rW3 : Rect S192x64 := Rect.unit (s := S192x64) ![0, 0] S192x64.size inb_S192x64_S192x64_0_0
abbrev rB3 : Rect S1x64 := Rect.unit (s := S1x64) ![0, 0] S1x64.size inb_S1x64_S1x64_0_0
abbrev rO3 : Rect S10000x64 := Rect.unit (s := S10000x64) ![0, 0] S10000x64.size inb_S10000x64_S10000x64_0_0

/-- The result buffer after the body: one store of `max (x · w + b, 0)` over the whole buffer. -/
def out3_3 (x0 : Vec F S10000x192 .f32) (x1 : Vec F S192x64 .f32) (x2 : Vec F S1x64 .f32) : Vec F S10000x64 .f32 :=
  View.canon [⟨rO3, k3_pay1 (View.ld x0 rX3) (View.ld x1 rW3) (View.ld x2 rB3)⟩]

/-- That one store covers the buffer. -/
theorem cover3_3 (p0 : Vec F S10000x64 .f32) (y : S10000x64.Idx) :
    ∃ pc ∈ ([⟨rO3, p0⟩] : List (View.Piece (Elt F) S10000x64 .f32)), y ∈ pc.1.set :=
  View.cover_of_tiled [⟨rO3, p0⟩] S10000x64.size (by rfl) y

set_option maxHeartbeats 1000000 in
/-- The body on whole staging memrefs — the three inputs at known contents, the result at anything — runs to its
    continuation with the inputs unchanged and the result at `out3_3` of them. -/
theorem sound_kernel3 (c : Dev nD) (E : Set ℕ) (i : grid3.Coords) (arg1 : Memref sig .tc .vmem S10000x192 .f32) (harg1 : arg1.IsWhole) (arg2 : Memref sig .tc .vmem S192x64 .f32) (harg2 : arg2.IsWhole)
    (arg3 : Memref sig .tc .vmem S1x64 .f32) (harg3 : arg3.IsWhole) (arg4 : Memref sig .tc .vmem S10000x64 .f32) (harg4 : arg4.IsWhole)
    (x0 : Vec F S10000x192 .f32) (x1 : Vec F S192x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__dense_relu_kernel i arg1 harg1 arg2 harg2 arg3 harg3 arg4 harg4) K := by
  simp only [cc3__dense_relu_kernel_eq_skeleton]; unfold cc3__dense_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The pipeline's proof data on core `c`: the arrays as the region finds them; after the body at point `t` each
    input buffer still at its block and the result buffer at `out3_3` of the three input blocks; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the input buffers hold their blocks, so `sound_kernel3` applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Reg

end
-- ==== Proof.Kernel.Sum4.lean ====
import proofs.«163259_j24927990186434_1_alg».proof.Proof.Gen.Kernel.Launch
import proofs.«163259_j24927990186434_1_alg».proof.Proof.Gen.Kernel.Skeleton
import proofs.«163259_j24927990186434_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel region 4: column sums accumulated over ten row tiles

Grid point `t` holds rows `10000·t … 10000·t + 9999` of the `[100000, 64]` operand; the `[1, 64]` result block
is the same at every point, stays in its staging buffer from one point to the next and is written back once, after
the last point. The body first clears the result (at point 0 only), then adds the tile's column sums to it. So the
result buffer after point `t` is a recursion on `t`: at point 0 what the two stores leave over anything, at a later
point what the one store leaves over the contents the point before left. This file states that recursion and proves
the pipeline's per-point obligation from it.
-/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, cut out of its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The operand's staging buffer holds its row tile at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The body's one branch condition, "this is point 0", from the grid coordinate. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val % 10 = 0 :=
  (by decide +kernel : ∀ t : Fin grid4.N, cond4_0 (grid4.coords t) ↔ t.val % 10 = 0)

/-- The result's one staging buffer, through which its contents are stated. -/
abbrev VO4_1 : View sig .tc .vmem S1x64 .f32 := (Memref.whole cc4_stg1_0 : Memref sig .tc .vmem S1x64 .f32).view
/-- Each window's staging memref at point `t`, as the pipeline passes it to the body. -/
abbrev ms4_0 (t : Fin cfg4.N) : Memref sig .tc .vmem S10000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x64 .f32 := win4_1.stage (cfg4.slots t 1)
abbrev hs4_1 (t : Fin cfg4.N) : (ms4_1 t).IsWhole := hstage4_1 ((cfg4.slots t 1).cast nbuf4_1)

set_option maxHeartbeats 1000000 in
/-- AT POINT 0 (the branch taken): the stores the body makes into the result buffer, last first, with the proof
    that from the operand tile at `x0` and the result at anything the body runs to its continuation with the operand
    unchanged and those stores made. -/
noncomputable def kernelRun4_A (c : Dev nD) (i : grid4.Coords) (arg1 : Memref sig .tc .vmem S10000x64 .f32) (harg1 : arg1.IsWhole) (arg2 : Memref sig .tc .vmem S1x64 .f32) (harg2 : arg2.IsWhole) (hc0 : cond4_0 i)
    (x0 : Vec F S10000x64 .f32) :
    { L1 : List (View.Piece (Elt F) S1x64 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc4__sum_rows_kernel i arg1 harg1 arg2 harg2) K } := by
  refine ⟨?_, fun E K => ?run⟩
  case run =>
    simp only [cc4__sum_rows_kernel_eq_skeleton]; unfold cc4__sum_rows_kernel_skel
    unfold owns
    iintro ⟨⟨%f0, %hf0, H0⟩, ⟨%d1, %f1, -, H1⟩, Hk⟩
    obtain rfl := harg1.eq_unread hf0
    sl_exec (disch := first | exact hc0)
    sl_step
    iapply Hk
    isplitl [H0]
    · iexists _; isplitr; · ipureintro; exact harg1.read_unread _
      iexact H0
    iexists _; iexact H1

set_option maxHeartbeats 1000000 in
/-- AT A LATER POINT (the branch not taken): the same, from the result buffer at its running contents `xo1`. -/
noncomputable def kernelRun4_B (c : Dev nD) (i : grid4.Coords) (arg1 : Memref sig .tc .vmem S10000x64 .f32) (harg1 : arg1.IsWhole) (arg2 : Memref sig .tc .vmem S1x64 .f32) (harg2 : arg2.IsWhole) (hc0 : ¬cond4_0 i)
    (x0 : Vec F S10000x64 .f32) (xo1 : Vec F S1x64 .f32) :
    { L1 : List (View.Piece (Elt F) S1x64 .f32) //
      ∀ (E : Set ℕ) (K : PUnit → sProp 𝕄),
        iprop(owns (c : Thread nD τ) arg1 fullShare x0 ∗ owns (c : Thread nD τ) arg2 fullShare xo1
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc4__sum_rows_kernel i arg1 harg1 arg2 harg2) K } := by
  refine ⟨?_, fun E K => ?run⟩
  case run =>
    simp only [cc4__sum_rows_kernel_eq_skeleton]; unfold cc4__sum_rows_kernel_skel
    unfold owns
    iintro ⟨⟨%f0, %hf0, H0⟩, ⟨%f1, %hf1, H1⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    iexists _; iexact H1

/-- The stores of point 0 cover the result buffer. -/
theorem cover4_A_1 (c : Dev nD) (i : grid4.Coords) (arg1 : Memref sig .tc .vmem S10000x64 .f32) (harg1 : arg1.IsWhole) (arg2 : Memref sig .tc .vmem S1x64 .f32) (harg2 : arg2.IsWhole) (hc0 : cond4_0 i)
    (x0 : Vec F S10000x64 .f32) (y : S1x64.Idx) :
    ∃ pc ∈ (kernelRun4_A c i arg1 harg1 arg2 harg2 hc0 x0).1, y ∈ pc.1.set :=
  View.cover_of_tiledL (kernelRun4_A c i arg1 harg1 arg2 harg2 hc0 x0).1 S1x64.size (by sl_kernel_rfl) y

/-- What point 0 leaves in the result buffer. -/
def out4_A_1 (c : Dev nD) (i : grid4.Coords) (arg1 : Memref sig .tc .vmem S10000x64 .f32) (harg1 : arg1.IsWhole) (arg2 : Memref sig .tc .vmem S1x64 .f32) (harg2 : arg2.IsWhole) (hc0 : cond4_0 i)
    (x0 : Vec F S10000x64 .f32) : Vec F S1x64 .f32 :=
  VO4_1.read (Elt F) (VO4_1.writes (Elt F) VO4_1.junk (kernelRun4_A c i arg1 harg1 arg2 harg2 hc0 x0).1)

/-- The store of a later point covers the result buffer. -/
theorem cover4_B_1 (c : Dev nD) (i : grid4.Coords) (arg1 : Memref sig .tc .vmem S10000x64 .f32) (harg1 : arg1.IsWhole) (arg2 : Memref sig .tc .vmem S1x64 .f32) (harg2 : arg2.IsWhole) (hc0 : ¬cond4_0 i)
    (x0 : Vec F S10000x64 .f32) (xo1 : Vec F S1x64 .f32) (y : S1x64.Idx) :
    ∃ pc ∈ (kernelRun4_B c i arg1 harg1 arg2 harg2 hc0 x0 xo1).1, y ∈ pc.1.set :=
  View.cover_of_tiledL (kernelRun4_B c i arg1 harg1 arg2 harg2 hc0 x0 xo1).1 S1x64.size (by sl_kernel_rfl) y

/-- What a later point leaves in the result buffer, from what it found there. -/
def out4_B_1 (c : Dev nD) (i : grid4.Coords) (arg1 : Memref sig .tc .vmem S10000x64 .f32) (harg1 : arg1.IsWhole) (arg2 : Memref sig .tc .vmem S1x64 .f32) (harg2 : arg2.IsWhole) (hc0 : ¬cond4_0 i)
    (x0 : Vec F S10000x64 .f32) (xo1 : Vec F S1x64 .f32) : Vec F S1x64 .f32 :=
  VO4_1.read (Elt F) (VO4_1.writes (Elt F) VO4_1.junk (kernelRun4_B c i arg1 harg1 arg2 harg2 hc0 x0 xo1).1)

/-- THE ACCUMULATION: the result buffer after the body at position `n`. -/
def outsAt4 (c : Dev nD) : (n : ℕ) → n < cfg4.N → Vec F S1x64 .f32
  | 0, hn => out4_A_1 c (grid4.coords ⟨0, hn⟩) (ms4_0 ⟨0, hn⟩) (hs4_0 ⟨0, hn⟩) (ms4_1 ⟨0, hn⟩) (hs4_1 ⟨0, hn⟩) ((hcond4_0 ⟨0, hn⟩).mpr (Nat.zero_mod _)) (iblk4 V c 0 ⟨0, hn⟩)
  | n + 1, hn =>
    if h0 : (n + 1) % 10 = 0 then
      out4_A_1 c (grid4.coords ⟨n + 1, hn⟩) (ms4_0 ⟨n + 1, hn⟩) (hs4_0 ⟨n + 1, hn⟩) (ms4_1 ⟨n + 1, hn⟩) (hs4_1 ⟨n + 1, hn⟩) ((hcond4_0 ⟨n + 1, hn⟩).mpr h0) (iblk4 V c 0 ⟨n + 1, hn⟩)
    else
      out4_B_1 c (grid4.coords ⟨n + 1, hn⟩) (ms4_0 ⟨n + 1, hn⟩) (hs4_0 ⟨n + 1, hn⟩) (ms4_1 ⟨n + 1, hn⟩) (hs4_1 ⟨n + 1, hn⟩) (fun h => h0 ((hcond4_0 ⟨n + 1, hn⟩).mp h)) (iblk4 V c 0 ⟨n + 1, hn⟩) (outsAt4 c n (Nat.lt_of_succ_lt hn))

theorem outsAt4_A (c : Dev nD) (t : Fin cfg4.N) (h0 : t.val % 10 = 0) :
    outsAt4 V c t.val t.isLt = out4_A_1 c (grid4.coords t) (ms4_0 t) (hs4_0 t) (ms4_1 t) (hs4_1 t) ((hcond4_0 t).mpr h0) (iblk4 V c 0 t) := by
  obtain ⟨n, hn⟩ := t
  cases n with
  | zero => exact rfl
  | succ n => exact (dif_pos h0).trans rfl

theorem outsAt4_B (c : Dev nD) (t : Fin cfg4.N) (h0 : ¬t.val % 10 = 0) :
    outsAt4 V c t.val t.isLt = out4_B_1 c (grid4.coords t) (ms4_0 t) (hs4_0 t) (ms4_1 t) (hs4_1 t) (fun h => h0 ((hcond4_0 t).mp h)) (iblk4 V c 0 t) (outsAt4 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body at point `t` the
    operand buffer still at its tile and the result buffer at the accumulation; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => (outsAt4 V c t.val t.isLt)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = (outsAt4 V c t.val t.isLt) := by dsimp only [dat4]

theorem before4_0 (c : Dev nD) (t : Fin cfg4.N) (d) : (dat4 V c).before 0 t d = iblk4 V c 0 t :=
  before4_0_of V (dat4 V c) (A_eq4 V c 0) (after4_0 V c) t d
/-- At a later point the result buffer holds what the body left at the point before: it is not written back in
    between. -/
theorem before4_1_B (c : Dev nD) (t : Fin cfg4.N) (h0 : ¬t.val % 10 = 0) (d) :
    (dat4 V c).before 1 t d = (outsAt4 V c (t.val - 1) (Nat.lt_of_le_of_lt (Nat.sub_le _ _) t.isLt)) := by
  have hN : t.val < 10 := lt_of_lt_of_eq t.isLt (show cfg4.N = 10 from N_4)
  rw [Dat.before_out_kept _ 1 rfl t (by omega) (Bool.eq_false_iff.mpr fun h => by have := (flush4_1 _).mp h; dsimp only at this; omega)
    (fun _ => rfl) (fun _ _ => rfl)]
  dsimp only [dat4]

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d)))

def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t))

set_option maxHeartbeats 800000 in
/-- The body at any point: the operand buffer holds its tile; at point 0 the first run applies, at a later point
    the second, over what the point before left in the result buffer. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = (dat4 V c).Φ t.castSucc from rfl,
    show (dat4 V c).owesAt () t.succ = (dat4 V c).owesAt () t.castSucc from rfl,
    after4_0, after4_1]
  have hN : t.val < 10 := lt_of_lt_of_eq t.isLt (show cfg4.N = 10 from N_4)
  by_cases h0 : t.val % 10 = 0
  · rw [outsAt4_A V c t h0]
    unfold out4_A_1
    iintro ⟨HΦ, Ho, ⟨%d0, H0⟩, ⟨%d1, H1⟩⟩
    iapply ((kernelRun4_A c (grid4.coords t) _ _ _ _ ((hcond4_0 t).mpr h0) (iblk4 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover4_A_1 c _ _ _ _ _ _ _)
  · rw [outsAt4_B V c t h0]
    simp only [before4_1_B V c t h0]
    unfold out4_B_1
    iintro ⟨HΦ, Ho, ⟨%d0, H0⟩, ⟨%d1, H1⟩⟩
    iapply ((kernelRun4_B c (grid4.coords t) _ _ _ _ (fun h => h0 ((hcond4_0 t).mp h)) (iblk4 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover4_B_1 c _ _ _ _ _ _ _ _)

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Reg

end
-- ==== Proof.Kernel.Segs.lean ====
import proofs.«163259_j24927990186434_1_alg».proof.Proof.Gen.Kernel.Regions
import proofs.«163259_j24927990186434_1_alg».proof.Proof.Kernel.Dense0
import proofs.«163259_j24927990186434_1_alg».proof.Proof.Kernel.Dense1
import proofs.«163259_j24927990186434_1_alg».proof.Proof.Kernel.Dense2
import proofs.«163259_j24927990186434_1_alg».proof.Proof.Kernel.Dense3
import proofs.«163259_j24927990186434_1_alg».proof.Proof.Kernel.Sum4

/-!
# The five kernel regions as segments of @main

@main is thirteen items: eight stretches of host operations and five kernel regions. Between two items a core holds
every unscoped buffer whole. This file names the contents at each boundary — the launch memory, then each host
stretch applied, then, after a region, the region's result array replaced by what its write-backs leave — and states
each region as a segment from the boundary before it to the boundary after it.
-/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A core's buffer contents read at the TensorCore's references. -/
abbrev atTc (W : Dev nD → Valuation τ sig (Elt F)) : (c : Dev nD) → (b : Ref sig .tc) → Buf (Elt F) ((c : Thread nD τ).loc b) :=
  fun c b => W c b

/-! ## The contents at each boundary -/

/-- Before region 0: the launch memory after the first two host stretches. -/
abbrev U2 : Dev nD → Valuation τ sig (Elt F) := fun c => V2 m c
/-- What region 0 leaves in its result array. -/
def o3 (c : Dev nD) : Buf (Elt F) ((c : Thread nD τ).loc main_v10) := (dat0 (atTc (U2 m)) c).arrAt 3 cfg0.N
abbrev U3 : Dev nD → Valuation τ sig (Elt F) := fun c => Function.update (U2 m c) (Proc.devRef .tc main_v10) (o3 m c)
abbrev U4 : Dev nD → Valuation τ sig (Elt F) := fun c => StableHlo.after hostOps1 (U3 m c)
abbrev U5 : Dev nD → Valuation τ sig (Elt F) := fun c => StableHlo.after hostOps1_1 (U4 m c)
abbrev U6 : Dev nD → Valuation τ sig (Elt F) := fun c => StableHlo.after hostOps1_2 (U5 m c)
/-- What region 1 leaves in its result array. -/
def o7 (c : Dev nD) : Buf (Elt F) ((c : Thread nD τ).loc main_v55) := (dat1 (atTc (U6 m)) c).arrAt 3 cfg1.N
abbrev U7 : Dev nD → Valuation τ sig (Elt F) := fun c => Function.update (U6 m c) (Proc.devRef .tc main_v55) (o7 m c)
abbrev U8 : Dev nD → Valuation τ sig (Elt F) := fun c => StableHlo.after hostOps2 (U7 m c)
/-- What region 2 leaves in its result array. -/
def o9 (c : Dev nD) : Buf (Elt F) ((c : Thread nD τ).loc main_v86) := (dat2 (atTc (U8 m)) c).arrAt 3 cfg2.N
abbrev U9 : Dev nD → Valuation τ sig (Elt F) := fun c => Function.update (U8 m c) (Proc.devRef .tc main_v86) (o9 m c)
abbrev U10 : Dev nD → Valuation τ sig (Elt F) := fun c => StableHlo.after hostOps3 (U9 m c)
/-- What region 3 leaves in its result array. -/
def o11 (c : Dev nD) : Buf (Elt F) ((c : Thread nD τ).loc main_v117) := (dat3 (atTc (U10 m)) c).arrAt 3 cfg3.N
abbrev U11 : Dev nD → Valuation τ sig (Elt F) := fun c => Function.update (U10 m c) (Proc.devRef .tc main_v117) (o11 m c)
/-- What region 4 leaves in its result array. -/
def o12 (c : Dev nD) : Buf (Elt F) ((c : Thread nD τ).loc main_v118) := (dat4 (atTc (U11 m)) c).arrAt 1 cfg4.N
abbrev U12 : Dev nD → Valuation τ sig (Elt F) := fun c => Function.update (U11 m c) (Proc.devRef .tc main_v118) (o12 m c)
abbrev U13 : Dev nD → Valuation τ sig (Elt F) := fun c => StableHlo.after hostOps5 (U12 m c)

/-- The regions' results as the family of unknowns the generated boundary contents are written over. -/
def outsOf : Outs (F := F) := fun J r c =>
  match J with
  | 3 => U3 m c r
  | 7 => U7 m c r
  | 9 => U9 m c r
  | 11 => U11 m c r
  | 12 => U12 m c r
  | _ => U2 m c r

theorem update_update_self {α : Type} [DecidableEq α] {β : α → Type} (f : ∀ a, β a) (a : α) (v : β a) :
    Function.update f a (Function.update f a v a) = Function.update f a v := by
  rw [Function.update_self]

/-- At those unknowns the generated boundary contents are the ones named here. -/
theorem V3_eq (c : Dev nD) : V3 m (outsOf m) c = U3 m c := update_update_self _ _ _
theorem V4_eq (c : Dev nD) : V4 m (outsOf m) c = U4 m c := congrArg (StableHlo.after hostOps1) (V3_eq m c)
theorem V5_eq (c : Dev nD) : V5 m (outsOf m) c = U5 m c := congrArg (StableHlo.after hostOps1_1) (V4_eq m c)
theorem V6_eq (c : Dev nD) : V6 m (outsOf m) c = U6 m c := congrArg (StableHlo.after hostOps1_2) (V5_eq m c)
theorem V7_eq (c : Dev nD) : V7 m (outsOf m) c = U7 m c :=
  (congrArg (fun W => Function.update W (Proc.devRef .tc main_v55 : DevRef τ sig) (U7 m c (Proc.devRef .tc main_v55))) (V6_eq m c)).trans (update_update_self _ _ _)
theorem V8_eq (c : Dev nD) : V8 m (outsOf m) c = U8 m c := congrArg (StableHlo.after hostOps2) (V7_eq m c)
theorem V9_eq (c : Dev nD) : V9 m (outsOf m) c = U9 m c :=
  (congrArg (fun W => Function.update W (Proc.devRef .tc main_v86 : DevRef τ sig) (U9 m c (Proc.devRef .tc main_v86))) (V8_eq m c)).trans (update_update_self _ _ _)
theorem V10_eq (c : Dev nD) : V10 m (outsOf m) c = U10 m c := congrArg (StableHlo.after hostOps3) (V9_eq m c)
theorem V11_eq (c : Dev nD) : V11 m (outsOf m) c = U11 m c :=
  (congrArg (fun W => Function.update W (Proc.devRef .tc main_v117 : DevRef τ sig) (U11 m c (Proc.devRef .tc main_v117))) (V10_eq m c)).trans (update_update_self _ _ _)
theorem V12_eq (c : Dev nD) : V12 m (outsOf m) c = U12 m c :=
  (congrArg (fun W => Function.update W (Proc.devRef .tc main_v118 : DevRef τ sig) (U12 m c (Proc.devRef .tc main_v118))) (V11_eq m c)).trans (update_update_self _ _ _)
theorem V13_eq (c : Dev nD) : V13 m (outsOf m) c = U13 m c := congrArg (StableHlo.after hostOps5) (V12_eq m c)

/-! ## The proof data family and what rides along -/

/-- Every pipeline's proof data, each at its region's entry contents. -/
def pdats : (p : Fin 5) → (c : Dev nD) → Dat τ (Elt F) Unit ℕ (UR sig nD τ) ℕ (cfgs p) c
  | ⟨0, _⟩ => fun c => dat0 (atTc (U2 m)) c
  | ⟨1, _⟩ => fun c => dat1 (atTc (U6 m)) c
  | ⟨2, _⟩ => fun c => dat2 (atTc (U8 m)) c
  | ⟨3, _⟩ => fun c => dat3 (atTc (U10 m)) c
  | ⟨4, _⟩ => fun c => dat4 (atTc (U11 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core
    owing nothing. -/
abbrev Rr (c : Dev nD) : sProp 𝕄 := iprop((∃ r, prngReg c r) ∗ ∃ W, owes (c : Thread nD τ) (0 : CellTallies nD τ sig Unit) W)

/-! ## The regions as segments -/

/-- At region 0's exit each of its arrays holds what the pipeline leaves: an input array what it held on entry, the
    result array the blocks written back. -/
theorem hF0_0 (c : Dev nD) : (dat0 (atTc (U2 m)) c).arrAt 0 cfg0.N = atTc (U3 m) c (Pipeline.arrRef spec0 0) :=
  ((dat0 (atTc (U2 m)) c).arrAt_in 0 rfl _).trans ((A_eq0 (atTc (U2 m)) c 0).trans
    (Function.update_of_ne (StableHlo.devRef_ne_of_ne (by decide) : (Proc.devRef .tc (Pipeline.arrRef spec0 0) : DevRef τ sig) ≠ Proc.devRef .tc main_v10) (o3 m c) (U2 m c)).symm)
theorem hF0_1 (c : Dev nD) : (dat0 (atTc (U2 m)) c).arrAt 1 cfg0.N = atTc (U3 m) c (Pipeline.arrRef spec0 1) :=
  ((dat0 (atTc (U2 m)) c).arrAt_in 1 rfl _).trans ((A_eq0 (atTc (U2 m)) c 1).trans
    (Function.update_of_ne (StableHlo.devRef_ne_of_ne (by decide) : (Proc.devRef .tc (Pipeline.arrRef spec0 1) : DevRef τ sig) ≠ Proc.devRef .tc main_v10) (o3 m c) (U2 m c)).symm)
theorem hF0_2 (c : Dev nD) : (dat0 (atTc (U2 m)) c).arrAt 2 cfg0.N = atTc (U3 m) c (Pipeline.arrRef spec0 2) :=
  ((dat0 (atTc (U2 m)) c).arrAt_in 2 rfl _).trans ((A_eq0 (atTc (U2 m)) c 2).trans
    (Function.update_of_ne (StableHlo.devRef_ne_of_ne (by decide) : (Proc.devRef .tc (Pipeline.arrRef spec0 2) : DevRef τ sig) ≠ Proc.devRef .tc main_v10) (o3 m c) (U2 m c)).symm)
theorem hF0_3 (c : Dev nD) : (dat0 (atTc (U2 m)) c).arrAt 3 cfg0.N = atTc (U3 m) c (Pipeline.arrRef spec0 3) :=
  (Function.update_self (Proc.devRef .tc main_v10 : DevRef τ sig) (o3 m c) (U2 m c)).symm
theorem hF0 (c : Dev nD) : ∀ w : Fin 4, (dat0 (atTc (U2 m)) c).arrAt w cfg0.N = atTc (U3 m) c (Pipeline.arrRef spec0 w) := fun
  | 0 => hF0_0 m c
  | 1 => hF0_1 m c
  | 2 => hF0_2 m c
  | 3 => hF0_3 m c
/-- Every other buffer holds at the exit what it held on entry. -/
theorem hrest0 (c : Dev nD) : ∀ b, b ∉ Finset.univ.image (Pipeline.arrRef spec0) → atTc (U3 m) c b = atTc (U2 m) c b :=
  fun b hb => Function.update_of_ne (StableHlo.devRef_ne_of_ne (fun e => hb (Finset.mem_image.mpr ⟨(3 : Fin cfg0.W), Finset.mem_univ _, by subst e; rfl⟩))) _ _

set_option backward.isDefEq.respectTransparency.types false in
/-- REGION 0 as a segment of @main: entered with every unscoped buffer at `U2`, left with them at `U3`. Its
    arrays are split out of the unscoped buffers on entry and put back at their exit contents; the generator
    register goes into the pipeline's invariant and comes back; nothing is owed; the kernel has no semaphore of
    its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (U2 m)) c).loose
  hwaits := Pipeline.hwaits_of_owed_zero _ _ _ _ L lv 0 fun _ _ => rfl
  pre c := iprop(StableHlo.held (c : Thread nD τ) (Pipeline.ucRefs τ sig) (U2 m c) ∗ Rr c)
  post c := iprop(StableHlo.held (c : Thread nD τ) (Pipeline.ucRefs τ sig) (U3 m c) ∗ Rr c)
  X c := iprop(∃ r, prngReg c r)
  Y c := iprop(∃ r, prngReg c r)
  Z c := Pipeline.unscopedRest (Ix := Unit) (Name := ℕ) (U := UR sig nD τ) (Lvl := ℕ) spec0 c (atTc (U2 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (U2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (U2 m) c) (atTc (U3 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 1's exit each of its arrays holds what the pipeline leaves: an input array what it held on entry, the
    result array the blocks written back. -/
theorem hF1_0 (c : Dev nD) : (dat1 (atTc (U6 m)) c).arrAt 0 cfg1.N = atTc (U7 m) c (Pipeline.arrRef spec1 0) :=
  ((dat1 (atTc (U6 m)) c).arrAt_in 0 rfl _).trans ((A_eq1 (atTc (U6 m)) c 0).trans
    (Function.update_of_ne (StableHlo.devRef_ne_of_ne (by decide) : (Proc.devRef .tc (Pipeline.arrRef spec1 0) : DevRef τ sig) ≠ Proc.devRef .tc main_v55) (o7 m c) (U6 m c)).symm)
theorem hF1_1 (c : Dev nD) : (dat1 (atTc (U6 m)) c).arrAt 1 cfg1.N = atTc (U7 m) c (Pipeline.arrRef spec1 1) :=
  ((dat1 (atTc (U6 m)) c).arrAt_in 1 rfl _).trans ((A_eq1 (atTc (U6 m)) c 1).trans
    (Function.update_of_ne (StableHlo.devRef_ne_of_ne (by decide) : (Proc.devRef .tc (Pipeline.arrRef spec1 1) : DevRef τ sig) ≠ Proc.devRef .tc main_v55) (o7 m c) (U6 m c)).symm)
theorem hF1_2 (c : Dev nD) : (dat1 (atTc (U6 m)) c).arrAt 2 cfg1.N = atTc (U7 m) c (Pipeline.arrRef spec1 2) :=
  ((dat1 (atTc (U6 m)) c).arrAt_in 2 rfl _).trans ((A_eq1 (atTc (U6 m)) c 2).trans
    (Function.update_of_ne (StableHlo.devRef_ne_of_ne (by decide) : (Proc.devRef .tc (Pipeline.arrRef spec1 2) : DevRef τ sig) ≠ Proc.devRef .tc main_v55) (o7 m c) (U6 m c)).symm)
theorem hF1_3 (c : Dev nD) : (dat1 (atTc (U6 m)) c).arrAt 3 cfg1.N = atTc (U7 m) c (Pipeline.arrRef spec1 3) :=
  (Function.update_self (Proc.devRef .tc main_v55 : DevRef τ sig) (o7 m c) (U6 m c)).symm
theorem hF1 (c : Dev nD) : ∀ w : Fin 4, (dat1 (atTc (U6 m)) c).arrAt w cfg1.N = atTc (U7 m) c (Pipeline.arrRef spec1 w) := fun
  | 0 => hF1_0 m c
  | 1 => hF1_1 m c
  | 2 => hF1_2 m c
  | 3 => hF1_3 m c
/-- Every other buffer holds at the exit what it held on entry. -/
theorem hrest1 (c : Dev nD) : ∀ b, b ∉ Finset.univ.image (Pipeline.arrRef spec1) → atTc (U7 m) c b = atTc (U6 m) c b :=
  fun b hb => Function.update_of_ne (StableHlo.devRef_ne_of_ne (fun e => hb (Finset.mem_image.mpr ⟨(3 : Fin cfg1.W), Finset.mem_univ _, by subst e; rfl⟩))) _ _

set_option backward.isDefEq.respectTransparency.types false in
/-- REGION 1 as a segment of @main: entered with every unscoped buffer at `U6`, left with them at `U7`. Its
    arrays are split out of the unscoped buffers on entry and put back at their exit contents; the generator
    register goes into the pipeline's invariant and comes back; nothing is owed; the kernel has no semaphore of
    its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (U6 m)) c).loose
  hwaits := Pipeline.hwaits_of_owed_zero _ _ _ _ L lv 1 fun _ _ => rfl
  pre c := iprop(StableHlo.held (c : Thread nD τ) (Pipeline.ucRefs τ sig) (U6 m c) ∗ Rr c)
  post c := iprop(StableHlo.held (c : Thread nD τ) (Pipeline.ucRefs τ sig) (U7 m c) ∗ Rr c)
  X c := iprop(∃ r, prngReg c r)
  Y c := iprop(∃ r, prngReg c r)
  Z c := Pipeline.unscopedRest (Ix := Unit) (Name := ℕ) (U := UR sig nD τ) (Lvl := ℕ) spec1 c (atTc (U6 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (U6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (U6 m) c) (atTc (U7 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 2's exit each of its arrays holds what the pipeline leaves: an input array what it held on entry, the
    result array the blocks written back. -/
theorem hF2_0 (c : Dev nD) : (dat2 (atTc (U8 m)) c).arrAt 0 cfg2.N = atTc (U9 m) c (Pipeline.arrRef spec2 0) :=
  ((dat2 (atTc (U8 m)) c).arrAt_in 0 rfl _).trans ((A_eq2 (atTc (U8 m)) c 0).trans
    (Function.update_of_ne (StableHlo.devRef_ne_of_ne (by decide) : (Proc.devRef .tc (Pipeline.arrRef spec2 0) : DevRef τ sig) ≠ Proc.devRef .tc main_v86) (o9 m c) (U8 m c)).symm)
theorem hF2_1 (c : Dev nD) : (dat2 (atTc (U8 m)) c).arrAt 1 cfg2.N = atTc (U9 m) c (Pipeline.arrRef spec2 1) :=
  ((dat2 (atTc (U8 m)) c).arrAt_in 1 rfl _).trans ((A_eq2 (atTc (U8 m)) c 1).trans
    (Function.update_of_ne (StableHlo.devRef_ne_of_ne (by decide) : (Proc.devRef .tc (Pipeline.arrRef spec2 1) : DevRef τ sig) ≠ Proc.devRef .tc main_v86) (o9 m c) (U8 m c)).symm)
theorem hF2_2 (c : Dev nD) : (dat2 (atTc (U8 m)) c).arrAt 2 cfg2.N = atTc (U9 m) c (Pipeline.arrRef spec2 2) :=
  ((dat2 (atTc (U8 m)) c).arrAt_in 2 rfl _).trans ((A_eq2 (atTc (U8 m)) c 2).trans
    (Function.update_of_ne (StableHlo.devRef_ne_of_ne (by decide) : (Proc.devRef .tc (Pipeline.arrRef spec2 2) : DevRef τ sig) ≠ Proc.devRef .tc main_v86) (o9 m c) (U8 m c)).symm)
theorem hF2_3 (c : Dev nD) : (dat2 (atTc (U8 m)) c).arrAt 3 cfg2.N = atTc (U9 m) c (Pipeline.arrRef spec2 3) :=
  (Function.update_self (Proc.devRef .tc main_v86 : DevRef τ sig) (o9 m c) (U8 m c)).symm
theorem hF2 (c : Dev nD) : ∀ w : Fin 4, (dat2 (atTc (U8 m)) c).arrAt w cfg2.N = atTc (U9 m) c (Pipeline.arrRef spec2 w) := fun
  | 0 => hF2_0 m c
  | 1 => hF2_1 m c
  | 2 => hF2_2 m c
  | 3 => hF2_3 m c
/-- Every other buffer holds at the exit what it held on entry. -/
theorem hrest2 (c : Dev nD) : ∀ b, b ∉ Finset.univ.image (Pipeline.arrRef spec2) → atTc (U9 m) c b = atTc (U8 m) c b :=
  fun b hb => Function.update_of_ne (StableHlo.devRef_ne_of_ne (fun e => hb (Finset.mem_image.mpr ⟨(3 : Fin cfg2.W), Finset.mem_univ _, by subst e; rfl⟩))) _ _

set_option backward.isDefEq.respectTransparency.types false in
/-- REGION 2 as a segment of @main: entered with every unscoped buffer at `U8`, left with them at `U9`. Its
    arrays are split out of the unscoped buffers on entry and put back at their exit contents; the generator
    register goes into the pipeline's invariant and comes back; nothing is owed; the kernel has no semaphore of
    its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (U8 m)) c).loose
  hwaits := Pipeline.hwaits_of_owed_zero _ _ _ _ L lv 2 fun _ _ => rfl
  pre c := iprop(StableHlo.held (c : Thread nD τ) (Pipeline.ucRefs τ sig) (U8 m c) ∗ Rr c)
  post c := iprop(StableHlo.held (c : Thread nD τ) (Pipeline.ucRefs τ sig) (U9 m c) ∗ Rr c)
  X c := iprop(∃ r, prngReg c r)
  Y c := iprop(∃ r, prngReg c r)
  Z c := Pipeline.unscopedRest (Ix := Unit) (Name := ℕ) (U := UR sig nD τ) (Lvl := ℕ) spec2 c (atTc (U8 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (U8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (U8 m) c) (atTc (U9 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 3's exit each of its arrays holds what the pipeline leaves: an input array what it held on entry, the
    result array the blocks written back. -/
theorem hF3_0 (c : Dev nD) : (dat3 (atTc (U10 m)) c).arrAt 0 cfg3.N = atTc (U11 m) c (Pipeline.arrRef spec3 0) :=
  ((dat3 (atTc (U10 m)) c).arrAt_in 0 rfl _).trans ((A_eq3 (atTc (U10 m)) c 0).trans
    (Function.update_of_ne (StableHlo.devRef_ne_of_ne (by decide) : (Proc.devRef .tc (Pipeline.arrRef spec3 0) : DevRef τ sig) ≠ Proc.devRef .tc main_v117) (o11 m c) (U10 m c)).symm)
theorem hF3_1 (c : Dev nD) : (dat3 (atTc (U10 m)) c).arrAt 1 cfg3.N = atTc (U11 m) c (Pipeline.arrRef spec3 1) :=
  ((dat3 (atTc (U10 m)) c).arrAt_in 1 rfl _).trans ((A_eq3 (atTc (U10 m)) c 1).trans
    (Function.update_of_ne (StableHlo.devRef_ne_of_ne (by decide) : (Proc.devRef .tc (Pipeline.arrRef spec3 1) : DevRef τ sig) ≠ Proc.devRef .tc main_v117) (o11 m c) (U10 m c)).symm)
theorem hF3_2 (c : Dev nD) : (dat3 (atTc (U10 m)) c).arrAt 2 cfg3.N = atTc (U11 m) c (Pipeline.arrRef spec3 2) :=
  ((dat3 (atTc (U10 m)) c).arrAt_in 2 rfl _).trans ((A_eq3 (atTc (U10 m)) c 2).trans
    (Function.update_of_ne (StableHlo.devRef_ne_of_ne (by decide) : (Proc.devRef .tc (Pipeline.arrRef spec3 2) : DevRef τ sig) ≠ Proc.devRef .tc main_v117) (o11 m c) (U10 m c)).symm)
theorem hF3_3 (c : Dev nD) : (dat3 (atTc (U10 m)) c).arrAt 3 cfg3.N = atTc (U11 m) c (Pipeline.arrRef spec3 3) :=
  (Function.update_self (Proc.devRef .tc main_v117 : DevRef τ sig) (o11 m c) (U10 m c)).symm
theorem hF3 (c : Dev nD) : ∀ w : Fin 4, (dat3 (atTc (U10 m)) c).arrAt w cfg3.N = atTc (U11 m) c (Pipeline.arrRef spec3 w) := fun
  | 0 => hF3_0 m c
  | 1 => hF3_1 m c
  | 2 => hF3_2 m c
  | 3 => hF3_3 m c
/-- Every other buffer holds at the exit what it held on entry. -/
theorem hrest3 (c : Dev nD) : ∀ b, b ∉ Finset.univ.image (Pipeline.arrRef spec3) → atTc (U11 m) c b = atTc (U10 m) c b :=
  fun b hb => Function.update_of_ne (StableHlo.devRef_ne_of_ne (fun e => hb (Finset.mem_image.mpr ⟨(3 : Fin cfg3.W), Finset.mem_univ _, by subst e; rfl⟩))) _ _

set_option backward.isDefEq.respectTransparency.types false in
/-- REGION 3 as a segment of @main: entered with every unscoped buffer at `U10`, left with them at `U11`. Its
    arrays are split out of the unscoped buffers on entry and put back at their exit contents; the generator
    register goes into the pipeline's invariant and comes back; nothing is owed; the kernel has no semaphore of
    its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (U10 m)) c).loose
  hwaits := Pipeline.hwaits_of_owed_zero _ _ _ _ L lv 3 fun _ _ => rfl
  pre c := iprop(StableHlo.held (c : Thread nD τ) (Pipeline.ucRefs τ sig) (U10 m c) ∗ Rr c)
  post c := iprop(StableHlo.held (c : Thread nD τ) (Pipeline.ucRefs τ sig) (U11 m c) ∗ Rr c)
  X c := iprop(∃ r, prngReg c r)
  Y c := iprop(∃ r, prngReg c r)
  Z c := Pipeline.unscopedRest (Ix := Unit) (Name := ℕ) (U := UR sig nD τ) (Lvl := ℕ) spec3 c (atTc (U10 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (U10 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (U10 m) c) (atTc (U11 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 4's exit each of its arrays holds what the pipeline leaves: an input array what it held on entry, the
    result array the blocks written back. -/
theorem hF4_0 (c : Dev nD) : (dat4 (atTc (U11 m)) c).arrAt 0 cfg4.N = atTc (U12 m) c (Pipeline.arrRef spec4 0) :=
  ((dat4 (atTc (U11 m)) c).arrAt_in 0 rfl _).trans ((A_eq4 (atTc (U11 m)) c 0).trans
    (Function.update_of_ne (StableHlo.devRef_ne_of_ne (by decide) : (Proc.devRef .tc (Pipeline.arrRef spec4 0) : DevRef τ sig) ≠ Proc.devRef .tc main_v118) (o12 m c) (U11 m c)).symm)
theorem hF4_1 (c : Dev nD) : (dat4 (atTc (U11 m)) c).arrAt 1 cfg4.N = atTc (U12 m) c (Pipeline.arrRef spec4 1) :=
  (Function.update_self (Proc.devRef .tc main_v118 : DevRef τ sig) (o12 m c) (U11 m c)).symm
theorem hF4 (c : Dev nD) : ∀ w : Fin 2, (dat4 (atTc (U11 m)) c).arrAt w cfg4.N = atTc (U12 m) c (Pipeline.arrRef spec4 w) := fun
  | 0 => hF4_0 m c
  | 1 => hF4_1 m c
/-- Every other buffer holds at the exit what it held on entry. -/
theorem hrest4 (c : Dev nD) : ∀ b, b ∉ Finset.univ.image (Pipeline.arrRef spec4) → atTc (U12 m) c b = atTc (U11 m) c b :=
  fun b hb => Function.update_of_ne (StableHlo.devRef_ne_of_ne (fun e => hb (Finset.mem_image.mpr ⟨(1 : Fin cfg4.W), Finset.mem_univ _, by subst e; rfl⟩))) _ _

set_option backward.isDefEq.respectTransparency.types false in
/-- REGION 4 as a segment of @main: entered with every unscoped buffer at `U11`, left with them at `U12`. Its
    arrays are split out of the unscoped buffers on entry and put back at their exit contents; the generator
    register goes into the pipeline's invariant and comes back; nothing is owed; the kernel has no semaphore of
    its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atTc (U11 m)) c).loose
  hwaits := Pipeline.hwaits_of_owed_zero _ _ _ _ L lv 4 fun _ _ => rfl
  pre c := iprop(StableHlo.held (c : Thread nD τ) (Pipeline.ucRefs τ sig) (U11 m c) ∗ Rr c)
  post c := iprop(StableHlo.held (c : Thread nD τ) (Pipeline.ucRefs τ sig) (U12 m c) ∗ Rr c)
  X c := iprop(∃ r, prngReg c r)
  Y c := iprop(∃ r, prngReg c r)
  Z c := Pipeline.unscopedRest (Ix := Unit) (Name := ℕ) (U := UR sig nD τ) (Lvl := ℕ) spec4 c (atTc (U11 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (U11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (U11 m) c) (atTc (U12 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.Kernel.Frame.lean ====
import proofs.«163259_j24927990186434_1_alg».proof.Proof.Kernel.Segs
import Idealize.ShloMosaic.Lib.Pipeline.Kit

/-!
# The whole run of @main

From the five regions' segments and the host stretches between them: every weakly fair execution of @main terminates
without a fault, and every final memory holds each unscoped buffer at the contents named for the last boundary. The
frame claim reads the fourteen argument arrays off that, none of which any item writes.
-/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

-- the implicit arguments of the regions' run theorem are found by unifying its conclusion with this one
set_option backward.isDefEq.respectTransparency.types false in
/-- THE RUN, GIVEN THE REGIONS. For any contents `outs` the regions leave and any proof data: given, per region, a
    segment entered from the boundary contents before it and left at those after it, every weakly fair execution of
    @main from memory `m` with zero counters terminates and every final memory holds every unscoped buffer at the last
    boundary's contents. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 5) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 6 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE5 : ∀ c : Dev nD, E 5 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V2 m c) ∗ E 0 c) ⊢ R0.pre c)
    (hpost0 : ∀ c : Dev nD, R0.post c ⊢ iprop(StableHlo.held (c : Thread nD τ) (Pipeline.ucRefs τ sig) (V3 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V6 m outs c) ∗ E 1 c) ⊢ R1.pre c)
    (hpost1 : ∀ c : Dev nD, R1.post c ⊢ iprop(StableHlo.held (c : Thread nD τ) (Pipeline.ucRefs τ sig) (V7 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V8 m outs c) ∗ E 2 c) ⊢ R2.pre c)
    (hpost2 : ∀ c : Dev nD, R2.post c ⊢ iprop(StableHlo.held (c : Thread nD τ) (Pipeline.ucRefs τ sig) (V9 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V10 m outs c) ∗ E 3 c) ⊢ R3.pre c)
    (hpost3 : ∀ c : Dev nD, R3.post c ⊢ iprop(StableHlo.held (c : Thread nD τ) (Pipeline.ucRefs τ sig) (V11 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V11 m outs c) ∗ E 4 c) ⊢ R4.pre c)
    (hpost4 : ∀ c : Dev nD, R4.post c ⊢ iprop(StableHlo.held (c : Thread nD τ) (Pipeline.ucRefs τ sig) (V12 m outs c) ∗ E 5 c)) :
    θ_run defs (onTc (τ := τ) (main (F := F))) ⟨m, fun _ => 0, ρ⟩ (fun r => ∀ c : Dev nD,
      ∀ b ∈ Pipeline.ucRefs τ sig, r.2.mem (((c : Thread nD τ)).1, b) = V13 m outs c b) := by
  refine Pipeline.θ_run_regions_kit_dev (pcfgs (F := F)) adm pdats ι cellOf_inj EP defs₀ 𝒱₀ L lv m ρ main
    (segs m outs 𝒱₀ L lv E ι pdats R0 R1 R2 R3 R4)
    (fun c Q => by
      rewrite [main_chain c, Seg.run_eq_chain,
        show (segs m outs 𝒱₀ L lv E ι pdats R0 R1 R2 R3 R4 c).map Seg.prog = [
          StableHlo.seq hostOps0,
          StableHlo.seq hostOps0_1,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          Prog.lift (.customCall (Pipeline.entry 3) ()),
          Prog.lift (.customCall (Pipeline.entry 4) ()),
          StableHlo.seq hostOps5 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, .rfl, hpre0 c, hpost0 c, .rfl, .rfl, hpre1 c, hpost1 c, hpre2 c, hpost2 c, hpre3 c, (hpost3 c).trans (hpre4 c), hpost4 c, sep_mono .rfl (hE5 c)⟩)
    (hinit := ?_) (QY := fun c s => ∀ b ∈ Pipeline.ucRefs τ sig, s.mem (((c : Thread nD τ)).1, b) = V13 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro
      exact h
    · iexact HSI

variable (ρ : Dev nD → PrngReg)

set_option maxHeartbeats 1600000 in
/-- THE RUN: every weakly fair execution of @main terminates, and every final memory holds every unscoped buffer at
    `U13`, the contents after the last host stretch. -/
theorem run : θ_run defs (onTc (τ := τ) (main (F := F))) ⟨m, fun _ => 0, ρ⟩ (fun r => ∀ c : Dev nD,
      ∀ b ∈ Pipeline.ucRefs τ sig, r.2.mem (((c : Thread nD τ)).1, b) = U13 m c b) := by
  have h := run_cond (F := F) m (Ix := Unit) (U := UR sig nD τ) (Lvl := ℕ) emb₁ () 𝒱₀ L lv (fun _ _ => rfl) ρ (outsOf m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach L lv fun c => ?_
      iintro ⟨⟨-, HO, -, Hp, -⟩, -⟩
      imodintro
      isplitl [Hp]; · iexists _; iexact Hp
      iexists ∅; iexact HO)
    (hE5 := fun c => by iintro ⟨-, HO⟩; iexact HO)
    (reg0 m) (fun c => .rfl) (fun c => by rw [V3_eq]; exact .rfl)
    (reg1 m) (fun c => by rw [V6_eq]; exact .rfl) (fun c => by rw [V7_eq]; exact .rfl)
    (reg2 m) (fun c => by rw [V8_eq]; exact .rfl) (fun c => by rw [V9_eq]; exact .rfl)
    (reg3 m) (fun c => by rw [V10_eq]; exact .rfl) (fun c => by rw [V11_eq]; exact .rfl)
    (reg4 m) (fun c => by rw [V11_eq]; exact .rfl) (fun c => by rw [V12_eq]; exact .rfl)
  exact (θ_run defs _ _).mono (fun _ h c b hb => (h c b hb).trans (congrFun (V13_eq m c) b)) h

/-- An unscoped TensorCore reference is among those the last boundary holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem U13_main_arg0 (c : Dev nD) : U13 m c main_arg0 = m ((c : Thread nD τ).loc main_arg0) :=
  (congrFun (V13_eq m c) _).symm.trans (V13_main_arg0 m (outsOf m) c)
theorem U13_main_arg1 (c : Dev nD) : U13 m c main_arg1 = m ((c : Thread nD τ).loc main_arg1) :=
  (congrFun (V13_eq m c) _).symm.trans (V13_main_arg1 m (outsOf m) c)
theorem U13_main_arg2 (c : Dev nD) : U13 m c main_arg2 = m ((c : Thread nD τ).loc main_arg2) :=
  (congrFun (V13_eq m c) _).symm.trans (V13_main_arg2 m (outsOf m) c)
theorem U13_main_arg3 (c : Dev nD) : U13 m c main_arg3 = m ((c : Thread nD τ).loc main_arg3) :=
  (congrFun (V13_eq m c) _).symm.trans (V13_main_arg3 m (outsOf m) c)
theorem U13_main_arg4 (c : Dev nD) : U13 m c main_arg4 = m ((c : Thread nD τ).loc main_arg4) :=
  (congrFun (V13_eq m c) _).symm.trans (V13_main_arg4 m (outsOf m) c)
theorem U13_main_arg5 (c : Dev nD) : U13 m c main_arg5 = m ((c : Thread nD τ).loc main_arg5) :=
  (congrFun (V13_eq m c) _).symm.trans (V13_main_arg5 m (outsOf m) c)
theorem U13_main_arg6 (c : Dev nD) : U13 m c main_arg6 = m ((c : Thread nD τ).loc main_arg6) :=
  (congrFun (V13_eq m c) _).symm.trans (V13_main_arg6 m (outsOf m) c)
theorem U13_main_arg7 (c : Dev nD) : U13 m c main_arg7 = m ((c : Thread nD τ).loc main_arg7) :=
  (congrFun (V13_eq m c) _).symm.trans (V13_main_arg7 m (outsOf m) c)
theorem U13_main_arg8 (c : Dev nD) : U13 m c main_arg8 = m ((c : Thread nD τ).loc main_arg8) :=
  (congrFun (V13_eq m c) _).symm.trans (V13_main_arg8 m (outsOf m) c)
theorem U13_main_arg9 (c : Dev nD) : U13 m c main_arg9 = m ((c : Thread nD τ).loc main_arg9) :=
  (congrFun (V13_eq m c) _).symm.trans (V13_main_arg9 m (outsOf m) c)
theorem U13_main_arg10 (c : Dev nD) : U13 m c main_arg10 = m ((c : Thread nD τ).loc main_arg10) :=
  (congrFun (V13_eq m c) _).symm.trans (V13_main_arg10 m (outsOf m) c)
theorem U13_main_arg11 (c : Dev nD) : U13 m c main_arg11 = m ((c : Thread nD τ).loc main_arg11) :=
  (congrFun (V13_eq m c) _).symm.trans (V13_main_arg11 m (outsOf m) c)
theorem U13_main_arg12 (c : Dev nD) : U13 m c main_arg12 = m ((c : Thread nD τ).loc main_arg12) :=
  (congrFun (V13_eq m c) _).symm.trans (V13_main_arg12 m (outsOf m) c)
theorem U13_main_arg13 (c : Dev nD) : U13 m c main_arg13 = m ((c : Thread nD τ).loc main_arg13) :=
  (congrFun (V13_eq m c) _).symm.trans (V13_main_arg13 m (outsOf m) c)

/-- THE FRAME: every weakly fair execution of @main terminates without a fault and leaves the fourteen argument arrays as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c _ (mem_uc main_arg0 (by decide))).trans (U13_main_arg0 m c),
    (h c _ (mem_uc main_arg1 (by decide))).trans (U13_main_arg1 m c),
    (h c _ (mem_uc main_arg2 (by decide))).trans (U13_main_arg2 m c),
    (h c _ (mem_uc main_arg3 (by decide))).trans (U13_main_arg3 m c),
    (h c _ (mem_uc main_arg4 (by decide))).trans (U13_main_arg4 m c),
    (h c _ (mem_uc main_arg5 (by decide))).trans (U13_main_arg5 m c),
    (h c _ (mem_uc main_arg6 (by decide))).trans (U13_main_arg6 m c),
    (h c _ (mem_uc main_arg7 (by decide))).trans (U13_main_arg7 m c),
    (h c _ (mem_uc main_arg8 (by decide))).trans (U13_main_arg8 m c),
    (h c _ (mem_uc main_arg9 (by decide))).trans (U13_main_arg9 m c),
    (h c _ (mem_uc main_arg10 (by decide))).trans (U13_main_arg10 m c),
    (h c _ (mem_uc main_arg11 (by decide))).trans (U13_main_arg11 m c),
    (h c _ (mem_uc main_arg12 (by decide))).trans (U13_main_arg12 m c),
    (h c _ (mem_uc main_arg13 (by decide))).trans (U13_main_arg13 m c)⟩) (run m ρ)

end Cert.Kernel.Reg

end
-- ==== Proof.KernelIdeal.Dense0.lean ====
import proofs.«163259_j24927990186434_1_alg».proof.Proof.Gen.KernelIdeal.Launch
import proofs.«163259_j24927990186434_1_alg».proof.Proof.Gen.KernelIdeal.Skeleton
import proofs.«163259_j24927990186434_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel region 0: a row tile of a dense layer

Grid point `t` of this region holds rows `16000·t … 16000·t + 15999` of the `[·, 64]` operand, the whole
`[64, 64]` weight matrix and the `[1, 64]` bias row, and overwrites the same rows of the `[·, 64]` result with
`max (x · w + b, 0)`. The weight and bias blocks never move, so they are fetched once and stay in place; the
operand and result blocks move with the point. This file states what the body leaves in its four staging
buffers and proves the per-point obligation of the pipeline from it: the body reads its three inputs, writes the
result buffer whole, and touches nothing else.
-/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the point fetched it or an earlier
    one did and the block has not moved since. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the point fetched it or an earlier
    one did and the block has not moved since. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the point fetched it or an earlier
    one did and the block has not moved since. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole of each staging buffer, as the rectangle the body loads or stores. -/
abbrev rX0 : Rect S16000x64 := Rect.unit (s := S16000x64) ![0, 0] S16000x64.size inb_S16000x64_S16000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0
abbrev rO0 : Rect S16000x64 := Rect.unit (s := S16000x64) ![0, 0] S16000x64.size inb_S16000x64_S16000x64_0_0

/-- The result buffer after the body: one store of `max (x · w + b, 0)` over the whole buffer. -/
def out0_3 (x0 : Vec F S16000x64 .f32) (x1 : Vec F S64x64 .f32) (x2 : Vec F S1x64 .f32) : Vec F S16000x64 .f32 :=
  View.canon [⟨rO0, k0_pay1 (View.ld x0 rX0) (View.ld x1 rW0) (View.ld x2 rB0)⟩]

/-- That one store covers the buffer. -/
theorem cover0_3 (p0 : Vec F S16000x64 .f32) (y : S16000x64.Idx) :
    ∃ pc ∈ ([⟨rO0, p0⟩] : List (View.Piece (Elt F) S16000x64 .f32)), y ∈ pc.1.set :=
  View.cover_of_tiled [⟨rO0, p0⟩] S16000x64.size (by rfl) y

set_option maxHeartbeats 1000000 in
/-- The body on whole staging memrefs — the three inputs at known contents, the result at anything — runs to its
    continuation with the inputs unchanged and the result at `out0_3` of them. -/
theorem sound_kernel0 (c : Dev nD) (E : Set ℕ) (i : grid0.Coords) (arg1 : Memref sig .tc .vmem S16000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S16000x64 .f32) (harg4 : arg4.IsWhole)
    (x0 : Vec F S16000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__dense_relu_kernel i arg1 harg1 arg2 harg2 arg3 harg3 arg4 harg4) K := by
  simp only [cc0__dense_relu_kernel_eq_skeleton]; unfold cc0__dense_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each
    input buffer still at its block and the result buffer at `out0_3` of the three input blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.KernelIdeal.Dense1.lean ====
import proofs.«163259_j24927990186434_1_alg».proof.Proof.Gen.KernelIdeal.Launch
import proofs.«163259_j24927990186434_1_alg».proof.Proof.Gen.KernelIdeal.Skeleton
import proofs.«163259_j24927990186434_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel region 1: a row tile of a dense layer

Grid point `t` of this region holds rows `10000·t … 10000·t + 9999` of the `[·, 288]` operand, the whole
`[288, 64]` weight matrix and the `[1, 64]` bias row, and overwrites the same rows of the `[·, 64]` result with
`max (x · w + b, 0)`. The weight and bias blocks never move, so they are fetched once and stay in place; the
operand and result blocks move with the point. This file states what the body leaves in its four staging
buffers and proves the per-point obligation of the pipeline from it: the body reads its three inputs, writes the
result buffer whole, and touches nothing else.
-/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the point fetched it or an earlier
    one did and the block has not moved since. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the point fetched it or an earlier
    one did and the block has not moved since. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the point fetched it or an earlier
    one did and the block has not moved since. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole of each staging buffer, as the rectangle the body loads or stores. -/
abbrev rX1 : Rect S10000x288 := Rect.unit (s := S10000x288) ![0, 0] S10000x288.size inb_S10000x288_S10000x288_0_0
abbrev rW1 : Rect S288x64 := Rect.unit (s := S288x64) ![0, 0] S288x64.size inb_S288x64_S288x64_0_0
abbrev rB1 : Rect S1x64 := Rect.unit (s := S1x64) ![0, 0] S1x64.size inb_S1x64_S1x64_0_0
abbrev rO1 : Rect S10000x64 := Rect.unit (s := S10000x64) ![0, 0] S10000x64.size inb_S10000x64_S10000x64_0_0

/-- The result buffer after the body: one store of `max (x · w + b, 0)` over the whole buffer. -/
def out1_3 (x0 : Vec F S10000x288 .f32) (x1 : Vec F S288x64 .f32) (x2 : Vec F S1x64 .f32) : Vec F S10000x64 .f32 :=
  View.canon [⟨rO1, k1_pay1 (View.ld x0 rX1) (View.ld x1 rW1) (View.ld x2 rB1)⟩]

/-- That one store covers the buffer. -/
theorem cover1_3 (p0 : Vec F S10000x64 .f32) (y : S10000x64.Idx) :
    ∃ pc ∈ ([⟨rO1, p0⟩] : List (View.Piece (Elt F) S10000x64 .f32)), y ∈ pc.1.set :=
  View.cover_of_tiled [⟨rO1, p0⟩] S10000x64.size (by rfl) y

set_option maxHeartbeats 1000000 in
/-- The body on whole staging memrefs — the three inputs at known contents, the result at anything — runs to its
    continuation with the inputs unchanged and the result at `out1_3` of them. -/
theorem sound_kernel1 (c : Dev nD) (E : Set ℕ) (i : grid1.Coords) (arg1 : Memref sig .tc .vmem S10000x288 .f32) (harg1 : arg1.IsWhole) (arg2 : Memref sig .tc .vmem S288x64 .f32) (harg2 : arg2.IsWhole)
    (arg3 : Memref sig .tc .vmem S1x64 .f32) (harg3 : arg3.IsWhole) (arg4 : Memref sig .tc .vmem S10000x64 .f32) (harg4 : arg4.IsWhole)
    (x0 : Vec F S10000x288 .f32) (x1 : Vec F S288x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__dense_relu_kernel i arg1 harg1 arg2 harg2 arg3 harg3 arg4 harg4) K := by
  simp only [cc1__dense_relu_kernel_eq_skeleton]; unfold cc1__dense_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each
    input buffer still at its block and the result buffer at `out1_3` of the three input blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Reg

end
-- ==== Proof.KernelIdeal.Dense2.lean ====
import proofs.«163259_j24927990186434_1_alg».proof.Proof.Gen.KernelIdeal.Launch
import proofs.«163259_j24927990186434_1_alg».proof.Proof.Gen.KernelIdeal.Skeleton
import proofs.«163259_j24927990186434_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel region 2: a row tile of a dense layer

Grid point `t` of this region holds rows `10000·t … 10000·t + 9999` of the `[·, 192]` operand, the whole
`[192, 64]` weight matrix and the `[1, 64]` bias row, and overwrites the same rows of the `[·, 64]` result with
`max (x · w + b, 0)`. The weight and bias blocks never move, so they are fetched once and stay in place; the
operand and result blocks move with the point. This file states what the body leaves in its four staging
buffers and proves the per-point obligation of the pipeline from it: the body reads its three inputs, writes the
result buffer whole, and touches nothing else.
-/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, cut out of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the point fetched it or an earlier
    one did and the block has not moved since. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether the point fetched it or an earlier
    one did and the block has not moved since. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether the point fetched it or an earlier
    one did and the block has not moved since. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole of each staging buffer, as the rectangle the body loads or stores. -/
abbrev rX2 : Rect S10000x192 := Rect.unit (s := S10000x192) ![0, 0] S10000x192.size inb_S10000x192_S10000x192_0_0
abbrev rW2 : Rect S192x64 := Rect.unit (s := S192x64) ![0, 0] S192x64.size inb_S192x64_S192x64_0_0
abbrev rB2 : Rect S1x64 := Rect.unit (s := S1x64) ![0, 0] S1x64.size inb_S1x64_S1x64_0_0
abbrev rO2 : Rect S10000x64 := Rect.unit (s := S10000x64) ![0, 0] S10000x64.size inb_S10000x64_S10000x64_0_0

/-- The result buffer after the body: one store of `max (x · w + b, 0)` over the whole buffer. -/
def out2_3 (x0 : Vec F S10000x192 .f32) (x1 : Vec F S192x64 .f32) (x2 : Vec F S1x64 .f32) : Vec F S10000x64 .f32 :=
  View.canon [⟨rO2, k2_pay1 (View.ld x0 rX2) (View.ld x1 rW2) (View.ld x2 rB2)⟩]

/-- That one store covers the buffer. -/
theorem cover2_3 (p0 : Vec F S10000x64 .f32) (y : S10000x64.Idx) :
    ∃ pc ∈ ([⟨rO2, p0⟩] : List (View.Piece (Elt F) S10000x64 .f32)), y ∈ pc.1.set :=
  View.cover_of_tiled [⟨rO2, p0⟩] S10000x64.size (by rfl) y

set_option maxHeartbeats 1000000 in
/-- The body on whole staging memrefs — the three inputs at known contents, the result at anything — runs to its
    continuation with the inputs unchanged and the result at `out2_3` of them. -/
theorem sound_kernel2 (c : Dev nD) (E : Set ℕ) (i : grid2.Coords) (arg1 : Memref sig .tc .vmem S10000x192 .f32) (harg1 : arg1.IsWhole) (arg2 : Memref sig .tc .vmem S192x64 .f32) (harg2 : arg2.IsWhole)
    (arg3 : Memref sig .tc .vmem S1x64 .f32) (harg3 : arg3.IsWhole) (arg4 : Memref sig .tc .vmem S10000x64 .f32) (harg4 : arg4.IsWhole)
    (x0 : Vec F S10000x192 .f32) (x1 : Vec F S192x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__dense_relu_kernel i arg1 harg1 arg2 harg2 arg3 harg3 arg4 harg4) K := by
  simp only [cc2__dense_relu_kernel_eq_skeleton]; unfold cc2__dense_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the region finds them; after the body at point `t` each
    input buffer still at its block and the result buffer at `out2_3` of the three input blocks; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so `sound_kernel2` applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Reg

end
-- ==== Proof.KernelIdeal.Dense3.lean ====
import proofs.«163259_j24927990186434_1_alg».proof.Proof.Gen.KernelIdeal.Launch
import proofs.«163259_j24927990186434_1_alg».proof.Proof.Gen.KernelIdeal.Skeleton
import proofs.«163259_j24927990186434_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel region 3: a row tile of a dense layer

Grid point `t` of this region holds rows `10000·t … 10000·t + 9999` of the `[·, 192]` operand, the whole
`[192, 64]` weight matrix and the `[1, 64]` bias row, and overwrites the same rows of the `[·, 64]` result with
`max (x · w + b, 0)`. The weight and bias blocks never move, so they are fetched once and stay in place; the
operand and result blocks move with the point. This file states what the body leaves in its four staging
buffers and proves the per-point obligation of the pipeline from it: the body reads its three inputs, writes the
result buffer whole, and touches nothing else.
-/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, cut out of its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether the point fetched it or an earlier
    one did and the block has not moved since. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether the point fetched it or an earlier
    one did and the block has not moved since. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether the point fetched it or an earlier
    one did and the block has not moved since. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole of each staging buffer, as the rectangle the body loads or stores. -/
abbrev rX3 : Rect S10000x192 := Rect.unit (s := S10000x192) ![0, 0] S10000x192.size inb_S10000x192_S10000x192_0_0
abbrev rW3 : Rect S192x64 := Rect.unit (s := S192x64) ![0, 0] S192x64.size inb_S192x64_S192x64_0_0
abbrev rB3 : Rect S1x64 := Rect.unit (s := S1x64) ![0, 0] S1x64.size inb_S1x64_S1x64_0_0
abbrev rO3 : Rect S10000x64 := Rect.unit (s := S10000x64) ![0, 0] S10000x64.size inb_S10000x64_S10000x64_0_0

/-- The result buffer after the body: one store of `max (x · w + b, 0)` over the whole buffer. -/
def out3_3 (x0 : Vec F S10000x192 .f32) (x1 : Vec F S192x64 .f32) (x2 : Vec F S1x64 .f32) : Vec F S10000x64 .f32 :=
  View.canon [⟨rO3, k3_pay1 (View.ld x0 rX3) (View.ld x1 rW3) (View.ld x2 rB3)⟩]

/-- That one store covers the buffer. -/
theorem cover3_3 (p0 : Vec F S10000x64 .f32) (y : S10000x64.Idx) :
    ∃ pc ∈ ([⟨rO3, p0⟩] : List (View.Piece (Elt F) S10000x64 .f32)), y ∈ pc.1.set :=
  View.cover_of_tiled [⟨rO3, p0⟩] S10000x64.size (by rfl) y

set_option maxHeartbeats 1000000 in
/-- The body on whole staging memrefs — the three inputs at known contents, the result at anything — runs to its
    continuation with the inputs unchanged and the result at `out3_3` of them. -/
theorem sound_kernel3 (c : Dev nD) (E : Set ℕ) (i : grid3.Coords) (arg1 : Memref sig .tc .vmem S10000x192 .f32) (harg1 : arg1.IsWhole) (arg2 : Memref sig .tc .vmem S192x64 .f32) (harg2 : arg2.IsWhole)
    (arg3 : Memref sig .tc .vmem S1x64 .f32) (harg3 : arg3.IsWhole) (arg4 : Memref sig .tc .vmem S10000x64 .f32) (harg4 : arg4.IsWhole)
    (x0 : Vec F S10000x192 .f32) (x1 : Vec F S192x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__dense_relu_kernel i arg1 harg1 arg2 harg2 arg3 harg3 arg4 harg4) K := by
  simp only [cc3__dense_relu_kernel_eq_skeleton]; unfold cc3__dense_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The pipeline's proof data on core `c`: the arrays as the region finds them; after the body at point `t` each
    input buffer still at its block and the result buffer at `out3_3` of the three input blocks; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the input buffers hold their blocks, so `sound_kernel3` applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Reg

end
-- ==== Proof.KernelIdeal.Sum4.lean ====
import proofs.«163259_j24927990186434_1_alg».proof.Proof.Gen.KernelIdeal.Launch
import proofs.«163259_j24927990186434_1_alg».proof.Proof.Gen.KernelIdeal.Skeleton
import proofs.«163259_j24927990186434_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel region 4: column sums accumulated over ten row tiles

Grid point `t` holds rows `10000·t … 10000·t + 9999` of the `[100000, 64]` operand; the `[1, 64]` result block
is the same at every point, stays in its staging buffer from one point to the next and is written back once, after
the last point. The body first clears the result (at point 0 only), then adds the tile's column sums to it. So the
result buffer after point `t` is a recursion on `t`: at point 0 what the two stores leave over anything, at a later
point what the one store leaves over the contents the point before left. This file states that recursion and proves
the pipeline's per-point obligation from it.
-/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, cut out of its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The operand's staging buffer holds its row tile at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The body's one branch condition, "this is point 0", from the grid coordinate. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val % 10 = 0 :=
  (by decide +kernel : ∀ t : Fin grid4.N, cond4_0 (grid4.coords t) ↔ t.val % 10 = 0)

/-- The result's one staging buffer, through which its contents are stated. -/
abbrev VO4_1 : View sig .tc .vmem S1x64 .f32 := (Memref.whole cc4_stg1_0 : Memref sig .tc .vmem S1x64 .f32).view
/-- Each window's staging memref at point `t`, as the pipeline passes it to the body. -/
abbrev ms4_0 (t : Fin cfg4.N) : Memref sig .tc .vmem S10000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x64 .f32 := win4_1.stage (cfg4.slots t 1)
abbrev hs4_1 (t : Fin cfg4.N) : (ms4_1 t).IsWhole := hstage4_1 ((cfg4.slots t 1).cast nbuf4_1)

set_option maxHeartbeats 1000000 in
/-- AT POINT 0 (the branch taken): the stores the body makes into the result buffer, last first, with the proof
    that from the operand tile at `x0` and the result at anything the body runs to its continuation with the operand
    unchanged and those stores made. -/
noncomputable def kernelRun4_A (c : Dev nD) (i : grid4.Coords) (arg1 : Memref sig .tc .vmem S10000x64 .f32) (harg1 : arg1.IsWhole) (arg2 : Memref sig .tc .vmem S1x64 .f32) (harg2 : arg2.IsWhole) (hc0 : cond4_0 i)
    (x0 : Vec F S10000x64 .f32) :
    { L1 : List (View.Piece (Elt F) S1x64 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc4__sum_rows_kernel i arg1 harg1 arg2 harg2) K } := by
  refine ⟨?_, fun E K => ?run⟩
  case run =>
    simp only [cc4__sum_rows_kernel_eq_skeleton]; unfold cc4__sum_rows_kernel_skel
    unfold owns
    iintro ⟨⟨%f0, %hf0, H0⟩, ⟨%d1, %f1, -, H1⟩, Hk⟩
    obtain rfl := harg1.eq_unread hf0
    sl_exec (disch := first | exact hc0)
    sl_step
    iapply Hk
    isplitl [H0]
    · iexists _; isplitr; · ipureintro; exact harg1.read_unread _
      iexact H0
    iexists _; iexact H1

set_option maxHeartbeats 1000000 in
/-- AT A LATER POINT (the branch not taken): the same, from the result buffer at its running contents `xo1`. -/
noncomputable def kernelRun4_B (c : Dev nD) (i : grid4.Coords) (arg1 : Memref sig .tc .vmem S10000x64 .f32) (harg1 : arg1.IsWhole) (arg2 : Memref sig .tc .vmem S1x64 .f32) (harg2 : arg2.IsWhole) (hc0 : ¬cond4_0 i)
    (x0 : Vec F S10000x64 .f32) (xo1 : Vec F S1x64 .f32) :
    { L1 : List (View.Piece (Elt F) S1x64 .f32) //
      ∀ (E : Set ℕ) (K : PUnit → sProp 𝕄),
        iprop(owns (c : Thread nD τ) arg1 fullShare x0 ∗ owns (c : Thread nD τ) arg2 fullShare xo1
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc4__sum_rows_kernel i arg1 harg1 arg2 harg2) K } := by
  refine ⟨?_, fun E K => ?run⟩
  case run =>
    simp only [cc4__sum_rows_kernel_eq_skeleton]; unfold cc4__sum_rows_kernel_skel
    unfold owns
    iintro ⟨⟨%f0, %hf0, H0⟩, ⟨%f1, %hf1, H1⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    iexists _; iexact H1

/-- The stores of point 0 cover the result buffer. -/
theorem cover4_A_1 (c : Dev nD) (i : grid4.Coords) (arg1 : Memref sig .tc .vmem S10000x64 .f32) (harg1 : arg1.IsWhole) (arg2 : Memref sig .tc .vmem S1x64 .f32) (harg2 : arg2.IsWhole) (hc0 : cond4_0 i)
    (x0 : Vec F S10000x64 .f32) (y : S1x64.Idx) :
    ∃ pc ∈ (kernelRun4_A c i arg1 harg1 arg2 harg2 hc0 x0).1, y ∈ pc.1.set :=
  View.cover_of_tiledL (kernelRun4_A c i arg1 harg1 arg2 harg2 hc0 x0).1 S1x64.size (by sl_kernel_rfl) y

/-- What point 0 leaves in the result buffer. -/
def out4_A_1 (c : Dev nD) (i : grid4.Coords) (arg1 : Memref sig .tc .vmem S10000x64 .f32) (harg1 : arg1.IsWhole) (arg2 : Memref sig .tc .vmem S1x64 .f32) (harg2 : arg2.IsWhole) (hc0 : cond4_0 i)
    (x0 : Vec F S10000x64 .f32) : Vec F S1x64 .f32 :=
  VO4_1.read (Elt F) (VO4_1.writes (Elt F) VO4_1.junk (kernelRun4_A c i arg1 harg1 arg2 harg2 hc0 x0).1)

/-- The store of a later point covers the result buffer. -/
theorem cover4_B_1 (c : Dev nD) (i : grid4.Coords) (arg1 : Memref sig .tc .vmem S10000x64 .f32) (harg1 : arg1.IsWhole) (arg2 : Memref sig .tc .vmem S1x64 .f32) (harg2 : arg2.IsWhole) (hc0 : ¬cond4_0 i)
    (x0 : Vec F S10000x64 .f32) (xo1 : Vec F S1x64 .f32) (y : S1x64.Idx) :
    ∃ pc ∈ (kernelRun4_B c i arg1 harg1 arg2 harg2 hc0 x0 xo1).1, y ∈ pc.1.set :=
  View.cover_of_tiledL (kernelRun4_B c i arg1 harg1 arg2 harg2 hc0 x0 xo1).1 S1x64.size (by sl_kernel_rfl) y

/-- What a later point leaves in the result buffer, from what it found there. -/
def out4_B_1 (c : Dev nD) (i : grid4.Coords) (arg1 : Memref sig .tc .vmem S10000x64 .f32) (harg1 : arg1.IsWhole) (arg2 : Memref sig .tc .vmem S1x64 .f32) (harg2 : arg2.IsWhole) (hc0 : ¬cond4_0 i)
    (x0 : Vec F S10000x64 .f32) (xo1 : Vec F S1x64 .f32) : Vec F S1x64 .f32 :=
  VO4_1.read (Elt F) (VO4_1.writes (Elt F) VO4_1.junk (kernelRun4_B c i arg1 harg1 arg2 harg2 hc0 x0 xo1).1)

/-- THE ACCUMULATION: the result buffer after the body at position `n`. -/
def outsAt4 (c : Dev nD) : (n : ℕ) → n < cfg4.N → Vec F S1x64 .f32
  | 0, hn => out4_A_1 c (grid4.coords ⟨0, hn⟩) (ms4_0 ⟨0, hn⟩) (hs4_0 ⟨0, hn⟩) (ms4_1 ⟨0, hn⟩) (hs4_1 ⟨0, hn⟩) ((hcond4_0 ⟨0, hn⟩).mpr (Nat.zero_mod _)) (iblk4 V c 0 ⟨0, hn⟩)
  | n + 1, hn =>
    if h0 : (n + 1) % 10 = 0 then
      out4_A_1 c (grid4.coords ⟨n + 1, hn⟩) (ms4_0 ⟨n + 1, hn⟩) (hs4_0 ⟨n + 1, hn⟩) (ms4_1 ⟨n + 1, hn⟩) (hs4_1 ⟨n + 1, hn⟩) ((hcond4_0 ⟨n + 1, hn⟩).mpr h0) (iblk4 V c 0 ⟨n + 1, hn⟩)
    else
      out4_B_1 c (grid4.coords ⟨n + 1, hn⟩) (ms4_0 ⟨n + 1, hn⟩) (hs4_0 ⟨n + 1, hn⟩) (ms4_1 ⟨n + 1, hn⟩) (hs4_1 ⟨n + 1, hn⟩) (fun h => h0 ((hcond4_0 ⟨n + 1, hn⟩).mp h)) (iblk4 V c 0 ⟨n + 1, hn⟩) (outsAt4 c n (Nat.lt_of_succ_lt hn))

theorem outsAt4_A (c : Dev nD) (t : Fin cfg4.N) (h0 : t.val % 10 = 0) :
    outsAt4 V c t.val t.isLt = out4_A_1 c (grid4.coords t) (ms4_0 t) (hs4_0 t) (ms4_1 t) (hs4_1 t) ((hcond4_0 t).mpr h0) (iblk4 V c 0 t) := by
  obtain ⟨n, hn⟩ := t
  cases n with
  | zero => exact rfl
  | succ n => exact (dif_pos h0).trans rfl

theorem outsAt4_B (c : Dev nD) (t : Fin cfg4.N) (h0 : ¬t.val % 10 = 0) :
    outsAt4 V c t.val t.isLt = out4_B_1 c (grid4.coords t) (ms4_0 t) (hs4_0 t) (ms4_1 t) (hs4_1 t) (fun h => h0 ((hcond4_0 t).mp h)) (iblk4 V c 0 t) (outsAt4 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body at point `t` the
    operand buffer still at its tile and the result buffer at the accumulation; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => (outsAt4 V c t.val t.isLt)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = (outsAt4 V c t.val t.isLt) := by dsimp only [dat4]

theorem before4_0 (c : Dev nD) (t : Fin cfg4.N) (d) : (dat4 V c).before 0 t d = iblk4 V c 0 t :=
  before4_0_of V (dat4 V c) (A_eq4 V c 0) (after4_0 V c) t d
/-- At a later point the result buffer holds what the body left at the point before: it is not written back in
    between. -/
theorem before4_1_B (c : Dev nD) (t : Fin cfg4.N) (h0 : ¬t.val % 10 = 0) (d) :
    (dat4 V c).before 1 t d = (outsAt4 V c (t.val - 1) (Nat.lt_of_le_of_lt (Nat.sub_le _ _) t.isLt)) := by
  have hN : t.val < 10 := lt_of_lt_of_eq t.isLt (show cfg4.N = 10 from N_4)
  rw [Dat.before_out_kept _ 1 rfl t (by omega) (Bool.eq_false_iff.mpr fun h => by have := (flush4_1 _).mp h; dsimp only at this; omega)
    (fun _ => rfl) (fun _ _ => rfl)]
  dsimp only [dat4]

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d)))

def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t))

set_option maxHeartbeats 800000 in
/-- The body at any point: the operand buffer holds its tile; at point 0 the first run applies, at a later point
    the second, over what the point before left in the result buffer. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = (dat4 V c).Φ t.castSucc from rfl,
    show (dat4 V c).owesAt () t.succ = (dat4 V c).owesAt () t.castSucc from rfl,
    after4_0, after4_1]
  have hN : t.val < 10 := lt_of_lt_of_eq t.isLt (show cfg4.N = 10 from N_4)
  by_cases h0 : t.val % 10 = 0
  · rw [outsAt4_A V c t h0]
    unfold out4_A_1
    iintro ⟨HΦ, Ho, ⟨%d0, H0⟩, ⟨%d1, H1⟩⟩
    iapply ((kernelRun4_A c (grid4.coords t) _ _ _ _ ((hcond4_0 t).mpr h0) (iblk4 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover4_A_1 c _ _ _ _ _ _ _)
  · rw [outsAt4_B V c t h0]
    simp only [before4_1_B V c t h0]
    unfold out4_B_1
    iintro ⟨HΦ, Ho, ⟨%d0, H0⟩, ⟨%d1, H1⟩⟩
    iapply ((kernelRun4_B c (grid4.coords t) _ _ _ _ (fun h => h0 ((hcond4_0 t).mp h)) (iblk4 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover4_B_1 c _ _ _ _ _ _ _ _)

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Reg

end
-- ==== Proof.KernelIdeal.Segs.lean ====
import proofs.«163259_j24927990186434_1_alg».proof.Proof.Gen.KernelIdeal.Regions
import proofs.«163259_j24927990186434_1_alg».proof.Proof.KernelIdeal.Dense0
import proofs.«163259_j24927990186434_1_alg».proof.Proof.KernelIdeal.Dense1
import proofs.«163259_j24927990186434_1_alg».proof.Proof.KernelIdeal.Dense2
import proofs.«163259_j24927990186434_1_alg».proof.Proof.KernelIdeal.Dense3
import proofs.«163259_j24927990186434_1_alg».proof.Proof.KernelIdeal.Sum4

/-!
# The five kernel regions as segments of @main

@main is thirteen items: eight stretches of host operations and five kernel regions. Between two items a core holds
every unscoped buffer whole. This file names the contents at each boundary — the launch memory, then each host
stretch applied, then, after a region, the region's result array replaced by what its write-backs leave — and states
each region as a segment from the boundary before it to the boundary after it.
-/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A core's buffer contents read at the TensorCore's references. -/
abbrev atTc (W : Dev nD → Valuation τ sig (Elt F)) : (c : Dev nD) → (b : Ref sig .tc) → Buf (Elt F) ((c : Thread nD τ).loc b) :=
  fun c b => W c b

/-! ## The contents at each boundary -/

/-- Before region 0: the launch memory after the first two host stretches. -/
abbrev U2 : Dev nD → Valuation τ sig (Elt F) := fun c => V2 m c
/-- What region 0 leaves in its result array. -/
def o3 (c : Dev nD) : Buf (Elt F) ((c : Thread nD τ).loc main_v10) := (dat0 (atTc (U2 m)) c).arrAt 3 cfg0.N
abbrev U3 : Dev nD → Valuation τ sig (Elt F) := fun c => Function.update (U2 m c) (Proc.devRef .tc main_v10) (o3 m c)
abbrev U4 : Dev nD → Valuation τ sig (Elt F) := fun c => StableHlo.after hostOps1 (U3 m c)
abbrev U5 : Dev nD → Valuation τ sig (Elt F) := fun c => StableHlo.after hostOps1_1 (U4 m c)
abbrev U6 : Dev nD → Valuation τ sig (Elt F) := fun c => StableHlo.after hostOps1_2 (U5 m c)
/-- What region 1 leaves in its result array. -/
def o7 (c : Dev nD) : Buf (Elt F) ((c : Thread nD τ).loc main_v55) := (dat1 (atTc (U6 m)) c).arrAt 3 cfg1.N
abbrev U7 : Dev nD → Valuation τ sig (Elt F) := fun c => Function.update (U6 m c) (Proc.devRef .tc main_v55) (o7 m c)
abbrev U8 : Dev nD → Valuation τ sig (Elt F) := fun c => StableHlo.after hostOps2 (U7 m c)
/-- What region 2 leaves in its result array. -/
def o9 (c : Dev nD) : Buf (Elt F) ((c : Thread nD τ).loc main_v86) := (dat2 (atTc (U8 m)) c).arrAt 3 cfg2.N
abbrev U9 : Dev nD → Valuation τ sig (Elt F) := fun c => Function.update (U8 m c) (Proc.devRef .tc main_v86) (o9 m c)
abbrev U10 : Dev nD → Valuation τ sig (Elt F) := fun c => StableHlo.after hostOps3 (U9 m c)
/-- What region 3 leaves in its result array. -/
def o11 (c : Dev nD) : Buf (Elt F) ((c : Thread nD τ).loc main_v117) := (dat3 (atTc (U10 m)) c).arrAt 3 cfg3.N
abbrev U11 : Dev nD → Valuation τ sig (Elt F) := fun c => Function.update (U10 m c) (Proc.devRef .tc main_v117) (o11 m c)
/-- What region 4 leaves in its result array. -/
def o12 (c : Dev nD) : Buf (Elt F) ((c : Thread nD τ).loc main_v118) := (dat4 (atTc (U11 m)) c).arrAt 1 cfg4.N
abbrev U12 : Dev nD → Valuation τ sig (Elt F) := fun c => Function.update (U11 m c) (Proc.devRef .tc main_v118) (o12 m c)
abbrev U13 : Dev nD → Valuation τ sig (Elt F) := fun c => StableHlo.after hostOps5 (U12 m c)

/-- The regions' results as the family of unknowns the generated boundary contents are written over. -/
def outsOf : Outs (F := F) := fun J r c =>
  match J with
  | 3 => U3 m c r
  | 7 => U7 m c r
  | 9 => U9 m c r
  | 11 => U11 m c r
  | 12 => U12 m c r
  | _ => U2 m c r

theorem update_update_self {α : Type} [DecidableEq α] {β : α → Type} (f : ∀ a, β a) (a : α) (v : β a) :
    Function.update f a (Function.update f a v a) = Function.update f a v := by
  rw [Function.update_self]

/-- At those unknowns the generated boundary contents are the ones named here. -/
theorem V3_eq (c : Dev nD) : V3 m (outsOf m) c = U3 m c := update_update_self _ _ _
theorem V4_eq (c : Dev nD) : V4 m (outsOf m) c = U4 m c := congrArg (StableHlo.after hostOps1) (V3_eq m c)
theorem V5_eq (c : Dev nD) : V5 m (outsOf m) c = U5 m c := congrArg (StableHlo.after hostOps1_1) (V4_eq m c)
theorem V6_eq (c : Dev nD) : V6 m (outsOf m) c = U6 m c := congrArg (StableHlo.after hostOps1_2) (V5_eq m c)
theorem V7_eq (c : Dev nD) : V7 m (outsOf m) c = U7 m c :=
  (congrArg (fun W => Function.update W (Proc.devRef .tc main_v55 : DevRef τ sig) (U7 m c (Proc.devRef .tc main_v55))) (V6_eq m c)).trans (update_update_self _ _ _)
theorem V8_eq (c : Dev nD) : V8 m (outsOf m) c = U8 m c := congrArg (StableHlo.after hostOps2) (V7_eq m c)
theorem V9_eq (c : Dev nD) : V9 m (outsOf m) c = U9 m c :=
  (congrArg (fun W => Function.update W (Proc.devRef .tc main_v86 : DevRef τ sig) (U9 m c (Proc.devRef .tc main_v86))) (V8_eq m c)).trans (update_update_self _ _ _)
theorem V10_eq (c : Dev nD) : V10 m (outsOf m) c = U10 m c := congrArg (StableHlo.after hostOps3) (V9_eq m c)
theorem V11_eq (c : Dev nD) : V11 m (outsOf m) c = U11 m c :=
  (congrArg (fun W => Function.update W (Proc.devRef .tc main_v117 : DevRef τ sig) (U11 m c (Proc.devRef .tc main_v117))) (V10_eq m c)).trans (update_update_self _ _ _)
theorem V12_eq (c : Dev nD) : V12 m (outsOf m) c = U12 m c :=
  (congrArg (fun W => Function.update W (Proc.devRef .tc main_v118 : DevRef τ sig) (U12 m c (Proc.devRef .tc main_v118))) (V11_eq m c)).trans (update_update_self _ _ _)
theorem V13_eq (c : Dev nD) : V13 m (outsOf m) c = U13 m c := congrArg (StableHlo.after hostOps5) (V12_eq m c)

/-! ## The proof data family and what rides along -/

/-- Every pipeline's proof data, each at its region's entry contents. -/
def pdats : (p : Fin 5) → (c : Dev nD) → Dat τ (Elt F) Unit ℕ (UR sig nD τ) ℕ (cfgs p) c
  | ⟨0, _⟩ => fun c => dat0 (atTc (U2 m)) c
  | ⟨1, _⟩ => fun c => dat1 (atTc (U6 m)) c
  | ⟨2, _⟩ => fun c => dat2 (atTc (U8 m)) c
  | ⟨3, _⟩ => fun c => dat3 (atTc (U10 m)) c
  | ⟨4, _⟩ => fun c => dat4 (atTc (U11 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core
    owing nothing. -/
abbrev Rr (c : Dev nD) : sProp 𝕄 := iprop((∃ r, prngReg c r) ∗ ∃ W, owes (c : Thread nD τ) (0 : CellTallies nD τ sig Unit) W)

/-! ## The regions as segments -/

/-- At region 0's exit each of its arrays holds what the pipeline leaves: an input array what it held on entry, the
    result array the blocks written back. -/
theorem hF0_0 (c : Dev nD) : (dat0 (atTc (U2 m)) c).arrAt 0 cfg0.N = atTc (U3 m) c (Pipeline.arrRef spec0 0) :=
  ((dat0 (atTc (U2 m)) c).arrAt_in 0 rfl _).trans ((A_eq0 (atTc (U2 m)) c 0).trans
    (Function.update_of_ne (StableHlo.devRef_ne_of_ne (by decide) : (Proc.devRef .tc (Pipeline.arrRef spec0 0) : DevRef τ sig) ≠ Proc.devRef .tc main_v10) (o3 m c) (U2 m c)).symm)
theorem hF0_1 (c : Dev nD) : (dat0 (atTc (U2 m)) c).arrAt 1 cfg0.N = atTc (U3 m) c (Pipeline.arrRef spec0 1) :=
  ((dat0 (atTc (U2 m)) c).arrAt_in 1 rfl _).trans ((A_eq0 (atTc (U2 m)) c 1).trans
    (Function.update_of_ne (StableHlo.devRef_ne_of_ne (by decide) : (Proc.devRef .tc (Pipeline.arrRef spec0 1) : DevRef τ sig) ≠ Proc.devRef .tc main_v10) (o3 m c) (U2 m c)).symm)
theorem hF0_2 (c : Dev nD) : (dat0 (atTc (U2 m)) c).arrAt 2 cfg0.N = atTc (U3 m) c (Pipeline.arrRef spec0 2) :=
  ((dat0 (atTc (U2 m)) c).arrAt_in 2 rfl _).trans ((A_eq0 (atTc (U2 m)) c 2).trans
    (Function.update_of_ne (StableHlo.devRef_ne_of_ne (by decide) : (Proc.devRef .tc (Pipeline.arrRef spec0 2) : DevRef τ sig) ≠ Proc.devRef .tc main_v10) (o3 m c) (U2 m c)).symm)
theorem hF0_3 (c : Dev nD) : (dat0 (atTc (U2 m)) c).arrAt 3 cfg0.N = atTc (U3 m) c (Pipeline.arrRef spec0 3) :=
  (Function.update_self (Proc.devRef .tc main_v10 : DevRef τ sig) (o3 m c) (U2 m c)).symm
theorem hF0 (c : Dev nD) : ∀ w : Fin 4, (dat0 (atTc (U2 m)) c).arrAt w cfg0.N = atTc (U3 m) c (Pipeline.arrRef spec0 w) := fun
  | 0 => hF0_0 m c
  | 1 => hF0_1 m c
  | 2 => hF0_2 m c
  | 3 => hF0_3 m c
/-- Every other buffer holds at the exit what it held on entry. -/
theorem hrest0 (c : Dev nD) : ∀ b, b ∉ Finset.univ.image (Pipeline.arrRef spec0) → atTc (U3 m) c b = atTc (U2 m) c b :=
  fun b hb => Function.update_of_ne (StableHlo.devRef_ne_of_ne (fun e => hb (Finset.mem_image.mpr ⟨(3 : Fin cfg0.W), Finset.mem_univ _, by subst e; rfl⟩))) _ _

set_option backward.isDefEq.respectTransparency.types false in
/-- REGION 0 as a segment of @main: entered with every unscoped buffer at `U2`, left with them at `U3`. Its
    arrays are split out of the unscoped buffers on entry and put back at their exit contents; the generator
    register goes into the pipeline's invariant and comes back; nothing is owed; the kernel has no semaphore of
    its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (U2 m)) c).loose
  hwaits := Pipeline.hwaits_of_owed_zero _ _ _ _ L lv 0 fun _ _ => rfl
  pre c := iprop(StableHlo.held (c : Thread nD τ) (Pipeline.ucRefs τ sig) (U2 m c) ∗ Rr c)
  post c := iprop(StableHlo.held (c : Thread nD τ) (Pipeline.ucRefs τ sig) (U3 m c) ∗ Rr c)
  X c := iprop(∃ r, prngReg c r)
  Y c := iprop(∃ r, prngReg c r)
  Z c := Pipeline.unscopedRest (Ix := Unit) (Name := ℕ) (U := UR sig nD τ) (Lvl := ℕ) spec0 c (atTc (U2 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (U2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (U2 m) c) (atTc (U3 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 1's exit each of its arrays holds what the pipeline leaves: an input array what it held on entry, the
    result array the blocks written back. -/
theorem hF1_0 (c : Dev nD) : (dat1 (atTc (U6 m)) c).arrAt 0 cfg1.N = atTc (U7 m) c (Pipeline.arrRef spec1 0) :=
  ((dat1 (atTc (U6 m)) c).arrAt_in 0 rfl _).trans ((A_eq1 (atTc (U6 m)) c 0).trans
    (Function.update_of_ne (StableHlo.devRef_ne_of_ne (by decide) : (Proc.devRef .tc (Pipeline.arrRef spec1 0) : DevRef τ sig) ≠ Proc.devRef .tc main_v55) (o7 m c) (U6 m c)).symm)
theorem hF1_1 (c : Dev nD) : (dat1 (atTc (U6 m)) c).arrAt 1 cfg1.N = atTc (U7 m) c (Pipeline.arrRef spec1 1) :=
  ((dat1 (atTc (U6 m)) c).arrAt_in 1 rfl _).trans ((A_eq1 (atTc (U6 m)) c 1).trans
    (Function.update_of_ne (StableHlo.devRef_ne_of_ne (by decide) : (Proc.devRef .tc (Pipeline.arrRef spec1 1) : DevRef τ sig) ≠ Proc.devRef .tc main_v55) (o7 m c) (U6 m c)).symm)
theorem hF1_2 (c : Dev nD) : (dat1 (atTc (U6 m)) c).arrAt 2 cfg1.N = atTc (U7 m) c (Pipeline.arrRef spec1 2) :=
  ((dat1 (atTc (U6 m)) c).arrAt_in 2 rfl _).trans ((A_eq1 (atTc (U6 m)) c 2).trans
    (Function.update_of_ne (StableHlo.devRef_ne_of_ne (by decide) : (Proc.devRef .tc (Pipeline.arrRef spec1 2) : DevRef τ sig) ≠ Proc.devRef .tc main_v55) (o7 m c) (U6 m c)).symm)
theorem hF1_3 (c : Dev nD) : (dat1 (atTc (U6 m)) c).arrAt 3 cfg1.N = atTc (U7 m) c (Pipeline.arrRef spec1 3) :=
  (Function.update_self (Proc.devRef .tc main_v55 : DevRef τ sig) (o7 m c) (U6 m c)).symm
theorem hF1 (c : Dev nD) : ∀ w : Fin 4, (dat1 (atTc (U6 m)) c).arrAt w cfg1.N = atTc (U7 m) c (Pipeline.arrRef spec1 w) := fun
  | 0 => hF1_0 m c
  | 1 => hF1_1 m c
  | 2 => hF1_2 m c
  | 3 => hF1_3 m c
/-- Every other buffer holds at the exit what it held on entry. -/
theorem hrest1 (c : Dev nD) : ∀ b, b ∉ Finset.univ.image (Pipeline.arrRef spec1) → atTc (U7 m) c b = atTc (U6 m) c b :=
  fun b hb => Function.update_of_ne (StableHlo.devRef_ne_of_ne (fun e => hb (Finset.mem_image.mpr ⟨(3 : Fin cfg1.W), Finset.mem_univ _, by subst e; rfl⟩))) _ _

set_option backward.isDefEq.respectTransparency.types false in
/-- REGION 1 as a segment of @main: entered with every unscoped buffer at `U6`, left with them at `U7`. Its
    arrays are split out of the unscoped buffers on entry and put back at their exit contents; the generator
    register goes into the pipeline's invariant and comes back; nothing is owed; the kernel has no semaphore of
    its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (U6 m)) c).loose
  hwaits := Pipeline.hwaits_of_owed_zero _ _ _ _ L lv 1 fun _ _ => rfl
  pre c := iprop(StableHlo.held (c : Thread nD τ) (Pipeline.ucRefs τ sig) (U6 m c) ∗ Rr c)
  post c := iprop(StableHlo.held (c : Thread nD τ) (Pipeline.ucRefs τ sig) (U7 m c) ∗ Rr c)
  X c := iprop(∃ r, prngReg c r)
  Y c := iprop(∃ r, prngReg c r)
  Z c := Pipeline.unscopedRest (Ix := Unit) (Name := ℕ) (U := UR sig nD τ) (Lvl := ℕ) spec1 c (atTc (U6 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (U6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (U6 m) c) (atTc (U7 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 2's exit each of its arrays holds what the pipeline leaves: an input array what it held on entry, the
    result array the blocks written back. -/
theorem hF2_0 (c : Dev nD) : (dat2 (atTc (U8 m)) c).arrAt 0 cfg2.N = atTc (U9 m) c (Pipeline.arrRef spec2 0) :=
  ((dat2 (atTc (U8 m)) c).arrAt_in 0 rfl _).trans ((A_eq2 (atTc (U8 m)) c 0).trans
    (Function.update_of_ne (StableHlo.devRef_ne_of_ne (by decide) : (Proc.devRef .tc (Pipeline.arrRef spec2 0) : DevRef τ sig) ≠ Proc.devRef .tc main_v86) (o9 m c) (U8 m c)).symm)
theorem hF2_1 (c : Dev nD) : (dat2 (atTc (U8 m)) c).arrAt 1 cfg2.N = atTc (U9 m) c (Pipeline.arrRef spec2 1) :=
  ((dat2 (atTc (U8 m)) c).arrAt_in 1 rfl _).trans ((A_eq2 (atTc (U8 m)) c 1).trans
    (Function.update_of_ne (StableHlo.devRef_ne_of_ne (by decide) : (Proc.devRef .tc (Pipeline.arrRef spec2 1) : DevRef τ sig) ≠ Proc.devRef .tc main_v86) (o9 m c) (U8 m c)).symm)
theorem hF2_2 (c : Dev nD) : (dat2 (atTc (U8 m)) c).arrAt 2 cfg2.N = atTc (U9 m) c (Pipeline.arrRef spec2 2) :=
  ((dat2 (atTc (U8 m)) c).arrAt_in 2 rfl _).trans ((A_eq2 (atTc (U8 m)) c 2).trans
    (Function.update_of_ne (StableHlo.devRef_ne_of_ne (by decide) : (Proc.devRef .tc (Pipeline.arrRef spec2 2) : DevRef τ sig) ≠ Proc.devRef .tc main_v86) (o9 m c) (U8 m c)).symm)
theorem hF2_3 (c : Dev nD) : (dat2 (atTc (U8 m)) c).arrAt 3 cfg2.N = atTc (U9 m) c (Pipeline.arrRef spec2 3) :=
  (Function.update_self (Proc.devRef .tc main_v86 : DevRef τ sig) (o9 m c) (U8 m c)).symm
theorem hF2 (c : Dev nD) : ∀ w : Fin 4, (dat2 (atTc (U8 m)) c).arrAt w cfg2.N = atTc (U9 m) c (Pipeline.arrRef spec2 w) := fun
  | 0 => hF2_0 m c
  | 1 => hF2_1 m c
  | 2 => hF2_2 m c
  | 3 => hF2_3 m c
/-- Every other buffer holds at the exit what it held on entry. -/
theorem hrest2 (c : Dev nD) : ∀ b, b ∉ Finset.univ.image (Pipeline.arrRef spec2) → atTc (U9 m) c b = atTc (U8 m) c b :=
  fun b hb => Function.update_of_ne (StableHlo.devRef_ne_of_ne (fun e => hb (Finset.mem_image.mpr ⟨(3 : Fin cfg2.W), Finset.mem_univ _, by subst e; rfl⟩))) _ _

set_option backward.isDefEq.respectTransparency.types false in
/-- REGION 2 as a segment of @main: entered with every unscoped buffer at `U8`, left with them at `U9`. Its
    arrays are split out of the unscoped buffers on entry and put back at their exit contents; the generator
    register goes into the pipeline's invariant and comes back; nothing is owed; the kernel has no semaphore of
    its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (U8 m)) c).loose
  hwaits := Pipeline.hwaits_of_owed_zero _ _ _ _ L lv 2 fun _ _ => rfl
  pre c := iprop(StableHlo.held (c : Thread nD τ) (Pipeline.ucRefs τ sig) (U8 m c) ∗ Rr c)
  post c := iprop(StableHlo.held (c : Thread nD τ) (Pipeline.ucRefs τ sig) (U9 m c) ∗ Rr c)
  X c := iprop(∃ r, prngReg c r)
  Y c := iprop(∃ r, prngReg c r)
  Z c := Pipeline.unscopedRest (Ix := Unit) (Name := ℕ) (U := UR sig nD τ) (Lvl := ℕ) spec2 c (atTc (U8 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (U8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (U8 m) c) (atTc (U9 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 3's exit each of its arrays holds what the pipeline leaves: an input array what it held on entry, the
    result array the blocks written back. -/
theorem hF3_0 (c : Dev nD) : (dat3 (atTc (U10 m)) c).arrAt 0 cfg3.N = atTc (U11 m) c (Pipeline.arrRef spec3 0) :=
  ((dat3 (atTc (U10 m)) c).arrAt_in 0 rfl _).trans ((A_eq3 (atTc (U10 m)) c 0).trans
    (Function.update_of_ne (StableHlo.devRef_ne_of_ne (by decide) : (Proc.devRef .tc (Pipeline.arrRef spec3 0) : DevRef τ sig) ≠ Proc.devRef .tc main_v117) (o11 m c) (U10 m c)).symm)
theorem hF3_1 (c : Dev nD) : (dat3 (atTc (U10 m)) c).arrAt 1 cfg3.N = atTc (U11 m) c (Pipeline.arrRef spec3 1) :=
  ((dat3 (atTc (U10 m)) c).arrAt_in 1 rfl _).trans ((A_eq3 (atTc (U10 m)) c 1).trans
    (Function.update_of_ne (StableHlo.devRef_ne_of_ne (by decide) : (Proc.devRef .tc (Pipeline.arrRef spec3 1) : DevRef τ sig) ≠ Proc.devRef .tc main_v117) (o11 m c) (U10 m c)).symm)
theorem hF3_2 (c : Dev nD) : (dat3 (atTc (U10 m)) c).arrAt 2 cfg3.N = atTc (U11 m) c (Pipeline.arrRef spec3 2) :=
  ((dat3 (atTc (U10 m)) c).arrAt_in 2 rfl _).trans ((A_eq3 (atTc (U10 m)) c 2).trans
    (Function.update_of_ne (StableHlo.devRef_ne_of_ne (by decide) : (Proc.devRef .tc (Pipeline.arrRef spec3 2) : DevRef τ sig) ≠ Proc.devRef .tc main_v117) (o11 m c) (U10 m c)).symm)
theorem hF3_3 (c : Dev nD) : (dat3 (atTc (U10 m)) c).arrAt 3 cfg3.N = atTc (U11 m) c (Pipeline.arrRef spec3 3) :=
  (Function.update_self (Proc.devRef .tc main_v117 : DevRef τ sig) (o11 m c) (U10 m c)).symm
theorem hF3 (c : Dev nD) : ∀ w : Fin 4, (dat3 (atTc (U10 m)) c).arrAt w cfg3.N = atTc (U11 m) c (Pipeline.arrRef spec3 w) := fun
  | 0 => hF3_0 m c
  | 1 => hF3_1 m c
  | 2 => hF3_2 m c
  | 3 => hF3_3 m c
/-- Every other buffer holds at the exit what it held on entry. -/
theorem hrest3 (c : Dev nD) : ∀ b, b ∉ Finset.univ.image (Pipeline.arrRef spec3) → atTc (U11 m) c b = atTc (U10 m) c b :=
  fun b hb => Function.update_of_ne (StableHlo.devRef_ne_of_ne (fun e => hb (Finset.mem_image.mpr ⟨(3 : Fin cfg3.W), Finset.mem_univ _, by subst e; rfl⟩))) _ _

set_option backward.isDefEq.respectTransparency.types false in
/-- REGION 3 as a segment of @main: entered with every unscoped buffer at `U10`, left with them at `U11`. Its
    arrays are split out of the unscoped buffers on entry and put back at their exit contents; the generator
    register goes into the pipeline's invariant and comes back; nothing is owed; the kernel has no semaphore of
    its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (U10 m)) c).loose
  hwaits := Pipeline.hwaits_of_owed_zero _ _ _ _ L lv 3 fun _ _ => rfl
  pre c := iprop(StableHlo.held (c : Thread nD τ) (Pipeline.ucRefs τ sig) (U10 m c) ∗ Rr c)
  post c := iprop(StableHlo.held (c : Thread nD τ) (Pipeline.ucRefs τ sig) (U11 m c) ∗ Rr c)
  X c := iprop(∃ r, prngReg c r)
  Y c := iprop(∃ r, prngReg c r)
  Z c := Pipeline.unscopedRest (Ix := Unit) (Name := ℕ) (U := UR sig nD τ) (Lvl := ℕ) spec3 c (atTc (U10 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (U10 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (U10 m) c) (atTc (U11 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 4's exit each of its arrays holds what the pipeline leaves: an input array what it held on entry, the
    result array the blocks written back. -/
theorem hF4_0 (c : Dev nD) : (dat4 (atTc (U11 m)) c).arrAt 0 cfg4.N = atTc (U12 m) c (Pipeline.arrRef spec4 0) :=
  ((dat4 (atTc (U11 m)) c).arrAt_in 0 rfl _).trans ((A_eq4 (atTc (U11 m)) c 0).trans
    (Function.update_of_ne (StableHlo.devRef_ne_of_ne (by decide) : (Proc.devRef .tc (Pipeline.arrRef spec4 0) : DevRef τ sig) ≠ Proc.devRef .tc main_v118) (o12 m c) (U11 m c)).symm)
theorem hF4_1 (c : Dev nD) : (dat4 (atTc (U11 m)) c).arrAt 1 cfg4.N = atTc (U12 m) c (Pipeline.arrRef spec4 1) :=
  (Function.update_self (Proc.devRef .tc main_v118 : DevRef τ sig) (o12 m c) (U11 m c)).symm
theorem hF4 (c : Dev nD) : ∀ w : Fin 2, (dat4 (atTc (U11 m)) c).arrAt w cfg4.N = atTc (U12 m) c (Pipeline.arrRef spec4 w) := fun
  | 0 => hF4_0 m c
  | 1 => hF4_1 m c
/-- Every other buffer holds at the exit what it held on entry. -/
theorem hrest4 (c : Dev nD) : ∀ b, b ∉ Finset.univ.image (Pipeline.arrRef spec4) → atTc (U12 m) c b = atTc (U11 m) c b :=
  fun b hb => Function.update_of_ne (StableHlo.devRef_ne_of_ne (fun e => hb (Finset.mem_image.mpr ⟨(1 : Fin cfg4.W), Finset.mem_univ _, by subst e; rfl⟩))) _ _

set_option backward.isDefEq.respectTransparency.types false in
/-- REGION 4 as a segment of @main: entered with every unscoped buffer at `U11`, left with them at `U12`. Its
    arrays are split out of the unscoped buffers on entry and put back at their exit contents; the generator
    register goes into the pipeline's invariant and comes back; nothing is owed; the kernel has no semaphore of
    its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atTc (U11 m)) c).loose
  hwaits := Pipeline.hwaits_of_owed_zero _ _ _ _ L lv 4 fun _ _ => rfl
  pre c := iprop(StableHlo.held (c : Thread nD τ) (Pipeline.ucRefs τ sig) (U11 m c) ∗ Rr c)
  post c := iprop(StableHlo.held (c : Thread nD τ) (Pipeline.ucRefs τ sig) (U12 m c) ∗ Rr c)
  X c := iprop(∃ r, prngReg c r)
  Y c := iprop(∃ r, prngReg c r)
  Z c := Pipeline.unscopedRest (Ix := Unit) (Name := ℕ) (U := UR sig nD τ) (Lvl := ℕ) spec4 c (atTc (U11 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (U11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (U11 m) c) (atTc (U12 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KernelIdeal.Frame.lean ====
import proofs.«163259_j24927990186434_1_alg».proof.Proof.KernelIdeal.Segs
import Idealize.ShloMosaic.Lib.Pipeline.Kit

/-!
# The whole run of @main

From the five regions' segments and the host stretches between them: every weakly fair execution of @main terminates
without a fault, and every final memory holds each unscoped buffer at the contents named for the last boundary. The
frame claim reads the fourteen argument arrays off that, none of which any item writes.
-/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

-- the implicit arguments of the regions' run theorem are found by unifying its conclusion with this one
set_option backward.isDefEq.respectTransparency.types false in
/-- THE RUN, GIVEN THE REGIONS. For any contents `outs` the regions leave and any proof data: given, per region, a
    segment entered from the boundary contents before it and left at those after it, every weakly fair execution of
    @main from memory `m` with zero counters terminates and every final memory holds every unscoped buffer at the last
    boundary's contents. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 5) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 6 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE5 : ∀ c : Dev nD, E 5 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V2 m c) ∗ E 0 c) ⊢ R0.pre c)
    (hpost0 : ∀ c : Dev nD, R0.post c ⊢ iprop(StableHlo.held (c : Thread nD τ) (Pipeline.ucRefs τ sig) (V3 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V6 m outs c) ∗ E 1 c) ⊢ R1.pre c)
    (hpost1 : ∀ c : Dev nD, R1.post c ⊢ iprop(StableHlo.held (c : Thread nD τ) (Pipeline.ucRefs τ sig) (V7 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V8 m outs c) ∗ E 2 c) ⊢ R2.pre c)
    (hpost2 : ∀ c : Dev nD, R2.post c ⊢ iprop(StableHlo.held (c : Thread nD τ) (Pipeline.ucRefs τ sig) (V9 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V10 m outs c) ∗ E 3 c) ⊢ R3.pre c)
    (hpost3 : ∀ c : Dev nD, R3.post c ⊢ iprop(StableHlo.held (c : Thread nD τ) (Pipeline.ucRefs τ sig) (V11 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V11 m outs c) ∗ E 4 c) ⊢ R4.pre c)
    (hpost4 : ∀ c : Dev nD, R4.post c ⊢ iprop(StableHlo.held (c : Thread nD τ) (Pipeline.ucRefs τ sig) (V12 m outs c) ∗ E 5 c)) :
    θ_run defs (onTc (τ := τ) (main (F := F))) ⟨m, fun _ => 0, ρ⟩ (fun r => ∀ c : Dev nD,
      ∀ b ∈ Pipeline.ucRefs τ sig, r.2.mem (((c : Thread nD τ)).1, b) = V13 m outs c b) := by
  refine Pipeline.θ_run_regions_kit_dev (pcfgs (F := F)) adm pdats ι cellOf_inj EP defs₀ 𝒱₀ L lv m ρ main
    (segs m outs 𝒱₀ L lv E ι pdats R0 R1 R2 R3 R4)
    (fun c Q => by
      rewrite [main_chain c, Seg.run_eq_chain,
        show (segs m outs 𝒱₀ L lv E ι pdats R0 R1 R2 R3 R4 c).map Seg.prog = [
          StableHlo.seq hostOps0,
          StableHlo.seq hostOps0_1,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          Prog.lift (.customCall (Pipeline.entry 3) ()),
          Prog.lift (.customCall (Pipeline.entry 4) ()),
          StableHlo.seq hostOps5 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, .rfl, hpre0 c, hpost0 c, .rfl, .rfl, hpre1 c, hpost1 c, hpre2 c, hpost2 c, hpre3 c, (hpost3 c).trans (hpre4 c), hpost4 c, sep_mono .rfl (hE5 c)⟩)
    (hinit := ?_) (QY := fun c s => ∀ b ∈ Pipeline.ucRefs τ sig, s.mem (((c : Thread nD τ)).1, b) = V13 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro
      exact h
    · iexact HSI

variable (ρ : Dev nD → PrngReg)

set_option maxHeartbeats 1600000 in
/-- THE RUN: every weakly fair execution of @main terminates, and every final memory holds every unscoped buffer at
    `U13`, the contents after the last host stretch. -/
theorem run : θ_run defs (onTc (τ := τ) (main (F := F))) ⟨m, fun _ => 0, ρ⟩ (fun r => ∀ c : Dev nD,
      ∀ b ∈ Pipeline.ucRefs τ sig, r.2.mem (((c : Thread nD τ)).1, b) = U13 m c b) := by
  have h := run_cond (F := F) m (Ix := Unit) (U := UR sig nD τ) (Lvl := ℕ) emb₁ () 𝒱₀ L lv (fun _ _ => rfl) ρ (outsOf m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach L lv fun c => ?_
      iintro ⟨⟨-, HO, -, Hp, -⟩, -⟩
      imodintro
      isplitl [Hp]; · iexists _; iexact Hp
      iexists ∅; iexact HO)
    (hE5 := fun c => by iintro ⟨-, HO⟩; iexact HO)
    (reg0 m) (fun c => .rfl) (fun c => by rw [V3_eq]; exact .rfl)
    (reg1 m) (fun c => by rw [V6_eq]; exact .rfl) (fun c => by rw [V7_eq]; exact .rfl)
    (reg2 m) (fun c => by rw [V8_eq]; exact .rfl) (fun c => by rw [V9_eq]; exact .rfl)
    (reg3 m) (fun c => by rw [V10_eq]; exact .rfl) (fun c => by rw [V11_eq]; exact .rfl)
    (reg4 m) (fun c => by rw [V11_eq]; exact .rfl) (fun c => by rw [V12_eq]; exact .rfl)
  exact (θ_run defs _ _).mono (fun _ h c b hb => (h c b hb).trans (congrFun (V13_eq m c) b)) h

/-- An unscoped TensorCore reference is among those the last boundary holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem U13_main_arg0 (c : Dev nD) : U13 m c main_arg0 = m ((c : Thread nD τ).loc main_arg0) :=
  (congrFun (V13_eq m c) _).symm.trans (V13_main_arg0 m (outsOf m) c)
theorem U13_main_arg1 (c : Dev nD) : U13 m c main_arg1 = m ((c : Thread nD τ).loc main_arg1) :=
  (congrFun (V13_eq m c) _).symm.trans (V13_main_arg1 m (outsOf m) c)
theorem U13_main_arg2 (c : Dev nD) : U13 m c main_arg2 = m ((c : Thread nD τ).loc main_arg2) :=
  (congrFun (V13_eq m c) _).symm.trans (V13_main_arg2 m (outsOf m) c)
theorem U13_main_arg3 (c : Dev nD) : U13 m c main_arg3 = m ((c : Thread nD τ).loc main_arg3) :=
  (congrFun (V13_eq m c) _).symm.trans (V13_main_arg3 m (outsOf m) c)
theorem U13_main_arg4 (c : Dev nD) : U13 m c main_arg4 = m ((c : Thread nD τ).loc main_arg4) :=
  (congrFun (V13_eq m c) _).symm.trans (V13_main_arg4 m (outsOf m) c)
theorem U13_main_arg5 (c : Dev nD) : U13 m c main_arg5 = m ((c : Thread nD τ).loc main_arg5) :=
  (congrFun (V13_eq m c) _).symm.trans (V13_main_arg5 m (outsOf m) c)
theorem U13_main_arg6 (c : Dev nD) : U13 m c main_arg6 = m ((c : Thread nD τ).loc main_arg6) :=
  (congrFun (V13_eq m c) _).symm.trans (V13_main_arg6 m (outsOf m) c)
theorem U13_main_arg7 (c : Dev nD) : U13 m c main_arg7 = m ((c : Thread nD τ).loc main_arg7) :=
  (congrFun (V13_eq m c) _).symm.trans (V13_main_arg7 m (outsOf m) c)
theorem U13_main_arg8 (c : Dev nD) : U13 m c main_arg8 = m ((c : Thread nD τ).loc main_arg8) :=
  (congrFun (V13_eq m c) _).symm.trans (V13_main_arg8 m (outsOf m) c)
theorem U13_main_arg9 (c : Dev nD) : U13 m c main_arg9 = m ((c : Thread nD τ).loc main_arg9) :=
  (congrFun (V13_eq m c) _).symm.trans (V13_main_arg9 m (outsOf m) c)
theorem U13_main_arg10 (c : Dev nD) : U13 m c main_arg10 = m ((c : Thread nD τ).loc main_arg10) :=
  (congrFun (V13_eq m c) _).symm.trans (V13_main_arg10 m (outsOf m) c)
theorem U13_main_arg11 (c : Dev nD) : U13 m c main_arg11 = m ((c : Thread nD τ).loc main_arg11) :=
  (congrFun (V13_eq m c) _).symm.trans (V13_main_arg11 m (outsOf m) c)
theorem U13_main_arg12 (c : Dev nD) : U13 m c main_arg12 = m ((c : Thread nD τ).loc main_arg12) :=
  (congrFun (V13_eq m c) _).symm.trans (V13_main_arg12 m (outsOf m) c)
theorem U13_main_arg13 (c : Dev nD) : U13 m c main_arg13 = m ((c : Thread nD τ).loc main_arg13) :=
  (congrFun (V13_eq m c) _).symm.trans (V13_main_arg13 m (outsOf m) c)

/-- THE FRAME: every weakly fair execution of @main terminates without a fault and leaves the fourteen argument arrays as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c _ (mem_uc main_arg0 (by decide))).trans (U13_main_arg0 m c),
    (h c _ (mem_uc main_arg1 (by decide))).trans (U13_main_arg1 m c),
    (h c _ (mem_uc main_arg2 (by decide))).trans (U13_main_arg2 m c),
    (h c _ (mem_uc main_arg3 (by decide))).trans (U13_main_arg3 m c),
    (h c _ (mem_uc main_arg4 (by decide))).trans (U13_main_arg4 m c),
    (h c _ (mem_uc main_arg5 (by decide))).trans (U13_main_arg5 m c),
    (h c _ (mem_uc main_arg6 (by decide))).trans (U13_main_arg6 m c),
    (h c _ (mem_uc main_arg7 (by decide))).trans (U13_main_arg7 m c),
    (h c _ (mem_uc main_arg8 (by decide))).trans (U13_main_arg8 m c),
    (h c _ (mem_uc main_arg9 (by decide))).trans (U13_main_arg9 m c),
    (h c _ (mem_uc main_arg10 (by decide))).trans (U13_main_arg10 m c),
    (h c _ (mem_uc main_arg11 (by decide))).trans (U13_main_arg11 m c),
    (h c _ (mem_uc main_arg12 (by decide))).trans (U13_main_arg12 m c),
    (h c _ (mem_uc main_arg13 (by decide))).trans (U13_main_arg13 m c)⟩) (run m ρ)

end Cert.KernelIdeal.Reg

end
-- ==== Proof.ReferenceIdeal.Line.lean ====
import proofs.«163259_j24927990186434_1_alg».proof.Proof.Gen.ReferenceIdeal
import Idealize.ShloMosaic.Lib.StableHlo.Run
import Idealize.ShloMosaic.Lib.Pipeline.Regions
import Idealize.ShloMosaic.Lib.Tactic

/-!
# The reference program as one straight line of host operations

The reference's @main calls six small functions (two `nan_to_num`, four `relu`), and `nan_to_num` itself calls
`where` three times; everything else is a plain host operation. Writing each call's body out at the call, over that
call's own buffers, makes @main a straight line of 202 operations. This file lists them, cut into stretches at the
calls, proves that @main is their sequence, and reads the run off the general theorem for a straight line: every
weakly fair execution terminates, and every buffer ends at the fold of the operations over its launch contents.
-/

noncomputable section

namespace Cert.ReferenceIdeal.Line

open Cert.ReferenceIdeal Cert.ReferenceIdeal.Gen Idealize.ShloMosaic Idealize.ShloMosaic.TcCoe Idealize.ShloMosaic.Tactic Idealize.SL.Sem Idealize.ShloMosaic.StableHlo

variable {F : FTy → Type} [FloatOps F]

/-- Stretch 0 of the first window of @main: 16 operations. -/
abbrev it0_0 : List (HloOp τ sig (Elt F)) :=
  [ StableHlo.TRef.binary (.of main_arg0) (.of main_arg0) main_call0.v0 (cmpf .une),
    StableHlo.TRef.nullary main_call0.cst (constant S_ .f32 0x00000000#32),
    StableHlo.TRef.unary main_call0.cst main_call0.call0.v0 (broadcastInDim S100000x32 ![] bcast_S_S100000x32),
    StableHlo.TRef.ternary main_call0.v0 main_call0.call0.v0 (.of main_arg0) main_call0.call0.v1 select,
    StableHlo.TRef.nullary main_call0.cst_0 (constant S_ .f32 0x7F800000#32),
    StableHlo.TRef.unary main_call0.cst_0 main_call0.v2 (broadcastInDim S100000x32 ![] bcast_S_S100000x32),
    StableHlo.TRef.binary main_call0.call0.v1 main_call0.v2 main_call0.v3 (cmpf .oeq),
    StableHlo.TRef.nullary main_call0.cst_1 (constant S_ .f32 0x7F7FFFFF#32),
    StableHlo.TRef.unary main_call0.cst_1 main_call0.call1.v0 (broadcastInDim S100000x32 ![] bcast_S_S100000x32),
    StableHlo.TRef.ternary main_call0.v3 main_call0.call1.v0 main_call0.call0.v1 main_call0.call1.v1 select,
    StableHlo.TRef.nullary main_call0.cst_2 (constant S_ .f32 0xFF800000#32),
    StableHlo.TRef.unary main_call0.cst_2 main_call0.v5 (broadcastInDim S100000x32 ![] bcast_S_S100000x32),
    StableHlo.TRef.binary main_call0.call1.v1 main_call0.v5 main_call0.v6 (cmpf .oeq),
    StableHlo.TRef.nullary main_call0.cst_3 (constant S_ .f32 0xFF7FFFFF#32),
    StableHlo.TRef.unary main_call0.cst_3 main_call0.call2.v0 (broadcastInDim S100000x32 ![] bcast_S_S100000x32),
    StableHlo.TRef.ternary main_call0.v6 main_call0.call2.v0 main_call0.call1.v1 main_call0.call2.v1 select ]
theorem it0_0_sub : (it0_0 : List (HloOp τ sig (Elt F))).Forall fun op => op.bufs ⊆ tcRefs τ sig :=
  ⟨binary_bufs_sub .., nullary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub ..⟩
theorem it0_0_fresh : (it0_0 : List (HloOp τ sig (Elt F))).Forall fun op => op.fresh = ∅ := by
  simp only [List.Forall]; repeat' constructor

/-- Stretch 1 of the first window of @main: 14 operations. -/
abbrev it0_1 : List (HloOp τ sig (Elt F)) :=
  [ StableHlo.nullary main_c (constantI S_ 32 0#32),
    StableHlo.unary main_c main_v1 (broadcastInDim S1600000 ![] bcast_S_S1600000 : (⟨S_, .i32⟩ : BufTy).Contents (Elt F) → (⟨S1600000, .i32⟩ : BufTy).Contents (Elt F)),
    StableHlo.binary main_arg2 main_v1 main_v2 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v3 (broadcastInDim S1600000 ![] bcast_S_S1600000 : (⟨S_, .i32⟩ : BufTy).Contents (Elt F) → (⟨S1600000, .i32⟩ : BufTy).Contents (Elt F)),
    StableHlo.binary main_arg2 main_v3 main_v4 (addi : (⟨S1600000, .i32⟩ : BufTy).Contents (Elt F) → (⟨S1600000, .i32⟩ : BufTy).Contents (Elt F) → (⟨S1600000, .i32⟩ : BufTy).Contents (Elt F)),
    StableHlo.ternary main_v2 main_v4 main_arg2 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v5 main_v6 (broadcastInDim S1600000x1 ![0] bcast_S1600000_S1600000x1_0 : (⟨S1600000, .i32⟩ : BufTy).Contents (Elt F) → (⟨S1600000x1, .i32⟩ : BufTy).Contents (Elt F)),
    StableHlo.binary main_v0 main_v6 main_v7 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.binary main_v7 main_arg1 main_v8 ((fun a b => concatenate S1600000x64 1 [⟨S1600000x32, a⟩, ⟨S1600000x32, b⟩] concatenates_S1600000x32_S1600000x32_S1600000x64_d1) : (⟨S1600000x32, .f32⟩ : BufTy).Contents (Elt F) → (⟨S1600000x32, .f32⟩ : BufTy).Contents (Elt F) → (⟨S1600000x64, .f32⟩ : BufTy).Contents (Elt F)),
    StableHlo.binary main_v8 main_arg4 main_v9 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    StableHlo.unary main_arg5 main_v10 (broadcastInDim S1x64 ![1] bcast_S64_S1x64_1 : (⟨S64, .f32⟩ : BufTy).Contents (Elt F) → (⟨S1x64, .f32⟩ : BufTy).Contents (Elt F)),
    StableHlo.unary main_v10 main_v11 (broadcastInDim S1600000x64 ![0, 1] bcast_S1x64_S1600000x64_0_1 : (⟨S1x64, .f32⟩ : BufTy).Contents (Elt F) → (⟨S1600000x64, .f32⟩ : BufTy).Contents (Elt F)),
    StableHlo.binary main_v9 main_v11 main_v12 (addf : (⟨S1600000x64, .f32⟩ : BufTy).Contents (Elt F) → (⟨S1600000x64, .f32⟩ : BufTy).Contents (Elt F) → (⟨S1600000x64, .f32⟩ : BufTy).Contents (Elt F)) ]
theorem it0_1_sub : (it0_1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub ..⟩
theorem it0_1_fresh : (it0_1 : List (HloOp τ sig (Elt F))).Forall fun op => op.fresh = ∅ := by
  simp only [List.Forall]; repeat' constructor

/-- Stretch 2 of the first window of @main: 3 operations. -/
abbrev it0_2 : List (HloOp τ sig (Elt F)) :=
  [ StableHlo.TRef.nullary main_call1.cst (constant S_ .f32 0x00000000#32),
    StableHlo.TRef.unary main_call1.cst main_call1.v0 (broadcastInDim S1600000x64 ![] bcast_S_S1600000x64),
    StableHlo.TRef.binary (.of main_v12) main_call1.v0 main_call1.v1 maximumf ]
theorem it0_2_sub : (it0_2 : List (HloOp τ sig (Elt F))).Forall fun op => op.bufs ⊆ tcRefs τ sig :=
  ⟨nullary_bufs_sub .., unary_bufs_sub .., binary_bufs_sub ..⟩
theorem it0_2_fresh : (it0_2 : List (HloOp τ sig (Elt F))).Forall fun op => op.fresh = ∅ := by
  simp only [List.Forall]; repeat' constructor

/-- Stretch 3 of the first window of @main: 4 operations. -/
abbrev it0_3 : List (HloOp τ sig (Elt F)) :=
  [ StableHlo.nullary main_cst (constant S_ .f32 0x00000000#32),
    StableHlo.unary main_cst main_v14 (broadcastInDim S100000x64 ![] bcast_S_S100000x64 : (⟨S_, .f32⟩ : BufTy).Contents (Elt F) → (⟨S100000x64, .f32⟩ : BufTy).Contents (Elt F)),
    StableHlo.unary main_arg3 main_v15 (broadcastInDim S1600000x1 ![0] bcast_S1600000_S1600000x1_0 : (⟨S1600000, .i32⟩ : BufTy).Contents (Elt F) → (⟨S1600000x1, .i32⟩ : BufTy).Contents (Elt F)),
    StableHlo.ternary main_v14 main_v15 main_v13 main_v16 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]
theorem it0_3_sub : (it0_3 : List (HloOp τ sig (Elt F))).Forall fun op => op.bufs ⊆ tcRefs τ sig :=
  ⟨nullary_bufs_sub .., unary_bufs_sub .., unary_bufs_sub .., ternary_bufs_sub ..⟩
theorem it0_3_fresh : (it0_3 : List (HloOp τ sig (Elt F))).Forall fun op => op.fresh = ∅ := by
  simp only [List.Forall]; repeat' constructor

/-- Stretch 4 of the first window of @main: 16 operations. -/
abbrev it0_4 : List (HloOp τ sig (Elt F)) :=
  [ StableHlo.TRef.binary (.of main_v16) (.of main_v16) main_call2.v0 (cmpf .une),
    StableHlo.TRef.nullary main_call2.cst (constant S_ .f32 0x00000000#32),
    StableHlo.TRef.unary main_call2.cst main_call2.call0.v0 (broadcastInDim S100000x64 ![] bcast_S_S100000x64),
    StableHlo.TRef.ternary main_call2.v0 main_call2.call0.v0 (.of main_v16) main_call2.call0.v1 select,
    StableHlo.TRef.nullary main_call2.cst_0 (constant S_ .f32 0x7F800000#32),
    StableHlo.TRef.unary main_call2.cst_0 main_call2.v2 (broadcastInDim S100000x64 ![] bcast_S_S100000x64),
    StableHlo.TRef.binary main_call2.call0.v1 main_call2.v2 main_call2.v3 (cmpf .oeq),
    StableHlo.TRef.nullary main_call2.cst_1 (constant S_ .f32 0x7F7FFFFF#32),
    StableHlo.TRef.unary main_call2.cst_1 main_call2.call1.v0 (broadcastInDim S100000x64 ![] bcast_S_S100000x64),
    StableHlo.TRef.ternary main_call2.v3 main_call2.call1.v0 main_call2.call0.v1 main_call2.call1.v1 select,
    StableHlo.TRef.nullary main_call2.cst_2 (constant S_ .f32 0xFF800000#32),
    StableHlo.TRef.unary main_call2.cst_2 main_call2.v5 (broadcastInDim S100000x64 ![] bcast_S_S100000x64),
    StableHlo.TRef.binary main_call2.call1.v1 main_call2.v5 main_call2.v6 (cmpf .oeq),
    StableHlo.TRef.nullary main_call2.cst_3 (constant S_ .f32 0xFF7FFFFF#32),
    StableHlo.TRef.unary main_call2.cst_3 main_call2.call2.v0 (broadcastInDim S100000x64 ![] bcast_S_S100000x64),
    StableHlo.TRef.ternary main_call2.v6 main_call2.call2.v0 main_call2.call1.v1 main_call2.call2.v1 select ]
theorem it0_4_sub : (it0_4 : List (HloOp τ sig (Elt F))).Forall fun op => op.bufs ⊆ tcRefs τ sig :=
  ⟨binary_bufs_sub .., nullary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub ..⟩
theorem it0_4_fresh : (it0_4 : List (HloOp τ sig (Elt F))).Forall fun op => op.fresh = ∅ := by
  simp only [List.Forall]; repeat' constructor

/-- Stretch 5 of the first window of @main: 39 operations. -/
abbrev it0_5 : List (HloOp τ sig (Elt F)) :=
  [ StableHlo.nullary main_cst_1 (constant S_ .f32 0x3F800000#32),
    StableHlo.unary main_cst_1 main_v18 (broadcastInDim S1600000 ![] bcast_S_S1600000 : (⟨S_, .f32⟩ : BufTy).Contents (Elt F) → (⟨S1600000, .f32⟩ : BufTy).Contents (Elt F)),
    StableHlo.nullary main_cst_2 (constant S_ .f32 0x00000000#32),
    StableHlo.unary main_cst_2 main_v19 (broadcastInDim S100000 ![] bcast_S_S100000 : (⟨S_, .f32⟩ : BufTy).Contents (Elt F) → (⟨S100000, .f32⟩ : BufTy).Contents (Elt F)),
    StableHlo.unary main_arg3 main_v20 (broadcastInDim S1600000x1 ![0] bcast_S1600000_S1600000x1_0 : (⟨S1600000, .i32⟩ : BufTy).Contents (Elt F) → (⟨S1600000x1, .i32⟩ : BufTy).Contents (Elt F)),
    StableHlo.ternary main_v19 main_v20 main_v18 main_v21 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_3 (constant S_ .f32 0x3F800000#32),
    StableHlo.unary main_cst_3 main_v22 (broadcastInDim S100000 ![] bcast_S_S100000 : (⟨S_, .f32⟩ : BufTy).Contents (Elt F) → (⟨S100000, .f32⟩ : BufTy).Contents (Elt F)),
    StableHlo.binary main_v21 main_v22 main_v23 (maximumf : (⟨S100000, .f32⟩ : BufTy).Contents (Elt F) → (⟨S100000, .f32⟩ : BufTy).Contents (Elt F) → (⟨S100000, .f32⟩ : BufTy).Contents (Elt F)),
    StableHlo.nullary main_cst_4 (constant S_ .f32 0xBF000000#32),
    StableHlo.unary main_cst_4 main_v24 (broadcastInDim S100000 ![] bcast_S_S100000 : (⟨S_, .f32⟩ : BufTy).Contents (Elt F) → (⟨S100000, .f32⟩ : BufTy).Contents (Elt F)),
    StableHlo.binary main_v23 main_v24 main_v25 (Host.powf : (⟨S100000, .f32⟩ : BufTy).Contents (Elt F) → (⟨S100000, .f32⟩ : BufTy).Contents (Elt F) → (⟨S100000, .f32⟩ : BufTy).Contents (Elt F)),
    StableHlo.unary main_v25 main_v26 (broadcastInDim S100000x1 ![0] bcast_S100000_S100000x1_0 : (⟨S100000, .f32⟩ : BufTy).Contents (Elt F) → (⟨S100000x1, .f32⟩ : BufTy).Contents (Elt F)),
    StableHlo.binary main_v0 main_v17 main_v27 ((fun a b => concatenate S100000x96 1 [⟨S100000x32, a⟩, ⟨S100000x64, b⟩] concatenates_S100000x32_S100000x64_S100000x96_d1) : (⟨S100000x32, .f32⟩ : BufTy).Contents (Elt F) → (⟨S100000x64, .f32⟩ : BufTy).Contents (Elt F) → (⟨S100000x96, .f32⟩ : BufTy).Contents (Elt F)),
    StableHlo.unary main_v26 main_v28 (broadcastInDim S100000x96 ![0, 1] bcast_S100000x1_S100000x96_0_1 : (⟨S100000x1, .f32⟩ : BufTy).Contents (Elt F) → (⟨S100000x96, .f32⟩ : BufTy).Contents (Elt F)),
    StableHlo.binary main_v27 main_v28 main_v29 (mulf : (⟨S100000x96, .f32⟩ : BufTy).Contents (Elt F) → (⟨S100000x96, .f32⟩ : BufTy).Contents (Elt F) → (⟨S100000x96, .f32⟩ : BufTy).Contents (Elt F)),
    StableHlo.nullary main_c_5 (constantI S_ 32 0#32),
    StableHlo.unary main_c_5 main_v30 (broadcastInDim S1600000 ![] bcast_S_S1600000 : (⟨S_, .i32⟩ : BufTy).Contents (Elt F) → (⟨S1600000, .i32⟩ : BufTy).Contents (Elt F)),
    StableHlo.binary main_arg2 main_v30 main_v31 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v32 (broadcastInDim S1600000 ![] bcast_S_S1600000 : (⟨S_, .i32⟩ : BufTy).Contents (Elt F) → (⟨S1600000, .i32⟩ : BufTy).Contents (Elt F)),
    StableHlo.binary main_arg2 main_v32 main_v33 (addi : (⟨S1600000, .i32⟩ : BufTy).Contents (Elt F) → (⟨S1600000, .i32⟩ : BufTy).Contents (Elt F) → (⟨S1600000, .i32⟩ : BufTy).Contents (Elt F)),
    StableHlo.ternary main_v31 main_v33 main_arg2 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v34 main_v35 (broadcastInDim S1600000x1 ![0] bcast_S1600000_S1600000x1_0 : (⟨S1600000, .i32⟩ : BufTy).Contents (Elt F) → (⟨S1600000x1, .i32⟩ : BufTy).Contents (Elt F)),
    StableHlo.binary main_v29 main_v35 main_v36 ((fun x i => Host.gather gather_S100000x96_S1600000x1_S1600000x96_1_0_n_n_0_1_196 x i) : (⟨S100000x96, .f32⟩ : BufTy).Contents (Elt F) → (⟨S1600000x1, .i32⟩ : BufTy).Contents (Elt F) → (⟨S1600000x96, .f32⟩ : BufTy).Contents (Elt F)),
    StableHlo.nullary main_cst_7 (constant S_ .f32 0x00000000#32),
    StableHlo.unary main_cst_7 main_v37 (broadcastInDim S100000x96 ![] bcast_S_S100000x96 : (⟨S_, .f32⟩ : BufTy).Contents (Elt F) → (⟨S100000x96, .f32⟩ : BufTy).Contents (Elt F)),
    StableHlo.unary main_arg3 main_v38 (broadcastInDim S1600000x1 ![0] bcast_S1600000_S1600000x1_0 : (⟨S1600000, .i32⟩ : BufTy).Contents (Elt F) → (⟨S1600000x1, .i32⟩ : BufTy).Contents (Elt F)),
    StableHlo.ternary main_v37 main_v38 main_v36 main_v39 ((fun x i u => Host.scatterAdd scatter_S100000x96_S1600000x1_S1600000x96_1_0_0_1 x i u) : (⟨S100000x96, .f32⟩ : BufTy).Contents (Elt F) → (⟨S1600000x1, .i32⟩ : BufTy).Contents (Elt F) → (⟨S1600000x96, .f32⟩ : BufTy).Contents (Elt F) → (⟨S100000x96, .f32⟩ : BufTy).Contents (Elt F)),
    StableHlo.unary main_v26 main_v40 (broadcastInDim S100000x96 ![0, 1] bcast_S100000x1_S100000x96_0_1 : (⟨S100000x1, .f32⟩ : BufTy).Contents (Elt F) → (⟨S100000x96, .f32⟩ : BufTy).Contents (Elt F)),
    StableHlo.binary main_v39 main_v40 main_v41 (mulf : (⟨S100000x96, .f32⟩ : BufTy).Contents (Elt F) → (⟨S100000x96, .f32⟩ : BufTy).Contents (Elt F) → (⟨S100000x96, .f32⟩ : BufTy).Contents (Elt F)),
    StableHlo.unary main_v26 main_v42 (broadcastInDim S100000x96 ![0, 1] bcast_S100000x1_S100000x96_0_1 : (⟨S100000x1, .f32⟩ : BufTy).Contents (Elt F) → (⟨S100000x96, .f32⟩ : BufTy).Contents (Elt F)),
    StableHlo.binary main_v41 main_v42 main_v43 (mulf : (⟨S100000x96, .f32⟩ : BufTy).Contents (Elt F) → (⟨S100000x96, .f32⟩ : BufTy).Contents (Elt F) → (⟨S100000x96, .f32⟩ : BufTy).Contents (Elt F)),
    StableHlo.nullary main_c_8 (constantI S_ 32 0#32),
    StableHlo.unary main_c_8 main_v44 (broadcastInDim S1600000 ![] bcast_S_S1600000 : (⟨S_, .i32⟩ : BufTy).Contents (Elt F) → (⟨S1600000, .i32⟩ : BufTy).Contents (Elt F)),
    StableHlo.binary main_arg2 main_v44 main_v45 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v46 (broadcastInDim S1600000 ![] bcast_S_S1600000 : (⟨S_, .i32⟩ : BufTy).Contents (Elt F) → (⟨S1600000, .i32⟩ : BufTy).Contents (Elt F)),
    StableHlo.binary main_arg2 main_v46 main_v47 (addi : (⟨S1600000, .i32⟩ : BufTy).Contents (Elt F) → (⟨S1600000, .i32⟩ : BufTy).Contents (Elt F) → (⟨S1600000, .i32⟩ : BufTy).Contents (Elt F)) ]
theorem it0_5_sub : (it0_5 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub ..⟩
theorem it0_5_fresh : (it0_5 : List (HloOp τ sig (Elt F))).Forall fun op => op.fresh = ∅ := by
  simp only [List.Forall]; repeat' constructor

/-- Stretch 0 of the second window of @main: 14 operations. -/
abbrev it1_0 : List (HloOp τ sig (Elt F)) :=
  [ StableHlo.ternary main_v45 main_v47 main_arg2 main_v48 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v48 main_v49 (broadcastInDim S1600000x1 ![0] bcast_S1600000_S1600000x1_0 : (⟨S1600000, .i32⟩ : BufTy).Contents (Elt F) → (⟨S1600000x1, .i32⟩ : BufTy).Contents (Elt F)),
    StableHlo.binary main_v43 main_v49 main_v50 ((fun x i => Host.gather gather_S100000x96_S1600000x1_S1600000x96_1_0_n_n_0_1_196 x i) : (⟨S100000x96, .f32⟩ : BufTy).Contents (Elt F) → (⟨S1600000x1, .i32⟩ : BufTy).Contents (Elt F) → (⟨S1600000x96, .f32⟩ : BufTy).Contents (Elt F)),
    StableHlo.nullary main_cst_10 (constant S_ .f32 0x00000000#32),
    StableHlo.unary main_cst_10 main_v51 (broadcastInDim S100000x96 ![] bcast_S_S100000x96 : (⟨S_, .f32⟩ : BufTy).Contents (Elt F) → (⟨S100000x96, .f32⟩ : BufTy).Contents (Elt F)),
    StableHlo.unary main_arg3 main_v52 (broadcastInDim S1600000x1 ![0] bcast_S1600000_S1600000x1_0 : (⟨S1600000, .i32⟩ : BufTy).Contents (Elt F) → (⟨S1600000x1, .i32⟩ : BufTy).Contents (Elt F)),
    StableHlo.ternary main_v51 main_v52 main_v50 main_v53 ((fun x i u => Host.scatterAdd scatter_S100000x96_S1600000x1_S1600000x96_1_0_0_1 x i u) : (⟨S100000x96, .f32⟩ : BufTy).Contents (Elt F) → (⟨S1600000x1, .i32⟩ : BufTy).Contents (Elt F) → (⟨S1600000x96, .f32⟩ : BufTy).Contents (Elt F) → (⟨S100000x96, .f32⟩ : BufTy).Contents (Elt F)),
    StableHlo.unary main_v26 main_v54 (broadcastInDim S100000x96 ![0, 1] bcast_S100000x1_S100000x96_0_1 : (⟨S100000x1, .f32⟩ : BufTy).Contents (Elt F) → (⟨S100000x96, .f32⟩ : BufTy).Contents (Elt F)),
    StableHlo.binary main_v53 main_v54 main_v55 (mulf : (⟨S100000x96, .f32⟩ : BufTy).Contents (Elt F) → (⟨S100000x96, .f32⟩ : BufTy).Contents (Elt F) → (⟨S100000x96, .f32⟩ : BufTy).Contents (Elt F)),
    StableHlo.nary ![main_v27, main_v41, main_v55] main_v56 (fun u => concatenate S100000x288 1 [⟨S100000x96, u 0⟩, ⟨S100000x96, u 1⟩, ⟨S100000x96, u 2⟩] concatenates_S100000x96_S100000x96_S100000x96_S100000x288_d1),
    StableHlo.binary main_v56 main_arg6 main_v57 ((fun l r => Host.dotGeneral dot_S100000x288_S288x64_S100000x64_1_0_0_1_n_n none l r) : (⟨S100000x288, .f32⟩ : BufTy).Contents (Elt F) → (⟨S288x64, .f32⟩ : BufTy).Contents (Elt F) → (⟨S100000x64, .f32⟩ : BufTy).Contents (Elt F)),
    StableHlo.unary main_arg7 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S100000x64 ![0, 1] bcast_S1x64_S100000x64_0_1 : (⟨S1x64, .f32⟩ : BufTy).Contents (Elt F) → (⟨S100000x64, .f32⟩ : BufTy).Contents (Elt F)),
    StableHlo.binary main_v57 main_v59 main_v60 (addf : (⟨S100000x64, .f32⟩ : BufTy).Contents (Elt F) → (⟨S100000x64, .f32⟩ : BufTy).Contents (Elt F) → (⟨S100000x64, .f32⟩ : BufTy).Contents (Elt F)) ]
theorem it1_0_sub : (it1_0 : List (HloOp τ sig (Elt F))).Forall fun op => op.bufs ⊆ tcRefs τ sig :=
  ⟨ternary_bufs_sub .., unary_bufs_sub .., binary_bufs_sub .., nullary_bufs_sub .., unary_bufs_sub .., unary_bufs_sub .., ternary_bufs_sub .., unary_bufs_sub .., binary_bufs_sub .., nary_bufs_sub .., binary_bufs_sub .., unary_bufs_sub .., unary_bufs_sub .., binary_bufs_sub ..⟩
theorem it1_0_fresh : (it1_0 : List (HloOp τ sig (Elt F))).Forall fun op => op.fresh = ∅ := by
  simp only [List.Forall]; repeat' constructor

/-- Stretch 1 of the second window of @main: 3 operations. -/
abbrev it1_1 : List (HloOp τ sig (Elt F)) :=
  [ StableHlo.TRef.nullary main_call3.cst (constant S_ .f32 0x00000000#32),
    StableHlo.TRef.unary main_call3.cst main_call3.v0 (broadcastInDim S100000x64 ![] bcast_S_S100000x64),
    StableHlo.TRef.binary (.of main_v60) main_call3.v0 main_call3.v1 maximumf ]
theorem it1_1_sub : (it1_1 : List (HloOp τ sig (Elt F))).Forall fun op => op.bufs ⊆ tcRefs τ sig :=
  ⟨nullary_bufs_sub .., unary_bufs_sub .., binary_bufs_sub ..⟩
theorem it1_1_fresh : (it1_1 : List (HloOp τ sig (Elt F))).Forall fun op => op.fresh = ∅ := by
  simp only [List.Forall]; repeat' constructor

/-- Stretch 2 of the second window of @main: 39 operations. -/
abbrev it1_2 : List (HloOp τ sig (Elt F)) :=
  [ StableHlo.unary main_v26 main_v62 (broadcastInDim S100000x64 ![0, 1] bcast_S100000x1_S100000x64_0_1 : (⟨S100000x1, .f32⟩ : BufTy).Contents (Elt F) → (⟨S100000x64, .f32⟩ : BufTy).Contents (Elt F)),
    StableHlo.binary main_v61 main_v62 main_v63 (mulf : (⟨S100000x64, .f32⟩ : BufTy).Contents (Elt F) → (⟨S100000x64, .f32⟩ : BufTy).Contents (Elt F) → (⟨S100000x64, .f32⟩ : BufTy).Contents (Elt F)),
    StableHlo.nullary main_c_11 (constantI S_ 32 0#32),
    StableHlo.unary main_c_11 main_v64 (broadcastInDim S1600000 ![] bcast_S_S1600000 : (⟨S_, .i32⟩ : BufTy).Contents (Elt F) → (⟨S1600000, .i32⟩ : BufTy).Contents (Elt F)),
    StableHlo.binary main_arg2 main_v64 main_v65 (cmpi .slt : (⟨S1600000, .i32⟩ : BufTy).Contents (Elt F) → (⟨S1600000, .i32⟩ : BufTy).Contents (Elt F) → (⟨S1600000, .i1⟩ : BufTy).Contents (Elt F)),
    StableHlo.nullary main_c_12 (constantI S_ 32 100000#32),
    StableHlo.unary main_c_12 main_v66 (broadcastInDim S1600000 ![] bcast_S_S1600000 : (⟨S_, .i32⟩ : BufTy).Contents (Elt F) → (⟨S1600000, .i32⟩ : BufTy).Contents (Elt F)),
    StableHlo.binary main_arg2 main_v66 main_v67 (addi : (⟨S1600000, .i32⟩ : BufTy).Contents (Elt F) → (⟨S1600000, .i32⟩ : BufTy).Contents (Elt F) → (⟨S1600000, .i32⟩ : BufTy).Contents (Elt F)),
    StableHlo.ternary main_v65 main_v67 main_arg2 main_v68 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v68 main_v69 (broadcastInDim S1600000x1 ![0] bcast_S1600000_S1600000x1_0 : (⟨S1600000, .i32⟩ : BufTy).Contents (Elt F) → (⟨S1600000x1, .i32⟩ : BufTy).Contents (Elt F)),
    StableHlo.binary main_v63 main_v69 main_v70 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_13 (constant S_ .f32 0x00000000#32),
    StableHlo.unary main_cst_13 main_v71 (broadcastInDim S100000x64 ![] bcast_S_S100000x64 : (⟨S_, .f32⟩ : BufTy).Contents (Elt F) → (⟨S100000x64, .f32⟩ : BufTy).Contents (Elt F)),
    StableHlo.unary main_arg3 main_v72 (broadcastInDim S1600000x1 ![0] bcast_S1600000_S1600000x1_0 : (⟨S1600000, .i32⟩ : BufTy).Contents (Elt F) → (⟨S1600000x1, .i32⟩ : BufTy).Contents (Elt F)),
    StableHlo.ternary main_v71 main_v72 main_v70 main_v73 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v26 main_v74 (broadcastInDim S100000x64 ![0, 1] bcast_S100000x1_S100000x64_0_1 : (⟨S100000x1, .f32⟩ : BufTy).Contents (Elt F) → (⟨S100000x64, .f32⟩ : BufTy).Contents (Elt F)),
    StableHlo.binary main_v73 main_v74 main_v75 (mulf : (⟨S100000x64, .f32⟩ : BufTy).Contents (Elt F) → (⟨S100000x64, .f32⟩ : BufTy).Contents (Elt F) → (⟨S100000x64, .f32⟩ : BufTy).Contents (Elt F)),
    StableHlo.unary main_v26 main_v76 (broadcastInDim S100000x64 ![0, 1] bcast_S100000x1_S100000x64_0_1 : (⟨S100000x1, .f32⟩ : BufTy).Contents (Elt F) → (⟨S100000x64, .f32⟩ : BufTy).Contents (Elt F)),
    StableHlo.binary main_v75 main_v76 main_v77 (mulf : (⟨S100000x64, .f32⟩ : BufTy).Contents (Elt F) → (⟨S100000x64, .f32⟩ : BufTy).Contents (Elt F) → (⟨S100000x64, .f32⟩ : BufTy).Contents (Elt F)),
    StableHlo.nullary main_c_14 (constantI S_ 32 0#32),
    StableHlo.unary main_c_14 main_v78 (broadcastInDim S1600000 ![] bcast_S_S1600000 : (⟨S_, .i32⟩ : BufTy).Contents (Elt F) → (⟨S1600000, .i32⟩ : BufTy).Contents (Elt F)),
    StableHlo.binary main_arg2 main_v78 main_v79 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 100000#32),
    StableHlo.unary main_c_15 main_v80 (broadcastInDim S1600000 ![] bcast_S_S1600000 : (⟨S_, .i32⟩ : BufTy).Contents (Elt F) → (⟨S1600000, .i32⟩ : BufTy).Contents (Elt F)),
    StableHlo.binary main_arg2 main_v80 main_v81 (addi : (⟨S1600000, .i32⟩ : BufTy).Contents (Elt F) → (⟨S1600000, .i32⟩ : BufTy).Contents (Elt F) → (⟨S1600000, .i32⟩ : BufTy).Contents (Elt F)),
    StableHlo.ternary main_v79 main_v81 main_arg2 main_v82 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v82 main_v83 (broadcastInDim S1600000x1 ![0] bcast_S1600000_S1600000x1_0 : (⟨S1600000, .i32⟩ : BufTy).Contents (Elt F) → (⟨S1600000x1, .i32⟩ : BufTy).Contents (Elt F)),
    StableHlo.binary main_v77 main_v83 main_v84 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_16 (constant S_ .f32 0x00000000#32),
    StableHlo.unary main_cst_16 main_v85 (broadcastInDim S100000x64 ![] bcast_S_S100000x64 : (⟨S_, .f32⟩ : BufTy).Contents (Elt F) → (⟨S100000x64, .f32⟩ : BufTy).Contents (Elt F)),
    StableHlo.unary main_arg3 main_v86 (broadcastInDim S1600000x1 ![0] bcast_S1600000_S1600000x1_0 : (⟨S1600000, .i32⟩ : BufTy).Contents (Elt F) → (⟨S1600000x1, .i32⟩ : BufTy).Contents (Elt F)),
    StableHlo.ternary main_v85 main_v86 main_v84 main_v87 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v26 main_v88 (broadcastInDim S100000x64 ![0, 1] bcast_S100000x1_S100000x64_0_1 : (⟨S100000x1, .f32⟩ : BufTy).Contents (Elt F) → (⟨S100000x64, .f32⟩ : BufTy).Contents (Elt F)),
    StableHlo.binary main_v87 main_v88 main_v89 (mulf : (⟨S100000x64, .f32⟩ : BufTy).Contents (Elt F) → (⟨S100000x64, .f32⟩ : BufTy).Contents (Elt F) → (⟨S100000x64, .f32⟩ : BufTy).Contents (Elt F)),
    StableHlo.nary ![main_v61, main_v75, main_v89] main_v90 (fun u => concatenate S100000x192 1 [⟨S100000x64, u 0⟩, ⟨S100000x64, u 1⟩, ⟨S100000x64, u 2⟩] concatenates_S100000x64_S100000x64_S100000x64_S100000x192_d1),
    StableHlo.binary main_v90 main_arg8 main_v91 ((fun l r => Host.dotGeneral dot_S100000x192_S192x64_S100000x64_1_0_0_1_n_n none l r) : (⟨S100000x192, .f32⟩ : BufTy).Contents (Elt F) → (⟨S192x64, .f32⟩ : BufTy).Contents (Elt F) → (⟨S100000x64, .f32⟩ : BufTy).Contents (Elt F)),
    StableHlo.unary main_arg9 main_v92 (broadcastInDim S1x64 ![1] bcast_S64_S1x64_1 : (⟨S64, .f32⟩ : BufTy).Contents (Elt F) → (⟨S1x64, .f32⟩ : BufTy).Contents (Elt F)),
    StableHlo.unary main_v92 main_v93 (broadcastInDim S100000x64 ![0, 1] bcast_S1x64_S100000x64_0_1 : (⟨S1x64, .f32⟩ : BufTy).Contents (Elt F) → (⟨S100000x64, .f32⟩ : BufTy).Contents (Elt F)),
    StableHlo.binary main_v91 main_v93 main_v94 (addf : (⟨S100000x64, .f32⟩ : BufTy).Contents (Elt F) → (⟨S100000x64, .f32⟩ : BufTy).Contents (Elt F) → (⟨S100000x64, .f32⟩ : BufTy).Contents (Elt F)) ]
theorem it1_2_sub : (it1_2 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., nary_bufs_sub .., binary_bufs_sub .., unary_bufs_sub .., unary_bufs_sub .., binary_bufs_sub ..⟩
theorem it1_2_fresh : (it1_2 : List (HloOp τ sig (Elt F))).Forall fun op => op.fresh = ∅ := by
  simp only [List.Forall]; repeat' constructor

/-- Stretch 3 of the second window of @main: 3 operations. -/
abbrev it1_3 : List (HloOp τ sig (Elt F)) :=
  [ StableHlo.TRef.nullary main_call4.cst (constant S_ .f32 0x00000000#32),
    StableHlo.TRef.unary main_call4.cst main_call4.v0 (broadcastInDim S100000x64 ![] bcast_S_S100000x64),
    StableHlo.TRef.binary (.of main_v94) main_call4.v0 main_call4.v1 maximumf ]
theorem it1_3_sub : (it1_3 : List (HloOp τ sig (Elt F))).Forall fun op => op.bufs ⊆ tcRefs τ sig :=
  ⟨nullary_bufs_sub .., unary_bufs_sub .., binary_bufs_sub ..⟩
theorem it1_3_fresh : (it1_3 : List (HloOp τ sig (Elt F))).Forall fun op => op.fresh = ∅ := by
  simp only [List.Forall]; repeat' constructor

/-- Stretch 4 of the second window of @main: 5 operations. -/
abbrev it1_4 : List (HloOp τ sig (Elt F)) :=
  [ StableHlo.unary main_v26 main_v96 (broadcastInDim S100000x64 ![0, 1] bcast_S100000x1_S100000x64_0_1 : (⟨S100000x1, .f32⟩ : BufTy).Contents (Elt F) → (⟨S100000x64, .f32⟩ : BufTy).Contents (Elt F)),
    StableHlo.binary main_v95 main_v96 main_v97 (mulf : (⟨S100000x64, .f32⟩ : BufTy).Contents (Elt F) → (⟨S100000x64, .f32⟩ : BufTy).Contents (Elt F) → (⟨S100000x64, .f32⟩ : BufTy).Contents (Elt F)),
    StableHlo.nullary main_c_17 (constantI S_ 32 0#32),
    StableHlo.unary main_c_17 main_v98 (broadcastInDim S1600000 ![] bcast_S_S1600000 : (⟨S_, .i32⟩ : BufTy).Contents (Elt F) → (⟨S1600000, .i32⟩ : BufTy).Contents (Elt F)),
    StableHlo.binary main_arg2 main_v98 main_v99 (cmpi .slt : (⟨S1600000, .i32⟩ : BufTy).Contents (Elt F) → (⟨S1600000, .i32⟩ : BufTy).Contents (Elt F) → (⟨S1600000, .i1⟩ : BufTy).Contents (Elt F)) ]
theorem it1_4_sub : (it1_4 : List (HloOp τ sig (Elt F))).Forall fun op => op.bufs ⊆ tcRefs τ sig :=
  ⟨unary_bufs_sub .., binary_bufs_sub .., nullary_bufs_sub .., unary_bufs_sub .., binary_bufs_sub ..⟩
theorem it1_4_fresh : (it1_4 : List (HloOp τ sig (Elt F))).Forall fun op => op.fresh = ∅ := by
  simp only [List.Forall]; repeat' constructor

/-- Stretch 0 of the third window of @main: 34 operations. -/
abbrev it2_0 : List (HloOp τ sig (Elt F)) :=
  [ StableHlo.nullary main_c_18 (constantI S_ 32 100000#32),
    StableHlo.unary main_c_18 main_v100 (broadcastInDim S1600000 ![] bcast_S_S1600000 : (⟨S_, .i32⟩ : BufTy).Contents (Elt F) → (⟨S1600000, .i32⟩ : BufTy).Contents (Elt F)),
    StableHlo.binary main_arg2 main_v100 main_v101 (addi : (⟨S1600000, .i32⟩ : BufTy).Contents (Elt F) → (⟨S1600000, .i32⟩ : BufTy).Contents (Elt F) → (⟨S1600000, .i32⟩ : BufTy).Contents (Elt F)),
    StableHlo.ternary main_v99 main_v101 main_arg2 main_v102 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v102 main_v103 (broadcastInDim S1600000x1 ![0] bcast_S1600000_S1600000x1_0 : (⟨S1600000, .i32⟩ : BufTy).Contents (Elt F) → (⟨S1600000x1, .i32⟩ : BufTy).Contents (Elt F)),
    StableHlo.binary main_v97 main_v103 main_v104 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_19 (constant S_ .f32 0x00000000#32),
    StableHlo.unary main_cst_19 main_v105 (broadcastInDim S100000x64 ![] bcast_S_S100000x64 : (⟨S_, .f32⟩ : BufTy).Contents (Elt F) → (⟨S100000x64, .f32⟩ : BufTy).Contents (Elt F)),
    StableHlo.unary main_arg3 main_v106 (broadcastInDim S1600000x1 ![0] bcast_S1600000_S1600000x1_0 : (⟨S1600000, .i32⟩ : BufTy).Contents (Elt F) → (⟨S1600000x1, .i32⟩ : BufTy).Contents (Elt F)),
    StableHlo.ternary main_v105 main_v106 main_v104 main_v107 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v26 main_v108 (broadcastInDim S100000x64 ![0, 1] bcast_S100000x1_S100000x64_0_1 : (⟨S100000x1, .f32⟩ : BufTy).Contents (Elt F) → (⟨S100000x64, .f32⟩ : BufTy).Contents (Elt F)),
    StableHlo.binary main_v107 main_v108 main_v109 (mulf : (⟨S100000x64, .f32⟩ : BufTy).Contents (Elt F) → (⟨S100000x64, .f32⟩ : BufTy).Contents (Elt F) → (⟨S100000x64, .f32⟩ : BufTy).Contents (Elt F)),
    StableHlo.unary main_v26 main_v110 (broadcastInDim S100000x64 ![0, 1] bcast_S100000x1_S100000x64_0_1 : (⟨S100000x1, .f32⟩ : BufTy).Contents (Elt F) → (⟨S100000x64, .f32⟩ : BufTy).Contents (Elt F)),
    StableHlo.binary main_v109 main_v110 main_v111 (mulf : (⟨S100000x64, .f32⟩ : BufTy).Contents (Elt F) → (⟨S100000x64, .f32⟩ : BufTy).Contents (Elt F) → (⟨S100000x64, .f32⟩ : BufTy).Contents (Elt F)),
    StableHlo.nullary main_c_20 (constantI S_ 32 0#32),
    StableHlo.unary main_c_20 main_v112 (broadcastInDim S1600000 ![] bcast_S_S1600000 : (⟨S_, .i32⟩ : BufTy).Contents (Elt F) → (⟨S1600000, .i32⟩ : BufTy).Contents (Elt F)),
    StableHlo.binary main_arg2 main_v112 main_v113 (cmpi .slt : (⟨S1600000, .i32⟩ : BufTy).Contents (Elt F) → (⟨S1600000, .i32⟩ : BufTy).Contents (Elt F) → (⟨S1600000, .i1⟩ : BufTy).Contents (Elt F)),
    StableHlo.nullary main_c_21 (constantI S_ 32 100000#32),
    StableHlo.unary main_c_21 main_v114 (broadcastInDim S1600000 ![] bcast_S_S1600000 : (⟨S_, .i32⟩ : BufTy).Contents (Elt F) → (⟨S1600000, .i32⟩ : BufTy).Contents (Elt F)),
    StableHlo.binary main_arg2 main_v114 main_v115 (addi : (⟨S1600000, .i32⟩ : BufTy).Contents (Elt F) → (⟨S1600000, .i32⟩ : BufTy).Contents (Elt F) → (⟨S1600000, .i32⟩ : BufTy).Contents (Elt F)),
    StableHlo.ternary main_v113 main_v115 main_arg2 main_v116 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v116 main_v117 (broadcastInDim S1600000x1 ![0] bcast_S1600000_S1600000x1_0 : (⟨S1600000, .i32⟩ : BufTy).Contents (Elt F) → (⟨S1600000x1, .i32⟩ : BufTy).Contents (Elt F)),
    StableHlo.binary main_v111 main_v117 main_v118 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_22 (constant S_ .f32 0x00000000#32),
    StableHlo.unary main_cst_22 main_v119 (broadcastInDim S100000x64 ![] bcast_S_S100000x64 : (⟨S_, .f32⟩ : BufTy).Contents (Elt F) → (⟨S100000x64, .f32⟩ : BufTy).Contents (Elt F)),
    StableHlo.unary main_arg3 main_v120 (broadcastInDim S1600000x1 ![0] bcast_S1600000_S1600000x1_0 : (⟨S1600000, .i32⟩ : BufTy).Contents (Elt F) → (⟨S1600000x1, .i32⟩ : BufTy).Contents (Elt F)),
    StableHlo.ternary main_v119 main_v120 main_v118 main_v121 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v26 main_v122 (broadcastInDim S100000x64 ![0, 1] bcast_S100000x1_S100000x64_0_1 : (⟨S100000x1, .f32⟩ : BufTy).Contents (Elt F) → (⟨S100000x64, .f32⟩ : BufTy).Contents (Elt F)),
    StableHlo.binary main_v121 main_v122 main_v123 (mulf : (⟨S100000x64, .f32⟩ : BufTy).Contents (Elt F) → (⟨S100000x64, .f32⟩ : BufTy).Contents (Elt F) → (⟨S100000x64, .f32⟩ : BufTy).Contents (Elt F)),
    StableHlo.nary ![main_v95, main_v109, main_v123] main_v124 (fun u => concatenate S100000x192 1 [⟨S100000x64, u 0⟩, ⟨S100000x64, u 1⟩, ⟨S100000x64, u 2⟩] concatenates_S100000x64_S100000x64_S100000x64_S100000x192_d1),
    StableHlo.binary main_v124 main_arg10 main_v125 ((fun l r => Host.dotGeneral dot_S100000x192_S192x64_S100000x64_1_0_0_1_n_n none l r) : (⟨S100000x192, .f32⟩ : BufTy).Contents (Elt F) → (⟨S192x64, .f32⟩ : BufTy).Contents (Elt F) → (⟨S100000x64, .f32⟩ : BufTy).Contents (Elt F)),
    StableHlo.unary main_arg11 main_v126 (broadcastInDim S1x64 ![1] bcast_S64_S1x64_1 : (⟨S64, .f32⟩ : BufTy).Contents (Elt F) → (⟨S1x64, .f32⟩ : BufTy).Contents (Elt F)),
    StableHlo.unary main_v126 main_v127 (broadcastInDim S100000x64 ![0, 1] bcast_S1x64_S100000x64_0_1 : (⟨S1x64, .f32⟩ : BufTy).Contents (Elt F) → (⟨S100000x64, .f32⟩ : BufTy).Contents (Elt F)),
    StableHlo.binary main_v125 main_v127 main_v128 (addf : (⟨S100000x64, .f32⟩ : BufTy).Contents (Elt F) → (⟨S100000x64, .f32⟩ : BufTy).Contents (Elt F) → (⟨S100000x64, .f32⟩ : BufTy).Contents (Elt F)) ]
theorem it2_0_sub : (it2_0 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., nary_bufs_sub .., binary_bufs_sub .., unary_bufs_sub .., unary_bufs_sub .., binary_bufs_sub ..⟩
theorem it2_0_fresh : (it2_0 : List (HloOp τ sig (Elt F))).Forall fun op => op.fresh = ∅ := by
  simp only [List.Forall]; repeat' constructor

/-- Stretch 1 of the third window of @main: 3 operations. -/
abbrev it2_1 : List (HloOp τ sig (Elt F)) :=
  [ StableHlo.TRef.nullary main_call5.cst (constant S_ .f32 0x00000000#32),
    StableHlo.TRef.unary main_call5.cst main_call5.v0 (broadcastInDim S100000x64 ![] bcast_S_S100000x64),
    StableHlo.TRef.binary (.of main_v128) main_call5.v0 main_call5.v1 maximumf ]
theorem it2_1_sub : (it2_1 : List (HloOp τ sig (Elt F))).Forall fun op => op.bufs ⊆ tcRefs τ sig :=
  ⟨nullary_bufs_sub .., unary_bufs_sub .., binary_bufs_sub ..⟩
theorem it2_1_fresh : (it2_1 : List (HloOp τ sig (Elt F))).Forall fun op => op.fresh = ∅ := by
  simp only [List.Forall]; repeat' constructor

/-- Stretch 2 of the third window of @main: 9 operations. -/
abbrev it2_2 : List (HloOp τ sig (Elt F)) :=
  [ StableHlo.nullary main_cst_23 (constant S_ .f32 0x00000000#32),
    StableHlo.binary main_v129 main_cst_23 main_v130 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.unary main_v130 main_v131 (broadcastInDim S1x64 ![1] bcast_S64_S1x64_1 : (⟨S64, .f32⟩ : BufTy).Contents (Elt F) → (⟨S1x64, .f32⟩ : BufTy).Contents (Elt F)),
    StableHlo.nullary main_cst_24 (constant S_ .f32 0x47C35000#32),
    StableHlo.unary main_cst_24 main_v132 (broadcastInDim S1x64 ![] bcast_S_S1x64 : (⟨S_, .f32⟩ : BufTy).Contents (Elt F) → (⟨S1x64, .f32⟩ : BufTy).Contents (Elt F)),
    StableHlo.binary main_v131 main_v132 main_v133 (Host.divf : (⟨S1x64, .f32⟩ : BufTy).Contents (Elt F) → (⟨S1x64, .f32⟩ : BufTy).Contents (Elt F) → (⟨S1x64, .f32⟩ : BufTy).Contents (Elt F)),
    StableHlo.binary main_v133 main_arg12 main_v134 ((fun l r => Host.dotGeneral dot_S1x64_S64x1_S1x1_1_0_0_1_n_n none l r) : (⟨S1x64, .f32⟩ : BufTy).Contents (Elt F) → (⟨S64x1, .f32⟩ : BufTy).Contents (Elt F) → (⟨S1x1, .f32⟩ : BufTy).Contents (Elt F)),
    StableHlo.unary main_arg13 main_v135 (broadcastInDim S1x1 ![1] bcast_S1_S1x1_1 : (⟨S1, .f32⟩ : BufTy).Contents (Elt F) → (⟨S1x1, .f32⟩ : BufTy).Contents (Elt F)),
    StableHlo.binary main_v134 main_v135 main_v136 (addf : (⟨S1x1, .f32⟩ : BufTy).Contents (Elt F) → (⟨S1x1, .f32⟩ : BufTy).Contents (Elt F) → (⟨S1x1, .f32⟩ : BufTy).Contents (Elt F)) ]
theorem it2_2_sub : (it2_2 : List (HloOp τ sig (Elt F))).Forall fun op => op.bufs ⊆ tcRefs τ sig :=
  ⟨nullary_bufs_sub .., binary_bufs_sub .., unary_bufs_sub .., nullary_bufs_sub .., unary_bufs_sub .., binary_bufs_sub .., binary_bufs_sub .., unary_bufs_sub .., binary_bufs_sub ..⟩
theorem it2_2_fresh : (it2_2 : List (HloOp τ sig (Elt F))).Forall fun op => op.fresh = ∅ := by
  simp only [List.Forall]; repeat' constructor

/-- The first window of @main is its stretches one after the other, the last in tail position. -/
theorem part0_chain (c : Dev nD) : main_part0 (F := F) c = (Pipeline.chainK
  [ seq it0_0, seq it0_1, seq it0_2, seq it0_3, seq it0_4 ]
  (seq it0_5) : Prog (TpuEff nD τ sig (Elt F) (Pipeline.Sig Λ₀ (Fin 0) fun p => (pcfgs (F := F) p).Adm) .tc) PUnit) := by
  chain_rfl

theorem part1_chain (c : Dev nD) : main_part1 (F := F) c = (Pipeline.chainK
  [ seq it1_0, seq it1_1, seq it1_2, seq it1_3 ]
  (seq it1_4) : Prog (TpuEff nD τ sig (Elt F) (Pipeline.Sig Λ₀ (Fin 0) fun p => (pcfgs (F := F) p).Adm) .tc) PUnit) := by
  chain_rfl

theorem part2_chain (c : Dev nD) : main_part2 (F := F) c = (Pipeline.chain
  [ seq it2_0, seq it2_1, seq it2_2 ] : Prog (TpuEff nD τ sig (Elt F) (Pipeline.Sig Λ₀ (Fin 0) fun p => (pcfgs (F := F) p).Adm) .tc) PUnit) := by
  chain_rfl

/-- The stretches, in order. -/
abbrev items : List (List (HloOp τ sig (Elt F))) := [ it0_0, it0_1, it0_2, it0_3, it0_4, it0_5, it1_0, it1_1, it1_2, it1_3, it1_4, it2_0, it2_1, it2_2 ]

/-- @main's 202 operations, in order. -/
abbrev ops : List (HloOp τ sig (Elt F)) := (items (F := F)).flatten

/-- @main is the chain of its stretches. -/
theorem main_chain (c : Dev nD) : main (F := F) c = (Pipeline.chain
  [ seq it0_0, seq it0_1, seq it0_2, seq it0_3, seq it0_4, seq it0_5, seq it1_0, seq it1_1, seq it1_2, seq it1_3, seq it1_4, seq it2_0, seq it2_1, seq it2_2 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c) = _
  rewrite [part2_chain, part1_chain, Pipeline.chainK_bind_chain, part0_chain, Pipeline.chainK_bind_chain]
  chain_rfl

/-- Stretches run one after the other are their concatenation run as one line. -/
theorem chain_seq {Λ} : ∀ l : List (List (HloOp τ sig (Elt F))),
    (Pipeline.chain (l.map seq) : Prog (TpuEff nD τ sig (Elt F) Λ .tc) PUnit) = seq l.flatten
  | [] => rfl
  | a :: l => by
    rw [List.map_cons, Pipeline.chain_cons, chain_seq l, List.flatten_cons, seq_append]

theorem main_eq (c : Dev nD) : main (F := F) c = seq ops :=
  (main_chain c).trans (chain_seq (items (F := F)))

theorem scopedRefs_eq : (Finset.univ.filter fun b : Ref sig .tc => b.isScoped) = ∅ := by decide
theorem scopedSems_eq : (Finset.univ.filter fun sm : SemLoc sig => sm.isScoped .tc) = ∅ := by decide

theorem mem_items {op : HloOp τ sig (Elt F)} (h : op ∈ (ops : List (HloOp τ sig (Elt F)))) :
    op ∈ (it0_0 : List (HloOp τ sig (Elt F))) ∨ op ∈ (it0_1 : List (HloOp τ sig (Elt F))) ∨ op ∈ (it0_2 : List (HloOp τ sig (Elt F))) ∨ op ∈ (it0_3 : List (HloOp τ sig (Elt F))) ∨ op ∈ (it0_4 : List (HloOp τ sig (Elt F))) ∨ op ∈ (it0_5 : List (HloOp τ sig (Elt F))) ∨ op ∈ (it1_0 : List (HloOp τ sig (Elt F))) ∨ op ∈ (it1_1 : List (HloOp τ sig (Elt F))) ∨ op ∈ (it1_2 : List (HloOp τ sig (Elt F))) ∨ op ∈ (it1_3 : List (HloOp τ sig (Elt F))) ∨ op ∈ (it1_4 : List (HloOp τ sig (Elt F))) ∨ op ∈ (it2_0 : List (HloOp τ sig (Elt F))) ∨ op ∈ (it2_1 : List (HloOp τ sig (Elt F))) ∨ op ∈ (it2_2 : List (HloOp τ sig (Elt F))) := by
  obtain ⟨l, hl, hop⟩ := List.mem_flatten.mp h
  simp only [items, List.mem_cons, List.not_mem_nil, or_false] at hl
  rcases hl with rfl | rfl | rfl | rfl | rfl | rfl | rfl | rfl | rfl | rfl | rfl | rfl | rfl | rfl
  · exact Or.inl hop
  · exact Or.inr (Or.inl hop)
  · exact Or.inr (Or.inr (Or.inl hop))
  · exact Or.inr (Or.inr (Or.inr (Or.inl hop)))
  · exact Or.inr (Or.inr (Or.inr (Or.inr (Or.inl hop))))
  · exact Or.inr (Or.inr (Or.inr (Or.inr (Or.inr (Or.inl hop)))))
  · exact Or.inr (Or.inr (Or.inr (Or.inr (Or.inr (Or.inr (Or.inl hop))))))
  · exact Or.inr (Or.inr (Or.inr (Or.inr (Or.inr (Or.inr (Or.inr (Or.inl hop)))))))
  · exact Or.inr (Or.inr (Or.inr (Or.inr (Or.inr (Or.inr (Or.inr (Or.inr (Or.inl hop))))))))
  · exact Or.inr (Or.inr (Or.inr (Or.inr (Or.inr (Or.inr (Or.inr (Or.inr (Or.inr (Or.inl hop)))))))))
  · exact Or.inr (Or.inr (Or.inr (Or.inr (Or.inr (Or.inr (Or.inr (Or.inr (Or.inr (Or.inr (Or.inl hop))))))))))
  · exact Or.inr (Or.inr (Or.inr (Or.inr (Or.inr (Or.inr (Or.inr (Or.inr (Or.inr (Or.inr (Or.inr (Or.inl hop)))))))))))
  · exact Or.inr (Or.inr (Or.inr (Or.inr (Or.inr (Or.inr (Or.inr (Or.inr (Or.inr (Or.inr (Or.inr (Or.inr (Or.inl hop))))))))))))
  · exact Or.inr (Or.inr (Or.inr (Or.inr (Or.inr (Or.inr (Or.inr (Or.inr (Or.inr (Or.inr (Or.inr (Or.inr (Or.inr (hop)))))))))))))

theorem ops_sub : (ops : List (HloOp τ sig (Elt F))).Forall fun op => op.bufs ⊆ tcRefs τ sig :=
  List.forall_iff_forall_mem.mpr fun op h => by
    rcases mem_items h with h | h | h | h | h | h | h | h | h | h | h | h | h | h
    · exact List.forall_iff_forall_mem.mp it0_0_sub op h
    · exact List.forall_iff_forall_mem.mp it0_1_sub op h
    · exact List.forall_iff_forall_mem.mp it0_2_sub op h
    · exact List.forall_iff_forall_mem.mp it0_3_sub op h
    · exact List.forall_iff_forall_mem.mp it0_4_sub op h
    · exact List.forall_iff_forall_mem.mp it0_5_sub op h
    · exact List.forall_iff_forall_mem.mp it1_0_sub op h
    · exact List.forall_iff_forall_mem.mp it1_1_sub op h
    · exact List.forall_iff_forall_mem.mp it1_2_sub op h
    · exact List.forall_iff_forall_mem.mp it1_3_sub op h
    · exact List.forall_iff_forall_mem.mp it1_4_sub op h
    · exact List.forall_iff_forall_mem.mp it2_0_sub op h
    · exact List.forall_iff_forall_mem.mp it2_1_sub op h
    · exact List.forall_iff_forall_mem.mp it2_2_sub op h

theorem ops_fresh : ∀ op ∈ (ops : List (HloOp τ sig (Elt F))), op.fresh = ∅ := fun op h => by
  rcases mem_items h with h | h | h | h | h | h | h | h | h | h | h | h | h | h
  · exact List.forall_iff_forall_mem.mp it0_0_fresh op h
  · exact List.forall_iff_forall_mem.mp it0_1_fresh op h
  · exact List.forall_iff_forall_mem.mp it0_2_fresh op h
  · exact List.forall_iff_forall_mem.mp it0_3_fresh op h
  · exact List.forall_iff_forall_mem.mp it0_4_fresh op h
  · exact List.forall_iff_forall_mem.mp it0_5_fresh op h
  · exact List.forall_iff_forall_mem.mp it1_0_fresh op h
  · exact List.forall_iff_forall_mem.mp it1_1_fresh op h
  · exact List.forall_iff_forall_mem.mp it1_2_fresh op h
  · exact List.forall_iff_forall_mem.mp it1_3_fresh op h
  · exact List.forall_iff_forall_mem.mp it1_4_fresh op h
  · exact List.forall_iff_forall_mem.mp it2_0_fresh op h
  · exact List.forall_iff_forall_mem.mp it2_1_fresh op h
  · exact List.forall_iff_forall_mem.mp it2_2_fresh op h

/-- THE RUN: from any memory with zero counters every weakly fair execution of @main terminates, and every final
    state has each buffer at the fold of the 202 operations over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Line

end
-- ==== Proof.ReferenceIdeal.Slices.lean ====
import proofs.«163259_j24927990186434_1_alg».proof.Proof.ReferenceIdeal.Line

/-!
# The reference's straight line, cut where the kernel's program is cut

The same 202 operations as sixteen consecutive pieces: the host work before each of the four dense layers (itself cut
at its concatenations), each dense layer (the matrix product, the bias row broadcast and added, the comparison with
zero), the column sum, and the last six operations. The kernel's @main does the host pieces itself, operation for operation, and gives each dense layer and
the column sum to a kernel region.
-/

noncomputable section

namespace Cert.ReferenceIdeal.Line

open Cert.ReferenceIdeal Cert.ReferenceIdeal.Gen Idealize.ShloMosaic Idealize.ShloMosaic.TcCoe Idealize.ShloMosaic.Tactic Idealize.SL.Sem Idealize.ShloMosaic.StableHlo

variable {F : FTy → Type} [FloatOps F]

abbrev rP1 : List (HloOp τ sig (Elt F)) :=
  [ StableHlo.TRef.binary (.of main_arg0) (.of main_arg0) (.of main_call0_v0) (cmpf .une),
    StableHlo.TRef.nullary (.of main_call0_cst) (constant S_ .f32 0x00000000#32),
    StableHlo.TRef.unary (.of main_call0_cst) (.of main_call0_call0_v0) (broadcastInDim S100000x32 ![] bcast_S_S100000x32),
    StableHlo.TRef.ternary (.of main_call0_v0) (.of main_call0_call0_v0) (.of main_arg0) (.of main_call0_v1) select,
    StableHlo.TRef.nullary (.of main_call0_cst_0) (constant S_ .f32 0x7F800000#32),
    StableHlo.TRef.unary (.of main_call0_cst_0) (.of main_call0_v2) (broadcastInDim S100000x32 ![] bcast_S_S100000x32),
    StableHlo.TRef.binary (.of main_call0_v1) (.of main_call0_v2) (.of main_call0_v3) (cmpf .oeq),
    StableHlo.TRef.nullary (.of main_call0_cst_1) (constant S_ .f32 0x7F7FFFFF#32),
    StableHlo.TRef.unary (.of main_call0_cst_1) (.of main_call0_call1_v0) (broadcastInDim S100000x32 ![] bcast_S_S100000x32),
    StableHlo.TRef.ternary (.of main_call0_v3) (.of main_call0_call1_v0) (.of main_call0_v1) (.of main_call0_v4) select,
    StableHlo.TRef.nullary (.of main_call0_cst_2) (constant S_ .f32 0xFF800000#32),
    StableHlo.TRef.unary (.of main_call0_cst_2) (.of main_call0_v5) (broadcastInDim S100000x32 ![] bcast_S_S100000x32),
    StableHlo.TRef.binary (.of main_call0_v4) (.of main_call0_v5) (.of main_call0_v6) (cmpf .oeq),
    StableHlo.TRef.nullary (.of main_call0_cst_3) (constant S_ .f32 0xFF7FFFFF#32),
    StableHlo.TRef.unary (.of main_call0_cst_3) (.of main_call0_call2_v0) (broadcastInDim S100000x32 ![] bcast_S_S100000x32),
    StableHlo.TRef.ternary (.of main_call0_v6) (.of main_call0_call2_v0) (.of main_call0_v4) (.of main_v0) select,
    StableHlo.nullary main_c (constantI S_ 32 0#32),
    StableHlo.unary main_c main_v1 (broadcastInDim S1600000 ![] bcast_S_S1600000 : (⟨S_, .i32⟩ : BufTy).Contents (Elt F) → (⟨S1600000, .i32⟩ : BufTy).Contents (Elt F)),
    StableHlo.binary main_arg2 main_v1 main_v2 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v3 (broadcastInDim S1600000 ![] bcast_S_S1600000 : (⟨S_, .i32⟩ : BufTy).Contents (Elt F) → (⟨S1600000, .i32⟩ : BufTy).Contents (Elt F)),
    StableHlo.binary main_arg2 main_v3 main_v4 (addi : (⟨S1600000, .i32⟩ : BufTy).Contents (Elt F) → (⟨S1600000, .i32⟩ : BufTy).Contents (Elt F) → (⟨S1600000, .i32⟩ : BufTy).Contents (Elt F)),
    StableHlo.ternary main_v2 main_v4 main_arg2 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v5 main_v6 (broadcastInDim S1600000x1 ![0] bcast_S1600000_S1600000x1_0 : (⟨S1600000, .i32⟩ : BufTy).Contents (Elt F) → (⟨S1600000x1, .i32⟩ : BufTy).Contents (Elt F)),
    StableHlo.binary main_v0 main_v6 main_v7 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)) ]

abbrev rC1 : List (HloOp τ sig (Elt F)) :=
  [ StableHlo.binary main_v7 main_arg1 main_v8 ((fun a b => concatenate S1600000x64 1 [⟨S1600000x32, a⟩, ⟨S1600000x32, b⟩] concatenates_S1600000x32_S1600000x32_S1600000x64_d1) : (⟨S1600000x32, .f32⟩ : BufTy).Contents (Elt F) → (⟨S1600000x32, .f32⟩ : BufTy).Contents (Elt F) → (⟨S1600000x64, .f32⟩ : BufTy).Contents (Elt F)) ]

abbrev sD0 : List (HloOp τ sig (Elt F)) :=
  [ StableHlo.binary main_v8 main_arg4 main_v9 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    StableHlo.unary main_arg5 main_v10 (broadcastInDim S1x64 ![1] bcast_S64_S1x64_1 : (⟨S64, .f32⟩ : BufTy).Contents (Elt F) → (⟨S1x64, .f32⟩ : BufTy).Contents (Elt F)),
    StableHlo.unary main_v10 main_v11 (broadcastInDim S1600000x64 ![0, 1] bcast_S1x64_S1600000x64_0_1 : (⟨S1x64, .f32⟩ : BufTy).Contents (Elt F) → (⟨S1600000x64, .f32⟩ : BufTy).Contents (Elt F)),
    StableHlo.binary main_v9 main_v11 main_v12 (addf : (⟨S1600000x64, .f32⟩ : BufTy).Contents (Elt F) → (⟨S1600000x64, .f32⟩ : BufTy).Contents (Elt F) → (⟨S1600000x64, .f32⟩ : BufTy).Contents (Elt F)),
    StableHlo.TRef.nullary (.of main_call1_cst) (constant S_ .f32 0x00000000#32),
    StableHlo.TRef.unary (.of main_call1_cst) (.of main_call1_v0) (broadcastInDim S1600000x64 ![] bcast_S_S1600000x64),
    StableHlo.TRef.binary (.of main_v12) (.of main_call1_v0) (.of main_v13) maximumf ]

abbrev rP2 : List (HloOp τ sig (Elt F)) :=
  [ StableHlo.nullary main_cst (constant S_ .f32 0x00000000#32),
    StableHlo.unary main_cst main_v14 (broadcastInDim S100000x64 ![] bcast_S_S100000x64 : (⟨S_, .f32⟩ : BufTy).Contents (Elt F) → (⟨S100000x64, .f32⟩ : BufTy).Contents (Elt F)),
    StableHlo.unary main_arg3 main_v15 (broadcastInDim S1600000x1 ![0] bcast_S1600000_S1600000x1_0 : (⟨S1600000, .i32⟩ : BufTy).Contents (Elt F) → (⟨S1600000x1, .i32⟩ : BufTy).Contents (Elt F)),
    StableHlo.ternary main_v14 main_v15 main_v13 main_v16 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.TRef.binary (.of main_v16) (.of main_v16) (.of main_call2_v0) (cmpf .une),
    StableHlo.TRef.nullary (.of main_call2_cst) (constant S_ .f32 0x00000000#32),
    StableHlo.TRef.unary (.of main_call2_cst) (.of main_call2_call0_v0) (broadcastInDim S100000x64 ![] bcast_S_S100000x64),
    StableHlo.TRef.ternary (.of main_call2_v0) (.of main_call2_call0_v0) (.of main_v16) (.of main_call2_v1) select,
    StableHlo.TRef.nullary (.of main_call2_cst_0) (constant S_ .f32 0x7F800000#32),
    StableHlo.TRef.unary (.of main_call2_cst_0) (.of main_call2_v2) (broadcastInDim S100000x64 ![] bcast_S_S100000x64),
    StableHlo.TRef.binary (.of main_call2_v1) (.of main_call2_v2) (.of main_call2_v3) (cmpf .oeq),
    StableHlo.TRef.nullary (.of main_call2_cst_1) (constant S_ .f32 0x7F7FFFFF#32),
    StableHlo.TRef.unary (.of main_call2_cst_1) (.of main_call2_call1_v0) (broadcastInDim S100000x64 ![] bcast_S_S100000x64),
    StableHlo.TRef.ternary (.of main_call2_v3) (.of main_call2_call1_v0) (.of main_call2_v1) (.of main_call2_v4) select,
    StableHlo.TRef.nullary (.of main_call2_cst_2) (constant S_ .f32 0xFF800000#32),
    StableHlo.TRef.unary (.of main_call2_cst_2) (.of main_call2_v5) (broadcastInDim S100000x64 ![] bcast_S_S100000x64),
    StableHlo.TRef.binary (.of main_call2_v4) (.of main_call2_v5) (.of main_call2_v6) (cmpf .oeq),
    StableHlo.TRef.nullary (.of main_call2_cst_3) (constant S_ .f32 0xFF7FFFFF#32),
    StableHlo.TRef.unary (.of main_call2_cst_3) (.of main_call2_call2_v0) (broadcastInDim S100000x64 ![] bcast_S_S100000x64),
    StableHlo.TRef.ternary (.of main_call2_v6) (.of main_call2_call2_v0) (.of main_call2_v4) (.of main_v17) select,
    StableHlo.nullary main_cst_1 (constant S_ .f32 0x3F800000#32),
    StableHlo.unary main_cst_1 main_v18 (broadcastInDim S1600000 ![] bcast_S_S1600000 : (⟨S_, .f32⟩ : BufTy).Contents (Elt F) → (⟨S1600000, .f32⟩ : BufTy).Contents (Elt F)),
    StableHlo.nullary main_cst_2 (constant S_ .f32 0x00000000#32),
    StableHlo.unary main_cst_2 main_v19 (broadcastInDim S100000 ![] bcast_S_S100000 : (⟨S_, .f32⟩ : BufTy).Contents (Elt F) → (⟨S100000, .f32⟩ : BufTy).Contents (Elt F)),
    StableHlo.unary main_arg3 main_v20 (broadcastInDim S1600000x1 ![0] bcast_S1600000_S1600000x1_0 : (⟨S1600000, .i32⟩ : BufTy).Contents (Elt F) → (⟨S1600000x1, .i32⟩ : BufTy).Contents (Elt F)),
    StableHlo.ternary main_v19 main_v20 main_v18 main_v21 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_3 (constant S_ .f32 0x3F800000#32),
    StableHlo.unary main_cst_3 main_v22 (broadcastInDim S100000 ![] bcast_S_S100000 : (⟨S_, .f32⟩ : BufTy).Contents (Elt F) → (⟨S100000, .f32⟩ : BufTy).Contents (Elt F)),
    StableHlo.binary main_v21 main_v22 main_v23 (maximumf : (⟨S100000, .f32⟩ : BufTy).Contents (Elt F) → (⟨S100000, .f32⟩ : BufTy).Contents (Elt F) → (⟨S100000, .f32⟩ : BufTy).Contents (Elt F)),
    StableHlo.nullary main_cst_4 (constant S_ .f32 0xBF000000#32),
    StableHlo.unary main_cst_4 main_v24 (broadcastInDim S100000 ![] bcast_S_S100000 : (⟨S_, .f32⟩ : BufTy).Contents (Elt F) → (⟨S100000, .f32⟩ : BufTy).Contents (Elt F)),
    StableHlo.binary main_v23 main_v24 main_v25 (Host.powf : (⟨S100000, .f32⟩ : BufTy).Contents (Elt F) → (⟨S100000, .f32⟩ : BufTy).Contents (Elt F) → (⟨S100000, .f32⟩ : BufTy).Contents (Elt F)),
    StableHlo.unary main_v25 main_v26 (broadcastInDim S100000x1 ![0] bcast_S100000_S100000x1_0 : (⟨S100000, .f32⟩ : BufTy).Contents (Elt F) → (⟨S100000x1, .f32⟩ : BufTy).Contents (Elt F)) ]

abbrev rC2 : List (HloOp τ sig (Elt F)) :=
  [ StableHlo.binary main_v0 main_v17 main_v27 ((fun a b => concatenate S100000x96 1 [⟨S100000x32, a⟩, ⟨S100000x64, b⟩] concatenates_S100000x32_S100000x64_S100000x96_d1) : (⟨S100000x32, .f32⟩ : BufTy).Contents (Elt F) → (⟨S100000x64, .f32⟩ : BufTy).Contents (Elt F) → (⟨S100000x96, .f32⟩ : BufTy).Contents (Elt F)) ]

abbrev rP3 : List (HloOp τ sig (Elt F)) :=
  [ StableHlo.unary main_v26 main_v28 (broadcastInDim S100000x96 ![0, 1] bcast_S100000x1_S100000x96_0_1 : (⟨S100000x1, .f32⟩ : BufTy).Contents (Elt F) → (⟨S100000x96, .f32⟩ : BufTy).Contents (Elt F)),
    StableHlo.binary main_v27 main_v28 main_v29 (mulf : (⟨S100000x96, .f32⟩ : BufTy).Contents (Elt F) → (⟨S100000x96, .f32⟩ : BufTy).Contents (Elt F) → (⟨S100000x96, .f32⟩ : BufTy).Contents (Elt F)),
    StableHlo.nullary main_c_5 (constantI S_ 32 0#32),
    StableHlo.unary main_c_5 main_v30 (broadcastInDim S1600000 ![] bcast_S_S1600000 : (⟨S_, .i32⟩ : BufTy).Contents (Elt F) → (⟨S1600000, .i32⟩ : BufTy).Contents (Elt F)),
    StableHlo.binary main_arg2 main_v30 main_v31 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v32 (broadcastInDim S1600000 ![] bcast_S_S1600000 : (⟨S_, .i32⟩ : BufTy).Contents (Elt F) → (⟨S1600000, .i32⟩ : BufTy).Contents (Elt F)),
    StableHlo.binary main_arg2 main_v32 main_v33 (addi : (⟨S1600000, .i32⟩ : BufTy).Contents (Elt F) → (⟨S1600000, .i32⟩ : BufTy).Contents (Elt F) → (⟨S1600000, .i32⟩ : BufTy).Contents (Elt F)),
    StableHlo.ternary main_v31 main_v33 main_arg2 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v34 main_v35 (broadcastInDim S1600000x1 ![0] bcast_S1600000_S1600000x1_0 : (⟨S1600000, .i32⟩ : BufTy).Contents (Elt F) → (⟨S1600000x1, .i32⟩ : BufTy).Contents (Elt F)),
    StableHlo.binary main_v29 main_v35 main_v36 ((fun x i => Host.gather gather_S100000x96_S1600000x1_S1600000x96_1_0_n_n_0_1_196 x i) : (⟨S100000x96, .f32⟩ : BufTy).Contents (Elt F) → (⟨S1600000x1, .i32⟩ : BufTy).Contents (Elt F) → (⟨S1600000x96, .f32⟩ : BufTy).Contents (Elt F)),
    StableHlo.nullary main_cst_7 (constant S_ .f32 0x00000000#32),
    StableHlo.unary main_cst_7 main_v37 (broadcastInDim S100000x96 ![] bcast_S_S100000x96 : (⟨S_, .f32⟩ : BufTy).Contents (Elt F) → (⟨S100000x96, .f32⟩ : BufTy).Contents (Elt F)),
    StableHlo.unary main_arg3 main_v38 (broadcastInDim S1600000x1 ![0] bcast_S1600000_S1600000x1_0 : (⟨S1600000, .i32⟩ : BufTy).Contents (Elt F) → (⟨S1600000x1, .i32⟩ : BufTy).Contents (Elt F)),
    StableHlo.ternary main_v37 main_v38 main_v36 main_v39 ((fun x i u => Host.scatterAdd scatter_S100000x96_S1600000x1_S1600000x96_1_0_0_1 x i u) : (⟨S100000x96, .f32⟩ : BufTy).Contents (Elt F) → (⟨S1600000x1, .i32⟩ : BufTy).Contents (Elt F) → (⟨S1600000x96, .f32⟩ : BufTy).Contents (Elt F) → (⟨S100000x96, .f32⟩ : BufTy).Contents (Elt F)),
    StableHlo.unary main_v26 main_v40 (broadcastInDim S100000x96 ![0, 1] bcast_S100000x1_S100000x96_0_1 : (⟨S100000x1, .f32⟩ : BufTy).Contents (Elt F) → (⟨S100000x96, .f32⟩ : BufTy).Contents (Elt F)),
    StableHlo.binary main_v39 main_v40 main_v41 (mulf : (⟨S100000x96, .f32⟩ : BufTy).Contents (Elt F) → (⟨S100000x96, .f32⟩ : BufTy).Contents (Elt F) → (⟨S100000x96, .f32⟩ : BufTy).Contents (Elt F)),
    StableHlo.unary main_v26 main_v42 (broadcastInDim S100000x96 ![0, 1] bcast_S100000x1_S100000x96_0_1 : (⟨S100000x1, .f32⟩ : BufTy).Contents (Elt F) → (⟨S100000x96, .f32⟩ : BufTy).Contents (Elt F)),
    StableHlo.binary main_v41 main_v42 main_v43 (mulf : (⟨S100000x96, .f32⟩ : BufTy).Contents (Elt F) → (⟨S100000x96, .f32⟩ : BufTy).Contents (Elt F) → (⟨S100000x96, .f32⟩ : BufTy).Contents (Elt F)),
    StableHlo.nullary main_c_8 (constantI S_ 32 0#32),
    StableHlo.unary main_c_8 main_v44 (broadcastInDim S1600000 ![] bcast_S_S1600000 : (⟨S_, .i32⟩ : BufTy).Contents (Elt F) → (⟨S1600000, .i32⟩ : BufTy).Contents (Elt F)),
    StableHlo.binary main_arg2 main_v44 main_v45 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v46 (broadcastInDim S1600000 ![] bcast_S_S1600000 : (⟨S_, .i32⟩ : BufTy).Contents (Elt F) → (⟨S1600000, .i32⟩ : BufTy).Contents (Elt F)),
    StableHlo.binary main_arg2 main_v46 main_v47 (addi : (⟨S1600000, .i32⟩ : BufTy).Contents (Elt F) → (⟨S1600000, .i32⟩ : BufTy).Contents (Elt F) → (⟨S1600000, .i32⟩ : BufTy).Contents (Elt F)),
    StableHlo.ternary main_v45 main_v47 main_arg2 main_v48 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v48 main_v49 (broadcastInDim S1600000x1 ![0] bcast_S1600000_S1600000x1_0 : (⟨S1600000, .i32⟩ : BufTy).Contents (Elt F) → (⟨S1600000x1, .i32⟩ : BufTy).Contents (Elt F)),
    StableHlo.binary main_v43 main_v49 main_v50 ((fun x i => Host.gather gather_S100000x96_S1600000x1_S1600000x96_1_0_n_n_0_1_196 x i) : (⟨S100000x96, .f32⟩ : BufTy).Contents (Elt F) → (⟨S1600000x1, .i32⟩ : BufTy).Contents (Elt F) → (⟨S1600000x96, .f32⟩ : BufTy).Contents (Elt F)),
    StableHlo.nullary main_cst_10 (constant S_ .f32 0x00000000#32),
    StableHlo.unary main_cst_10 main_v51 (broadcastInDim S100000x96 ![] bcast_S_S100000x96 : (⟨S_, .f32⟩ : BufTy).Contents (Elt F) → (⟨S100000x96, .f32⟩ : BufTy).Contents (Elt F)),
    StableHlo.unary main_arg3 main_v52 (broadcastInDim S1600000x1 ![0] bcast_S1600000_S1600000x1_0 : (⟨S1600000, .i32⟩ : BufTy).Contents (Elt F) → (⟨S1600000x1, .i32⟩ : BufTy).Contents (Elt F)),
    StableHlo.ternary main_v51 main_v52 main_v50 main_v53 ((fun x i u => Host.scatterAdd scatter_S100000x96_S1600000x1_S1600000x96_1_0_0_1 x i u) : (⟨S100000x96, .f32⟩ : BufTy).Contents (Elt F) → (⟨S1600000x1, .i32⟩ : BufTy).Contents (Elt F) → (⟨S1600000x96, .f32⟩ : BufTy).Contents (Elt F) → (⟨S100000x96, .f32⟩ : BufTy).Contents (Elt F)),
    StableHlo.unary main_v26 main_v54 (broadcastInDim S100000x96 ![0, 1] bcast_S100000x1_S100000x96_0_1 : (⟨S100000x1, .f32⟩ : BufTy).Contents (Elt F) → (⟨S100000x96, .f32⟩ : BufTy).Contents (Elt F)),
    StableHlo.binary main_v53 main_v54 main_v55 (mulf : (⟨S100000x96, .f32⟩ : BufTy).Contents (Elt F) → (⟨S100000x96, .f32⟩ : BufTy).Contents (Elt F) → (⟨S100000x96, .f32⟩ : BufTy).Contents (Elt F)) ]

abbrev rC3 : List (HloOp τ sig (Elt F)) :=
  [ StableHlo.nary ![main_v27, main_v41, main_v55] main_v56 (fun u => concatenate S100000x288 1 [⟨S100000x96, u 0⟩, ⟨S100000x96, u 1⟩, ⟨S100000x96, u 2⟩] concatenates_S100000x96_S100000x96_S100000x96_S100000x288_d1) ]

abbrev sD1 : List (HloOp τ sig (Elt F)) :=
  [ StableHlo.binary main_v56 main_arg6 main_v57 ((fun l r => Host.dotGeneral dot_S100000x288_S288x64_S100000x64_1_0_0_1_n_n none l r) : (⟨S100000x288, .f32⟩ : BufTy).Contents (Elt F) → (⟨S288x64, .f32⟩ : BufTy).Contents (Elt F) → (⟨S100000x64, .f32⟩ : BufTy).Contents (Elt F)),
    StableHlo.unary main_arg7 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S100000x64 ![0, 1] bcast_S1x64_S100000x64_0_1 : (⟨S1x64, .f32⟩ : BufTy).Contents (Elt F) → (⟨S100000x64, .f32⟩ : BufTy).Contents (Elt F)),
    StableHlo.binary main_v57 main_v59 main_v60 (addf : (⟨S100000x64, .f32⟩ : BufTy).Contents (Elt F) → (⟨S100000x64, .f32⟩ : BufTy).Contents (Elt F) → (⟨S100000x64, .f32⟩ : BufTy).Contents (Elt F)),
    StableHlo.TRef.nullary (.of main_call3_cst) (constant S_ .f32 0x00000000#32),
    StableHlo.TRef.unary (.of main_call3_cst) (.of main_call3_v0) (broadcastInDim S100000x64 ![] bcast_S_S100000x64),
    StableHlo.TRef.binary (.of main_v60) (.of main_call3_v0) (.of main_v61) maximumf ]

abbrev rP4 : List (HloOp τ sig (Elt F)) :=
  [ StableHlo.unary main_v26 main_v62 (broadcastInDim S100000x64 ![0, 1] bcast_S100000x1_S100000x64_0_1 : (⟨S100000x1, .f32⟩ : BufTy).Contents (Elt F) → (⟨S100000x64, .f32⟩ : BufTy).Contents (Elt F)),
    StableHlo.binary main_v61 main_v62 main_v63 (mulf : (⟨S100000x64, .f32⟩ : BufTy).Contents (Elt F) → (⟨S100000x64, .f32⟩ : BufTy).Contents (Elt F) → (⟨S100000x64, .f32⟩ : BufTy).Contents (Elt F)),
    StableHlo.nullary main_c_11 (constantI S_ 32 0#32),
    StableHlo.unary main_c_11 main_v64 (broadcastInDim S1600000 ![] bcast_S_S1600000 : (⟨S_, .i32⟩ : BufTy).Contents (Elt F) → (⟨S1600000, .i32⟩ : BufTy).Contents (Elt F)),
    StableHlo.binary main_arg2 main_v64 main_v65 (cmpi .slt : (⟨S1600000, .i32⟩ : BufTy).Contents (Elt F) → (⟨S1600000, .i32⟩ : BufTy).Contents (Elt F) → (⟨S1600000, .i1⟩ : BufTy).Contents (Elt F)),
    StableHlo.nullary main_c_12 (constantI S_ 32 100000#32),
    StableHlo.unary main_c_12 main_v66 (broadcastInDim S1600000 ![] bcast_S_S1600000 : (⟨S_, .i32⟩ : BufTy).Contents (Elt F) → (⟨S1600000, .i32⟩ : BufTy).Contents (Elt F)),
    StableHlo.binary main_arg2 main_v66 main_v67 (addi : (⟨S1600000, .i32⟩ : BufTy).Contents (Elt F) → (⟨S1600000, .i32⟩ : BufTy).Contents (Elt F) → (⟨S1600000, .i32⟩ : BufTy).Contents (Elt F)),
    StableHlo.ternary main_v65 main_v67 main_arg2 main_v68 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v68 main_v69 (broadcastInDim S1600000x1 ![0] bcast_S1600000_S1600000x1_0 : (⟨S1600000, .i32⟩ : BufTy).Contents (Elt F) → (⟨S1600000x1, .i32⟩ : BufTy).Contents (Elt F)),
    StableHlo.binary main_v63 main_v69 main_v70 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_13 (constant S_ .f32 0x00000000#32),
    StableHlo.unary main_cst_13 main_v71 (broadcastInDim S100000x64 ![] bcast_S_S100000x64 : (⟨S_, .f32⟩ : BufTy).Contents (Elt F) → (⟨S100000x64, .f32⟩ : BufTy).Contents (Elt F)),
    StableHlo.unary main_arg3 main_v72 (broadcastInDim S1600000x1 ![0] bcast_S1600000_S1600000x1_0 : (⟨S1600000, .i32⟩ : BufTy).Contents (Elt F) → (⟨S1600000x1, .i32⟩ : BufTy).Contents (Elt F)),
    StableHlo.ternary main_v71 main_v72 main_v70 main_v73 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v26 main_v74 (broadcastInDim S100000x64 ![0, 1] bcast_S100000x1_S100000x64_0_1 : (⟨S100000x1, .f32⟩ : BufTy).Contents (Elt F) → (⟨S100000x64, .f32⟩ : BufTy).Contents (Elt F)),
    StableHlo.binary main_v73 main_v74 main_v75 (mulf : (⟨S100000x64, .f32⟩ : BufTy).Contents (Elt F) → (⟨S100000x64, .f32⟩ : BufTy).Contents (Elt F) → (⟨S100000x64, .f32⟩ : BufTy).Contents (Elt F)),
    StableHlo.unary main_v26 main_v76 (broadcastInDim S100000x64 ![0, 1] bcast_S100000x1_S100000x64_0_1 : (⟨S100000x1, .f32⟩ : BufTy).Contents (Elt F) → (⟨S100000x64, .f32⟩ : BufTy).Contents (Elt F)),
    StableHlo.binary main_v75 main_v76 main_v77 (mulf : (⟨S100000x64, .f32⟩ : BufTy).Contents (Elt F) → (⟨S100000x64, .f32⟩ : BufTy).Contents (Elt F) → (⟨S100000x64, .f32⟩ : BufTy).Contents (Elt F)),
    StableHlo.nullary main_c_14 (constantI S_ 32 0#32),
    StableHlo.unary main_c_14 main_v78 (broadcastInDim S1600000 ![] bcast_S_S1600000 : (⟨S_, .i32⟩ : BufTy).Contents (Elt F) → (⟨S1600000, .i32⟩ : BufTy).Contents (Elt F)),
    StableHlo.binary main_arg2 main_v78 main_v79 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 100000#32),
    StableHlo.unary main_c_15 main_v80 (broadcastInDim S1600000 ![] bcast_S_S1600000 : (⟨S_, .i32⟩ : BufTy).Contents (Elt F) → (⟨S1600000, .i32⟩ : BufTy).Contents (Elt F)),
    StableHlo.binary main_arg2 main_v80 main_v81 (addi : (⟨S1600000, .i32⟩ : BufTy).Contents (Elt F) → (⟨S1600000, .i32⟩ : BufTy).Contents (Elt F) → (⟨S1600000, .i32⟩ : BufTy).Contents (Elt F)),
    StableHlo.ternary main_v79 main_v81 main_arg2 main_v82 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v82 main_v83 (broadcastInDim S1600000x1 ![0] bcast_S1600000_S1600000x1_0 : (⟨S1600000, .i32⟩ : BufTy).Contents (Elt F) → (⟨S1600000x1, .i32⟩ : BufTy).Contents (Elt F)),
    StableHlo.binary main_v77 main_v83 main_v84 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_16 (constant S_ .f32 0x00000000#32),
    StableHlo.unary main_cst_16 main_v85 (broadcastInDim S100000x64 ![] bcast_S_S100000x64 : (⟨S_, .f32⟩ : BufTy).Contents (Elt F) → (⟨S100000x64, .f32⟩ : BufTy).Contents (Elt F)),
    StableHlo.unary main_arg3 main_v86 (broadcastInDim S1600000x1 ![0] bcast_S1600000_S1600000x1_0 : (⟨S1600000, .i32⟩ : BufTy).Contents (Elt F) → (⟨S1600000x1, .i32⟩ : BufTy).Contents (Elt F)),
    StableHlo.ternary main_v85 main_v86 main_v84 main_v87 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v26 main_v88 (broadcastInDim S100000x64 ![0, 1] bcast_S100000x1_S100000x64_0_1 : (⟨S100000x1, .f32⟩ : BufTy).Contents (Elt F) → (⟨S100000x64, .f32⟩ : BufTy).Contents (Elt F)),
    StableHlo.binary main_v87 main_v88 main_v89 (mulf : (⟨S100000x64, .f32⟩ : BufTy).Contents (Elt F) → (⟨S100000x64, .f32⟩ : BufTy).Contents (Elt F) → (⟨S100000x64, .f32⟩ : BufTy).Contents (Elt F)) ]

abbrev rC4 : List (HloOp τ sig (Elt F)) :=
  [ StableHlo.nary ![main_v61, main_v75, main_v89] main_v90 (fun u => concatenate S100000x192 1 [⟨S100000x64, u 0⟩, ⟨S100000x64, u 1⟩, ⟨S100000x64, u 2⟩] concatenates_S100000x64_S100000x64_S100000x64_S100000x192_d1) ]

abbrev sD2 : List (HloOp τ sig (Elt F)) :=
  [ StableHlo.binary main_v90 main_arg8 main_v91 ((fun l r => Host.dotGeneral dot_S100000x192_S192x64_S100000x64_1_0_0_1_n_n none l r) : (⟨S100000x192, .f32⟩ : BufTy).Contents (Elt F) → (⟨S192x64, .f32⟩ : BufTy).Contents (Elt F) → (⟨S100000x64, .f32⟩ : BufTy).Contents (Elt F)),
    StableHlo.unary main_arg9 main_v92 (broadcastInDim S1x64 ![1] bcast_S64_S1x64_1 : (⟨S64, .f32⟩ : BufTy).Contents (Elt F) → (⟨S1x64, .f32⟩ : BufTy).Contents (Elt F)),
    StableHlo.unary main_v92 main_v93 (broadcastInDim S100000x64 ![0, 1] bcast_S1x64_S100000x64_0_1 : (⟨S1x64, .f32⟩ : BufTy).Contents (Elt F) → (⟨S100000x64, .f32⟩ : BufTy).Contents (Elt F)),
    StableHlo.binary main_v91 main_v93 main_v94 (addf : (⟨S100000x64, .f32⟩ : BufTy).Contents (Elt F) → (⟨S100000x64, .f32⟩ : BufTy).Contents (Elt F) → (⟨S100000x64, .f32⟩ : BufTy).Contents (Elt F)),
    StableHlo.TRef.nullary (.of main_call4_cst) (constant S_ .f32 0x00000000#32),
    StableHlo.TRef.unary (.of main_call4_cst) (.of main_call4_v0) (broadcastInDim S100000x64 ![] bcast_S_S100000x64),
    StableHlo.TRef.binary (.of main_v94) (.of main_call4_v0) (.of main_v95) maximumf ]

abbrev rP5 : List (HloOp τ sig (Elt F)) :=
  [ StableHlo.unary main_v26 main_v96 (broadcastInDim S100000x64 ![0, 1] bcast_S100000x1_S100000x64_0_1 : (⟨S100000x1, .f32⟩ : BufTy).Contents (Elt F) → (⟨S100000x64, .f32⟩ : BufTy).Contents (Elt F)),
    StableHlo.binary main_v95 main_v96 main_v97 (mulf : (⟨S100000x64, .f32⟩ : BufTy).Contents (Elt F) → (⟨S100000x64, .f32⟩ : BufTy).Contents (Elt F) → (⟨S100000x64, .f32⟩ : BufTy).Contents (Elt F)),
    StableHlo.nullary main_c_17 (constantI S_ 32 0#32),
    StableHlo.unary main_c_17 main_v98 (broadcastInDim S1600000 ![] bcast_S_S1600000 : (⟨S_, .i32⟩ : BufTy).Contents (Elt F) → (⟨S1600000, .i32⟩ : BufTy).Contents (Elt F)),
    StableHlo.binary main_arg2 main_v98 main_v99 (cmpi .slt : (⟨S1600000, .i32⟩ : BufTy).Contents (Elt F) → (⟨S1600000, .i32⟩ : BufTy).Contents (Elt F) → (⟨S1600000, .i1⟩ : BufTy).Contents (Elt F)),
    StableHlo.nullary main_c_18 (constantI S_ 32 100000#32),
    StableHlo.unary main_c_18 main_v100 (broadcastInDim S1600000 ![] bcast_S_S1600000 : (⟨S_, .i32⟩ : BufTy).Contents (Elt F) → (⟨S1600000, .i32⟩ : BufTy).Contents (Elt F)),
    StableHlo.binary main_arg2 main_v100 main_v101 (addi : (⟨S1600000, .i32⟩ : BufTy).Contents (Elt F) → (⟨S1600000, .i32⟩ : BufTy).Contents (Elt F) → (⟨S1600000, .i32⟩ : BufTy).Contents (Elt F)),
    StableHlo.ternary main_v99 main_v101 main_arg2 main_v102 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v102 main_v103 (broadcastInDim S1600000x1 ![0] bcast_S1600000_S1600000x1_0 : (⟨S1600000, .i32⟩ : BufTy).Contents (Elt F) → (⟨S1600000x1, .i32⟩ : BufTy).Contents (Elt F)),
    StableHlo.binary main_v97 main_v103 main_v104 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_19 (constant S_ .f32 0x00000000#32),
    StableHlo.unary main_cst_19 main_v105 (broadcastInDim S100000x64 ![] bcast_S_S100000x64 : (⟨S_, .f32⟩ : BufTy).Contents (Elt F) → (⟨S100000x64, .f32⟩ : BufTy).Contents (Elt F)),
    StableHlo.unary main_arg3 main_v106 (broadcastInDim S1600000x1 ![0] bcast_S1600000_S1600000x1_0 : (⟨S1600000, .i32⟩ : BufTy).Contents (Elt F) → (⟨S1600000x1, .i32⟩ : BufTy).Contents (Elt F)),
    StableHlo.ternary main_v105 main_v106 main_v104 main_v107 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v26 main_v108 (broadcastInDim S100000x64 ![0, 1] bcast_S100000x1_S100000x64_0_1 : (⟨S100000x1, .f32⟩ : BufTy).Contents (Elt F) → (⟨S100000x64, .f32⟩ : BufTy).Contents (Elt F)),
    StableHlo.binary main_v107 main_v108 main_v109 (mulf : (⟨S100000x64, .f32⟩ : BufTy).Contents (Elt F) → (⟨S100000x64, .f32⟩ : BufTy).Contents (Elt F) → (⟨S100000x64, .f32⟩ : BufTy).Contents (Elt F)),
    StableHlo.unary main_v26 main_v110 (broadcastInDim S100000x64 ![0, 1] bcast_S100000x1_S100000x64_0_1 : (⟨S100000x1, .f32⟩ : BufTy).Contents (Elt F) → (⟨S100000x64, .f32⟩ : BufTy).Contents (Elt F)),
    StableHlo.binary main_v109 main_v110 main_v111 (mulf : (⟨S100000x64, .f32⟩ : BufTy).Contents (Elt F) → (⟨S100000x64, .f32⟩ : BufTy).Contents (Elt F) → (⟨S100000x64, .f32⟩ : BufTy).Contents (Elt F)),
    StableHlo.nullary main_c_20 (constantI S_ 32 0#32),
    StableHlo.unary main_c_20 main_v112 (broadcastInDim S1600000 ![] bcast_S_S1600000 : (⟨S_, .i32⟩ : BufTy).Contents (Elt F) → (⟨S1600000, .i32⟩ : BufTy).Contents (Elt F)),
    StableHlo.binary main_arg2 main_v112 main_v113 (cmpi .slt : (⟨S1600000, .i32⟩ : BufTy).Contents (Elt F) → (⟨S1600000, .i32⟩ : BufTy).Contents (Elt F) → (⟨S1600000, .i1⟩ : BufTy).Contents (Elt F)),
    StableHlo.nullary main_c_21 (constantI S_ 32 100000#32),
    StableHlo.unary main_c_21 main_v114 (broadcastInDim S1600000 ![] bcast_S_S1600000 : (⟨S_, .i32⟩ : BufTy).Contents (Elt F) → (⟨S1600000, .i32⟩ : BufTy).Contents (Elt F)),
    StableHlo.binary main_arg2 main_v114 main_v115 (addi : (⟨S1600000, .i32⟩ : BufTy).Contents (Elt F) → (⟨S1600000, .i32⟩ : BufTy).Contents (Elt F) → (⟨S1600000, .i32⟩ : BufTy).Contents (Elt F)),
    StableHlo.ternary main_v113 main_v115 main_arg2 main_v116 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v116 main_v117 (broadcastInDim S1600000x1 ![0] bcast_S1600000_S1600000x1_0 : (⟨S1600000, .i32⟩ : BufTy).Contents (Elt F) → (⟨S1600000x1, .i32⟩ : BufTy).Contents (Elt F)),
    StableHlo.binary main_v111 main_v117 main_v118 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_22 (constant S_ .f32 0x00000000#32),
    StableHlo.unary main_cst_22 main_v119 (broadcastInDim S100000x64 ![] bcast_S_S100000x64 : (⟨S_, .f32⟩ : BufTy).Contents (Elt F) → (⟨S100000x64, .f32⟩ : BufTy).Contents (Elt F)),
    StableHlo.unary main_arg3 main_v120 (broadcastInDim S1600000x1 ![0] bcast_S1600000_S1600000x1_0 : (⟨S1600000, .i32⟩ : BufTy).Contents (Elt F) → (⟨S1600000x1, .i32⟩ : BufTy).Contents (Elt F)),
    StableHlo.ternary main_v119 main_v120 main_v118 main_v121 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v26 main_v122 (broadcastInDim S100000x64 ![0, 1] bcast_S100000x1_S100000x64_0_1 : (⟨S100000x1, .f32⟩ : BufTy).Contents (Elt F) → (⟨S100000x64, .f32⟩ : BufTy).Contents (Elt F)),
    StableHlo.binary main_v121 main_v122 main_v123 (mulf : (⟨S100000x64, .f32⟩ : BufTy).Contents (Elt F) → (⟨S100000x64, .f32⟩ : BufTy).Contents (Elt F) → (⟨S100000x64, .f32⟩ : BufTy).Contents (Elt F)) ]

abbrev rC5 : List (HloOp τ sig (Elt F)) :=
  [ StableHlo.nary ![main_v95, main_v109, main_v123] main_v124 (fun u => concatenate S100000x192 1 [⟨S100000x64, u 0⟩, ⟨S100000x64, u 1⟩, ⟨S100000x64, u 2⟩] concatenates_S100000x64_S100000x64_S100000x64_S100000x192_d1) ]

abbrev sD3 : List (HloOp τ sig (Elt F)) :=
  [ StableHlo.binary main_v124 main_arg10 main_v125 ((fun l r => Host.dotGeneral dot_S100000x192_S192x64_S100000x64_1_0_0_1_n_n none l r) : (⟨S100000x192, .f32⟩ : BufTy).Contents (Elt F) → (⟨S192x64, .f32⟩ : BufTy).Contents (Elt F) → (⟨S100000x64, .f32⟩ : BufTy).Contents (Elt F)),
    StableHlo.unary main_arg11 main_v126 (broadcastInDim S1x64 ![1] bcast_S64_S1x64_1 : (⟨S64, .f32⟩ : BufTy).Contents (Elt F) → (⟨S1x64, .f32⟩ : BufTy).Contents (Elt F)),
    StableHlo.unary main_v126 main_v127 (broadcastInDim S100000x64 ![0, 1] bcast_S1x64_S100000x64_0_1 : (⟨S1x64, .f32⟩ : BufTy).Contents (Elt F) → (⟨S100000x64, .f32⟩ : BufTy).Contents (Elt F)),
    StableHlo.binary main_v125 main_v127 main_v128 (addf : (⟨S100000x64, .f32⟩ : BufTy).Contents (Elt F) → (⟨S100000x64, .f32⟩ : BufTy).Contents (Elt F) → (⟨S100000x64, .f32⟩ : BufTy).Contents (Elt F)),
    StableHlo.TRef.nullary (.of main_call5_cst) (constant S_ .f32 0x00000000#32),
    StableHlo.TRef.unary (.of main_call5_cst) (.of main_call5_v0) (broadcastInDim S100000x64 ![] bcast_S_S100000x64),
    StableHlo.TRef.binary (.of main_v128) (.of main_call5_v0) (.of main_v129) maximumf ]

abbrev sS : List (HloOp τ sig (Elt F)) :=
  [ StableHlo.nullary main_cst_23 (constant S_ .f32 0x00000000#32),
    StableHlo.binary main_v129 main_cst_23 main_v130 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.unary main_v130 main_v131 (broadcastInDim S1x64 ![1] bcast_S64_S1x64_1 : (⟨S64, .f32⟩ : BufTy).Contents (Elt F) → (⟨S1x64, .f32⟩ : BufTy).Contents (Elt F)) ]

abbrev sF : List (HloOp τ sig (Elt F)) :=
  [ StableHlo.nullary main_cst_24 (constant S_ .f32 0x47C35000#32),
    StableHlo.unary main_cst_24 main_v132 (broadcastInDim S1x64 ![] bcast_S_S1x64 : (⟨S_, .f32⟩ : BufTy).Contents (Elt F) → (⟨S1x64, .f32⟩ : BufTy).Contents (Elt F)),
    StableHlo.binary main_v131 main_v132 main_v133 (Host.divf : (⟨S1x64, .f32⟩ : BufTy).Contents (Elt F) → (⟨S1x64, .f32⟩ : BufTy).Contents (Elt F) → (⟨S1x64, .f32⟩ : BufTy).Contents (Elt F)),
    StableHlo.binary main_v133 main_arg12 main_v134 ((fun l r => Host.dotGeneral dot_S1x64_S64x1_S1x1_1_0_0_1_n_n none l r) : (⟨S1x64, .f32⟩ : BufTy).Contents (Elt F) → (⟨S64x1, .f32⟩ : BufTy).Contents (Elt F) → (⟨S1x1, .f32⟩ : BufTy).Contents (Elt F)),
    StableHlo.unary main_arg13 main_v135 (broadcastInDim S1x1 ![1] bcast_S1_S1x1_1 : (⟨S1, .f32⟩ : BufTy).Contents (Elt F) → (⟨S1x1, .f32⟩ : BufTy).Contents (Elt F)),
    StableHlo.binary main_v134 main_v135 main_v136 (addf : (⟨S1x1, .f32⟩ : BufTy).Contents (Elt F) → (⟨S1x1, .f32⟩ : BufTy).Contents (Elt F) → (⟨S1x1, .f32⟩ : BufTy).Contents (Elt F)) ]

/-- The line is its sixteen pieces in order. -/
theorem ops_split : (ops : List (HloOp τ sig (Elt F))) = rP1 ++ (rC1 ++ (sD0 ++ (rP2 ++ (rC2 ++ (rP3 ++ (rC3 ++ (sD1 ++ (rP4 ++ (rC4 ++ (sD2 ++ (rP5 ++ (rC5 ++ (sD3 ++ (sS ++ (sF))))))))))))))) := by
  chain_rfl

/-- A line run after another is the two run as one. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The buffers after the whole line, piece by piece. -/
theorem after_ops (V : Valuation τ sig (Elt F)) :
    after ops V = after sF (after sS (after sD3 (after rC5 (after rP5 (after sD2 (after rC4 (after rP4 (after sD1 (after rC3 (after rP3 (after rC2 (after rP2 (after sD0 (after rC1 (after rP1 (V)))))))))))))))) := by
  rw [ops_split]
  simp only [after_append]

end Cert.ReferenceIdeal.Line

end
-- ==== Proof.KernelIdeal.Pieces.lean ====
import proofs.«163259_j24927990186434_1_alg».proof.Proof.Gen.KernelIdeal.Launch
import Idealize.ShloMosaic.Lib.StableHlo.Run
import Idealize.ShloMosaic.Lib.Tactic

/-!
# The host stretches of @main, cut at their concatenations

Each host stretch between two kernel regions is cut into pieces: the operations up to a concatenation, the
concatenation itself (with the bias vector's recast as a row, where one follows), and so on. Running a stretch is
running its pieces in order.
-/

noncomputable section

namespace Cert.KernelIdeal.Reg

open Cert.KernelIdeal Cert.KernelIdeal.Gen Idealize.ShloMosaic Idealize.ShloMosaic.TcCoe Idealize.ShloMosaic.Tactic Idealize.SL.Sem Idealize.ShloMosaic.StableHlo

variable {F : FTy → Type} [FloatOps F]

abbrev kP1 : List (HloOp τ sig (Elt F)) :=
  [ StableHlo.TRef.binary (.of main_arg0 : StableHlo.TRef sig ⟨S100000x32, .f32⟩) (.of main_arg0 : StableHlo.TRef sig ⟨S100000x32, .f32⟩) (.of main_call0_v0 : StableHlo.TRef sig ⟨S100000x32, .i1⟩) (cmpf .une),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_call0_v0 : StableHlo.TRef sig ⟨S100000x32, .f32⟩) (broadcastInDim S100000x32 ![] bcast_S_S100000x32),
    StableHlo.TRef.ternary (.of main_call0_v0 : StableHlo.TRef sig ⟨S100000x32, .i1⟩) (.of main_call0_call0_v0 : StableHlo.TRef sig ⟨S100000x32, .f32⟩) (.of main_arg0 : StableHlo.TRef sig ⟨S100000x32, .f32⟩) (.of main_call0_v1 : StableHlo.TRef sig ⟨S100000x32, .f32⟩) select,
    StableHlo.TRef.nullary (.of main_call0_cst_0 : StableHlo.TRef sig ⟨S_, .f32⟩) (constant S_ .f32 0x7F800000#32),
    StableHlo.TRef.unary (.of main_call0_cst_0 : StableHlo.TRef sig ⟨S_, .f32⟩) (.of main_call0_v2 : StableHlo.TRef sig ⟨S100000x32, .f32⟩) (broadcastInDim S100000x32 ![] bcast_S_S100000x32),
    StableHlo.TRef.binary main_call0_call0.v1 (.of main_call0_v2 : StableHlo.TRef sig ⟨S100000x32, .f32⟩) (.of main_call0_v3 : StableHlo.TRef sig ⟨S100000x32, .i1⟩) (cmpf .oeq),
    StableHlo.TRef.nullary (.of main_call0_cst_1 : StableHlo.TRef sig ⟨S_, .f32⟩) (constant S_ .f32 0x7F7FFFFF#32),
    StableHlo.TRef.unary (.of main_call0_cst_1 : StableHlo.TRef sig ⟨S_, .f32⟩) (.of main_call0_call1_v0 : StableHlo.TRef sig ⟨S100000x32, .f32⟩) (broadcastInDim S100000x32 ![] bcast_S_S100000x32),
    StableHlo.TRef.ternary (.of main_call0_v3 : StableHlo.TRef sig ⟨S100000x32, .i1⟩) (.of main_call0_call1_v0 : StableHlo.TRef sig ⟨S100000x32, .f32⟩) (main_call0_call0.v1 : StableHlo.TRef sig ⟨S100000x32, .f32⟩) (.of main_call0_v4 : StableHlo.TRef sig ⟨S100000x32, .f32⟩) select,
    StableHlo.TRef.nullary (.of main_call0_cst_2 : StableHlo.TRef sig ⟨S_, .f32⟩) (constant S_ .f32 0xFF800000#32),
    StableHlo.TRef.unary (.of main_call0_cst_2 : StableHlo.TRef sig ⟨S_, .f32⟩) (.of main_call0_v5 : StableHlo.TRef sig ⟨S100000x32, .f32⟩) (broadcastInDim S100000x32 ![] bcast_S_S100000x32),
    StableHlo.TRef.binary main_call0_call1.v1 (.of main_call0_v5 : StableHlo.TRef sig ⟨S100000x32, .f32⟩) (.of main_call0_v6 : StableHlo.TRef sig ⟨S100000x32, .i1⟩) (cmpf .oeq),
    StableHlo.TRef.nullary (.of main_call0_cst_3 : StableHlo.TRef sig ⟨S_, .f32⟩) (constant S_ .f32 0xFF7FFFFF#32),
    StableHlo.TRef.unary (.of main_call0_cst_3 : StableHlo.TRef sig ⟨S_, .f32⟩) (.of main_call0_call2_v0 : StableHlo.TRef sig ⟨S100000x32, .f32⟩) (broadcastInDim S100000x32 ![] bcast_S_S100000x32),
    StableHlo.TRef.ternary (.of main_call0_v6 : StableHlo.TRef sig ⟨S100000x32, .i1⟩) (.of main_call0_call2_v0 : StableHlo.TRef sig ⟨S100000x32, .f32⟩) (main_call0_call1.v1 : StableHlo.TRef sig ⟨S100000x32, .f32⟩) (.of main_v0 : StableHlo.TRef sig ⟨S100000x32, .f32⟩) select,
    StableHlo.nullary main_c (constantI S_ 32 0#32),
    StableHlo.unary main_c main_v1 (broadcastInDim S1600000 ![] bcast_S_S1600000 : (⟨S_, .i32⟩ : BufTy).Contents (Elt F) → (⟨S1600000, .i32⟩ : BufTy).Contents (Elt F)),
    StableHlo.binary main_arg2 main_v1 main_v2 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v3 (broadcastInDim S1600000 ![] bcast_S_S1600000 : (⟨S_, .i32⟩ : BufTy).Contents (Elt F) → (⟨S1600000, .i32⟩ : BufTy).Contents (Elt F)),
    StableHlo.binary main_arg2 main_v3 main_v4 (addi : (⟨S1600000, .i32⟩ : BufTy).Contents (Elt F) → (⟨S1600000, .i32⟩ : BufTy).Contents (Elt F) → (⟨S1600000, .i32⟩ : BufTy).Contents (Elt F)),
    StableHlo.ternary main_v2 main_v4 main_arg2 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v5 main_v6 (broadcastInDim S1600000x1 ![0] bcast_S1600000_S1600000x1_0 : (⟨S1600000, .i32⟩ : BufTy).Contents (Elt F) → (⟨S1600000x1, .i32⟩ : BufTy).Contents (Elt F)),
    StableHlo.binary main_v0 main_v6 main_v7 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)) ]

abbrev kC1 : List (HloOp τ sig (Elt F)) :=
  [ StableHlo.binary main_v7 main_arg1 main_v8 ((fun a b => concatenate S1600000x64 1 [⟨S1600000x32, a⟩, ⟨S1600000x32, b⟩] concatenates_S1600000x32_S1600000x32_S1600000x64_d1) : (⟨S1600000x32, .f32⟩ : BufTy).Contents (Elt F) → (⟨S1600000x32, .f32⟩ : BufTy).Contents (Elt F) → (⟨S1600000x64, .f32⟩ : BufTy).Contents (Elt F)),
    StableHlo.reshape main_arg5 main_v9 rfl shapeCasts_S64_S1x64 ]

abbrev kP2 : List (HloOp τ sig (Elt F)) :=
  [ StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_arg3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.TRef.binary (.of main_v13 : StableHlo.TRef sig ⟨S100000x64, .f32⟩) (.of main_v13 : StableHlo.TRef sig ⟨S100000x64, .f32⟩) (.of main_call1_v0 : StableHlo.TRef sig ⟨S100000x64, .i1⟩) (cmpf .une),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_call0_v0 : StableHlo.TRef sig ⟨S100000x64, .f32⟩) (broadcastInDim S100000x64 ![] bcast_S_S100000x64),
    StableHlo.TRef.ternary (.of main_call1_v0 : StableHlo.TRef sig ⟨S100000x64, .i1⟩) (.of main_call1_call0_v0 : StableHlo.TRef sig ⟨S100000x64, .f32⟩) (.of main_v13 : StableHlo.TRef sig ⟨S100000x64, .f32⟩) (.of main_call1_v1 : StableHlo.TRef sig ⟨S100000x64, .f32⟩) select,
    StableHlo.TRef.nullary (.of main_call1_cst_0 : StableHlo.TRef sig ⟨S_, .f32⟩) (constant S_ .f32 0x7F800000#32),
    StableHlo.TRef.unary (.of main_call1_cst_0 : StableHlo.TRef sig ⟨S_, .f32⟩) (.of main_call1_v2 : StableHlo.TRef sig ⟨S100000x64, .f32⟩) (broadcastInDim S100000x64 ![] bcast_S_S100000x64),
    StableHlo.TRef.binary main_call1_call0.v1 (.of main_call1_v2 : StableHlo.TRef sig ⟨S100000x64, .f32⟩) (.of main_call1_v3 : StableHlo.TRef sig ⟨S100000x64, .i1⟩) (cmpf .oeq),
    StableHlo.TRef.nullary (.of main_call1_cst_1 : StableHlo.TRef sig ⟨S_, .f32⟩) (constant S_ .f32 0x7F7FFFFF#32),
    StableHlo.TRef.unary (.of main_call1_cst_1 : StableHlo.TRef sig ⟨S_, .f32⟩) (.of main_call1_call1_v0 : StableHlo.TRef sig ⟨S100000x64, .f32⟩) (broadcastInDim S100000x64 ![] bcast_S_S100000x64),
    StableHlo.TRef.ternary (.of main_call1_v3 : StableHlo.TRef sig ⟨S100000x64, .i1⟩) (.of main_call1_call1_v0 : StableHlo.TRef sig ⟨S100000x64, .f32⟩) (main_call1_call0.v1 : StableHlo.TRef sig ⟨S100000x64, .f32⟩) (.of main_call1_v4 : StableHlo.TRef sig ⟨S100000x64, .f32⟩) select,
    StableHlo.TRef.nullary (.of main_call1_cst_2 : StableHlo.TRef sig ⟨S_, .f32⟩) (constant S_ .f32 0xFF800000#32),
    StableHlo.TRef.unary (.of main_call1_cst_2 : StableHlo.TRef sig ⟨S_, .f32⟩) (.of main_call1_v5 : StableHlo.TRef sig ⟨S100000x64, .f32⟩) (broadcastInDim S100000x64 ![] bcast_S_S100000x64),
    StableHlo.TRef.binary main_call1_call1.v1 (.of main_call1_v5 : StableHlo.TRef sig ⟨S100000x64, .f32⟩) (.of main_call1_v6 : StableHlo.TRef sig ⟨S100000x64, .i1⟩) (cmpf .oeq),
    StableHlo.TRef.nullary (.of main_call1_cst_3 : StableHlo.TRef sig ⟨S_, .f32⟩) (constant S_ .f32 0xFF7FFFFF#32),
    StableHlo.TRef.unary (.of main_call1_cst_3 : StableHlo.TRef sig ⟨S_, .f32⟩) (.of main_call1_call2_v0 : StableHlo.TRef sig ⟨S100000x64, .f32⟩) (broadcastInDim S100000x64 ![] bcast_S_S100000x64),
    StableHlo.TRef.ternary (.of main_call1_v6 : StableHlo.TRef sig ⟨S100000x64, .i1⟩) (.of main_call1_call2_v0 : StableHlo.TRef sig ⟨S100000x64, .f32⟩) (main_call1_call1.v1 : StableHlo.TRef sig ⟨S100000x64, .f32⟩) (.of main_v14 : StableHlo.TRef sig ⟨S100000x64, .f32⟩) select,
    StableHlo.nullary main_cst_1 (constant S_ .f32 0x3F800000#32),
    StableHlo.unary main_cst_1 main_v15 (broadcastInDim S1600000 ![] bcast_S_S1600000 : (⟨S_, .f32⟩ : BufTy).Contents (Elt F) → (⟨S1600000, .f32⟩ : BufTy).Contents (Elt F)),
    StableHlo.nullary main_cst_2 (constant S_ .f32 0x00000000#32),
    StableHlo.unary main_cst_2 main_v16 (broadcastInDim S100000 ![] bcast_S_S100000 : (⟨S_, .f32⟩ : BufTy).Contents (Elt F) → (⟨S100000, .f32⟩ : BufTy).Contents (Elt F)),
    StableHlo.unary main_arg3 main_v17 (broadcastInDim S1600000x1 ![0] bcast_S1600000_S1600000x1_0 : (⟨S1600000, .i32⟩ : BufTy).Contents (Elt F) → (⟨S1600000x1, .i32⟩ : BufTy).Contents (Elt F)),
    StableHlo.ternary main_v16 main_v17 main_v15 main_v18 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_3 (constant S_ .f32 0x3F800000#32),
    StableHlo.unary main_cst_3 main_v19 (broadcastInDim S100000 ![] bcast_S_S100000 : (⟨S_, .f32⟩ : BufTy).Contents (Elt F) → (⟨S100000, .f32⟩ : BufTy).Contents (Elt F)),
    StableHlo.binary main_v18 main_v19 main_v20 (maximumf : (⟨S100000, .f32⟩ : BufTy).Contents (Elt F) → (⟨S100000, .f32⟩ : BufTy).Contents (Elt F) → (⟨S100000, .f32⟩ : BufTy).Contents (Elt F)),
    StableHlo.nullary main_cst_4 (constant S_ .f32 0xBF000000#32),
    StableHlo.unary main_cst_4 main_v21 (broadcastInDim S100000 ![] bcast_S_S100000 : (⟨S_, .f32⟩ : BufTy).Contents (Elt F) → (⟨S100000, .f32⟩ : BufTy).Contents (Elt F)),
    StableHlo.binary main_v20 main_v21 main_v22 (Host.powf : (⟨S100000, .f32⟩ : BufTy).Contents (Elt F) → (⟨S100000, .f32⟩ : BufTy).Contents (Elt F) → (⟨S100000, .f32⟩ : BufTy).Contents (Elt F)),
    StableHlo.unary main_v22 main_v23 (broadcastInDim S100000x1 ![0] bcast_S100000_S100000x1_0 : (⟨S100000, .f32⟩ : BufTy).Contents (Elt F) → (⟨S100000x1, .f32⟩ : BufTy).Contents (Elt F)) ]

abbrev kC2 : List (HloOp τ sig (Elt F)) :=
  [ StableHlo.binary main_v0 main_v14 main_v24 ((fun a b => concatenate S100000x96 1 [⟨S100000x32, a⟩, ⟨S100000x64, b⟩] concatenates_S100000x32_S100000x64_S100000x96_d1) : (⟨S100000x32, .f32⟩ : BufTy).Contents (Elt F) → (⟨S100000x64, .f32⟩ : BufTy).Contents (Elt F) → (⟨S100000x96, .f32⟩ : BufTy).Contents (Elt F)) ]

abbrev kP3 : List (HloOp τ sig (Elt F)) :=
  [ StableHlo.unary main_v23 main_v25 (broadcastInDim S100000x96 ![0, 1] bcast_S100000x1_S100000x96_0_1 : (⟨S100000x1, .f32⟩ : BufTy).Contents (Elt F) → (⟨S100000x96, .f32⟩ : BufTy).Contents (Elt F)),
    StableHlo.binary main_v24 main_v25 main_v26 (mulf : (⟨S100000x96, .f32⟩ : BufTy).Contents (Elt F) → (⟨S100000x96, .f32⟩ : BufTy).Contents (Elt F) → (⟨S100000x96, .f32⟩ : BufTy).Contents (Elt F)),
    StableHlo.nullary main_c_5 (constantI S_ 32 0#32),
    StableHlo.unary main_c_5 main_v27 (broadcastInDim S1600000 ![] bcast_S_S1600000 : (⟨S_, .i32⟩ : BufTy).Contents (Elt F) → (⟨S1600000, .i32⟩ : BufTy).Contents (Elt F)),
    StableHlo.binary main_arg2 main_v27 main_v28 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v29 (broadcastInDim S1600000 ![] bcast_S_S1600000 : (⟨S_, .i32⟩ : BufTy).Contents (Elt F) → (⟨S1600000, .i32⟩ : BufTy).Contents (Elt F)),
    StableHlo.binary main_arg2 main_v29 main_v30 (addi : (⟨S1600000, .i32⟩ : BufTy).Contents (Elt F) → (⟨S1600000, .i32⟩ : BufTy).Contents (Elt F) → (⟨S1600000, .i32⟩ : BufTy).Contents (Elt F)),
    StableHlo.ternary main_v28 main_v30 main_arg2 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v31 main_v32 (broadcastInDim S1600000x1 ![0] bcast_S1600000_S1600000x1_0 : (⟨S1600000, .i32⟩ : BufTy).Contents (Elt F) → (⟨S1600000x1, .i32⟩ : BufTy).Contents (Elt F)),
    StableHlo.binary main_v26 main_v32 main_v33 ((fun x i => Host.gather gather_S100000x96_S1600000x1_S1600000x96_1_0_n_n_0_1_196 x i) : (⟨S100000x96, .f32⟩ : BufTy).Contents (Elt F) → (⟨S1600000x1, .i32⟩ : BufTy).Contents (Elt F) → (⟨S1600000x96, .f32⟩ : BufTy).Contents (Elt F)),
    StableHlo.nullary main_cst_7 (constant S_ .f32 0x00000000#32),
    StableHlo.unary main_cst_7 main_v34 (broadcastInDim S100000x96 ![] bcast_S_S100000x96 : (⟨S_, .f32⟩ : BufTy).Contents (Elt F) → (⟨S100000x96, .f32⟩ : BufTy).Contents (Elt F)),
    StableHlo.unary main_arg3 main_v35 (broadcastInDim S1600000x1 ![0] bcast_S1600000_S1600000x1_0 : (⟨S1600000, .i32⟩ : BufTy).Contents (Elt F) → (⟨S1600000x1, .i32⟩ : BufTy).Contents (Elt F)),
    StableHlo.ternary main_v34 main_v35 main_v33 main_v36 ((fun x i u => Host.scatterAdd scatter_S100000x96_S1600000x1_S1600000x96_1_0_0_1 x i u) : (⟨S100000x96, .f32⟩ : BufTy).Contents (Elt F) → (⟨S1600000x1, .i32⟩ : BufTy).Contents (Elt F) → (⟨S1600000x96, .f32⟩ : BufTy).Contents (Elt F) → (⟨S100000x96, .f32⟩ : BufTy).Contents (Elt F)),
    StableHlo.unary main_v23 main_v37 (broadcastInDim S100000x96 ![0, 1] bcast_S100000x1_S100000x96_0_1 : (⟨S100000x1, .f32⟩ : BufTy).Contents (Elt F) → (⟨S100000x96, .f32⟩ : BufTy).Contents (Elt F)),
    StableHlo.binary main_v36 main_v37 main_v38 (mulf : (⟨S100000x96, .f32⟩ : BufTy).Contents (Elt F) → (⟨S100000x96, .f32⟩ : BufTy).Contents (Elt F) → (⟨S100000x96, .f32⟩ : BufTy).Contents (Elt F)),
    StableHlo.unary main_v23 main_v39 (broadcastInDim S100000x96 ![0, 1] bcast_S100000x1_S100000x96_0_1 : (⟨S100000x1, .f32⟩ : BufTy).Contents (Elt F) → (⟨S100000x96, .f32⟩ : BufTy).Contents (Elt F)),
    StableHlo.binary main_v38 main_v39 main_v40 (mulf : (⟨S100000x96, .f32⟩ : BufTy).Contents (Elt F) → (⟨S100000x96, .f32⟩ : BufTy).Contents (Elt F) → (⟨S100000x96, .f32⟩ : BufTy).Contents (Elt F)),
    StableHlo.nullary main_c_8 (constantI S_ 32 0#32),
    StableHlo.unary main_c_8 main_v41 (broadcastInDim S1600000 ![] bcast_S_S1600000 : (⟨S_, .i32⟩ : BufTy).Contents (Elt F) → (⟨S1600000, .i32⟩ : BufTy).Contents (Elt F)),
    StableHlo.binary main_arg2 main_v41 main_v42 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v43 (broadcastInDim S1600000 ![] bcast_S_S1600000 : (⟨S_, .i32⟩ : BufTy).Contents (Elt F) → (⟨S1600000, .i32⟩ : BufTy).Contents (Elt F)),
    StableHlo.binary main_arg2 main_v43 main_v44 (addi : (⟨S1600000, .i32⟩ : BufTy).Contents (Elt F) → (⟨S1600000, .i32⟩ : BufTy).Contents (Elt F) → (⟨S1600000, .i32⟩ : BufTy).Contents (Elt F)),
    StableHlo.ternary main_v42 main_v44 main_arg2 main_v45 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v45 main_v46 (broadcastInDim S1600000x1 ![0] bcast_S1600000_S1600000x1_0 : (⟨S1600000, .i32⟩ : BufTy).Contents (Elt F) → (⟨S1600000x1, .i32⟩ : BufTy).Contents (Elt F)),
    StableHlo.binary main_v40 main_v46 main_v47 ((fun x i => Host.gather gather_S100000x96_S1600000x1_S1600000x96_1_0_n_n_0_1_196 x i) : (⟨S100000x96, .f32⟩ : BufTy).Contents (Elt F) → (⟨S1600000x1, .i32⟩ : BufTy).Contents (Elt F) → (⟨S1600000x96, .f32⟩ : BufTy).Contents (Elt F)),
    StableHlo.nullary main_cst_10 (constant S_ .f32 0x00000000#32),
    StableHlo.unary main_cst_10 main_v48 (broadcastInDim S100000x96 ![] bcast_S_S100000x96 : (⟨S_, .f32⟩ : BufTy).Contents (Elt F) → (⟨S100000x96, .f32⟩ : BufTy).Contents (Elt F)),
    StableHlo.unary main_arg3 main_v49 (broadcastInDim S1600000x1 ![0] bcast_S1600000_S1600000x1_0 : (⟨S1600000, .i32⟩ : BufTy).Contents (Elt F) → (⟨S1600000x1, .i32⟩ : BufTy).Contents (Elt F)),
    StableHlo.ternary main_v48 main_v49 main_v47 main_v50 ((fun x i u => Host.scatterAdd scatter_S100000x96_S1600000x1_S1600000x96_1_0_0_1 x i u) : (⟨S100000x96, .f32⟩ : BufTy).Contents (Elt F) → (⟨S1600000x1, .i32⟩ : BufTy).Contents (Elt F) → (⟨S1600000x96, .f32⟩ : BufTy).Contents (Elt F) → (⟨S100000x96, .f32⟩ : BufTy).Contents (Elt F)),
    StableHlo.unary main_v23 main_v51 (broadcastInDim S100000x96 ![0, 1] bcast_S100000x1_S100000x96_0_1 : (⟨S100000x1, .f32⟩ : BufTy).Contents (Elt F) → (⟨S100000x96, .f32⟩ : BufTy).Contents (Elt F)),
    StableHlo.binary main_v50 main_v51 main_v52 (mulf : (⟨S100000x96, .f32⟩ : BufTy).Contents (Elt F) → (⟨S100000x96, .f32⟩ : BufTy).Contents (Elt F) → (⟨S100000x96, .f32⟩ : BufTy).Contents (Elt F)) ]

abbrev kC3 : List (HloOp τ sig (Elt F)) :=
  [ StableHlo.nary ![main_v24, main_v38, main_v52] main_v53 (fun u => concatenate S100000x288 1 [⟨S100000x96, u 0⟩, ⟨S100000x96, u 1⟩, ⟨S100000x96, u 2⟩] concatenates_S100000x96_S100000x96_S100000x96_S100000x288_d1),
    StableHlo.reshape main_arg7 main_v54 rfl shapeCasts_S64_S1x64 ]

abbrev kP4 : List (HloOp τ sig (Elt F)) :=
  [ StableHlo.unary main_v23 main_v56 (broadcastInDim S100000x64 ![0, 1] bcast_S100000x1_S100000x64_0_1 : (⟨S100000x1, .f32⟩ : BufTy).Contents (Elt F) → (⟨S100000x64, .f32⟩ : BufTy).Contents (Elt F)),
    StableHlo.binary main_v55 main_v56 main_v57 (mulf : (⟨S100000x64, .f32⟩ : BufTy).Contents (Elt F) → (⟨S100000x64, .f32⟩ : BufTy).Contents (Elt F) → (⟨S100000x64, .f32⟩ : BufTy).Contents (Elt F)),
    StableHlo.nullary main_c_11 (constantI S_ 32 0#32),
    StableHlo.unary main_c_11 main_v58 (broadcastInDim S1600000 ![] bcast_S_S1600000 : (⟨S_, .i32⟩ : BufTy).Contents (Elt F) → (⟨S1600000, .i32⟩ : BufTy).Contents (Elt F)),
    StableHlo.binary main_arg2 main_v58 main_v59 (cmpi .slt : (⟨S1600000, .i32⟩ : BufTy).Contents (Elt F) → (⟨S1600000, .i32⟩ : BufTy).Contents (Elt F) → (⟨S1600000, .i1⟩ : BufTy).Contents (Elt F)),
    StableHlo.nullary main_c_12 (constantI S_ 32 100000#32),
    StableHlo.unary main_c_12 main_v60 (broadcastInDim S1600000 ![] bcast_S_S1600000 : (⟨S_, .i32⟩ : BufTy).Contents (Elt F) → (⟨S1600000, .i32⟩ : BufTy).Contents (Elt F)),
    StableHlo.binary main_arg2 main_v60 main_v61 (addi : (⟨S1600000, .i32⟩ : BufTy).Contents (Elt F) → (⟨S1600000, .i32⟩ : BufTy).Contents (Elt F) → (⟨S1600000, .i32⟩ : BufTy).Contents (Elt F)),
    StableHlo.ternary main_v59 main_v61 main_arg2 main_v62 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v62 main_v63 (broadcastInDim S1600000x1 ![0] bcast_S1600000_S1600000x1_0 : (⟨S1600000, .i32⟩ : BufTy).Contents (Elt F) → (⟨S1600000x1, .i32⟩ : BufTy).Contents (Elt F)),
    StableHlo.binary main_v57 main_v63 main_v64 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_13 (constant S_ .f32 0x00000000#32),
    StableHlo.unary main_cst_13 main_v65 (broadcastInDim S100000x64 ![] bcast_S_S100000x64 : (⟨S_, .f32⟩ : BufTy).Contents (Elt F) → (⟨S100000x64, .f32⟩ : BufTy).Contents (Elt F)),
    StableHlo.unary main_arg3 main_v66 (broadcastInDim S1600000x1 ![0] bcast_S1600000_S1600000x1_0 : (⟨S1600000, .i32⟩ : BufTy).Contents (Elt F) → (⟨S1600000x1, .i32⟩ : BufTy).Contents (Elt F)),
    StableHlo.ternary main_v65 main_v66 main_v64 main_v67 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v23 main_v68 (broadcastInDim S100000x64 ![0, 1] bcast_S100000x1_S100000x64_0_1 : (⟨S100000x1, .f32⟩ : BufTy).Contents (Elt F) → (⟨S100000x64, .f32⟩ : BufTy).Contents (Elt F)),
    StableHlo.binary main_v67 main_v68 main_v69 (mulf : (⟨S100000x64, .f32⟩ : BufTy).Contents (Elt F) → (⟨S100000x64, .f32⟩ : BufTy).Contents (Elt F) → (⟨S100000x64, .f32⟩ : BufTy).Contents (Elt F)),
    StableHlo.unary main_v23 main_v70 (broadcastInDim S100000x64 ![0, 1] bcast_S100000x1_S100000x64_0_1 : (⟨S100000x1, .f32⟩ : BufTy).Contents (Elt F) → (⟨S100000x64, .f32⟩ : BufTy).Contents (Elt F)),
    StableHlo.binary main_v69 main_v70 main_v71 (mulf : (⟨S100000x64, .f32⟩ : BufTy).Contents (Elt F) → (⟨S100000x64, .f32⟩ : BufTy).Contents (Elt F) → (⟨S100000x64, .f32⟩ : BufTy).Contents (Elt F)),
    StableHlo.nullary main_c_14 (constantI S_ 32 0#32),
    StableHlo.unary main_c_14 main_v72 (broadcastInDim S1600000 ![] bcast_S_S1600000 : (⟨S_, .i32⟩ : BufTy).Contents (Elt F) → (⟨S1600000, .i32⟩ : BufTy).Contents (Elt F)),
    StableHlo.binary main_arg2 main_v72 main_v73 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 100000#32),
    StableHlo.unary main_c_15 main_v74 (broadcastInDim S1600000 ![] bcast_S_S1600000 : (⟨S_, .i32⟩ : BufTy).Contents (Elt F) → (⟨S1600000, .i32⟩ : BufTy).Contents (Elt F)),
    StableHlo.binary main_arg2 main_v74 main_v75 (addi : (⟨S1600000, .i32⟩ : BufTy).Contents (Elt F) → (⟨S1600000, .i32⟩ : BufTy).Contents (Elt F) → (⟨S1600000, .i32⟩ : BufTy).Contents (Elt F)),
    StableHlo.ternary main_v73 main_v75 main_arg2 main_v76 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v76 main_v77 (broadcastInDim S1600000x1 ![0] bcast_S1600000_S1600000x1_0 : (⟨S1600000, .i32⟩ : BufTy).Contents (Elt F) → (⟨S1600000x1, .i32⟩ : BufTy).Contents (Elt F)),
    StableHlo.binary main_v71 main_v77 main_v78 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_16 (constant S_ .f32 0x00000000#32),
    StableHlo.unary main_cst_16 main_v79 (broadcastInDim S100000x64 ![] bcast_S_S100000x64 : (⟨S_, .f32⟩ : BufTy).Contents (Elt F) → (⟨S100000x64, .f32⟩ : BufTy).Contents (Elt F)),
    StableHlo.unary main_arg3 main_v80 (broadcastInDim S1600000x1 ![0] bcast_S1600000_S1600000x1_0 : (⟨S1600000, .i32⟩ : BufTy).Contents (Elt F) → (⟨S1600000x1, .i32⟩ : BufTy).Contents (Elt F)),
    StableHlo.ternary main_v79 main_v80 main_v78 main_v81 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v23 main_v82 (broadcastInDim S100000x64 ![0, 1] bcast_S100000x1_S100000x64_0_1 : (⟨S100000x1, .f32⟩ : BufTy).Contents (Elt F) → (⟨S100000x64, .f32⟩ : BufTy).Contents (Elt F)),
    StableHlo.binary main_v81 main_v82 main_v83 (mulf : (⟨S100000x64, .f32⟩ : BufTy).Contents (Elt F) → (⟨S100000x64, .f32⟩ : BufTy).Contents (Elt F) → (⟨S100000x64, .f32⟩ : BufTy).Contents (Elt F)) ]

abbrev kC4 : List (HloOp τ sig (Elt F)) :=
  [ StableHlo.nary ![main_v55, main_v69, main_v83] main_v84 (fun u => concatenate S100000x192 1 [⟨S100000x64, u 0⟩, ⟨S100000x64, u 1⟩, ⟨S100000x64, u 2⟩] concatenates_S100000x64_S100000x64_S100000x64_S100000x192_d1),
    StableHlo.reshape main_arg9 main_v85 rfl shapeCasts_S64_S1x64 ]

abbrev kP5 : List (HloOp τ sig (Elt F)) :=
  [ StableHlo.unary main_v23 main_v87 (broadcastInDim S100000x64 ![0, 1] bcast_S100000x1_S100000x64_0_1 : (⟨S100000x1, .f32⟩ : BufTy).Contents (Elt F) → (⟨S100000x64, .f32⟩ : BufTy).Contents (Elt F)),
    StableHlo.binary main_v86 main_v87 main_v88 (mulf : (⟨S100000x64, .f32⟩ : BufTy).Contents (Elt F) → (⟨S100000x64, .f32⟩ : BufTy).Contents (Elt F) → (⟨S100000x64, .f32⟩ : BufTy).Contents (Elt F)),
    StableHlo.nullary main_c_17 (constantI S_ 32 0#32),
    StableHlo.unary main_c_17 main_v89 (broadcastInDim S1600000 ![] bcast_S_S1600000 : (⟨S_, .i32⟩ : BufTy).Contents (Elt F) → (⟨S1600000, .i32⟩ : BufTy).Contents (Elt F)),
    StableHlo.binary main_arg2 main_v89 main_v90 (cmpi .slt : (⟨S1600000, .i32⟩ : BufTy).Contents (Elt F) → (⟨S1600000, .i32⟩ : BufTy).Contents (Elt F) → (⟨S1600000, .i1⟩ : BufTy).Contents (Elt F)),
    StableHlo.nullary main_c_18 (constantI S_ 32 100000#32),
    StableHlo.unary main_c_18 main_v91 (broadcastInDim S1600000 ![] bcast_S_S1600000 : (⟨S_, .i32⟩ : BufTy).Contents (Elt F) → (⟨S1600000, .i32⟩ : BufTy).Contents (Elt F)),
    StableHlo.binary main_arg2 main_v91 main_v92 (addi : (⟨S1600000, .i32⟩ : BufTy).Contents (Elt F) → (⟨S1600000, .i32⟩ : BufTy).Contents (Elt F) → (⟨S1600000, .i32⟩ : BufTy).Contents (Elt F)),
    StableHlo.ternary main_v90 main_v92 main_arg2 main_v93 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v93 main_v94 (broadcastInDim S1600000x1 ![0] bcast_S1600000_S1600000x1_0 : (⟨S1600000, .i32⟩ : BufTy).Contents (Elt F) → (⟨S1600000x1, .i32⟩ : BufTy).Contents (Elt F)),
    StableHlo.binary main_v88 main_v94 main_v95 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_19 (constant S_ .f32 0x00000000#32),
    StableHlo.unary main_cst_19 main_v96 (broadcastInDim S100000x64 ![] bcast_S_S100000x64 : (⟨S_, .f32⟩ : BufTy).Contents (Elt F) → (⟨S100000x64, .f32⟩ : BufTy).Contents (Elt F)),
    StableHlo.unary main_arg3 main_v97 (broadcastInDim S1600000x1 ![0] bcast_S1600000_S1600000x1_0 : (⟨S1600000, .i32⟩ : BufTy).Contents (Elt F) → (⟨S1600000x1, .i32⟩ : BufTy).Contents (Elt F)),
    StableHlo.ternary main_v96 main_v97 main_v95 main_v98 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v23 main_v99 (broadcastInDim S100000x64 ![0, 1] bcast_S100000x1_S100000x64_0_1 : (⟨S100000x1, .f32⟩ : BufTy).Contents (Elt F) → (⟨S100000x64, .f32⟩ : BufTy).Contents (Elt F)),
    StableHlo.binary main_v98 main_v99 main_v100 (mulf : (⟨S100000x64, .f32⟩ : BufTy).Contents (Elt F) → (⟨S100000x64, .f32⟩ : BufTy).Contents (Elt F) → (⟨S100000x64, .f32⟩ : BufTy).Contents (Elt F)),
    StableHlo.unary main_v23 main_v101 (broadcastInDim S100000x64 ![0, 1] bcast_S100000x1_S100000x64_0_1 : (⟨S100000x1, .f32⟩ : BufTy).Contents (Elt F) → (⟨S100000x64, .f32⟩ : BufTy).Contents (Elt F)),
    StableHlo.binary main_v100 main_v101 main_v102 (mulf : (⟨S100000x64, .f32⟩ : BufTy).Contents (Elt F) → (⟨S100000x64, .f32⟩ : BufTy).Contents (Elt F) → (⟨S100000x64, .f32⟩ : BufTy).Contents (Elt F)),
    StableHlo.nullary main_c_20 (constantI S_ 32 0#32),
    StableHlo.unary main_c_20 main_v103 (broadcastInDim S1600000 ![] bcast_S_S1600000 : (⟨S_, .i32⟩ : BufTy).Contents (Elt F) → (⟨S1600000, .i32⟩ : BufTy).Contents (Elt F)),
    StableHlo.binary main_arg2 main_v103 main_v104 (cmpi .slt : (⟨S1600000, .i32⟩ : BufTy).Contents (Elt F) → (⟨S1600000, .i32⟩ : BufTy).Contents (Elt F) → (⟨S1600000, .i1⟩ : BufTy).Contents (Elt F)),
    StableHlo.nullary main_c_21 (constantI S_ 32 100000#32),
    StableHlo.unary main_c_21 main_v105 (broadcastInDim S1600000 ![] bcast_S_S1600000 : (⟨S_, .i32⟩ : BufTy).Contents (Elt F) → (⟨S1600000, .i32⟩ : BufTy).Contents (Elt F)),
    StableHlo.binary main_arg2 main_v105 main_v106 (addi : (⟨S1600000, .i32⟩ : BufTy).Contents (Elt F) → (⟨S1600000, .i32⟩ : BufTy).Contents (Elt F) → (⟨S1600000, .i32⟩ : BufTy).Contents (Elt F)),
    StableHlo.ternary main_v104 main_v106 main_arg2 main_v107 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v107 main_v108 (broadcastInDim S1600000x1 ![0] bcast_S1600000_S1600000x1_0 : (⟨S1600000, .i32⟩ : BufTy).Contents (Elt F) → (⟨S1600000x1, .i32⟩ : BufTy).Contents (Elt F)),
    StableHlo.binary main_v102 main_v108 main_v109 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_22 (constant S_ .f32 0x00000000#32),
    StableHlo.unary main_cst_22 main_v110 (broadcastInDim S100000x64 ![] bcast_S_S100000x64 : (⟨S_, .f32⟩ : BufTy).Contents (Elt F) → (⟨S100000x64, .f32⟩ : BufTy).Contents (Elt F)),
    StableHlo.unary main_arg3 main_v111 (broadcastInDim S1600000x1 ![0] bcast_S1600000_S1600000x1_0 : (⟨S1600000, .i32⟩ : BufTy).Contents (Elt F) → (⟨S1600000x1, .i32⟩ : BufTy).Contents (Elt F)),
    StableHlo.ternary main_v110 main_v111 main_v109 main_v112 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v23 main_v113 (broadcastInDim S100000x64 ![0, 1] bcast_S100000x1_S100000x64_0_1 : (⟨S100000x1, .f32⟩ : BufTy).Contents (Elt F) → (⟨S100000x64, .f32⟩ : BufTy).Contents (Elt F)),
    StableHlo.binary main_v112 main_v113 main_v114 (mulf : (⟨S100000x64, .f32⟩ : BufTy).Contents (Elt F) → (⟨S100000x64, .f32⟩ : BufTy).Contents (Elt F) → (⟨S100000x64, .f32⟩ : BufTy).Contents (Elt F)) ]

abbrev kC5 : List (HloOp τ sig (Elt F)) :=
  [ StableHlo.nary ![main_v86, main_v100, main_v114] main_v115 (fun u => concatenate S100000x192 1 [⟨S100000x64, u 0⟩, ⟨S100000x64, u 1⟩, ⟨S100000x64, u 2⟩] concatenates_S100000x64_S100000x64_S100000x64_S100000x192_d1),
    StableHlo.reshape main_arg11 main_v116 rfl shapeCasts_S64_S1x64 ]

/-- A line run after another is the two run as one. -/
theorem after_append' (l₁ l₂ : List (HloOp τ sig (Elt F))) (V : Valuation τ sig (Elt F)) :
    after (l₁ ++ l₂) V = after l₂ (after l₁ V) := by
  induction l₁ generalizing V with
  | nil => rfl
  | cons op l ih => exact ih (op.result V)

theorem listA : (hostOps0 ++ hostOps0_1 : List (HloOp τ sig (Elt F))) = kP1 ++ kC1 := by chain_rfl
theorem listB : (hostOps1 ++ (hostOps1_1 ++ hostOps1_2) : List (HloOp τ sig (Elt F))) = kP2 ++ (kC2 ++ (kP3 ++ kC3)) := by chain_rfl
theorem listC : (hostOps2 : List (HloOp τ sig (Elt F))) = kP4 ++ kC4 := by chain_rfl
theorem listE : (hostOps3 : List (HloOp τ sig (Elt F))) = kP5 ++ kC5 := by chain_rfl

/-- The first two stretches as their pieces. -/
theorem afterA (V : Valuation τ sig (Elt F)) : after hostOps0_1 (after hostOps0 V) = after kC1 (after kP1 V) := by
  rw [← after_append', listA, after_append']
/-- The three stretches between regions 0 and 1 as their pieces. -/
theorem afterB (V : Valuation τ sig (Elt F)) :
    after hostOps1_2 (after hostOps1_1 (after hostOps1 V)) = after kC3 (after kP3 (after kC2 (after kP2 V))) := by
  have h : after (hostOps1 ++ (hostOps1_1 ++ hostOps1_2)) V = after hostOps1_2 (after hostOps1_1 (after hostOps1 V)) := by
    rw [after_append', after_append']
  rw [← h, listB, after_append', after_append', after_append']
/-- The stretch between regions 1 and 2 as its pieces. -/
theorem afterC (V : Valuation τ sig (Elt F)) : after hostOps2 V = after kC4 (after kP4 V) := by
  rw [listC, after_append']
/-- The stretch between regions 2 and 3 as its pieces. -/
theorem afterE (V : Valuation τ sig (Elt F)) : after hostOps3 V = after kC5 (after kP5 V) := by
  rw [listE, after_append']

end Cert.KernelIdeal.Reg

end
-- ==== Proof.Bridge.Dense0.lean ====
import proofs.«163259_j24927990186434_1_alg».proof.Proof.KernelIdeal.Dense0
import proofs.«163259_j24927990186434_1_alg».proof.Proof.Gen.ReferenceIdeal
import Idealize.ShloMosaic.Lib.ValueIdx
import Idealize.ShloMosaic.Lib.Pipeline.Value
import Idealize.ShloMosaic.PureOps.Ideal.Laws

/-!
# Kernel region 0 computes the reference's dense layer

On the extended reals the body's payload at row `p`, column `q` of a tile is `max (∑ₑ x[p,e]·w[e,q] + b[0,q], 0)`; the
tile of point `t` is rows `16000·t …` of the operand, and the weight and bias blocks are the whole arrays. The
reference's host operations — the matrix product of the whole operand, the bias row broadcast and added, the maximum
with zero — read at row `r`, column `q` are the same expression. The tiles cover the result array (row `r` lies in
the tile of point `r / 16000`), so the array the region leaves is the reference's dense layer of the arrays it found.
-/

set_option maxRecDepth 16384

noncomputable section

namespace Cert.Bridge

open Cert.KernelIdeal Cert.KernelIdeal.Gen Cert.KernelIdeal.Reg
open Idealize.ShloMosaic Idealize.ShloMosaic.TcCoe Idealize.SL.Sem Idealize.ShloMosaic.ValueIdx
open Idealize.ShloMosaic.Pipeline (Dat)
open scoped BigOperators

/-- The reference's dense layer on the host: `max (X · W + b, 0)`. -/
def denseRef0 (X : FVec Ideal Cert.ReferenceIdeal.S1600000x64 .f32) (W : FVec Ideal Cert.ReferenceIdeal.S64x64 .f32) (b : FVec Ideal Cert.ReferenceIdeal.S64 .f32) :
    FVec Ideal Cert.ReferenceIdeal.S1600000x64 .f32 :=
  maximumf (addf (Host.dotGeneral (F := Ideal) Cert.ReferenceIdeal.dot_S1600000x64_S64x64_S1600000x64_1_0_0_1_n_n none X W)
      (broadcastInDim Cert.ReferenceIdeal.S1600000x64 ![0, 1] Cert.ReferenceIdeal.Facts₀.bcast_S1x64_S1600000x64_0_1
        (broadcastInDim Cert.ReferenceIdeal.S1x64 ![1] Cert.ReferenceIdeal.Facts₀.bcast_S64_S1x64_1 b)))
    (broadcastInDim Cert.ReferenceIdeal.S1600000x64 ![] Cert.ReferenceIdeal.Facts₀.bcast_S_S1600000x64 (constant (F := Ideal) Cert.ReferenceIdeal.S_ .f32 0x00000000#32))

abbrev DK0 := dot_S16000x64_S64x64_S16000x64_1_0_0_1_n_n
abbrev DR0 := Cert.ReferenceIdeal.dot_S1600000x64_S64x64_S1600000x64_1_0_0_1_n_n

/-- The kernel's matrix product reads its operands at (row, e) and (e, column). -/
theorem lhsK0 (p : Fin 16000) (q : Fin 64) (e : Fin 64) :
    DK0.lhsIdx (ix2 p q) ((contrEquiv1 DK0 64 rfl rfl).symm e) = ix2 p e := by
  funext a; apply Fin.ext
  match a with
  | ⟨0, _⟩ => simp [DotDims.lhsIdx, DK0, dot_S16000x64_S64x64_S16000x64_1_0_0_1_n_n]; rfl
  | ⟨1, _⟩ => simp [DotDims.lhsIdx, DK0, dot_S16000x64_S64x64_S16000x64_1_0_0_1_n_n, contrEquiv1]; rfl
theorem rhsK0 (p : Fin 16000) (q : Fin 64) (e : Fin 64) :
    DK0.rhsIdx (ix2 p q) ((contrEquiv1 DK0 64 rfl rfl).symm e) = ix2 e q := by
  funext a; apply Fin.ext
  match a with
  | ⟨0, _⟩ => simp [DotDims.rhsIdx, DK0, dot_S16000x64_S64x64_S16000x64_1_0_0_1_n_n, contrEquiv1]; rfl
  | ⟨1, _⟩ => simp [DotDims.rhsIdx, DK0, dot_S16000x64_S64x64_S16000x64_1_0_0_1_n_n]; rfl

/-- The payload at an index: the row-by-column sum, the bias of the column, the maximum with zero. -/
theorem pay0_apply (x : FVec Ideal S16000x64 .f32) (w : FVec Ideal S64x64 .f32) (b : FVec Ideal S1x64 .f32) (p : Fin 16000) (q : Fin 64) :
    k0_pay1 (F := Ideal) x w b (ix2 p q) = max ((∑ e : Fin 64, x (ix2 p e) * w (ix2 e q)) + b (ix2 0 q)) 0 := by
  unfold k0_pay1
  rw [maximumf_apply, addf_apply, shapeCast_self, shapeCast_self, broadcast_apply]
  rw [show matmul DK0 (some .fp32) x w (constant S16000x64 .f32 0x00000000#32) (ix2 p q) = _ from
    Ideal.matmul_constant_zero_apply DK0 (some .fp32) x w (ix2 p q)]
  rw [← Equiv.sum_comp (contrEquiv1 DK0 64 rfl rfl).symm]
  simp only [lhsK0, rhsK0]
  rw [broadcastTo_apply b broadcasts_S1x64_S16000x64 (ix2 p q) (ix2 0 q) (fun a => by
    match a with
    | ⟨0, _⟩ => rfl
    | ⟨1, _⟩ => rfl)]
  show max _ (Ideal.ofBits .f32 0x00000000#32) = _
  rw [Ideal.ofBits_zero_f32]

/-- The reference's matrix product reads its operands at (row, e) and (e, column). -/
theorem lhsR0 (r : Fin 1600000) (q : Fin 64) (e : Fin 64) :
    DR0.lhsIdx (ix2 r q) ((contrEquiv1 DR0 64 rfl rfl).symm e) = ix2 r e := by
  funext a; apply Fin.ext
  match a with
  | ⟨0, _⟩ => simp [DotDims.lhsIdx, DR0, Cert.ReferenceIdeal.dot_S1600000x64_S64x64_S1600000x64_1_0_0_1_n_n]; rfl
  | ⟨1, _⟩ => simp [DotDims.lhsIdx, DR0, Cert.ReferenceIdeal.dot_S1600000x64_S64x64_S1600000x64_1_0_0_1_n_n, contrEquiv1]; rfl
theorem rhsR0 (r : Fin 1600000) (q : Fin 64) (e : Fin 64) :
    DR0.rhsIdx (ix2 r q) ((contrEquiv1 DR0 64 rfl rfl).symm e) = ix2 e q := by
  funext a; apply Fin.ext
  match a with
  | ⟨0, _⟩ => simp [DotDims.rhsIdx, DR0, Cert.ReferenceIdeal.dot_S1600000x64_S64x64_S1600000x64_1_0_0_1_n_n, contrEquiv1]; rfl
  | ⟨1, _⟩ => simp [DotDims.rhsIdx, DR0, Cert.ReferenceIdeal.dot_S1600000x64_S64x64_S1600000x64_1_0_0_1_n_n]; rfl

/-- The reference's dense layer at an index: the same expression over the whole arrays. -/
theorem denseRef0_apply (X : FVec Ideal Cert.ReferenceIdeal.S1600000x64 .f32) (W : FVec Ideal Cert.ReferenceIdeal.S64x64 .f32) (b : FVec Ideal Cert.ReferenceIdeal.S64 .f32)
    (r : Fin 1600000) (q : Fin 64) :
    denseRef0 X W b (ix2 r q) = max ((∑ e : Fin 64, X (ix2 r e) * W (ix2 e q)) + b (ix1 q)) 0 := by
  unfold denseRef0
  rw [maximumf_apply, addf_apply]
  unfold Host.dotGeneral
  rw [Ideal.dotGeneral_apply DR0 none _ X W (ix2 r q)]
  rw [← Equiv.sum_comp (contrEquiv1 DR0 64 rfl rfl).symm]
  simp only [lhsR0, rhsR0]
  rw [broadcastInDim_apply _ Cert.ReferenceIdeal.Facts₀.bcast_S1x64_S1600000x64_0_1 _ (ix2 r q) (ix2 0 q) (fun a => by
    match a with
    | ⟨0, _⟩ => rfl
    | ⟨1, _⟩ => rfl)]
  rw [broadcastInDim_apply _ Cert.ReferenceIdeal.Facts₀.bcast_S64_S1x64_1 b (ix2 0 q) (ix1 q) (fun a => by
    match a with
    | ⟨0, _⟩ => rfl)]
  rw [broadcastInDim_apply _ Cert.ReferenceIdeal.Facts₀.bcast_S_S1600000x64 _ (ix2 r q) ix0 (fun a => a.elim0)]
  show max _ (Ideal.ofBits .f32 0x00000000#32) = _
  rw [Ideal.ofBits_zero_f32]

theorem hz2_0 : (![0, 0] : Fin 2 → Nat) = fun _ => 0 := funext fun a => by fin_cases a <;> rfl

/-- The block index maps over the grid: the operand and result tiles move together down the rows; the weight and bias
    blocks stay at the origin. -/
theorem idx_facts0 : ∀ t : Fin cfg0.N, win0_0.index t (0 : Fin 2) = win0_3.index t (0 : Fin 2)
    ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0 ∧ win0_3.index t (1 : Fin 2) = 0 ∧ win0_3.index t (0 : Fin 2) ≤ 99 :=
  (by decide +kernel : ∀ t : Fin grid0.N, _)

/-- Every row tile is some point's. -/
theorem idx_onto0 : ∀ q0 : Fin 100, ∃ t : Fin cfg0.N, win0_3.index t = ![q0.val, 0] :=
  (by decide +kernel : ∀ q0 : Fin 100, ∃ t : Fin grid0.N, win0_3.index t = ![q0.val, 0])

variable (V : (c : Dev nD) → (b : Ref sig .tc) → Buf (Elt Ideal) ((c : Thread nD τ).loc b)) (c : Dev nD)

/-- The operand tile of point `t` read at (p, e) is the operand array at (row, e). -/
theorem read0_0 (t : Fin cfg0.N) (p : Fin 16000) (e : Fin 64) (row : Fin 1600000) (hrow : row.val = win0_3.index t (0 : Fin 2) * 16000 + p.val) :
    iblk0 V c 0 t (ix2 p e) = V c main_v8 (ix2 row e) := by
  obtain ⟨e0, e1, -⟩ := idx_facts0 t
  show V c main_v8 (((cfg0.win 0).blk t).view.emb (ix2 p e)) = V c main_v8 (ix2 row e)
  refine congrArg _ (funext fun a => Fin.ext ?_)
  match a with
  | ⟨0, _⟩ => show win0_0.index t (0 : Fin 2) * 16000 + 1 * p.val = row.val; omega
  | ⟨1, _⟩ => show win0_0.index t (1 : Fin 2) * 64 + 1 * e.val = e.val; omega

/-- The weight block is the weight array. -/
theorem read0_1 (t : Fin cfg0.N) (e : Fin 64) (q : Fin 64) : iblk0 V c 1 t (ix2 e q) = V c main_arg4 (ix2 e q) := by
  obtain ⟨-, -, e2, e3, -⟩ := idx_facts0 t
  show V c main_arg4 (((cfg0.win 1).blk t).view.emb (ix2 e q)) = V c main_arg4 (ix2 e q)
  refine congrArg _ (funext fun a => Fin.ext ?_)
  match a with
  | ⟨0, _⟩ => show win0_1.index t (0 : Fin 2) * 64 + 1 * e.val = e.val; omega
  | ⟨1, _⟩ => show win0_1.index t (1 : Fin 2) * 64 + 1 * q.val = q.val; omega

/-- The bias block is the bias row. -/
theorem read0_2 (t : Fin cfg0.N) (q : Fin 64) : iblk0 V c 2 t (ix2 (0 : Fin 1) q) = V c main_v9 (ix2 (0 : Fin 1) q) := by
  obtain ⟨-, -, -, -, e4, e5, -⟩ := idx_facts0 t
  show V c main_v9 (((cfg0.win 2).blk t).view.emb (ix2 (0 : Fin 1) q)) = V c main_v9 (ix2 (0 : Fin 1) q)
  refine congrArg _ (funext fun a => Fin.ext ?_)
  match a with
  | ⟨0, _⟩ => show win0_2.index t (0 : Fin 2) * 1 + 1 * 0 = 0; omega
  | ⟨1, _⟩ => show win0_2.index t (1 : Fin 2) * 64 + 1 * q.val = q.val; omega

/-- Index (p, q) of the result tile of point `t` is index (row, q) of the result array. -/
theorem emb0_3 (t : Fin cfg0.N) (p : Fin 16000) (q : Fin 64) (row : Fin 1600000) (hrow : row.val = win0_3.index t (0 : Fin 2) * 16000 + p.val) :
    ((cfg0.win 3).blk t).view.emb (ix2 p q) = ix2 row q := by
  obtain ⟨-, -, -, -, -, -, e6, -⟩ := idx_facts0 t
  refine funext fun a => Fin.ext ?_
  match a with
  | ⟨0, _⟩ => show win0_3.index t (0 : Fin 2) * 16000 + 1 * p.val = row.val; omega
  | ⟨1, _⟩ => show win0_3.index t (1 : Fin 2) * 64 + 1 * q.val = q.val; omega

/-- What point `t` writes back is block `t` of the reference's dense layer of the arrays the region finds. -/
theorem flushed0_eq (bias : FVec Ideal Cert.ReferenceIdeal.S64 .f32) (hb : ∀ q : Fin 64, V c main_v9 (ix2 (0 : Fin 1) q) = bias (ix1 q)) (t : Fin cfg0.N) :
    (dat0 V c).flushed 3 t = ((cfg0.win 3).blk t).view.read (Elt Ideal) (denseRef0 (V c main_v8) (V c main_arg4) bias) := by
  show (cfg0.win 3).cut (grid0.coords t) ((dat0 V c).after 3 t) = _
  rw [after0_3]
  unfold out0_3
  rw [View.canon_unit_zero hz2_0]
  simp only [View.ld_unit_zero (S := S16000x64) hz2_0, View.ld_unit_zero (S := S64x64) hz2_0, View.ld_unit_zero (S := S1x64) hz2_0]
  funext j
  obtain ⟨p, q, rfl⟩ : ∃ (p : Fin 16000) (q : Fin 64), j = ix2 p q := ⟨j 0, j 1, eq_ix2 j⟩
  have hlt : win0_3.index t (0 : Fin 2) * 16000 + p.val < 1600000 := by
    obtain ⟨-, -, -, -, -, -, -, e7⟩ := idx_facts0 t
    have := p.isLt; omega
  show k0_pay1 (F := Ideal) (iblk0 V c 0 t) (iblk0 V c 1 t) (iblk0 V c 2 t) (ix2 p q) = denseRef0 (V c main_v8) (V c main_arg4) bias (((cfg0.win 3).blk t).view.emb (ix2 p q))
  rw [emb0_3 t p q ⟨_, hlt⟩ rfl]
  refine (pay0_apply (iblk0 V c 0 t) (iblk0 V c 1 t) (iblk0 V c 2 t) p q).trans ?_
  refine Eq.trans ?_ (denseRef0_apply (V c main_v8) (V c main_arg4) bias ⟨_, hlt⟩ q).symm
  rw [read0_2 V c t q, hb q]
  refine congrArg (fun s => max (s + bias (ix1 q)) 0) (Finset.sum_congr rfl fun e _ => ?_)
  rw [read0_0 V c t p e ⟨_, hlt⟩ rfl, read0_1 V c t e q]

/-- Every index of the result array is in some point's tile: row `r` in the tile of point `r / 16000`. -/
theorem cover0 (i : S1600000x64.Idx) : ∃ t : Fin cfg0.N, (cfg0.win 3).flush t = true ∧ i ∈ ((cfg0.win 3).blk t).view.set := by
  have hi0 : (i 0).val < 1600000 := (i 0).isLt
  have hi1 : (i 1).val < 64 := (i 1).isLt
  obtain ⟨t, ht⟩ := idx_onto0 ⟨(i 0).val / 16000, by omega⟩
  have q0 : win0_3.index t (0 : Fin 2) = (i 0).val / 16000 := congrFun ht 0
  have q1 : win0_3.index t (1 : Fin 2) = 0 := congrFun ht 1
  refine ⟨t, flush0_3 t, ?_⟩
  show i ∈ ((View.whole main_v10).slice (win0_3.rect t)).set
  rw [View.set_slice_whole, Rect.mem_set_unit]
  intro a
  match a with
  | ⟨0, _⟩ => show win0_3.index t (0 : Fin 2) * 16000 ≤ (i 0).val ∧ (i 0).val < win0_3.index t (0 : Fin 2) * 16000 + 16000; omega
  | ⟨1, _⟩ => show win0_3.index t (1 : Fin 2) * 64 ≤ (i 1).val ∧ (i 1).val < win0_3.index t (1 : Fin 2) * 64 + 64; omega

/-- REGION 0's RESULT ARRAY is the reference's dense layer of the arrays the region finds. -/
theorem dense0_final (bias : FVec Ideal Cert.ReferenceIdeal.S64 .f32) (hb : ∀ q : Fin 64, V c main_v9 (ix2 (0 : Fin 1) q) = bias (ix1 q)) :
    (dat0 V c).arrAt 3 cfg0.N = denseRef0 (V c main_v8) (V c main_arg4) bias :=
  (dat0 V c).arrAt_eq_of_cover 3 _ (fun t _ => flushed0_eq V c bias hb t) cover0

end Cert.Bridge

end
-- ==== Proof.Bridge.Dense1.lean ====
import proofs.«163259_j24927990186434_1_alg».proof.Proof.KernelIdeal.Dense1
import proofs.«163259_j24927990186434_1_alg».proof.Proof.Gen.ReferenceIdeal
import Idealize.ShloMosaic.Lib.ValueIdx
import Idealize.ShloMosaic.Lib.Pipeline.Value
import Idealize.ShloMosaic.PureOps.Ideal.Laws

/-!
# Kernel region 1 computes the reference's dense layer

On the extended reals the body's payload at row `p`, column `q` of a tile is `max (∑ₑ x[p,e]·w[e,q] + b[0,q], 0)`; the
tile of point `t` is rows `10000·t …` of the operand, and the weight and bias blocks are the whole arrays. The
reference's host operations — the matrix product of the whole operand, the bias row broadcast and added, the maximum
with zero — read at row `r`, column `q` are the same expression. The tiles cover the result array (row `r` lies in
the tile of point `r / 10000`), so the array the region leaves is the reference's dense layer of the arrays it found.
-/

set_option maxRecDepth 16384

noncomputable section

namespace Cert.Bridge

open Cert.KernelIdeal Cert.KernelIdeal.Gen Cert.KernelIdeal.Reg
open Idealize.ShloMosaic Idealize.ShloMosaic.TcCoe Idealize.SL.Sem Idealize.ShloMosaic.ValueIdx
open Idealize.ShloMosaic.Pipeline (Dat)
open scoped BigOperators

/-- The reference's dense layer on the host: `max (X · W + b, 0)`. -/
def denseRef1 (X : FVec Ideal Cert.ReferenceIdeal.S100000x288 .f32) (W : FVec Ideal Cert.ReferenceIdeal.S288x64 .f32) (b : FVec Ideal Cert.ReferenceIdeal.S64 .f32) :
    FVec Ideal Cert.ReferenceIdeal.S100000x64 .f32 :=
  maximumf (addf (Host.dotGeneral (F := Ideal) Cert.ReferenceIdeal.dot_S100000x288_S288x64_S100000x64_1_0_0_1_n_n none X W)
      (broadcastInDim Cert.ReferenceIdeal.S100000x64 ![0, 1] Cert.ReferenceIdeal.Facts₀.bcast_S1x64_S100000x64_0_1
        (broadcastInDim Cert.ReferenceIdeal.S1x64 ![1] Cert.ReferenceIdeal.Facts₀.bcast_S64_S1x64_1 b)))
    (broadcastInDim Cert.ReferenceIdeal.S100000x64 ![] Cert.ReferenceIdeal.Facts₀.bcast_S_S100000x64 (constant (F := Ideal) Cert.ReferenceIdeal.S_ .f32 0x00000000#32))

abbrev DK1 := dot_S10000x288_S288x64_S10000x64_1_0_0_1_n_n
abbrev DR1 := Cert.ReferenceIdeal.dot_S100000x288_S288x64_S100000x64_1_0_0_1_n_n

/-- The kernel's matrix product reads its operands at (row, e) and (e, column). -/
theorem lhsK1 (p : Fin 10000) (q : Fin 64) (e : Fin 288) :
    DK1.lhsIdx (ix2 p q) ((contrEquiv1 DK1 288 rfl rfl).symm e) = ix2 p e := by
  funext a; apply Fin.ext
  match a with
  | ⟨0, _⟩ => simp [DotDims.lhsIdx, DK1, dot_S10000x288_S288x64_S10000x64_1_0_0_1_n_n]; rfl
  | ⟨1, _⟩ => simp [DotDims.lhsIdx, DK1, dot_S10000x288_S288x64_S10000x64_1_0_0_1_n_n, contrEquiv1]; rfl
theorem rhsK1 (p : Fin 10000) (q : Fin 64) (e : Fin 288) :
    DK1.rhsIdx (ix2 p q) ((contrEquiv1 DK1 288 rfl rfl).symm e) = ix2 e q := by
  funext a; apply Fin.ext
  match a with
  | ⟨0, _⟩ => simp [DotDims.rhsIdx, DK1, dot_S10000x288_S288x64_S10000x64_1_0_0_1_n_n, contrEquiv1]; rfl
  | ⟨1, _⟩ => simp [DotDims.rhsIdx, DK1, dot_S10000x288_S288x64_S10000x64_1_0_0_1_n_n]; rfl

/-- The payload at an index: the row-by-column sum, the bias of the column, the maximum with zero. -/
theorem pay1_apply (x : FVec Ideal S10000x288 .f32) (w : FVec Ideal S288x64 .f32) (b : FVec Ideal S1x64 .f32) (p : Fin 10000) (q : Fin 64) :
    k1_pay1 (F := Ideal) x w b (ix2 p q) = max ((∑ e : Fin 288, x (ix2 p e) * w (ix2 e q)) + b (ix2 0 q)) 0 := by
  unfold k1_pay1
  rw [maximumf_apply, addf_apply, shapeCast_self, shapeCast_self, broadcast_apply]
  rw [show matmul DK1 (some .fp32) x w (constant S10000x64 .f32 0x00000000#32) (ix2 p q) = _ from
    Ideal.matmul_constant_zero_apply DK1 (some .fp32) x w (ix2 p q)]
  rw [← Equiv.sum_comp (contrEquiv1 DK1 288 rfl rfl).symm]
  simp only [lhsK1, rhsK1]
  rw [broadcastTo_apply b broadcasts_S1x64_S10000x64 (ix2 p q) (ix2 0 q) (fun a => by
    match a with
    | ⟨0, _⟩ => rfl
    | ⟨1, _⟩ => rfl)]
  show max _ (Ideal.ofBits .f32 0x00000000#32) = _
  rw [Ideal.ofBits_zero_f32]

/-- The reference's matrix product reads its operands at (row, e) and (e, column). -/
theorem lhsR1 (r : Fin 100000) (q : Fin 64) (e : Fin 288) :
    DR1.lhsIdx (ix2 r q) ((contrEquiv1 DR1 288 rfl rfl).symm e) = ix2 r e := by
  funext a; apply Fin.ext
  match a with
  | ⟨0, _⟩ => simp [DotDims.lhsIdx, DR1, Cert.ReferenceIdeal.dot_S100000x288_S288x64_S100000x64_1_0_0_1_n_n]; rfl
  | ⟨1, _⟩ => simp [DotDims.lhsIdx, DR1, Cert.ReferenceIdeal.dot_S100000x288_S288x64_S100000x64_1_0_0_1_n_n, contrEquiv1]; rfl
theorem rhsR1 (r : Fin 100000) (q : Fin 64) (e : Fin 288) :
    DR1.rhsIdx (ix2 r q) ((contrEquiv1 DR1 288 rfl rfl).symm e) = ix2 e q := by
  funext a; apply Fin.ext
  match a with
  | ⟨0, _⟩ => simp [DotDims.rhsIdx, DR1, Cert.ReferenceIdeal.dot_S100000x288_S288x64_S100000x64_1_0_0_1_n_n, contrEquiv1]; rfl
  | ⟨1, _⟩ => simp [DotDims.rhsIdx, DR1, Cert.ReferenceIdeal.dot_S100000x288_S288x64_S100000x64_1_0_0_1_n_n]; rfl

/-- The reference's dense layer at an index: the same expression over the whole arrays. -/
theorem denseRef1_apply (X : FVec Ideal Cert.ReferenceIdeal.S100000x288 .f32) (W : FVec Ideal Cert.ReferenceIdeal.S288x64 .f32) (b : FVec Ideal Cert.ReferenceIdeal.S64 .f32)
    (r : Fin 100000) (q : Fin 64) :
    denseRef1 X W b (ix2 r q) = max ((∑ e : Fin 288, X (ix2 r e) * W (ix2 e q)) + b (ix1 q)) 0 := by
  unfold denseRef1
  rw [maximumf_apply, addf_apply]
  unfold Host.dotGeneral
  rw [Ideal.dotGeneral_apply DR1 none _ X W (ix2 r q)]
  rw [← Equiv.sum_comp (contrEquiv1 DR1 288 rfl rfl).symm]
  simp only [lhsR1, rhsR1]
  rw [broadcastInDim_apply _ Cert.ReferenceIdeal.Facts₀.bcast_S1x64_S100000x64_0_1 _ (ix2 r q) (ix2 0 q) (fun a => by
    match a with
    | ⟨0, _⟩ => rfl
    | ⟨1, _⟩ => rfl)]
  rw [broadcastInDim_apply _ Cert.ReferenceIdeal.Facts₀.bcast_S64_S1x64_1 b (ix2 0 q) (ix1 q) (fun a => by
    match a with
    | ⟨0, _⟩ => rfl)]
  rw [broadcastInDim_apply _ Cert.ReferenceIdeal.Facts₀.bcast_S_S100000x64 _ (ix2 r q) ix0 (fun a => a.elim0)]
  show max _ (Ideal.ofBits .f32 0x00000000#32) = _
  rw [Ideal.ofBits_zero_f32]

theorem hz2_1 : (![0, 0] : Fin 2 → Nat) = fun _ => 0 := funext fun a => by fin_cases a <;> rfl

/-- The block index maps over the grid: the operand and result tiles move together down the rows; the weight and bias
    blocks stay at the origin. -/
theorem idx_facts1 : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0 ∧ win1_3.index t (1 : Fin 2) = 0 ∧ win1_3.index t (0 : Fin 2) ≤ 9 :=
  (by decide +kernel : ∀ t : Fin grid1.N, _)

/-- Every row tile is some point's. -/
theorem idx_onto1 : ∀ q0 : Fin 10, ∃ t : Fin cfg1.N, win1_3.index t = ![q0.val, 0] :=
  (by decide +kernel : ∀ q0 : Fin 10, ∃ t : Fin grid1.N, win1_3.index t = ![q0.val, 0])

variable (V : (c : Dev nD) → (b : Ref sig .tc) → Buf (Elt Ideal) ((c : Thread nD τ).loc b)) (c : Dev nD)

/-- The operand tile of point `t` read at (p, e) is the operand array at (row, e). -/
theorem read1_0 (t : Fin cfg1.N) (p : Fin 10000) (e : Fin 288) (row : Fin 100000) (hrow : row.val = win1_3.index t (0 : Fin 2) * 10000 + p.val) :
    iblk1 V c 0 t (ix2 p e) = V c main_v53 (ix2 row e) := by
  obtain ⟨e0, e1, -⟩ := idx_facts1 t
  show V c main_v53 (((cfg1.win 0).blk t).view.emb (ix2 p e)) = V c main_v53 (ix2 row e)
  refine congrArg _ (funext fun a => Fin.ext ?_)
  match a with
  | ⟨0, _⟩ => show win1_0.index t (0 : Fin 2) * 10000 + 1 * p.val = row.val; omega
  | ⟨1, _⟩ => show win1_0.index t (1 : Fin 2) * 288 + 1 * e.val = e.val; omega

/-- The weight block is the weight array. -/
theorem read1_1 (t : Fin cfg1.N) (e : Fin 288) (q : Fin 64) : iblk1 V c 1 t (ix2 e q) = V c main_arg6 (ix2 e q) := by
  obtain ⟨-, -, e2, e3, -⟩ := idx_facts1 t
  show V c main_arg6 (((cfg1.win 1).blk t).view.emb (ix2 e q)) = V c main_arg6 (ix2 e q)
  refine congrArg _ (funext fun a => Fin.ext ?_)
  match a with
  | ⟨0, _⟩ => show win1_1.index t (0 : Fin 2) * 288 + 1 * e.val = e.val; omega
  | ⟨1, _⟩ => show win1_1.index t (1 : Fin 2) * 64 + 1 * q.val = q.val; omega

/-- The bias block is the bias row. -/
theorem read1_2 (t : Fin cfg1.N) (q : Fin 64) : iblk1 V c 2 t (ix2 (0 : Fin 1) q) = V c main_v54 (ix2 (0 : Fin 1) q) := by
  obtain ⟨-, -, -, -, e4, e5, -⟩ := idx_facts1 t
  show V c main_v54 (((cfg1.win 2).blk t).view.emb (ix2 (0 : Fin 1) q)) = V c main_v54 (ix2 (0 : Fin 1) q)
  refine congrArg _ (funext fun a => Fin.ext ?_)
  match a with
  | ⟨0, _⟩ => show win1_2.index t (0 : Fin 2) * 1 + 1 * 0 = 0; omega
  | ⟨1, _⟩ => show win1_2.index t (1 : Fin 2) * 64 + 1 * q.val = q.val; omega

/-- Index (p, q) of the result tile of point `t` is index (row, q) of the result array. -/
theorem emb1_3 (t : Fin cfg1.N) (p : Fin 10000) (q : Fin 64) (row : Fin 100000) (hrow : row.val = win1_3.index t (0 : Fin 2) * 10000 + p.val) :
    ((cfg1.win 3).blk t).view.emb (ix2 p q) = ix2 row q := by
  obtain ⟨-, -, -, -, -, -, e6, -⟩ := idx_facts1 t
  refine funext fun a => Fin.ext ?_
  match a with
  | ⟨0, _⟩ => show win1_3.index t (0 : Fin 2) * 10000 + 1 * p.val = row.val; omega
  | ⟨1, _⟩ => show win1_3.index t (1 : Fin 2) * 64 + 1 * q.val = q.val; omega

/-- What point `t` writes back is block `t` of the reference's dense layer of the arrays the region finds. -/
theorem flushed1_eq (bias : FVec Ideal Cert.ReferenceIdeal.S64 .f32) (hb : ∀ q : Fin 64, V c main_v54 (ix2 (0 : Fin 1) q) = bias (ix1 q)) (t : Fin cfg1.N) :
    (dat1 V c).flushed 3 t = ((cfg1.win 3).blk t).view.read (Elt Ideal) (denseRef1 (V c main_v53) (V c main_arg6) bias) := by
  show (cfg1.win 3).cut (grid1.coords t) ((dat1 V c).after 3 t) = _
  rw [after1_3]
  unfold out1_3
  rw [View.canon_unit_zero hz2_1]
  simp only [View.ld_unit_zero (S := S10000x288) hz2_1, View.ld_unit_zero (S := S288x64) hz2_1, View.ld_unit_zero (S := S1x64) hz2_1]
  funext j
  obtain ⟨p, q, rfl⟩ : ∃ (p : Fin 10000) (q : Fin 64), j = ix2 p q := ⟨j 0, j 1, eq_ix2 j⟩
  have hlt : win1_3.index t (0 : Fin 2) * 10000 + p.val < 100000 := by
    obtain ⟨-, -, -, -, -, -, -, e7⟩ := idx_facts1 t
    have := p.isLt; omega
  show k1_pay1 (F := Ideal) (iblk1 V c 0 t) (iblk1 V c 1 t) (iblk1 V c 2 t) (ix2 p q) = denseRef1 (V c main_v53) (V c main_arg6) bias (((cfg1.win 3).blk t).view.emb (ix2 p q))
  rw [emb1_3 t p q ⟨_, hlt⟩ rfl]
  refine (pay1_apply (iblk1 V c 0 t) (iblk1 V c 1 t) (iblk1 V c 2 t) p q).trans ?_
  refine Eq.trans ?_ (denseRef1_apply (V c main_v53) (V c main_arg6) bias ⟨_, hlt⟩ q).symm
  rw [read1_2 V c t q, hb q]
  refine congrArg (fun s => max (s + bias (ix1 q)) 0) (Finset.sum_congr rfl fun e _ => ?_)
  rw [read1_0 V c t p e ⟨_, hlt⟩ rfl, read1_1 V c t e q]

/-- Every index of the result array is in some point's tile: row `r` in the tile of point `r / 10000`. -/
theorem cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto1 ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  show i ∈ ((View.whole main_v55).slice (win1_3.rect t)).set
  rw [View.set_slice_whole, Rect.mem_set_unit]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- REGION 1's RESULT ARRAY is the reference's dense layer of the arrays the region finds. -/
theorem dense1_final (bias : FVec Ideal Cert.ReferenceIdeal.S64 .f32) (hb : ∀ q : Fin 64, V c main_v54 (ix2 (0 : Fin 1) q) = bias (ix1 q)) :
    (dat1 V c).arrAt 3 cfg1.N = denseRef1 (V c main_v53) (V c main_arg6) bias :=
  (dat1 V c).arrAt_eq_of_cover 3 _ (fun t _ => flushed1_eq V c bias hb t) cover1

end Cert.Bridge

end
-- ==== Proof.Bridge.Dense2.lean ====
import proofs.«163259_j24927990186434_1_alg».proof.Proof.KernelIdeal.Dense2
import proofs.«163259_j24927990186434_1_alg».proof.Proof.Gen.ReferenceIdeal
import Idealize.ShloMosaic.Lib.ValueIdx
import Idealize.ShloMosaic.Lib.Pipeline.Value
import Idealize.ShloMosaic.PureOps.Ideal.Laws

/-!
# Kernel region 2 computes the reference's dense layer

On the extended reals the body's payload at row `p`, column `q` of a tile is `max (∑ₑ x[p,e]·w[e,q] + b[0,q], 0)`; the
tile of point `t` is rows `10000·t …` of the operand, and the weight and bias blocks are the whole arrays. The
reference's host operations — the matrix product of the whole operand, the bias row broadcast and added, the maximum
with zero — read at row `r`, column `q` are the same expression. The tiles cover the result array (row `r` lies in
the tile of point `r / 10000`), so the array the region leaves is the reference's dense layer of the arrays it found.
-/

set_option maxRecDepth 16384

noncomputable section

namespace Cert.Bridge

open Cert.KernelIdeal Cert.KernelIdeal.Gen Cert.KernelIdeal.Reg
open Idealize.ShloMosaic Idealize.ShloMosaic.TcCoe Idealize.SL.Sem Idealize.ShloMosaic.ValueIdx
open Idealize.ShloMosaic.Pipeline (Dat)
open scoped BigOperators

/-- The reference's dense layer on the host: `max (X · W + b, 0)`. -/
def denseRef2 (X : FVec Ideal Cert.ReferenceIdeal.S100000x192 .f32) (W : FVec Ideal Cert.ReferenceIdeal.S192x64 .f32) (b : FVec Ideal Cert.ReferenceIdeal.S64 .f32) :
    FVec Ideal Cert.ReferenceIdeal.S100000x64 .f32 :=
  maximumf (addf (Host.dotGeneral (F := Ideal) Cert.ReferenceIdeal.dot_S100000x192_S192x64_S100000x64_1_0_0_1_n_n none X W)
      (broadcastInDim Cert.ReferenceIdeal.S100000x64 ![0, 1] Cert.ReferenceIdeal.Facts₀.bcast_S1x64_S100000x64_0_1
        (broadcastInDim Cert.ReferenceIdeal.S1x64 ![1] Cert.ReferenceIdeal.Facts₀.bcast_S64_S1x64_1 b)))
    (broadcastInDim Cert.ReferenceIdeal.S100000x64 ![] Cert.ReferenceIdeal.Facts₀.bcast_S_S100000x64 (constant (F := Ideal) Cert.ReferenceIdeal.S_ .f32 0x00000000#32))

abbrev DK2 := dot_S10000x192_S192x64_S10000x64_1_0_0_1_n_n
abbrev DR2 := Cert.ReferenceIdeal.dot_S100000x192_S192x64_S100000x64_1_0_0_1_n_n

/-- The kernel's matrix product reads its operands at (row, e) and (e, column). -/
theorem lhsK2 (p : Fin 10000) (q : Fin 64) (e : Fin 192) :
    DK2.lhsIdx (ix2 p q) ((contrEquiv1 DK2 192 rfl rfl).symm e) = ix2 p e := by
  funext a; apply Fin.ext
  match a with
  | ⟨0, _⟩ => simp [DotDims.lhsIdx, DK2, dot_S10000x192_S192x64_S10000x64_1_0_0_1_n_n]; rfl
  | ⟨1, _⟩ => simp [DotDims.lhsIdx, DK2, dot_S10000x192_S192x64_S10000x64_1_0_0_1_n_n, contrEquiv1]; rfl
theorem rhsK2 (p : Fin 10000) (q : Fin 64) (e : Fin 192) :
    DK2.rhsIdx (ix2 p q) ((contrEquiv1 DK2 192 rfl rfl).symm e) = ix2 e q := by
  funext a; apply Fin.ext
  match a with
  | ⟨0, _⟩ => simp [DotDims.rhsIdx, DK2, dot_S10000x192_S192x64_S10000x64_1_0_0_1_n_n, contrEquiv1]; rfl
  | ⟨1, _⟩ => simp [DotDims.rhsIdx, DK2, dot_S10000x192_S192x64_S10000x64_1_0_0_1_n_n]; rfl

/-- The payload at an index: the row-by-column sum, the bias of the column, the maximum with zero. -/
theorem pay2_apply (x : FVec Ideal S10000x192 .f32) (w : FVec Ideal S192x64 .f32) (b : FVec Ideal S1x64 .f32) (p : Fin 10000) (q : Fin 64) :
    k2_pay1 (F := Ideal) x w b (ix2 p q) = max ((∑ e : Fin 192, x (ix2 p e) * w (ix2 e q)) + b (ix2 0 q)) 0 := by
  unfold k2_pay1
  rw [maximumf_apply, addf_apply, shapeCast_self, shapeCast_self, broadcast_apply]
  rw [show matmul DK2 (some .fp32) x w (constant S10000x64 .f32 0x00000000#32) (ix2 p q) = _ from
    Ideal.matmul_constant_zero_apply DK2 (some .fp32) x w (ix2 p q)]
  rw [← Equiv.sum_comp (contrEquiv1 DK2 192 rfl rfl).symm]
  simp only [lhsK2, rhsK2]
  rw [broadcastTo_apply b broadcasts_S1x64_S10000x64 (ix2 p q) (ix2 0 q) (fun a => by
    match a with
    | ⟨0, _⟩ => rfl
    | ⟨1, _⟩ => rfl)]
  show max _ (Ideal.ofBits .f32 0x00000000#32) = _
  rw [Ideal.ofBits_zero_f32]

/-- The reference's matrix product reads its operands at (row, e) and (e, column). -/
theorem lhsR2 (r : Fin 100000) (q : Fin 64) (e : Fin 192) :
    DR2.lhsIdx (ix2 r q) ((contrEquiv1 DR2 192 rfl rfl).symm e) = ix2 r e := by
  funext a; apply Fin.ext
  match a with
  | ⟨0, _⟩ => simp [DotDims.lhsIdx, DR2, Cert.ReferenceIdeal.dot_S100000x192_S192x64_S100000x64_1_0_0_1_n_n]; rfl
  | ⟨1, _⟩ => simp [DotDims.lhsIdx, DR2, Cert.ReferenceIdeal.dot_S100000x192_S192x64_S100000x64_1_0_0_1_n_n, contrEquiv1]; rfl
theorem rhsR2 (r : Fin 100000) (q : Fin 64) (e : Fin 192) :
    DR2.rhsIdx (ix2 r q) ((contrEquiv1 DR2 192 rfl rfl).symm e) = ix2 e q := by
  funext a; apply Fin.ext
  match a with
  | ⟨0, _⟩ => simp [DotDims.rhsIdx, DR2, Cert.ReferenceIdeal.dot_S100000x192_S192x64_S100000x64_1_0_0_1_n_n, contrEquiv1]; rfl
  | ⟨1, _⟩ => simp [DotDims.rhsIdx, DR2, Cert.ReferenceIdeal.dot_S100000x192_S192x64_S100000x64_1_0_0_1_n_n]; rfl

/-- The reference's dense layer at an index: the same expression over the whole arrays. -/
theorem denseRef2_apply (X : FVec Ideal Cert.ReferenceIdeal.S100000x192 .f32) (W : FVec Ideal Cert.ReferenceIdeal.S192x64 .f32) (b : FVec Ideal Cert.ReferenceIdeal.S64 .f32)
    (r : Fin 100000) (q : Fin 64) :
    denseRef2 X W b (ix2 r q) = max ((∑ e : Fin 192, X (ix2 r e) * W (ix2 e q)) + b (ix1 q)) 0 := by
  unfold denseRef2
  rw [maximumf_apply, addf_apply]
  unfold Host.dotGeneral
  rw [Ideal.dotGeneral_apply DR2 none _ X W (ix2 r q)]
  rw [← Equiv.sum_comp (contrEquiv1 DR2 192 rfl rfl).symm]
  simp only [lhsR2, rhsR2]
  rw [broadcastInDim_apply _ Cert.ReferenceIdeal.Facts₀.bcast_S1x64_S100000x64_0_1 _ (ix2 r q) (ix2 0 q) (fun a => by
    match a with
    | ⟨0, _⟩ => rfl
    | ⟨1, _⟩ => rfl)]
  rw [broadcastInDim_apply _ Cert.ReferenceIdeal.Facts₀.bcast_S64_S1x64_1 b (ix2 0 q) (ix1 q) (fun a => by
    match a with
    | ⟨0, _⟩ => rfl)]
  rw [broadcastInDim_apply _ Cert.ReferenceIdeal.Facts₀.bcast_S_S100000x64 _ (ix2 r q) ix0 (fun a => a.elim0)]
  show max _ (Ideal.ofBits .f32 0x00000000#32) = _
  rw [Ideal.ofBits_zero_f32]

theorem hz2_2 : (![0, 0] : Fin 2 → Nat) = fun _ => 0 := funext fun a => by fin_cases a <;> rfl

/-- The block index maps over the grid: the operand and result tiles move together down the rows; the weight and bias
    blocks stay at the origin. -/
theorem idx_facts2 : ∀ t : Fin cfg2.N, win2_0.index t (0 : Fin 2) = win2_3.index t (0 : Fin 2)
    ∧ win2_0.index t (1 : Fin 2) = 0 ∧ win2_1.index t (0 : Fin 2) = 0 ∧ win2_1.index t (1 : Fin 2) = 0
    ∧ win2_2.index t (0 : Fin 2) = 0 ∧ win2_2.index t (1 : Fin 2) = 0 ∧ win2_3.index t (1 : Fin 2) = 0 ∧ win2_3.index t (0 : Fin 2) ≤ 9 :=
  (by decide +kernel : ∀ t : Fin grid2.N, _)

/-- Every row tile is some point's. -/
theorem idx_onto2 : ∀ q0 : Fin 10, ∃ t : Fin cfg2.N, win2_3.index t = ![q0.val, 0] :=
  (by decide +kernel : ∀ q0 : Fin 10, ∃ t : Fin grid2.N, win2_3.index t = ![q0.val, 0])

variable (V : (c : Dev nD) → (b : Ref sig .tc) → Buf (Elt Ideal) ((c : Thread nD τ).loc b)) (c : Dev nD)

/-- The operand tile of point `t` read at (p, e) is the operand array at (row, e). -/
theorem read2_0 (t : Fin cfg2.N) (p : Fin 10000) (e : Fin 192) (row : Fin 100000) (hrow : row.val = win2_3.index t (0 : Fin 2) * 10000 + p.val) :
    iblk2 V c 0 t (ix2 p e) = V c main_v84 (ix2 row e) := by
  obtain ⟨e0, e1, -⟩ := idx_facts2 t
  show V c main_v84 (((cfg2.win 0).blk t).view.emb (ix2 p e)) = V c main_v84 (ix2 row e)
  refine congrArg _ (funext fun a => Fin.ext ?_)
  match a with
  | ⟨0, _⟩ => show win2_0.index t (0 : Fin 2) * 10000 + 1 * p.val = row.val; omega
  | ⟨1, _⟩ => show win2_0.index t (1 : Fin 2) * 192 + 1 * e.val = e.val; omega

/-- The weight block is the weight array. -/
theorem read2_1 (t : Fin cfg2.N) (e : Fin 192) (q : Fin 64) : iblk2 V c 1 t (ix2 e q) = V c main_arg8 (ix2 e q) := by
  obtain ⟨-, -, e2, e3, -⟩ := idx_facts2 t
  show V c main_arg8 (((cfg2.win 1).blk t).view.emb (ix2 e q)) = V c main_arg8 (ix2 e q)
  refine congrArg _ (funext fun a => Fin.ext ?_)
  match a with
  | ⟨0, _⟩ => show win2_1.index t (0 : Fin 2) * 192 + 1 * e.val = e.val; omega
  | ⟨1, _⟩ => show win2_1.index t (1 : Fin 2) * 64 + 1 * q.val = q.val; omega

/-- The bias block is the bias row. -/
theorem read2_2 (t : Fin cfg2.N) (q : Fin 64) : iblk2 V c 2 t (ix2 (0 : Fin 1) q) = V c main_v85 (ix2 (0 : Fin 1) q) := by
  obtain ⟨-, -, -, -, e4, e5, -⟩ := idx_facts2 t
  show V c main_v85 (((cfg2.win 2).blk t).view.emb (ix2 (0 : Fin 1) q)) = V c main_v85 (ix2 (0 : Fin 1) q)
  refine congrArg _ (funext fun a => Fin.ext ?_)
  match a with
  | ⟨0, _⟩ => show win2_2.index t (0 : Fin 2) * 1 + 1 * 0 = 0; omega
  | ⟨1, _⟩ => show win2_2.index t (1 : Fin 2) * 64 + 1 * q.val = q.val; omega

/-- Index (p, q) of the result tile of point `t` is index (row, q) of the result array. -/
theorem emb2_3 (t : Fin cfg2.N) (p : Fin 10000) (q : Fin 64) (row : Fin 100000) (hrow : row.val = win2_3.index t (0 : Fin 2) * 10000 + p.val) :
    ((cfg2.win 3).blk t).view.emb (ix2 p q) = ix2 row q := by
  obtain ⟨-, -, -, -, -, -, e6, -⟩ := idx_facts2 t
  refine funext fun a => Fin.ext ?_
  match a with
  | ⟨0, _⟩ => show win2_3.index t (0 : Fin 2) * 10000 + 1 * p.val = row.val; omega
  | ⟨1, _⟩ => show win2_3.index t (1 : Fin 2) * 64 + 1 * q.val = q.val; omega

/-- What point `t` writes back is block `t` of the reference's dense layer of the arrays the region finds. -/
theorem flushed2_eq (bias : FVec Ideal Cert.ReferenceIdeal.S64 .f32) (hb : ∀ q : Fin 64, V c main_v85 (ix2 (0 : Fin 1) q) = bias (ix1 q)) (t : Fin cfg2.N) :
    (dat2 V c).flushed 3 t = ((cfg2.win 3).blk t).view.read (Elt Ideal) (denseRef2 (V c main_v84) (V c main_arg8) bias) := by
  show (cfg2.win 3).cut (grid2.coords t) ((dat2 V c).after 3 t) = _
  rw [after2_3]
  unfold out2_3
  rw [View.canon_unit_zero hz2_2]
  simp only [View.ld_unit_zero (S := S10000x192) hz2_2, View.ld_unit_zero (S := S192x64) hz2_2, View.ld_unit_zero (S := S1x64) hz2_2]
  funext j
  obtain ⟨p, q, rfl⟩ : ∃ (p : Fin 10000) (q : Fin 64), j = ix2 p q := ⟨j 0, j 1, eq_ix2 j⟩
  have hlt : win2_3.index t (0 : Fin 2) * 10000 + p.val < 100000 := by
    obtain ⟨-, -, -, -, -, -, -, e7⟩ := idx_facts2 t
    have := p.isLt; omega
  show k2_pay1 (F := Ideal) (iblk2 V c 0 t) (iblk2 V c 1 t) (iblk2 V c 2 t) (ix2 p q) = denseRef2 (V c main_v84) (V c main_arg8) bias (((cfg2.win 3).blk t).view.emb (ix2 p q))
  rw [emb2_3 t p q ⟨_, hlt⟩ rfl]
  refine (pay2_apply (iblk2 V c 0 t) (iblk2 V c 1 t) (iblk2 V c 2 t) p q).trans ?_
  refine Eq.trans ?_ (denseRef2_apply (V c main_v84) (V c main_arg8) bias ⟨_, hlt⟩ q).symm
  rw [read2_2 V c t q, hb q]
  refine congrArg (fun s => max (s + bias (ix1 q)) 0) (Finset.sum_congr rfl fun e _ => ?_)
  rw [read2_0 V c t p e ⟨_, hlt⟩ rfl, read2_1 V c t e q]

/-- Every index of the result array is in some point's tile: row `r` in the tile of point `r / 10000`. -/
theorem cover2 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := idx_onto2 ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  show i ∈ ((View.whole main_v86).slice (win2_3.rect t)).set
  rw [View.set_slice_whole, Rect.mem_set_unit]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- REGION 2's RESULT ARRAY is the reference's dense layer of the arrays the region finds. -/
theorem dense2_final (bias : FVec Ideal Cert.ReferenceIdeal.S64 .f32) (hb : ∀ q : Fin 64, V c main_v85 (ix2 (0 : Fin 1) q) = bias (ix1 q)) :
    (dat2 V c).arrAt 3 cfg2.N = denseRef2 (V c main_v84) (V c main_arg8) bias :=
  (dat2 V c).arrAt_eq_of_cover 3 _ (fun t _ => flushed2_eq V c bias hb t) cover2

end Cert.Bridge

end
-- ==== Proof.Bridge.Dense3.lean ====
import proofs.«163259_j24927990186434_1_alg».proof.Proof.KernelIdeal.Dense3
import proofs.«163259_j24927990186434_1_alg».proof.Proof.Gen.ReferenceIdeal
import Idealize.ShloMosaic.Lib.ValueIdx
import Idealize.ShloMosaic.Lib.Pipeline.Value
import Idealize.ShloMosaic.PureOps.Ideal.Laws

/-!
# Kernel region 3 computes the reference's dense layer

On the extended reals the body's payload at row `p`, column `q` of a tile is `max (∑ₑ x[p,e]·w[e,q] + b[0,q], 0)`; the
tile of point `t` is rows `10000·t …` of the operand, and the weight and bias blocks are the whole arrays. The
reference's host operations — the matrix product of the whole operand, the bias row broadcast and added, the maximum
with zero — read at row `r`, column `q` are the same expression. The tiles cover the result array (row `r` lies in
the tile of point `r / 10000`), so the array the region leaves is the reference's dense layer of the arrays it found.
-/

set_option maxRecDepth 16384

noncomputable section

namespace Cert.Bridge

open Cert.KernelIdeal Cert.KernelIdeal.Gen Cert.KernelIdeal.Reg
open Idealize.ShloMosaic Idealize.ShloMosaic.TcCoe Idealize.SL.Sem Idealize.ShloMosaic.ValueIdx
open Idealize.ShloMosaic.Pipeline (Dat)
open scoped BigOperators

/-- The reference's dense layer on the host: `max (X · W + b, 0)`. -/
def denseRef3 (X : FVec Ideal Cert.ReferenceIdeal.S100000x192 .f32) (W : FVec Ideal Cert.ReferenceIdeal.S192x64 .f32) (b : FVec Ideal Cert.ReferenceIdeal.S64 .f32) :
    FVec Ideal Cert.ReferenceIdeal.S100000x64 .f32 :=
  maximumf (addf (Host.dotGeneral (F := Ideal) Cert.ReferenceIdeal.dot_S100000x192_S192x64_S100000x64_1_0_0_1_n_n none X W)
      (broadcastInDim Cert.ReferenceIdeal.S100000x64 ![0, 1] Cert.ReferenceIdeal.Facts₀.bcast_S1x64_S100000x64_0_1
        (broadcastInDim Cert.ReferenceIdeal.S1x64 ![1] Cert.ReferenceIdeal.Facts₀.bcast_S64_S1x64_1 b)))
    (broadcastInDim Cert.ReferenceIdeal.S100000x64 ![] Cert.ReferenceIdeal.Facts₀.bcast_S_S100000x64 (constant (F := Ideal) Cert.ReferenceIdeal.S_ .f32 0x00000000#32))

abbrev DK3 := dot_S10000x192_S192x64_S10000x64_1_0_0_1_n_n
abbrev DR3 := Cert.ReferenceIdeal.dot_S100000x192_S192x64_S100000x64_1_0_0_1_n_n

/-- The kernel's matrix product reads its operands at (row, e) and (e, column). -/
theorem lhsK3 (p : Fin 10000) (q : Fin 64) (e : Fin 192) :
    DK3.lhsIdx (ix2 p q) ((contrEquiv1 DK3 192 rfl rfl).symm e) = ix2 p e := by
  funext a; apply Fin.ext
  match a with
  | ⟨0, _⟩ => simp [DotDims.lhsIdx, DK3, dot_S10000x192_S192x64_S10000x64_1_0_0_1_n_n]; rfl
  | ⟨1, _⟩ => simp [DotDims.lhsIdx, DK3, dot_S10000x192_S192x64_S10000x64_1_0_0_1_n_n, contrEquiv1]; rfl
theorem rhsK3 (p : Fin 10000) (q : Fin 64) (e : Fin 192) :
    DK3.rhsIdx (ix2 p q) ((contrEquiv1 DK3 192 rfl rfl).symm e) = ix2 e q := by
  funext a; apply Fin.ext
  match a with
  | ⟨0, _⟩ => simp [DotDims.rhsIdx, DK3, dot_S10000x192_S192x64_S10000x64_1_0_0_1_n_n, contrEquiv1]; rfl
  | ⟨1, _⟩ => simp [DotDims.rhsIdx, DK3, dot_S10000x192_S192x64_S10000x64_1_0_0_1_n_n]; rfl

/-- The payload at an index: the row-by-column sum, the bias of the column, the maximum with zero. -/
theorem pay3_apply (x : FVec Ideal S10000x192 .f32) (w : FVec Ideal S192x64 .f32) (b : FVec Ideal S1x64 .f32) (p : Fin 10000) (q : Fin 64) :
    k3_pay1 (F := Ideal) x w b (ix2 p q) = max ((∑ e : Fin 192, x (ix2 p e) * w (ix2 e q)) + b (ix2 0 q)) 0 := by
  unfold k3_pay1
  rw [maximumf_apply, addf_apply, shapeCast_self, shapeCast_self, broadcast_apply]
  rw [show matmul DK3 (some .fp32) x w (constant S10000x64 .f32 0x00000000#32) (ix2 p q) = _ from
    Ideal.matmul_constant_zero_apply DK3 (some .fp32) x w (ix2 p q)]
  rw [← Equiv.sum_comp (contrEquiv1 DK3 192 rfl rfl).symm]
  simp only [lhsK3, rhsK3]
  rw [broadcastTo_apply b broadcasts_S1x64_S10000x64 (ix2 p q) (ix2 0 q) (fun a => by
    match a with
    | ⟨0, _⟩ => rfl
    | ⟨1, _⟩ => rfl)]
  show max _ (Ideal.ofBits .f32 0x00000000#32) = _
  rw [Ideal.ofBits_zero_f32]

/-- The reference's matrix product reads its operands at (row, e) and (e, column). -/
theorem lhsR3 (r : Fin 100000) (q : Fin 64) (e : Fin 192) :
    DR3.lhsIdx (ix2 r q) ((contrEquiv1 DR3 192 rfl rfl).symm e) = ix2 r e := by
  funext a; apply Fin.ext
  match a with
  | ⟨0, _⟩ => simp [DotDims.lhsIdx, DR3, Cert.ReferenceIdeal.dot_S100000x192_S192x64_S100000x64_1_0_0_1_n_n]; rfl
  | ⟨1, _⟩ => simp [DotDims.lhsIdx, DR3, Cert.ReferenceIdeal.dot_S100000x192_S192x64_S100000x64_1_0_0_1_n_n, contrEquiv1]; rfl
theorem rhsR3 (r : Fin 100000) (q : Fin 64) (e : Fin 192) :
    DR3.rhsIdx (ix2 r q) ((contrEquiv1 DR3 192 rfl rfl).symm e) = ix2 e q := by
  funext a; apply Fin.ext
  match a with
  | ⟨0, _⟩ => simp [DotDims.rhsIdx, DR3, Cert.ReferenceIdeal.dot_S100000x192_S192x64_S100000x64_1_0_0_1_n_n, contrEquiv1]; rfl
  | ⟨1, _⟩ => simp [DotDims.rhsIdx, DR3, Cert.ReferenceIdeal.dot_S100000x192_S192x64_S100000x64_1_0_0_1_n_n]; rfl

/-- The reference's dense layer at an index: the same expression over the whole arrays. -/
theorem denseRef3_apply (X : FVec Ideal Cert.ReferenceIdeal.S100000x192 .f32) (W : FVec Ideal Cert.ReferenceIdeal.S192x64 .f32) (b : FVec Ideal Cert.ReferenceIdeal.S64 .f32)
    (r : Fin 100000) (q : Fin 64) :
    denseRef3 X W b (ix2 r q) = max ((∑ e : Fin 192, X (ix2 r e) * W (ix2 e q)) + b (ix1 q)) 0 := by
  unfold denseRef3
  rw [maximumf_apply, addf_apply]
  unfold Host.dotGeneral
  rw [Ideal.dotGeneral_apply DR3 none _ X W (ix2 r q)]
  rw [← Equiv.sum_comp (contrEquiv1 DR3 192 rfl rfl).symm]
  simp only [lhsR3, rhsR3]
  rw [broadcastInDim_apply _ Cert.ReferenceIdeal.Facts₀.bcast_S1x64_S100000x64_0_1 _ (ix2 r q) (ix2 0 q) (fun a => by
    match a with
    | ⟨0, _⟩ => rfl
    | ⟨1, _⟩ => rfl)]
  rw [broadcastInDim_apply _ Cert.ReferenceIdeal.Facts₀.bcast_S64_S1x64_1 b (ix2 0 q) (ix1 q) (fun a => by
    match a with
    | ⟨0, _⟩ => rfl)]
  rw [broadcastInDim_apply _ Cert.ReferenceIdeal.Facts₀.bcast_S_S100000x64 _ (ix2 r q) ix0 (fun a => a.elim0)]
  show max _ (Ideal.ofBits .f32 0x00000000#32) = _
  rw [Ideal.ofBits_zero_f32]

theorem hz2_3 : (![0, 0] : Fin 2 → Nat) = fun _ => 0 := funext fun a => by fin_cases a <;> rfl

/-- The block index maps over the grid: the operand and result tiles move together down the rows; the weight and bias
    blocks stay at the origin. -/
theorem idx_facts3 : ∀ t : Fin cfg3.N, win3_0.index t (0 : Fin 2) = win3_3.index t (0 : Fin 2)
    ∧ win3_0.index t (1 : Fin 2) = 0 ∧ win3_1.index t (0 : Fin 2) = 0 ∧ win3_1.index t (1 : Fin 2) = 0
    ∧ win3_2.index t (0 : Fin 2) = 0 ∧ win3_2.index t (1 : Fin 2) = 0 ∧ win3_3.index t (1 : Fin 2) = 0 ∧ win3_3.index t (0 : Fin 2) ≤ 9 :=
  (by decide +kernel : ∀ t : Fin grid3.N, _)

/-- Every row tile is some point's. -/
theorem idx_onto3 : ∀ q0 : Fin 10, ∃ t : Fin cfg3.N, win3_3.index t = ![q0.val, 0] :=
  (by decide +kernel : ∀ q0 : Fin 10, ∃ t : Fin grid3.N, win3_3.index t = ![q0.val, 0])

variable (V : (c : Dev nD) → (b : Ref sig .tc) → Buf (Elt Ideal) ((c : Thread nD τ).loc b)) (c : Dev nD)

/-- The operand tile of point `t` read at (p, e) is the operand array at (row, e). -/
theorem read3_0 (t : Fin cfg3.N) (p : Fin 10000) (e : Fin 192) (row : Fin 100000) (hrow : row.val = win3_3.index t (0 : Fin 2) * 10000 + p.val) :
    iblk3 V c 0 t (ix2 p e) = V c main_v115 (ix2 row e) := by
  obtain ⟨e0, e1, -⟩ := idx_facts3 t
  show V c main_v115 (((cfg3.win 0).blk t).view.emb (ix2 p e)) = V c main_v115 (ix2 row e)
  refine congrArg _ (funext fun a => Fin.ext ?_)
  match a with
  | ⟨0, _⟩ => show win3_0.index t (0 : Fin 2) * 10000 + 1 * p.val = row.val; omega
  | ⟨1, _⟩ => show win3_0.index t (1 : Fin 2) * 192 + 1 * e.val = e.val; omega

/-- The weight block is the weight array. -/
theorem read3_1 (t : Fin cfg3.N) (e : Fin 192) (q : Fin 64) : iblk3 V c 1 t (ix2 e q) = V c main_arg10 (ix2 e q) := by
  obtain ⟨-, -, e2, e3, -⟩ := idx_facts3 t
  show V c main_arg10 (((cfg3.win 1).blk t).view.emb (ix2 e q)) = V c main_arg10 (ix2 e q)
  refine congrArg _ (funext fun a => Fin.ext ?_)
  match a with
  | ⟨0, _⟩ => show win3_1.index t (0 : Fin 2) * 192 + 1 * e.val = e.val; omega
  | ⟨1, _⟩ => show win3_1.index t (1 : Fin 2) * 64 + 1 * q.val = q.val; omega

/-- The bias block is the bias row. -/
theorem read3_2 (t : Fin cfg3.N) (q : Fin 64) : iblk3 V c 2 t (ix2 (0 : Fin 1) q) = V c main_v116 (ix2 (0 : Fin 1) q) := by
  obtain ⟨-, -, -, -, e4, e5, -⟩ := idx_facts3 t
  show V c main_v116 (((cfg3.win 2).blk t).view.emb (ix2 (0 : Fin 1) q)) = V c main_v116 (ix2 (0 : Fin 1) q)
  refine congrArg _ (funext fun a => Fin.ext ?_)
  match a with
  | ⟨0, _⟩ => show win3_2.index t (0 : Fin 2) * 1 + 1 * 0 = 0; omega
  | ⟨1, _⟩ => show win3_2.index t (1 : Fin 2) * 64 + 1 * q.val = q.val; omega

/-- Index (p, q) of the result tile of point `t` is index (row, q) of the result array. -/
theorem emb3_3 (t : Fin cfg3.N) (p : Fin 10000) (q : Fin 64) (row : Fin 100000) (hrow : row.val = win3_3.index t (0 : Fin 2) * 10000 + p.val) :
    ((cfg3.win 3).blk t).view.emb (ix2 p q) = ix2 row q := by
  obtain ⟨-, -, -, -, -, -, e6, -⟩ := idx_facts3 t
  refine funext fun a => Fin.ext ?_
  match a with
  | ⟨0, _⟩ => show win3_3.index t (0 : Fin 2) * 10000 + 1 * p.val = row.val; omega
  | ⟨1, _⟩ => show win3_3.index t (1 : Fin 2) * 64 + 1 * q.val = q.val; omega

/-- What point `t` writes back is block `t` of the reference's dense layer of the arrays the region finds. -/
theorem flushed3_eq (bias : FVec Ideal Cert.ReferenceIdeal.S64 .f32) (hb : ∀ q : Fin 64, V c main_v116 (ix2 (0 : Fin 1) q) = bias (ix1 q)) (t : Fin cfg3.N) :
    (dat3 V c).flushed 3 t = ((cfg3.win 3).blk t).view.read (Elt Ideal) (denseRef3 (V c main_v115) (V c main_arg10) bias) := by
  show (cfg3.win 3).cut (grid3.coords t) ((dat3 V c).after 3 t) = _
  rw [after3_3]
  unfold out3_3
  rw [View.canon_unit_zero hz2_3]
  simp only [View.ld_unit_zero (S := S10000x192) hz2_3, View.ld_unit_zero (S := S192x64) hz2_3, View.ld_unit_zero (S := S1x64) hz2_3]
  funext j
  obtain ⟨p, q, rfl⟩ : ∃ (p : Fin 10000) (q : Fin 64), j = ix2 p q := ⟨j 0, j 1, eq_ix2 j⟩
  have hlt : win3_3.index t (0 : Fin 2) * 10000 + p.val < 100000 := by
    obtain ⟨-, -, -, -, -, -, -, e7⟩ := idx_facts3 t
    have := p.isLt; omega
  show k3_pay1 (F := Ideal) (iblk3 V c 0 t) (iblk3 V c 1 t) (iblk3 V c 2 t) (ix2 p q) = denseRef3 (V c main_v115) (V c main_arg10) bias (((cfg3.win 3).blk t).view.emb (ix2 p q))
  rw [emb3_3 t p q ⟨_, hlt⟩ rfl]
  refine (pay3_apply (iblk3 V c 0 t) (iblk3 V c 1 t) (iblk3 V c 2 t) p q).trans ?_
  refine Eq.trans ?_ (denseRef3_apply (V c main_v115) (V c main_arg10) bias ⟨_, hlt⟩ q).symm
  rw [read3_2 V c t q, hb q]
  refine congrArg (fun s => max (s + bias (ix1 q)) 0) (Finset.sum_congr rfl fun e _ => ?_)
  rw [read3_0 V c t p e ⟨_, hlt⟩ rfl, read3_1 V c t e q]

/-- Every index of the result array is in some point's tile: row `r` in the tile of point `r / 10000`. -/
theorem cover3 (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  obtain ⟨t, ht⟩ := idx_onto3 ⟨(i 0).val / 10000, by omega⟩
  have q0 : win3_3.index t (0 : Fin 2) = (i 0).val / 10000 := congrFun ht 0
  have q1 : win3_3.index t (1 : Fin 2) = 0 := congrFun ht 1
  refine ⟨t, flush3_3 t, ?_⟩
  show i ∈ ((View.whole main_v117).slice (win3_3.rect t)).set
  rw [View.set_slice_whole, Rect.mem_set_unit]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 64 ≤ (i 1).val ∧ (i 1).val < win3_3.index t (1 : Fin 2) * 64 + 64; omega

/-- REGION 3's RESULT ARRAY is the reference's dense layer of the arrays the region finds. -/
theorem dense3_final (bias : FVec Ideal Cert.ReferenceIdeal.S64 .f32) (hb : ∀ q : Fin 64, V c main_v116 (ix2 (0 : Fin 1) q) = bias (ix1 q)) :
    (dat3 V c).arrAt 3 cfg3.N = denseRef3 (V c main_v115) (V c main_arg10) bias :=
  (dat3 V c).arrAt_eq_of_cover 3 _ (fun t _ => flushed3_eq V c bias hb t) cover3

end Cert.Bridge

end
-- ==== Proof.LibSumTiles.lean ====
import Mathlib.Algebra.BigOperators.Fin
import Mathlib.Algebra.BigOperators.Intervals

/-!
# A sum over `a · b` consecutive rows is the sum over `a` tiles of `b` rows

General arithmetic for kernels that walk an array tile by tile and add each tile's sum to a running total: the total
over all `a · b` rows of any commutative monoid-valued function of the row number is the sum, over the `a` tiles, of
each tile's `b` rows; and the running total after the first `n + 1` tiles splits off its last tile.
-/

open scoped BigOperators

namespace Cert.LibSumTiles

/-- The rows `0 … a·b − 1` summed are the tiles `0 … a − 1` summed, each over its rows `t·b … t·b + b − 1`. -/
theorem sum_fin_mul {M : Type*} [AddCommMonoid M] (a b : ℕ) (g : ℕ → M) :
    ∑ k : Fin (a * b), g k.val = ∑ t : Fin a, ∑ r : Fin b, g (t.val * b + r.val) := by
  induction a with
  | zero => rw [Fin.sum_univ_eq_sum_range (fun k => g k) (0 * b)]; simp
  | succ a ih =>
    rw [Fin.sum_univ_castSucc (f := fun t : Fin (a + 1) => ∑ r : Fin b, g (t.val * b + r.val))]
    simp only [Fin.val_castSucc, Fin.val_last]
    rw [← ih, Fin.sum_univ_eq_sum_range (fun k => g k) ((a + 1) * b), Fin.sum_univ_eq_sum_range (fun k => g k) (a * b),
      Fin.sum_univ_eq_sum_range (fun r => g (a * b + r)) b, Nat.succ_mul, Finset.sum_range_add]

/-- The first `n + 2` tiles are the first `n + 1` and one more. -/
theorem sum_tiles_succ {M : Type*} [AddCommMonoid M] (n b : ℕ) (g : ℕ → M) :
    ∑ t : Fin (n + 2), ∑ r : Fin b, g (t.val * b + r.val)
      = (∑ t : Fin (n + 1), ∑ r : Fin b, g (t.val * b + r.val)) + ∑ r : Fin b, g ((n + 1) * b + r.val) := by
  rw [Fin.sum_univ_castSucc (f := fun t : Fin (n + 2) => ∑ r : Fin b, g (t.val * b + r.val))]
  simp only [Fin.val_castSucc, Fin.val_last]

end Cert.LibSumTiles
-- ==== Proof.Bridge.Sum4.lean ====
import proofs.«163259_j24927990186434_1_alg».proof.Proof.KernelIdeal.Sum4
import proofs.«163259_j24927990186434_1_alg».proof.Proof.Gen.ReferenceIdeal
import Idealize.ShloMosaic.Lib.ValueIdx
import Idealize.ShloMosaic.Lib.Pipeline.Value
import Idealize.ShloMosaic.PureOps.Ideal.Laws
import proofs.«163259_j24927990186434_1_alg».proof.Proof.LibSumTiles

/-!
# Kernel region 4 computes the reference's column sum

The result buffer after point `n` is the second store's payload applied tile after tile from the zero row (the
accumulation of the region's file, with each point's stores read back as payloads). On the extended reals that payload
adds a tile's column sums to what was there, so after the last point column `q` holds the sum over the ten tiles of
their 10000 rows of column `q` — all 100000 rows, in tile order. The reference's host sum over the rows, broadcast to a
row, is the same number: extended-real addition is commutative and associative, and both start from zero.
-/

set_option maxRecDepth 16384

noncomputable section

namespace Cert.Bridge

open Cert.KernelIdeal Cert.KernelIdeal.Gen Cert.KernelIdeal.Reg
open Idealize.ShloMosaic Idealize.ShloMosaic.TcCoe Idealize.ShloMosaic.Tactic Idealize.SL.Sem Idealize.ShloMosaic.ValueIdx
open Idealize.ShloMosaic.Pipeline (Dat)
open scoped BigOperators

section AnyF
variable {F : FTy → Type} [FloatOps F]

theorem hz2_4 : (![0, 0] : Fin 2 → Nat) = fun _ => 0 := funext fun a => by fin_cases a <;> rfl

/-- At a later point the body leaves, in the result buffer holding `xo`, the payload of its one store: `xo` plus the
    column sums of the operand tile `x`. -/
theorem out4_B (c : Dev nD) (i : grid4.Coords) (a1 : Memref sig .tc .vmem S10000x64 .f32) (h1 : a1.IsWhole)
    (a2 : Memref sig .tc .vmem S1x64 .f32) (h2 : a2.IsWhole) (hc : ¬cond4_0 i) (x : Vec F S10000x64 .f32) (xo : Vec F S1x64 .f32) :
    out4_B_1 c i a1 h1 a2 h2 hc x xo = k4_pay2 xo x := by
  unfold out4_B_1
  rw [View.read_writes_eq_canon _ _ _ (cover4_B_1 c i a1 h1 a2 h2 hc x xo)]
  unfold kernelRun4_B
  dsimp only
  rw [View.canon_unit_zero hz2_4]
  simp only [View.readAt_eq_ld, h1.read_unread, h2.read_unread, View.ld_unit_zero (S := S10000x64) hz2_4, View.ld_unit_zero (S := S1x64) hz2_4]

/-- At point 0 the body stores the zero row, reads it back, and leaves the zero row plus the tile's column sums. -/
theorem out4_A (c : Dev nD) (i : grid4.Coords) (a1 : Memref sig .tc .vmem S10000x64 .f32) (h1 : a1.IsWhole)
    (a2 : Memref sig .tc .vmem S1x64 .f32) (h2 : a2.IsWhole) (hc : cond4_0 i) (x : Vec F S10000x64 .f32) :
    out4_A_1 c i a1 h1 a2 h2 hc x = k4_pay2 (k4_pay1 (F := F)) x := by
  unfold out4_A_1
  rw [View.read_writes_eq_canon _ _ _ (cover4_A_1 c i a1 h1 a2 h2 hc x)]
  unfold kernelRun4_A
  dsimp only
  sl_unfold_words
  rw [View.canon_cons_unit_zero (S := S1x64) hz2_4, View.readCov_unit_zero (S := S1x64) _ hz2_4]
  simp only [View.readAt_eq_ld, h1.read_unread, View.ld_unit_zero (S := S10000x64) hz2_4, View.ld_unit_zero (S := S1x64) hz2_4]

variable (V : (c : Dev nD) → (b : Ref sig .tc) → Buf (Elt F) ((c : Thread nD τ).loc b))

/-- The running result after point `n`: the payload applied tile after tile, from the zero row. -/
def chain4 (c : Dev nD) : (n : ℕ) → n < cfg4.N → Vec F S1x64 .f32
  | 0, h => k4_pay2 (k4_pay1 (F := F)) (iblk4 V c 0 ⟨0, h⟩)
  | n + 1, h => k4_pay2 (chain4 c n (Nat.lt_of_succ_lt h)) (iblk4 V c 0 ⟨n + 1, h⟩)

theorem outsAt4_eq (c : Dev nD) : ∀ (n : ℕ) (h : n < cfg4.N), outsAt4 V c n h = chain4 V c n h
  | 0, h => (outsAt4_A V c ⟨0, h⟩ rfl).trans (out4_A ..)
  | n + 1, h => by
    have hN : cfg4.N = 10 := N_4
    have hB : ¬(⟨n + 1, h⟩ : Fin cfg4.N).val % 10 = 0 := by dsimp only; omega
    rw [outsAt4_B V c ⟨n + 1, h⟩ hB, out4_B]
    show k4_pay2 (outsAt4 V c n _) _ = k4_pay2 (chain4 V c n _) _
    rw [outsAt4_eq c n]

/-- The result row: the running result after the last point. -/
abbrev result4 (c : Dev nD) : Buf (Elt F) ((c : Thread nD τ).loc main_v118) := chain4 V c 9 (by rw [show cfg4.N = 10 from N_4]; decide)

/-- The one write-back, after point 9, writes it. -/
theorem flushed4_eq (c : Dev nD) (t : Fin cfg4.N) (hf : (cfg4.win 1).flush t = true) :
    (dat4 V c).flushed 1 t = ((cfg4.win 1).blk t).view.read (Elt F) (result4 V c) := by
  have hN : cfg4.N = 10 := N_4
  have h9 : t.val = 9 := by have := (flush4_1 t).mp hf; have := t.isLt; omega
  obtain rfl : t = t4_9 := Fin.ext h9
  show (cfg4.win 1).cut (grid4.coords t4_9) ((dat4 V c).after 1 t4_9) = _
  rw [after4_1, outsAt4_eq]
  have hz' : (fun a => win4_1.index t4_9 a * main_v118.ty.shape.size a) = fun _ => 0 := funext fun a => by fin_cases a <;> decide
  exact (Memref.read_access_unit_zero (Elt F) main_v118 hz' (fun a => by rw [congrFun hz' a]; simp) (result4 V c)).symm

/-- So the result array ends holding the running result after point 9. -/
theorem sum4_final (c : Dev nD) : (dat4 V c).arrAt 1 cfg4.N = result4 V c :=
  (dat4 V c).arrAt_eq_of_cover 1 (result4 V c) (flushed4_eq V c) fun i =>
    ⟨t4_9, (flush4_1 t4_9).mpr rfl, by
      show i ∈ ((View.whole main_v118).slice (win4_1.rect t4_9)).set
      rw [View.set_slice_whole, Rect.mem_set_unit]
      intro a
      have h0 : (i 0 : Nat) < 1 := (i 0).isLt
      have h1 : (i 1 : Nat) < 64 := (i 1).isLt
      match a with
      | ⟨0, _⟩ => show win4_1.index t4_9 0 * win4_1.size 0 ≤ (i 0 : Nat) ∧ (i 0 : Nat) < win4_1.index t4_9 0 * win4_1.size 0 + win4_1.xsize (grid4.coords t4_9) 0
                  rw [show win4_1.index t4_9 0 * win4_1.size 0 = 0 from by decide +kernel, show win4_1.xsize (grid4.coords t4_9) 0 = 1 from by decide +kernel]; omega
      | ⟨1, _⟩ => show win4_1.index t4_9 1 * win4_1.size 1 ≤ (i 1 : Nat) ∧ (i 1 : Nat) < win4_1.index t4_9 1 * win4_1.size 1 + win4_1.xsize (grid4.coords t4_9) 1
                  rw [show win4_1.index t4_9 1 * win4_1.size 1 = 0 from by decide +kernel, show win4_1.xsize (grid4.coords t4_9) 1 = 64 from by decide +kernel]; omega⟩

end AnyF

section AtIdeal

/-- The reference's column sum on the host, as a row. -/
def sumRef (X : FVec Ideal Cert.ReferenceIdeal.S100000x64 .f32) : FVec Ideal Cert.ReferenceIdeal.S1x64 .f32 :=
  broadcastInDim Cert.ReferenceIdeal.S1x64 ![1] Cert.ReferenceIdeal.Facts₀.bcast_S64_S1x64_1
    (Host.reduceAdd (F := Ideal) X (constant (F := Ideal) Cert.ReferenceIdeal.S_ .f32 0x00000000#32) Cert.ReferenceIdeal.Facts₀.reducesTo_S100000x64_S64_d0 Cert.ReferenceIdeal.Facts₀.h_S_)

theorem lift_tile (h : S10000x64.Reduces [0] S64) (q : Fin 64) (r : Fin 10000) : h.lift (ix1 q) r = ix2 r q := by
  funext a; apply Fin.ext
  match a with
  | ⟨0, _⟩ => simp [Shape.Reduces.lift, Shape.Reduces.liftVal]
  | ⟨1, _⟩ => simp [Shape.Reduces.lift, Shape.Reduces.liftVal]

theorem lift_whole (h : Cert.ReferenceIdeal.S100000x64.Reduces [0] Cert.ReferenceIdeal.S64) (q : Fin 64) (r : Fin 100000) : h.lift (ix1 q) r = ix2 r q := by
  funext a; apply Fin.ext
  match a with
  | ⟨0, _⟩ => simp [Shape.Reduces.lift, Shape.Reduces.liftVal]
  | ⟨1, _⟩ => simp [Shape.Reduces.lift, Shape.Reduces.liftVal]

/-- The second store's payload at a column: what was there plus the tile's column sum. -/
theorem pay4_2_apply (a : FVec Ideal S1x64 .f32) (x : FVec Ideal S10000x64 .f32) (q : Fin 64) :
    k4_pay2 (F := Ideal) a x (ix2 (0 : Fin 1) q) = a (ix2 (0 : Fin 1) q) + ∑ r : Fin 10000, x (ix2 r q) := by
  unfold k4_pay2
  rw [addf_apply, shapeCast_self, shapeCast_self]
  rw [shapeCast_apply _ shapeCasts_S64_S1x64 (ix2 (0 : Fin 1) q) (ix1 q) (by rw [Shape.rowMajor_val_one, Shape.rowMajor_val_two]; show q.val = 0 * _ + q.val; omega)]
  refine congrArg (a (ix2 (0 : Fin 1) q) + ·) ((Ideal.multiReduction_add_single x 0x00000000#32 reduces_S10000x64_S64 _ _ (ix1 q)).trans ?_)
  exact Finset.sum_congr rfl fun r _ => congrArg x (lift_tile _ q r)

/-- The first store's payload is the zero row. -/
theorem pay4_1_apply (q : Fin 64) : k4_pay1 (F := Ideal) (ix2 (0 : Fin 1) q) = 0 := by
  unfold k4_pay1
  show Ideal.ofBits .f32 0x00000000#32 = 0
  exact Ideal.ofBits_zero_f32

/-- The reference's column sum at a column. -/
theorem sumRef_apply (X : FVec Ideal Cert.ReferenceIdeal.S100000x64 .f32) (q : Fin 64) :
    sumRef X (ix2 (0 : Fin 1) q) = ∑ r : Fin 100000, X (ix2 r q) := by
  unfold sumRef
  rw [broadcastInDim_apply _ Cert.ReferenceIdeal.Facts₀.bcast_S64_S1x64_1 _ (ix2 (0 : Fin 1) q) (ix1 q) (fun a => by
    match a with
    | ⟨0, _⟩ => rfl)]
  unfold Host.reduceAdd
  rw [Ideal.hostReduceAdd_def]
  rw [Ideal.hostReduceAdd_single Cert.ReferenceIdeal.Facts₀.reducesTo_S100000x64_S64_d0 (by decide : Cert.ReferenceIdeal.S100000x64.Reduces [0] Cert.ReferenceIdeal.S64)]
  show Ideal.ofBits .f32 0x00000000#32 + _ = _
  rw [Ideal.ofBits_zero_f32, zero_add]
  exact Finset.sum_congr rfl fun r _ => congrArg X (lift_whole _ q r)

end AtIdeal

section Final
variable (V : (c : Dev nD) → (b : Ref sig .tc) → Buf (Elt Ideal) ((c : Thread nD τ).loc b)) (c : Dev nD)

/-- The operand's block index maps over the grid: tile `t` is rows `10000·t …`. -/
theorem idx_facts4 : ∀ t : Fin cfg4.N, win4_0.index t (0 : Fin 2) = t.val ∧ win4_0.index t (1 : Fin 2) = 0 :=
  (by decide +kernel : ∀ t : Fin grid4.N, _)

/-- The operand tile of point `t` read at (r, q) is the operand array at (10000·t + r, q). -/
theorem read4_0 (t : Fin cfg4.N) (r : Fin 10000) (q : Fin 64) (row : Fin 100000) (hrow : row.val = t.val * 10000 + r.val) :
    iblk4 V c 0 t (ix2 r q) = V c main_v117 (ix2 row q) := by
  obtain ⟨e0, e1⟩ := idx_facts4 t
  show V c main_v117 (((cfg4.win 0).blk t).view.emb (ix2 r q)) = V c main_v117 (ix2 row q)
  refine congrArg _ (funext fun a => Fin.ext ?_)
  match a with
  | ⟨0, _⟩ => show win4_0.index t (0 : Fin 2) * 10000 + 1 * r.val = row.val; omega
  | ⟨1, _⟩ => show win4_0.index t (1 : Fin 2) * 64 + 1 * q.val = q.val; omega

/-- The operand tile of point `t`, as a block of extended reals. -/
abbrev tile4 (t : Fin cfg4.N) : FVec Ideal S10000x64 .f32 := iblk4 V c 0 t

/-- Column `q` of the operand array by row number, zero past the last row. -/
def colOf (q : Fin 64) (k : ℕ) : EReal := if hk : k < 100000 then V c main_v117 (ix2 (⟨k, hk⟩ : Fin 100000) q) else 0

theorem tile_sum (t : Fin cfg4.N) (q : Fin 64) :
    ∑ r : Fin 10000, tile4 V c t (ix2 r q) = ∑ r : Fin 10000, colOf V c q (t.val * 10000 + r.val) := by
  have hN : t.val < 10 := lt_of_lt_of_eq t.isLt (show cfg4.N = 10 from N_4)
  refine Finset.sum_congr rfl fun r _ => ?_
  have hlt : t.val * 10000 + r.val < 100000 := by have := r.isLt; omega
  show iblk4 V c 0 t (ix2 r q) = _
  rw [read4_0 V c t r q ⟨_, hlt⟩ rfl]
  unfold colOf
  rw [dif_pos hlt]

/-- The running result after point `n`, at column `q`: the first `n + 1` tiles' column sums. -/
theorem chain4_apply (q : Fin 64) : ∀ (n : ℕ) (h : n < cfg4.N),
    chain4 V c n h (ix2 (0 : Fin 1) q) = ∑ t : Fin (n + 1), ∑ r : Fin 10000, colOf V c q (t.val * 10000 + r.val)
  | 0, h => by
    show k4_pay2 (F := Ideal) (k4_pay1 (F := Ideal)) (tile4 V c ⟨0, h⟩) (ix2 (0 : Fin 1) q) = _
    rw [pay4_2_apply, pay4_1_apply, zero_add, tile_sum V c ⟨0, h⟩ q]
    simp
  | n + 1, h => by
    show k4_pay2 (F := Ideal) (chain4 V c n _) (tile4 V c ⟨n + 1, h⟩) (ix2 (0 : Fin 1) q) = _
    rw [pay4_2_apply, chain4_apply q n, tile_sum V c ⟨n + 1, h⟩ q, Cert.LibSumTiles.sum_tiles_succ]

/-- REGION 4's RESULT ARRAY is the reference's column sum of the array the region finds. -/
theorem sum4_value : (dat4 V c).arrAt 1 cfg4.N = sumRef (V c main_v117) := by
  rw [sum4_final]
  funext j
  obtain ⟨p, q, rfl⟩ : ∃ (p : Fin 1) (q : Fin 64), j = ix2 p q := ⟨j 0, j 1, eq_ix2 j⟩
  obtain rfl : p = 0 := Subsingleton.elim _ _
  show chain4 V c 9 _ (ix2 (0 : Fin 1) q) = _
  rw [chain4_apply V c q 9, sumRef_apply]
  rw [← Cert.LibSumTiles.sum_fin_mul 10 10000 (colOf V c q)]
  show ∑ k : Fin 100000, colOf V c q k.val = _
  refine Finset.sum_congr rfl fun k _ => ?_
  unfold colOf
  rw [dif_pos k.isLt]

end Final

end Cert.Bridge

end
-- ==== Proof.Bridge.Stages.lean ====
import proofs.«163259_j24927990186434_1_alg».proof.Proof.Gen.KernelIdeal.Launch
import proofs.«163259_j24927990186434_1_alg».proof.Proof.ReferenceIdeal.Slices
import Idealize.ShloMosaic.Lib.ValueIdx
import Idealize.ShloMosaic.Lib.Pipeline.Value
import proofs.«163259_j24927990186434_1_alg».proof.Proof.KernelIdeal.Pieces
import proofs.«163259_j24927990186434_1_alg».proof.Proof.Bridge.Dense0
import proofs.«163259_j24927990186434_1_alg».proof.Proof.Bridge.Dense1
import proofs.«163259_j24927990186434_1_alg».proof.Proof.Bridge.Dense2
import proofs.«163259_j24927990186434_1_alg».proof.Proof.Bridge.Dense3
import proofs.«163259_j24927990186434_1_alg».proof.Proof.Bridge.Sum4

set_option maxRecDepth 16384

/-!
# The host work of the two programs, piece against piece

The kernel's @main and the reference do the same host operations in the same order on buffers that correspond one to
one; only the names differ. For each piece of the kernel's host stretches and the matching piece of the reference's
line: if the buffers the piece reads hold equal contents on the two sides, so does the buffer it is read for; and a
buffer the piece does not write holds what it held. Beside them: what the reference's dense-layer and column-sum pieces
compute, in the words the kernel regions' results are stated in, and the bias vectors recast as rows.
-/

noncomputable section

namespace Cert.Bridge

open Idealize.ShloMosaic Idealize.ShloMosaic.TcCoe Idealize.SL.Sem Idealize.ShloMosaic.StableHlo Idealize.ShloMosaic.ValueIdx

/-- Buffer contents of the kernel's program and of the reference, at the extended reals. -/
abbrev KVal := Valuation Cert.KernelIdeal.τ Cert.KernelIdeal.sig (Elt Ideal)
abbrev RVal := Valuation Cert.ReferenceIdeal.τ Cert.ReferenceIdeal.sig (Elt Ideal)

/-- One buffer after a line of host operations, as the operations' functions of the buffers the line found: each
    operation's result at its own buffer is its function's value, at any other buffer what was there. -/
macro "stage_simp" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      Matrix.cons_val_zero, Matrix.cons_val_one, Matrix.cons_val_two, Matrix.head_cons, Matrix.cons_val_succ, Matrix.cons_val_fin_one]))

/-- One buffer after a line of host operations, as the operations' functions of the buffers the line found: each
    operation's result at its own buffer is its function's value, at any other buffer what was there. -/
macro "stage_rw" : tactic =>
  `(tactic| (simp only [after_cons, after_nil]
             repeat (first
               | rw [nullary_result] | rw [unary_result] | rw [binary_result] | rw [ternary_result]
               | rw [reshape_result] | rw [nary_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide)
               | fail_if_no_progress dsimp only [Matrix.cons_val_zero, Matrix.cons_val_one, Matrix.cons_val_two, Matrix.head_cons, Matrix.cons_val_succ, Matrix.vecHead, Matrix.vecTail, Function.comp_apply, Fin.succ_zero_eq_one])))

set_option maxHeartbeats 1600000

/-! ## The pieces of the host stretches, and what each leaves alone -/

theorem piece_kP1_main_v0 (K : KVal) (R : RVal) (h0 : K (Proc.devRef .tc Cert.KernelIdeal.main_arg0) = R (Proc.devRef .tc Cert.ReferenceIdeal.main_arg0)) :
    after Cert.KernelIdeal.Reg.kP1 K (Proc.devRef .tc Cert.KernelIdeal.main_v0) = after Cert.ReferenceIdeal.Line.rP1 R (Proc.devRef .tc Cert.ReferenceIdeal.main_v0) := by
  stage_simp
  rw [h0]
  all_goals rfl
theorem piece_kP1_main_v7 (K : KVal) (R : RVal) (h0 : K (Proc.devRef .tc Cert.KernelIdeal.main_arg0) = R (Proc.devRef .tc Cert.ReferenceIdeal.main_arg0)) (h1 : K (Proc.devRef .tc Cert.KernelIdeal.main_arg2) = R (Proc.devRef .tc Cert.ReferenceIdeal.main_arg2)) :
    after Cert.KernelIdeal.Reg.kP1 K (Proc.devRef .tc Cert.KernelIdeal.main_v7) = after Cert.ReferenceIdeal.Line.rP1 R (Proc.devRef .tc Cert.ReferenceIdeal.main_v7) := by
  stage_simp
  rw [h0, h1]
  all_goals rfl
theorem keepK_kC1_main_v0 (K : KVal) : after Cert.KernelIdeal.Reg.kC1 K (Proc.devRef .tc Cert.KernelIdeal.main_v0) = K (Proc.devRef .tc Cert.KernelIdeal.main_v0) :=
  after_of_forall_not_mem _ _ (by decide)
theorem keepR_rC1_main_v0 (R : RVal) : after Cert.ReferenceIdeal.Line.rC1 R (Proc.devRef .tc Cert.ReferenceIdeal.main_v0) = R (Proc.devRef .tc Cert.ReferenceIdeal.main_v0) :=
  after_of_forall_not_mem _ _ (by decide)
theorem piece_kC1_main_v8 (K : KVal) (R : RVal) (h0 : K (Proc.devRef .tc Cert.KernelIdeal.main_v7) = R (Proc.devRef .tc Cert.ReferenceIdeal.main_v7)) (h1 : K (Proc.devRef .tc Cert.KernelIdeal.main_arg1) = R (Proc.devRef .tc Cert.ReferenceIdeal.main_arg1)) :
    after Cert.KernelIdeal.Reg.kC1 K (Proc.devRef .tc Cert.KernelIdeal.main_v8) = after Cert.ReferenceIdeal.Line.rC1 R (Proc.devRef .tc Cert.ReferenceIdeal.main_v8) := by
  stage_rw
  rw [h0, h1]
  all_goals rfl
theorem keepK_kP1_main_arg1 (K : KVal) : after Cert.KernelIdeal.Reg.kP1 K (Proc.devRef .tc Cert.KernelIdeal.main_arg1) = K (Proc.devRef .tc Cert.KernelIdeal.main_arg1) :=
  after_of_forall_not_mem _ _ (by decide)
theorem keepR_rP1_main_arg1 (R : RVal) : after Cert.ReferenceIdeal.Line.rP1 R (Proc.devRef .tc Cert.ReferenceIdeal.main_arg1) = R (Proc.devRef .tc Cert.ReferenceIdeal.main_arg1) :=
  after_of_forall_not_mem _ _ (by decide)
theorem piece_kC1_main_v9 (K : KVal) (q : Fin 64) :
    after Cert.KernelIdeal.Reg.kC1 K (Proc.devRef .tc Cert.KernelIdeal.main_v9) (ix2 (0 : Fin 1) q) = K (Proc.devRef .tc Cert.KernelIdeal.main_arg5) (ix1 q) := by
  stage_rw
  exact shapeCast_apply _ Cert.KernelIdeal.Facts₀.shapeCasts_S64_S1x64 (ix2 (0 : Fin 1) q) (ix1 q)
    (by rw [Shape.rowMajor_val_one, Shape.rowMajor_val_two]; show q.val = 0 * _ + q.val; omega)
theorem keepK_kP1_main_arg5 (K : KVal) : after Cert.KernelIdeal.Reg.kP1 K (Proc.devRef .tc Cert.KernelIdeal.main_arg5) = K (Proc.devRef .tc Cert.KernelIdeal.main_arg5) :=
  after_of_forall_not_mem _ _ (by decide)
theorem keepR_rC1_main_arg4 (R : RVal) : after Cert.ReferenceIdeal.Line.rC1 R (Proc.devRef .tc Cert.ReferenceIdeal.main_arg4) = R (Proc.devRef .tc Cert.ReferenceIdeal.main_arg4) :=
  after_of_forall_not_mem _ _ (by decide)
theorem keepR_rP1_main_arg4 (R : RVal) : after Cert.ReferenceIdeal.Line.rP1 R (Proc.devRef .tc Cert.ReferenceIdeal.main_arg4) = R (Proc.devRef .tc Cert.ReferenceIdeal.main_arg4) :=
  after_of_forall_not_mem _ _ (by decide)
theorem keepR_rC1_main_arg5 (R : RVal) : after Cert.ReferenceIdeal.Line.rC1 R (Proc.devRef .tc Cert.ReferenceIdeal.main_arg5) = R (Proc.devRef .tc Cert.ReferenceIdeal.main_arg5) :=
  after_of_forall_not_mem _ _ (by decide)
theorem keepR_rP1_main_arg5 (R : RVal) : after Cert.ReferenceIdeal.Line.rP1 R (Proc.devRef .tc Cert.ReferenceIdeal.main_arg5) = R (Proc.devRef .tc Cert.ReferenceIdeal.main_arg5) :=
  after_of_forall_not_mem _ _ (by decide)
theorem keepK_kC1_main_arg4 (K : KVal) : after Cert.KernelIdeal.Reg.kC1 K (Proc.devRef .tc Cert.KernelIdeal.main_arg4) = K (Proc.devRef .tc Cert.KernelIdeal.main_arg4) :=
  after_of_forall_not_mem _ _ (by decide)
theorem keepK_kP1_main_arg4 (K : KVal) : after Cert.KernelIdeal.Reg.kP1 K (Proc.devRef .tc Cert.KernelIdeal.main_arg4) = K (Proc.devRef .tc Cert.KernelIdeal.main_arg4) :=
  after_of_forall_not_mem _ _ (by decide)
theorem keepR_sD0_main_v0 (R : RVal) : after Cert.ReferenceIdeal.Line.sD0 R (Proc.devRef .tc Cert.ReferenceIdeal.main_v0) = R (Proc.devRef .tc Cert.ReferenceIdeal.main_v0) :=
  after_of_forall_not_mem _ _ (by decide)
theorem keepK_kP2_main_v0 (K : KVal) : after Cert.KernelIdeal.Reg.kP2 K (Proc.devRef .tc Cert.KernelIdeal.main_v0) = K (Proc.devRef .tc Cert.KernelIdeal.main_v0) :=
  after_of_forall_not_mem _ _ (by decide)
theorem keepR_rP2_main_v0 (R : RVal) : after Cert.ReferenceIdeal.Line.rP2 R (Proc.devRef .tc Cert.ReferenceIdeal.main_v0) = R (Proc.devRef .tc Cert.ReferenceIdeal.main_v0) :=
  after_of_forall_not_mem _ _ (by decide)
theorem piece_kP2_main_v14 (K : KVal) (R : RVal) (h0 : K (Proc.devRef .tc Cert.KernelIdeal.main_arg3) = R (Proc.devRef .tc Cert.ReferenceIdeal.main_arg3)) (h1 : K (Proc.devRef .tc Cert.KernelIdeal.main_v10) = R (Proc.devRef .tc Cert.ReferenceIdeal.main_v13)) :
    after Cert.KernelIdeal.Reg.kP2 K (Proc.devRef .tc Cert.KernelIdeal.main_v14) = after Cert.ReferenceIdeal.Line.rP2 R (Proc.devRef .tc Cert.ReferenceIdeal.main_v17) := by
  stage_simp
  rw [h0, h1]
  all_goals rfl
theorem keepK_kC1_main_arg3 (K : KVal) : after Cert.KernelIdeal.Reg.kC1 K (Proc.devRef .tc Cert.KernelIdeal.main_arg3) = K (Proc.devRef .tc Cert.KernelIdeal.main_arg3) :=
  after_of_forall_not_mem _ _ (by decide)
theorem keepK_kP1_main_arg3 (K : KVal) : after Cert.KernelIdeal.Reg.kP1 K (Proc.devRef .tc Cert.KernelIdeal.main_arg3) = K (Proc.devRef .tc Cert.KernelIdeal.main_arg3) :=
  after_of_forall_not_mem _ _ (by decide)
theorem keepR_sD0_main_arg3 (R : RVal) : after Cert.ReferenceIdeal.Line.sD0 R (Proc.devRef .tc Cert.ReferenceIdeal.main_arg3) = R (Proc.devRef .tc Cert.ReferenceIdeal.main_arg3) :=
  after_of_forall_not_mem _ _ (by decide)
theorem keepR_rC1_main_arg3 (R : RVal) : after Cert.ReferenceIdeal.Line.rC1 R (Proc.devRef .tc Cert.ReferenceIdeal.main_arg3) = R (Proc.devRef .tc Cert.ReferenceIdeal.main_arg3) :=
  after_of_forall_not_mem _ _ (by decide)
theorem keepR_rP1_main_arg3 (R : RVal) : after Cert.ReferenceIdeal.Line.rP1 R (Proc.devRef .tc Cert.ReferenceIdeal.main_arg3) = R (Proc.devRef .tc Cert.ReferenceIdeal.main_arg3) :=
  after_of_forall_not_mem _ _ (by decide)
theorem piece_kP2_main_v23 (K : KVal) (R : RVal) (h0 : K (Proc.devRef .tc Cert.KernelIdeal.main_arg3) = R (Proc.devRef .tc Cert.ReferenceIdeal.main_arg3)) :
    after Cert.KernelIdeal.Reg.kP2 K (Proc.devRef .tc Cert.KernelIdeal.main_v23) = after Cert.ReferenceIdeal.Line.rP2 R (Proc.devRef .tc Cert.ReferenceIdeal.main_v26) := by
  stage_simp
  rw [h0]
  all_goals rfl
theorem piece_kC2_main_v24 (K : KVal) (R : RVal) (h0 : K (Proc.devRef .tc Cert.KernelIdeal.main_v0) = R (Proc.devRef .tc Cert.ReferenceIdeal.main_v0)) (h1 : K (Proc.devRef .tc Cert.KernelIdeal.main_v14) = R (Proc.devRef .tc Cert.ReferenceIdeal.main_v17)) :
    after Cert.KernelIdeal.Reg.kC2 K (Proc.devRef .tc Cert.KernelIdeal.main_v24) = after Cert.ReferenceIdeal.Line.rC2 R (Proc.devRef .tc Cert.ReferenceIdeal.main_v27) := by
  stage_rw
  rw [h0, h1]
  all_goals rfl
theorem keepK_kC2_main_v23 (K : KVal) : after Cert.KernelIdeal.Reg.kC2 K (Proc.devRef .tc Cert.KernelIdeal.main_v23) = K (Proc.devRef .tc Cert.KernelIdeal.main_v23) :=
  after_of_forall_not_mem _ _ (by decide)
theorem keepR_rC2_main_v26 (R : RVal) : after Cert.ReferenceIdeal.Line.rC2 R (Proc.devRef .tc Cert.ReferenceIdeal.main_v26) = R (Proc.devRef .tc Cert.ReferenceIdeal.main_v26) :=
  after_of_forall_not_mem _ _ (by decide)
theorem keepK_kP3_main_v24 (K : KVal) : after Cert.KernelIdeal.Reg.kP3 K (Proc.devRef .tc Cert.KernelIdeal.main_v24) = K (Proc.devRef .tc Cert.KernelIdeal.main_v24) :=
  after_of_forall_not_mem _ _ (by decide)
theorem keepR_rP3_main_v27 (R : RVal) : after Cert.ReferenceIdeal.Line.rP3 R (Proc.devRef .tc Cert.ReferenceIdeal.main_v27) = R (Proc.devRef .tc Cert.ReferenceIdeal.main_v27) :=
  after_of_forall_not_mem _ _ (by decide)
theorem piece_kP3_main_v38 (K : KVal) (R : RVal) (h0 : K (Proc.devRef .tc Cert.KernelIdeal.main_arg3) = R (Proc.devRef .tc Cert.ReferenceIdeal.main_arg3)) (h1 : K (Proc.devRef .tc Cert.KernelIdeal.main_v24) = R (Proc.devRef .tc Cert.ReferenceIdeal.main_v27)) (h2 : K (Proc.devRef .tc Cert.KernelIdeal.main_v23) = R (Proc.devRef .tc Cert.ReferenceIdeal.main_v26)) (h3 : K (Proc.devRef .tc Cert.KernelIdeal.main_arg2) = R (Proc.devRef .tc Cert.ReferenceIdeal.main_arg2)) :
    after Cert.KernelIdeal.Reg.kP3 K (Proc.devRef .tc Cert.KernelIdeal.main_v38) = after Cert.ReferenceIdeal.Line.rP3 R (Proc.devRef .tc Cert.ReferenceIdeal.main_v41) := by
  stage_simp
  rw [h0, h1, h2, h3]
  all_goals rfl
theorem keepK_kC2_main_arg3 (K : KVal) : after Cert.KernelIdeal.Reg.kC2 K (Proc.devRef .tc Cert.KernelIdeal.main_arg3) = K (Proc.devRef .tc Cert.KernelIdeal.main_arg3) :=
  after_of_forall_not_mem _ _ (by decide)
theorem keepK_kP2_main_arg3 (K : KVal) : after Cert.KernelIdeal.Reg.kP2 K (Proc.devRef .tc Cert.KernelIdeal.main_arg3) = K (Proc.devRef .tc Cert.KernelIdeal.main_arg3) :=
  after_of_forall_not_mem _ _ (by decide)
theorem keepR_rC2_main_arg3 (R : RVal) : after Cert.ReferenceIdeal.Line.rC2 R (Proc.devRef .tc Cert.ReferenceIdeal.main_arg3) = R (Proc.devRef .tc Cert.ReferenceIdeal.main_arg3) :=
  after_of_forall_not_mem _ _ (by decide)
theorem keepR_rP2_main_arg3 (R : RVal) : after Cert.ReferenceIdeal.Line.rP2 R (Proc.devRef .tc Cert.ReferenceIdeal.main_arg3) = R (Proc.devRef .tc Cert.ReferenceIdeal.main_arg3) :=
  after_of_forall_not_mem _ _ (by decide)
theorem keepK_kC2_main_arg2 (K : KVal) : after Cert.KernelIdeal.Reg.kC2 K (Proc.devRef .tc Cert.KernelIdeal.main_arg2) = K (Proc.devRef .tc Cert.KernelIdeal.main_arg2) :=
  after_of_forall_not_mem _ _ (by decide)
theorem keepK_kP2_main_arg2 (K : KVal) : after Cert.KernelIdeal.Reg.kP2 K (Proc.devRef .tc Cert.KernelIdeal.main_arg2) = K (Proc.devRef .tc Cert.KernelIdeal.main_arg2) :=
  after_of_forall_not_mem _ _ (by decide)
theorem keepK_kC1_main_arg2 (K : KVal) : after Cert.KernelIdeal.Reg.kC1 K (Proc.devRef .tc Cert.KernelIdeal.main_arg2) = K (Proc.devRef .tc Cert.KernelIdeal.main_arg2) :=
  after_of_forall_not_mem _ _ (by decide)
theorem keepK_kP1_main_arg2 (K : KVal) : after Cert.KernelIdeal.Reg.kP1 K (Proc.devRef .tc Cert.KernelIdeal.main_arg2) = K (Proc.devRef .tc Cert.KernelIdeal.main_arg2) :=
  after_of_forall_not_mem _ _ (by decide)
theorem keepR_rC2_main_arg2 (R : RVal) : after Cert.ReferenceIdeal.Line.rC2 R (Proc.devRef .tc Cert.ReferenceIdeal.main_arg2) = R (Proc.devRef .tc Cert.ReferenceIdeal.main_arg2) :=
  after_of_forall_not_mem _ _ (by decide)
theorem keepR_rP2_main_arg2 (R : RVal) : after Cert.ReferenceIdeal.Line.rP2 R (Proc.devRef .tc Cert.ReferenceIdeal.main_arg2) = R (Proc.devRef .tc Cert.ReferenceIdeal.main_arg2) :=
  after_of_forall_not_mem _ _ (by decide)
theorem keepR_sD0_main_arg2 (R : RVal) : after Cert.ReferenceIdeal.Line.sD0 R (Proc.devRef .tc Cert.ReferenceIdeal.main_arg2) = R (Proc.devRef .tc Cert.ReferenceIdeal.main_arg2) :=
  after_of_forall_not_mem _ _ (by decide)
theorem keepR_rC1_main_arg2 (R : RVal) : after Cert.ReferenceIdeal.Line.rC1 R (Proc.devRef .tc Cert.ReferenceIdeal.main_arg2) = R (Proc.devRef .tc Cert.ReferenceIdeal.main_arg2) :=
  after_of_forall_not_mem _ _ (by decide)
theorem keepR_rP1_main_arg2 (R : RVal) : after Cert.ReferenceIdeal.Line.rP1 R (Proc.devRef .tc Cert.ReferenceIdeal.main_arg2) = R (Proc.devRef .tc Cert.ReferenceIdeal.main_arg2) :=
  after_of_forall_not_mem _ _ (by decide)
theorem piece_kP3_main_v52 (K : KVal) (R : RVal) (h0 : K (Proc.devRef .tc Cert.KernelIdeal.main_arg3) = R (Proc.devRef .tc Cert.ReferenceIdeal.main_arg3)) (h1 : K (Proc.devRef .tc Cert.KernelIdeal.main_v24) = R (Proc.devRef .tc Cert.ReferenceIdeal.main_v27)) (h2 : K (Proc.devRef .tc Cert.KernelIdeal.main_v23) = R (Proc.devRef .tc Cert.ReferenceIdeal.main_v26)) (h3 : K (Proc.devRef .tc Cert.KernelIdeal.main_arg2) = R (Proc.devRef .tc Cert.ReferenceIdeal.main_arg2)) :
    after Cert.KernelIdeal.Reg.kP3 K (Proc.devRef .tc Cert.KernelIdeal.main_v52) = after Cert.ReferenceIdeal.Line.rP3 R (Proc.devRef .tc Cert.ReferenceIdeal.main_v55) := by
  stage_simp
  rw [h0, h1, h2, h3]
  all_goals rfl
theorem keepK_kP3_main_v23 (K : KVal) : after Cert.KernelIdeal.Reg.kP3 K (Proc.devRef .tc Cert.KernelIdeal.main_v23) = K (Proc.devRef .tc Cert.KernelIdeal.main_v23) :=
  after_of_forall_not_mem _ _ (by decide)
theorem keepR_rP3_main_v26 (R : RVal) : after Cert.ReferenceIdeal.Line.rP3 R (Proc.devRef .tc Cert.ReferenceIdeal.main_v26) = R (Proc.devRef .tc Cert.ReferenceIdeal.main_v26) :=
  after_of_forall_not_mem _ _ (by decide)
theorem piece_kC3_main_v53 (K : KVal) (R : RVal) (h0 : K (Proc.devRef .tc Cert.KernelIdeal.main_v24) = R (Proc.devRef .tc Cert.ReferenceIdeal.main_v27)) (h1 : K (Proc.devRef .tc Cert.KernelIdeal.main_v38) = R (Proc.devRef .tc Cert.ReferenceIdeal.main_v41)) (h2 : K (Proc.devRef .tc Cert.KernelIdeal.main_v52) = R (Proc.devRef .tc Cert.ReferenceIdeal.main_v55)) :
    after Cert.KernelIdeal.Reg.kC3 K (Proc.devRef .tc Cert.KernelIdeal.main_v53) = after Cert.ReferenceIdeal.Line.rC3 R (Proc.devRef .tc Cert.ReferenceIdeal.main_v56) := by
  stage_rw
  rw [h0, h1, h2]
  all_goals rfl
theorem keepK_kC3_main_v23 (K : KVal) : after Cert.KernelIdeal.Reg.kC3 K (Proc.devRef .tc Cert.KernelIdeal.main_v23) = K (Proc.devRef .tc Cert.KernelIdeal.main_v23) :=
  after_of_forall_not_mem _ _ (by decide)
theorem keepR_rC3_main_v26 (R : RVal) : after Cert.ReferenceIdeal.Line.rC3 R (Proc.devRef .tc Cert.ReferenceIdeal.main_v26) = R (Proc.devRef .tc Cert.ReferenceIdeal.main_v26) :=
  after_of_forall_not_mem _ _ (by decide)
theorem piece_kC3_main_v54 (K : KVal) (q : Fin 64) :
    after Cert.KernelIdeal.Reg.kC3 K (Proc.devRef .tc Cert.KernelIdeal.main_v54) (ix2 (0 : Fin 1) q) = K (Proc.devRef .tc Cert.KernelIdeal.main_arg7) (ix1 q) := by
  stage_rw
  exact shapeCast_apply _ Cert.KernelIdeal.Facts₀.shapeCasts_S64_S1x64 (ix2 (0 : Fin 1) q) (ix1 q)
    (by rw [Shape.rowMajor_val_one, Shape.rowMajor_val_two]; show q.val = 0 * _ + q.val; omega)
theorem keepK_kP3_main_arg7 (K : KVal) : after Cert.KernelIdeal.Reg.kP3 K (Proc.devRef .tc Cert.KernelIdeal.main_arg7) = K (Proc.devRef .tc Cert.KernelIdeal.main_arg7) :=
  after_of_forall_not_mem _ _ (by decide)
theorem keepK_kC2_main_arg7 (K : KVal) : after Cert.KernelIdeal.Reg.kC2 K (Proc.devRef .tc Cert.KernelIdeal.main_arg7) = K (Proc.devRef .tc Cert.KernelIdeal.main_arg7) :=
  after_of_forall_not_mem _ _ (by decide)
theorem keepK_kP2_main_arg7 (K : KVal) : after Cert.KernelIdeal.Reg.kP2 K (Proc.devRef .tc Cert.KernelIdeal.main_arg7) = K (Proc.devRef .tc Cert.KernelIdeal.main_arg7) :=
  after_of_forall_not_mem _ _ (by decide)
theorem keepK_kC1_main_arg7 (K : KVal) : after Cert.KernelIdeal.Reg.kC1 K (Proc.devRef .tc Cert.KernelIdeal.main_arg7) = K (Proc.devRef .tc Cert.KernelIdeal.main_arg7) :=
  after_of_forall_not_mem _ _ (by decide)
theorem keepK_kP1_main_arg7 (K : KVal) : after Cert.KernelIdeal.Reg.kP1 K (Proc.devRef .tc Cert.KernelIdeal.main_arg7) = K (Proc.devRef .tc Cert.KernelIdeal.main_arg7) :=
  after_of_forall_not_mem _ _ (by decide)
theorem keepR_rC3_main_arg6 (R : RVal) : after Cert.ReferenceIdeal.Line.rC3 R (Proc.devRef .tc Cert.ReferenceIdeal.main_arg6) = R (Proc.devRef .tc Cert.ReferenceIdeal.main_arg6) :=
  after_of_forall_not_mem _ _ (by decide)
theorem keepR_rP3_main_arg6 (R : RVal) : after Cert.ReferenceIdeal.Line.rP3 R (Proc.devRef .tc Cert.ReferenceIdeal.main_arg6) = R (Proc.devRef .tc Cert.ReferenceIdeal.main_arg6) :=
  after_of_forall_not_mem _ _ (by decide)
theorem keepR_rC2_main_arg6 (R : RVal) : after Cert.ReferenceIdeal.Line.rC2 R (Proc.devRef .tc Cert.ReferenceIdeal.main_arg6) = R (Proc.devRef .tc Cert.ReferenceIdeal.main_arg6) :=
  after_of_forall_not_mem _ _ (by decide)
theorem keepR_rP2_main_arg6 (R : RVal) : after Cert.ReferenceIdeal.Line.rP2 R (Proc.devRef .tc Cert.ReferenceIdeal.main_arg6) = R (Proc.devRef .tc Cert.ReferenceIdeal.main_arg6) :=
  after_of_forall_not_mem _ _ (by decide)
theorem keepR_sD0_main_arg6 (R : RVal) : after Cert.ReferenceIdeal.Line.sD0 R (Proc.devRef .tc Cert.ReferenceIdeal.main_arg6) = R (Proc.devRef .tc Cert.ReferenceIdeal.main_arg6) :=
  after_of_forall_not_mem _ _ (by decide)
theorem keepR_rC1_main_arg6 (R : RVal) : after Cert.ReferenceIdeal.Line.rC1 R (Proc.devRef .tc Cert.ReferenceIdeal.main_arg6) = R (Proc.devRef .tc Cert.ReferenceIdeal.main_arg6) :=
  after_of_forall_not_mem _ _ (by decide)
theorem keepR_rP1_main_arg6 (R : RVal) : after Cert.ReferenceIdeal.Line.rP1 R (Proc.devRef .tc Cert.ReferenceIdeal.main_arg6) = R (Proc.devRef .tc Cert.ReferenceIdeal.main_arg6) :=
  after_of_forall_not_mem _ _ (by decide)
theorem keepR_rC3_main_arg7 (R : RVal) : after Cert.ReferenceIdeal.Line.rC3 R (Proc.devRef .tc Cert.ReferenceIdeal.main_arg7) = R (Proc.devRef .tc Cert.ReferenceIdeal.main_arg7) :=
  after_of_forall_not_mem _ _ (by decide)
theorem keepR_rP3_main_arg7 (R : RVal) : after Cert.ReferenceIdeal.Line.rP3 R (Proc.devRef .tc Cert.ReferenceIdeal.main_arg7) = R (Proc.devRef .tc Cert.ReferenceIdeal.main_arg7) :=
  after_of_forall_not_mem _ _ (by decide)
theorem keepR_rC2_main_arg7 (R : RVal) : after Cert.ReferenceIdeal.Line.rC2 R (Proc.devRef .tc Cert.ReferenceIdeal.main_arg7) = R (Proc.devRef .tc Cert.ReferenceIdeal.main_arg7) :=
  after_of_forall_not_mem _ _ (by decide)
theorem keepR_rP2_main_arg7 (R : RVal) : after Cert.ReferenceIdeal.Line.rP2 R (Proc.devRef .tc Cert.ReferenceIdeal.main_arg7) = R (Proc.devRef .tc Cert.ReferenceIdeal.main_arg7) :=
  after_of_forall_not_mem _ _ (by decide)
theorem keepR_sD0_main_arg7 (R : RVal) : after Cert.ReferenceIdeal.Line.sD0 R (Proc.devRef .tc Cert.ReferenceIdeal.main_arg7) = R (Proc.devRef .tc Cert.ReferenceIdeal.main_arg7) :=
  after_of_forall_not_mem _ _ (by decide)
theorem keepR_rC1_main_arg7 (R : RVal) : after Cert.ReferenceIdeal.Line.rC1 R (Proc.devRef .tc Cert.ReferenceIdeal.main_arg7) = R (Proc.devRef .tc Cert.ReferenceIdeal.main_arg7) :=
  after_of_forall_not_mem _ _ (by decide)
theorem keepR_rP1_main_arg7 (R : RVal) : after Cert.ReferenceIdeal.Line.rP1 R (Proc.devRef .tc Cert.ReferenceIdeal.main_arg7) = R (Proc.devRef .tc Cert.ReferenceIdeal.main_arg7) :=
  after_of_forall_not_mem _ _ (by decide)
theorem keepK_kC3_main_arg6 (K : KVal) : after Cert.KernelIdeal.Reg.kC3 K (Proc.devRef .tc Cert.KernelIdeal.main_arg6) = K (Proc.devRef .tc Cert.KernelIdeal.main_arg6) :=
  after_of_forall_not_mem _ _ (by decide)
theorem keepK_kP3_main_arg6 (K : KVal) : after Cert.KernelIdeal.Reg.kP3 K (Proc.devRef .tc Cert.KernelIdeal.main_arg6) = K (Proc.devRef .tc Cert.KernelIdeal.main_arg6) :=
  after_of_forall_not_mem _ _ (by decide)
theorem keepK_kC2_main_arg6 (K : KVal) : after Cert.KernelIdeal.Reg.kC2 K (Proc.devRef .tc Cert.KernelIdeal.main_arg6) = K (Proc.devRef .tc Cert.KernelIdeal.main_arg6) :=
  after_of_forall_not_mem _ _ (by decide)
theorem keepK_kP2_main_arg6 (K : KVal) : after Cert.KernelIdeal.Reg.kP2 K (Proc.devRef .tc Cert.KernelIdeal.main_arg6) = K (Proc.devRef .tc Cert.KernelIdeal.main_arg6) :=
  after_of_forall_not_mem _ _ (by decide)
theorem keepK_kC1_main_arg6 (K : KVal) : after Cert.KernelIdeal.Reg.kC1 K (Proc.devRef .tc Cert.KernelIdeal.main_arg6) = K (Proc.devRef .tc Cert.KernelIdeal.main_arg6) :=
  after_of_forall_not_mem _ _ (by decide)
theorem keepK_kP1_main_arg6 (K : KVal) : after Cert.KernelIdeal.Reg.kP1 K (Proc.devRef .tc Cert.KernelIdeal.main_arg6) = K (Proc.devRef .tc Cert.KernelIdeal.main_arg6) :=
  after_of_forall_not_mem _ _ (by decide)
theorem keepR_sD1_main_v26 (R : RVal) : after Cert.ReferenceIdeal.Line.sD1 R (Proc.devRef .tc Cert.ReferenceIdeal.main_v26) = R (Proc.devRef .tc Cert.ReferenceIdeal.main_v26) :=
  after_of_forall_not_mem _ _ (by decide)
theorem keepK_kP4_main_v55 (K : KVal) : after Cert.KernelIdeal.Reg.kP4 K (Proc.devRef .tc Cert.KernelIdeal.main_v55) = K (Proc.devRef .tc Cert.KernelIdeal.main_v55) :=
  after_of_forall_not_mem _ _ (by decide)
theorem keepR_rP4_main_v61 (R : RVal) : after Cert.ReferenceIdeal.Line.rP4 R (Proc.devRef .tc Cert.ReferenceIdeal.main_v61) = R (Proc.devRef .tc Cert.ReferenceIdeal.main_v61) :=
  after_of_forall_not_mem _ _ (by decide)
theorem piece_kP4_main_v69 (K : KVal) (R : RVal) (h0 : K (Proc.devRef .tc Cert.KernelIdeal.main_arg3) = R (Proc.devRef .tc Cert.ReferenceIdeal.main_arg3)) (h1 : K (Proc.devRef .tc Cert.KernelIdeal.main_v55) = R (Proc.devRef .tc Cert.ReferenceIdeal.main_v61)) (h2 : K (Proc.devRef .tc Cert.KernelIdeal.main_v23) = R (Proc.devRef .tc Cert.ReferenceIdeal.main_v26)) (h3 : K (Proc.devRef .tc Cert.KernelIdeal.main_arg2) = R (Proc.devRef .tc Cert.ReferenceIdeal.main_arg2)) :
    after Cert.KernelIdeal.Reg.kP4 K (Proc.devRef .tc Cert.KernelIdeal.main_v69) = after Cert.ReferenceIdeal.Line.rP4 R (Proc.devRef .tc Cert.ReferenceIdeal.main_v75) := by
  stage_simp
  rw [h0, h1, h2, h3]
  all_goals rfl
theorem keepK_kC3_main_arg3 (K : KVal) : after Cert.KernelIdeal.Reg.kC3 K (Proc.devRef .tc Cert.KernelIdeal.main_arg3) = K (Proc.devRef .tc Cert.KernelIdeal.main_arg3) :=
  after_of_forall_not_mem _ _ (by decide)
theorem keepK_kP3_main_arg3 (K : KVal) : after Cert.KernelIdeal.Reg.kP3 K (Proc.devRef .tc Cert.KernelIdeal.main_arg3) = K (Proc.devRef .tc Cert.KernelIdeal.main_arg3) :=
  after_of_forall_not_mem _ _ (by decide)
theorem keepR_sD1_main_arg3 (R : RVal) : after Cert.ReferenceIdeal.Line.sD1 R (Proc.devRef .tc Cert.ReferenceIdeal.main_arg3) = R (Proc.devRef .tc Cert.ReferenceIdeal.main_arg3) :=
  after_of_forall_not_mem _ _ (by decide)
theorem keepR_rC3_main_arg3 (R : RVal) : after Cert.ReferenceIdeal.Line.rC3 R (Proc.devRef .tc Cert.ReferenceIdeal.main_arg3) = R (Proc.devRef .tc Cert.ReferenceIdeal.main_arg3) :=
  after_of_forall_not_mem _ _ (by decide)
theorem keepR_rP3_main_arg3 (R : RVal) : after Cert.ReferenceIdeal.Line.rP3 R (Proc.devRef .tc Cert.ReferenceIdeal.main_arg3) = R (Proc.devRef .tc Cert.ReferenceIdeal.main_arg3) :=
  after_of_forall_not_mem _ _ (by decide)
theorem keepK_kC3_main_arg2 (K : KVal) : after Cert.KernelIdeal.Reg.kC3 K (Proc.devRef .tc Cert.KernelIdeal.main_arg2) = K (Proc.devRef .tc Cert.KernelIdeal.main_arg2) :=
  after_of_forall_not_mem _ _ (by decide)
theorem keepK_kP3_main_arg2 (K : KVal) : after Cert.KernelIdeal.Reg.kP3 K (Proc.devRef .tc Cert.KernelIdeal.main_arg2) = K (Proc.devRef .tc Cert.KernelIdeal.main_arg2) :=
  after_of_forall_not_mem _ _ (by decide)
theorem keepR_sD1_main_arg2 (R : RVal) : after Cert.ReferenceIdeal.Line.sD1 R (Proc.devRef .tc Cert.ReferenceIdeal.main_arg2) = R (Proc.devRef .tc Cert.ReferenceIdeal.main_arg2) :=
  after_of_forall_not_mem _ _ (by decide)
theorem keepR_rC3_main_arg2 (R : RVal) : after Cert.ReferenceIdeal.Line.rC3 R (Proc.devRef .tc Cert.ReferenceIdeal.main_arg2) = R (Proc.devRef .tc Cert.ReferenceIdeal.main_arg2) :=
  after_of_forall_not_mem _ _ (by decide)
theorem keepR_rP3_main_arg2 (R : RVal) : after Cert.ReferenceIdeal.Line.rP3 R (Proc.devRef .tc Cert.ReferenceIdeal.main_arg2) = R (Proc.devRef .tc Cert.ReferenceIdeal.main_arg2) :=
  after_of_forall_not_mem _ _ (by decide)
theorem piece_kP4_main_v83 (K : KVal) (R : RVal) (h0 : K (Proc.devRef .tc Cert.KernelIdeal.main_arg3) = R (Proc.devRef .tc Cert.ReferenceIdeal.main_arg3)) (h1 : K (Proc.devRef .tc Cert.KernelIdeal.main_v55) = R (Proc.devRef .tc Cert.ReferenceIdeal.main_v61)) (h2 : K (Proc.devRef .tc Cert.KernelIdeal.main_v23) = R (Proc.devRef .tc Cert.ReferenceIdeal.main_v26)) (h3 : K (Proc.devRef .tc Cert.KernelIdeal.main_arg2) = R (Proc.devRef .tc Cert.ReferenceIdeal.main_arg2)) :
    after Cert.KernelIdeal.Reg.kP4 K (Proc.devRef .tc Cert.KernelIdeal.main_v83) = after Cert.ReferenceIdeal.Line.rP4 R (Proc.devRef .tc Cert.ReferenceIdeal.main_v89) := by
  stage_simp
  rw [h0, h1, h2, h3]
  all_goals rfl
theorem keepK_kP4_main_v23 (K : KVal) : after Cert.KernelIdeal.Reg.kP4 K (Proc.devRef .tc Cert.KernelIdeal.main_v23) = K (Proc.devRef .tc Cert.KernelIdeal.main_v23) :=
  after_of_forall_not_mem _ _ (by decide)
theorem keepR_rP4_main_v26 (R : RVal) : after Cert.ReferenceIdeal.Line.rP4 R (Proc.devRef .tc Cert.ReferenceIdeal.main_v26) = R (Proc.devRef .tc Cert.ReferenceIdeal.main_v26) :=
  after_of_forall_not_mem _ _ (by decide)
theorem piece_kC4_main_v84 (K : KVal) (R : RVal) (h0 : K (Proc.devRef .tc Cert.KernelIdeal.main_v55) = R (Proc.devRef .tc Cert.ReferenceIdeal.main_v61)) (h1 : K (Proc.devRef .tc Cert.KernelIdeal.main_v69) = R (Proc.devRef .tc Cert.ReferenceIdeal.main_v75)) (h2 : K (Proc.devRef .tc Cert.KernelIdeal.main_v83) = R (Proc.devRef .tc Cert.ReferenceIdeal.main_v89)) :
    after Cert.KernelIdeal.Reg.kC4 K (Proc.devRef .tc Cert.KernelIdeal.main_v84) = after Cert.ReferenceIdeal.Line.rC4 R (Proc.devRef .tc Cert.ReferenceIdeal.main_v90) := by
  stage_rw
  rw [h0, h1, h2]
  all_goals rfl
theorem keepK_kC4_main_v23 (K : KVal) : after Cert.KernelIdeal.Reg.kC4 K (Proc.devRef .tc Cert.KernelIdeal.main_v23) = K (Proc.devRef .tc Cert.KernelIdeal.main_v23) :=
  after_of_forall_not_mem _ _ (by decide)
theorem keepR_rC4_main_v26 (R : RVal) : after Cert.ReferenceIdeal.Line.rC4 R (Proc.devRef .tc Cert.ReferenceIdeal.main_v26) = R (Proc.devRef .tc Cert.ReferenceIdeal.main_v26) :=
  after_of_forall_not_mem _ _ (by decide)
theorem piece_kC4_main_v85 (K : KVal) (q : Fin 64) :
    after Cert.KernelIdeal.Reg.kC4 K (Proc.devRef .tc Cert.KernelIdeal.main_v85) (ix2 (0 : Fin 1) q) = K (Proc.devRef .tc Cert.KernelIdeal.main_arg9) (ix1 q) := by
  stage_rw
  exact shapeCast_apply _ Cert.KernelIdeal.Facts₀.shapeCasts_S64_S1x64 (ix2 (0 : Fin 1) q) (ix1 q)
    (by rw [Shape.rowMajor_val_one, Shape.rowMajor_val_two]; show q.val = 0 * _ + q.val; omega)
theorem keepK_kP4_main_arg9 (K : KVal) : after Cert.KernelIdeal.Reg.kP4 K (Proc.devRef .tc Cert.KernelIdeal.main_arg9) = K (Proc.devRef .tc Cert.KernelIdeal.main_arg9) :=
  after_of_forall_not_mem _ _ (by decide)
theorem keepK_kC3_main_arg9 (K : KVal) : after Cert.KernelIdeal.Reg.kC3 K (Proc.devRef .tc Cert.KernelIdeal.main_arg9) = K (Proc.devRef .tc Cert.KernelIdeal.main_arg9) :=
  after_of_forall_not_mem _ _ (by decide)
theorem keepK_kP3_main_arg9 (K : KVal) : after Cert.KernelIdeal.Reg.kP3 K (Proc.devRef .tc Cert.KernelIdeal.main_arg9) = K (Proc.devRef .tc Cert.KernelIdeal.main_arg9) :=
  after_of_forall_not_mem _ _ (by decide)
theorem keepK_kC2_main_arg9 (K : KVal) : after Cert.KernelIdeal.Reg.kC2 K (Proc.devRef .tc Cert.KernelIdeal.main_arg9) = K (Proc.devRef .tc Cert.KernelIdeal.main_arg9) :=
  after_of_forall_not_mem _ _ (by decide)
theorem keepK_kP2_main_arg9 (K : KVal) : after Cert.KernelIdeal.Reg.kP2 K (Proc.devRef .tc Cert.KernelIdeal.main_arg9) = K (Proc.devRef .tc Cert.KernelIdeal.main_arg9) :=
  after_of_forall_not_mem _ _ (by decide)
theorem keepK_kC1_main_arg9 (K : KVal) : after Cert.KernelIdeal.Reg.kC1 K (Proc.devRef .tc Cert.KernelIdeal.main_arg9) = K (Proc.devRef .tc Cert.KernelIdeal.main_arg9) :=
  after_of_forall_not_mem _ _ (by decide)
theorem keepK_kP1_main_arg9 (K : KVal) : after Cert.KernelIdeal.Reg.kP1 K (Proc.devRef .tc Cert.KernelIdeal.main_arg9) = K (Proc.devRef .tc Cert.KernelIdeal.main_arg9) :=
  after_of_forall_not_mem _ _ (by decide)
theorem keepR_rC4_main_arg8 (R : RVal) : after Cert.ReferenceIdeal.Line.rC4 R (Proc.devRef .tc Cert.ReferenceIdeal.main_arg8) = R (Proc.devRef .tc Cert.ReferenceIdeal.main_arg8) :=
  after_of_forall_not_mem _ _ (by decide)
theorem keepR_rP4_main_arg8 (R : RVal) : after Cert.ReferenceIdeal.Line.rP4 R (Proc.devRef .tc Cert.ReferenceIdeal.main_arg8) = R (Proc.devRef .tc Cert.ReferenceIdeal.main_arg8) :=
  after_of_forall_not_mem _ _ (by decide)
theorem keepR_sD1_main_arg8 (R : RVal) : after Cert.ReferenceIdeal.Line.sD1 R (Proc.devRef .tc Cert.ReferenceIdeal.main_arg8) = R (Proc.devRef .tc Cert.ReferenceIdeal.main_arg8) :=
  after_of_forall_not_mem _ _ (by decide)
theorem keepR_rC3_main_arg8 (R : RVal) : after Cert.ReferenceIdeal.Line.rC3 R (Proc.devRef .tc Cert.ReferenceIdeal.main_arg8) = R (Proc.devRef .tc Cert.ReferenceIdeal.main_arg8) :=
  after_of_forall_not_mem _ _ (by decide)
theorem keepR_rP3_main_arg8 (R : RVal) : after Cert.ReferenceIdeal.Line.rP3 R (Proc.devRef .tc Cert.ReferenceIdeal.main_arg8) = R (Proc.devRef .tc Cert.ReferenceIdeal.main_arg8) :=
  after_of_forall_not_mem _ _ (by decide)
theorem keepR_rC2_main_arg8 (R : RVal) : after Cert.ReferenceIdeal.Line.rC2 R (Proc.devRef .tc Cert.ReferenceIdeal.main_arg8) = R (Proc.devRef .tc Cert.ReferenceIdeal.main_arg8) :=
  after_of_forall_not_mem _ _ (by decide)
theorem keepR_rP2_main_arg8 (R : RVal) : after Cert.ReferenceIdeal.Line.rP2 R (Proc.devRef .tc Cert.ReferenceIdeal.main_arg8) = R (Proc.devRef .tc Cert.ReferenceIdeal.main_arg8) :=
  after_of_forall_not_mem _ _ (by decide)
theorem keepR_sD0_main_arg8 (R : RVal) : after Cert.ReferenceIdeal.Line.sD0 R (Proc.devRef .tc Cert.ReferenceIdeal.main_arg8) = R (Proc.devRef .tc Cert.ReferenceIdeal.main_arg8) :=
  after_of_forall_not_mem _ _ (by decide)
theorem keepR_rC1_main_arg8 (R : RVal) : after Cert.ReferenceIdeal.Line.rC1 R (Proc.devRef .tc Cert.ReferenceIdeal.main_arg8) = R (Proc.devRef .tc Cert.ReferenceIdeal.main_arg8) :=
  after_of_forall_not_mem _ _ (by decide)
theorem keepR_rP1_main_arg8 (R : RVal) : after Cert.ReferenceIdeal.Line.rP1 R (Proc.devRef .tc Cert.ReferenceIdeal.main_arg8) = R (Proc.devRef .tc Cert.ReferenceIdeal.main_arg8) :=
  after_of_forall_not_mem _ _ (by decide)
theorem keepR_rC4_main_arg9 (R : RVal) : after Cert.ReferenceIdeal.Line.rC4 R (Proc.devRef .tc Cert.ReferenceIdeal.main_arg9) = R (Proc.devRef .tc Cert.ReferenceIdeal.main_arg9) :=
  after_of_forall_not_mem _ _ (by decide)
theorem keepR_rP4_main_arg9 (R : RVal) : after Cert.ReferenceIdeal.Line.rP4 R (Proc.devRef .tc Cert.ReferenceIdeal.main_arg9) = R (Proc.devRef .tc Cert.ReferenceIdeal.main_arg9) :=
  after_of_forall_not_mem _ _ (by decide)
theorem keepR_sD1_main_arg9 (R : RVal) : after Cert.ReferenceIdeal.Line.sD1 R (Proc.devRef .tc Cert.ReferenceIdeal.main_arg9) = R (Proc.devRef .tc Cert.ReferenceIdeal.main_arg9) :=
  after_of_forall_not_mem _ _ (by decide)
theorem keepR_rC3_main_arg9 (R : RVal) : after Cert.ReferenceIdeal.Line.rC3 R (Proc.devRef .tc Cert.ReferenceIdeal.main_arg9) = R (Proc.devRef .tc Cert.ReferenceIdeal.main_arg9) :=
  after_of_forall_not_mem _ _ (by decide)
theorem keepR_rP3_main_arg9 (R : RVal) : after Cert.ReferenceIdeal.Line.rP3 R (Proc.devRef .tc Cert.ReferenceIdeal.main_arg9) = R (Proc.devRef .tc Cert.ReferenceIdeal.main_arg9) :=
  after_of_forall_not_mem _ _ (by decide)
theorem keepR_rC2_main_arg9 (R : RVal) : after Cert.ReferenceIdeal.Line.rC2 R (Proc.devRef .tc Cert.ReferenceIdeal.main_arg9) = R (Proc.devRef .tc Cert.ReferenceIdeal.main_arg9) :=
  after_of_forall_not_mem _ _ (by decide)
theorem keepR_rP2_main_arg9 (R : RVal) : after Cert.ReferenceIdeal.Line.rP2 R (Proc.devRef .tc Cert.ReferenceIdeal.main_arg9) = R (Proc.devRef .tc Cert.ReferenceIdeal.main_arg9) :=
  after_of_forall_not_mem _ _ (by decide)
theorem keepR_sD0_main_arg9 (R : RVal) : after Cert.ReferenceIdeal.Line.sD0 R (Proc.devRef .tc Cert.ReferenceIdeal.main_arg9) = R (Proc.devRef .tc Cert.ReferenceIdeal.main_arg9) :=
  after_of_forall_not_mem _ _ (by decide)
theorem keepR_rC1_main_arg9 (R : RVal) : after Cert.ReferenceIdeal.Line.rC1 R (Proc.devRef .tc Cert.ReferenceIdeal.main_arg9) = R (Proc.devRef .tc Cert.ReferenceIdeal.main_arg9) :=
  after_of_forall_not_mem _ _ (by decide)
theorem keepR_rP1_main_arg9 (R : RVal) : after Cert.ReferenceIdeal.Line.rP1 R (Proc.devRef .tc Cert.ReferenceIdeal.main_arg9) = R (Proc.devRef .tc Cert.ReferenceIdeal.main_arg9) :=
  after_of_forall_not_mem _ _ (by decide)
theorem keepK_kC4_main_arg8 (K : KVal) : after Cert.KernelIdeal.Reg.kC4 K (Proc.devRef .tc Cert.KernelIdeal.main_arg8) = K (Proc.devRef .tc Cert.KernelIdeal.main_arg8) :=
  after_of_forall_not_mem _ _ (by decide)
theorem keepK_kP4_main_arg8 (K : KVal) : after Cert.KernelIdeal.Reg.kP4 K (Proc.devRef .tc Cert.KernelIdeal.main_arg8) = K (Proc.devRef .tc Cert.KernelIdeal.main_arg8) :=
  after_of_forall_not_mem _ _ (by decide)
theorem keepK_kC3_main_arg8 (K : KVal) : after Cert.KernelIdeal.Reg.kC3 K (Proc.devRef .tc Cert.KernelIdeal.main_arg8) = K (Proc.devRef .tc Cert.KernelIdeal.main_arg8) :=
  after_of_forall_not_mem _ _ (by decide)
theorem keepK_kP3_main_arg8 (K : KVal) : after Cert.KernelIdeal.Reg.kP3 K (Proc.devRef .tc Cert.KernelIdeal.main_arg8) = K (Proc.devRef .tc Cert.KernelIdeal.main_arg8) :=
  after_of_forall_not_mem _ _ (by decide)
theorem keepK_kC2_main_arg8 (K : KVal) : after Cert.KernelIdeal.Reg.kC2 K (Proc.devRef .tc Cert.KernelIdeal.main_arg8) = K (Proc.devRef .tc Cert.KernelIdeal.main_arg8) :=
  after_of_forall_not_mem _ _ (by decide)
theorem keepK_kP2_main_arg8 (K : KVal) : after Cert.KernelIdeal.Reg.kP2 K (Proc.devRef .tc Cert.KernelIdeal.main_arg8) = K (Proc.devRef .tc Cert.KernelIdeal.main_arg8) :=
  after_of_forall_not_mem _ _ (by decide)
theorem keepK_kC1_main_arg8 (K : KVal) : after Cert.KernelIdeal.Reg.kC1 K (Proc.devRef .tc Cert.KernelIdeal.main_arg8) = K (Proc.devRef .tc Cert.KernelIdeal.main_arg8) :=
  after_of_forall_not_mem _ _ (by decide)
theorem keepK_kP1_main_arg8 (K : KVal) : after Cert.KernelIdeal.Reg.kP1 K (Proc.devRef .tc Cert.KernelIdeal.main_arg8) = K (Proc.devRef .tc Cert.KernelIdeal.main_arg8) :=
  after_of_forall_not_mem _ _ (by decide)
theorem keepR_sD2_main_v26 (R : RVal) : after Cert.ReferenceIdeal.Line.sD2 R (Proc.devRef .tc Cert.ReferenceIdeal.main_v26) = R (Proc.devRef .tc Cert.ReferenceIdeal.main_v26) :=
  after_of_forall_not_mem _ _ (by decide)
theorem keepK_kP5_main_v86 (K : KVal) : after Cert.KernelIdeal.Reg.kP5 K (Proc.devRef .tc Cert.KernelIdeal.main_v86) = K (Proc.devRef .tc Cert.KernelIdeal.main_v86) :=
  after_of_forall_not_mem _ _ (by decide)
theorem keepR_rP5_main_v95 (R : RVal) : after Cert.ReferenceIdeal.Line.rP5 R (Proc.devRef .tc Cert.ReferenceIdeal.main_v95) = R (Proc.devRef .tc Cert.ReferenceIdeal.main_v95) :=
  after_of_forall_not_mem _ _ (by decide)
theorem piece_kP5_main_v100 (K : KVal) (R : RVal) (h0 : K (Proc.devRef .tc Cert.KernelIdeal.main_arg3) = R (Proc.devRef .tc Cert.ReferenceIdeal.main_arg3)) (h1 : K (Proc.devRef .tc Cert.KernelIdeal.main_v86) = R (Proc.devRef .tc Cert.ReferenceIdeal.main_v95)) (h2 : K (Proc.devRef .tc Cert.KernelIdeal.main_v23) = R (Proc.devRef .tc Cert.ReferenceIdeal.main_v26)) (h3 : K (Proc.devRef .tc Cert.KernelIdeal.main_arg2) = R (Proc.devRef .tc Cert.ReferenceIdeal.main_arg2)) :
    after Cert.KernelIdeal.Reg.kP5 K (Proc.devRef .tc Cert.KernelIdeal.main_v100) = after Cert.ReferenceIdeal.Line.rP5 R (Proc.devRef .tc Cert.ReferenceIdeal.main_v109) := by
  stage_simp
  rw [h0, h1, h2, h3]
  all_goals rfl
theorem keepK_kC4_main_arg3 (K : KVal) : after Cert.KernelIdeal.Reg.kC4 K (Proc.devRef .tc Cert.KernelIdeal.main_arg3) = K (Proc.devRef .tc Cert.KernelIdeal.main_arg3) :=
  after_of_forall_not_mem _ _ (by decide)
theorem keepK_kP4_main_arg3 (K : KVal) : after Cert.KernelIdeal.Reg.kP4 K (Proc.devRef .tc Cert.KernelIdeal.main_arg3) = K (Proc.devRef .tc Cert.KernelIdeal.main_arg3) :=
  after_of_forall_not_mem _ _ (by decide)
theorem keepR_sD2_main_arg3 (R : RVal) : after Cert.ReferenceIdeal.Line.sD2 R (Proc.devRef .tc Cert.ReferenceIdeal.main_arg3) = R (Proc.devRef .tc Cert.ReferenceIdeal.main_arg3) :=
  after_of_forall_not_mem _ _ (by decide)
theorem keepR_rC4_main_arg3 (R : RVal) : after Cert.ReferenceIdeal.Line.rC4 R (Proc.devRef .tc Cert.ReferenceIdeal.main_arg3) = R (Proc.devRef .tc Cert.ReferenceIdeal.main_arg3) :=
  after_of_forall_not_mem _ _ (by decide)
theorem keepR_rP4_main_arg3 (R : RVal) : after Cert.ReferenceIdeal.Line.rP4 R (Proc.devRef .tc Cert.ReferenceIdeal.main_arg3) = R (Proc.devRef .tc Cert.ReferenceIdeal.main_arg3) :=
  after_of_forall_not_mem _ _ (by decide)
theorem keepK_kC4_main_arg2 (K : KVal) : after Cert.KernelIdeal.Reg.kC4 K (Proc.devRef .tc Cert.KernelIdeal.main_arg2) = K (Proc.devRef .tc Cert.KernelIdeal.main_arg2) :=
  after_of_forall_not_mem _ _ (by decide)
theorem keepK_kP4_main_arg2 (K : KVal) : after Cert.KernelIdeal.Reg.kP4 K (Proc.devRef .tc Cert.KernelIdeal.main_arg2) = K (Proc.devRef .tc Cert.KernelIdeal.main_arg2) :=
  after_of_forall_not_mem _ _ (by decide)
theorem keepR_sD2_main_arg2 (R : RVal) : after Cert.ReferenceIdeal.Line.sD2 R (Proc.devRef .tc Cert.ReferenceIdeal.main_arg2) = R (Proc.devRef .tc Cert.ReferenceIdeal.main_arg2) :=
  after_of_forall_not_mem _ _ (by decide)
theorem keepR_rC4_main_arg2 (R : RVal) : after Cert.ReferenceIdeal.Line.rC4 R (Proc.devRef .tc Cert.ReferenceIdeal.main_arg2) = R (Proc.devRef .tc Cert.ReferenceIdeal.main_arg2) :=
  after_of_forall_not_mem _ _ (by decide)
theorem keepR_rP4_main_arg2 (R : RVal) : after Cert.ReferenceIdeal.Line.rP4 R (Proc.devRef .tc Cert.ReferenceIdeal.main_arg2) = R (Proc.devRef .tc Cert.ReferenceIdeal.main_arg2) :=
  after_of_forall_not_mem _ _ (by decide)
theorem piece_kP5_main_v114 (K : KVal) (R : RVal) (h0 : K (Proc.devRef .tc Cert.KernelIdeal.main_arg3) = R (Proc.devRef .tc Cert.ReferenceIdeal.main_arg3)) (h1 : K (Proc.devRef .tc Cert.KernelIdeal.main_v86) = R (Proc.devRef .tc Cert.ReferenceIdeal.main_v95)) (h2 : K (Proc.devRef .tc Cert.KernelIdeal.main_v23) = R (Proc.devRef .tc Cert.ReferenceIdeal.main_v26)) (h3 : K (Proc.devRef .tc Cert.KernelIdeal.main_arg2) = R (Proc.devRef .tc Cert.ReferenceIdeal.main_arg2)) :
    after Cert.KernelIdeal.Reg.kP5 K (Proc.devRef .tc Cert.KernelIdeal.main_v114) = after Cert.ReferenceIdeal.Line.rP5 R (Proc.devRef .tc Cert.ReferenceIdeal.main_v123) := by
  stage_simp
  rw [h0, h1, h2, h3]
  all_goals rfl
theorem piece_kC5_main_v115 (K : KVal) (R : RVal) (h0 : K (Proc.devRef .tc Cert.KernelIdeal.main_v86) = R (Proc.devRef .tc Cert.ReferenceIdeal.main_v95)) (h1 : K (Proc.devRef .tc Cert.KernelIdeal.main_v100) = R (Proc.devRef .tc Cert.ReferenceIdeal.main_v109)) (h2 : K (Proc.devRef .tc Cert.KernelIdeal.main_v114) = R (Proc.devRef .tc Cert.ReferenceIdeal.main_v123)) :
    after Cert.KernelIdeal.Reg.kC5 K (Proc.devRef .tc Cert.KernelIdeal.main_v115) = after Cert.ReferenceIdeal.Line.rC5 R (Proc.devRef .tc Cert.ReferenceIdeal.main_v124) := by
  stage_rw
  rw [h0, h1, h2]
  all_goals rfl
theorem piece_kC5_main_v116 (K : KVal) (q : Fin 64) :
    after Cert.KernelIdeal.Reg.kC5 K (Proc.devRef .tc Cert.KernelIdeal.main_v116) (ix2 (0 : Fin 1) q) = K (Proc.devRef .tc Cert.KernelIdeal.main_arg11) (ix1 q) := by
  stage_rw
  exact shapeCast_apply _ Cert.KernelIdeal.Facts₀.shapeCasts_S64_S1x64 (ix2 (0 : Fin 1) q) (ix1 q)
    (by rw [Shape.rowMajor_val_one, Shape.rowMajor_val_two]; show q.val = 0 * _ + q.val; omega)
theorem keepK_kP5_main_arg11 (K : KVal) : after Cert.KernelIdeal.Reg.kP5 K (Proc.devRef .tc Cert.KernelIdeal.main_arg11) = K (Proc.devRef .tc Cert.KernelIdeal.main_arg11) :=
  after_of_forall_not_mem _ _ (by decide)
theorem keepK_kC4_main_arg11 (K : KVal) : after Cert.KernelIdeal.Reg.kC4 K (Proc.devRef .tc Cert.KernelIdeal.main_arg11) = K (Proc.devRef .tc Cert.KernelIdeal.main_arg11) :=
  after_of_forall_not_mem _ _ (by decide)
theorem keepK_kP4_main_arg11 (K : KVal) : after Cert.KernelIdeal.Reg.kP4 K (Proc.devRef .tc Cert.KernelIdeal.main_arg11) = K (Proc.devRef .tc Cert.KernelIdeal.main_arg11) :=
  after_of_forall_not_mem _ _ (by decide)
theorem keepK_kC3_main_arg11 (K : KVal) : after Cert.KernelIdeal.Reg.kC3 K (Proc.devRef .tc Cert.KernelIdeal.main_arg11) = K (Proc.devRef .tc Cert.KernelIdeal.main_arg11) :=
  after_of_forall_not_mem _ _ (by decide)
theorem keepK_kP3_main_arg11 (K : KVal) : after Cert.KernelIdeal.Reg.kP3 K (Proc.devRef .tc Cert.KernelIdeal.main_arg11) = K (Proc.devRef .tc Cert.KernelIdeal.main_arg11) :=
  after_of_forall_not_mem _ _ (by decide)
theorem keepK_kC2_main_arg11 (K : KVal) : after Cert.KernelIdeal.Reg.kC2 K (Proc.devRef .tc Cert.KernelIdeal.main_arg11) = K (Proc.devRef .tc Cert.KernelIdeal.main_arg11) :=
  after_of_forall_not_mem _ _ (by decide)
theorem keepK_kP2_main_arg11 (K : KVal) : after Cert.KernelIdeal.Reg.kP2 K (Proc.devRef .tc Cert.KernelIdeal.main_arg11) = K (Proc.devRef .tc Cert.KernelIdeal.main_arg11) :=
  after_of_forall_not_mem _ _ (by decide)
theorem keepK_kC1_main_arg11 (K : KVal) : after Cert.KernelIdeal.Reg.kC1 K (Proc.devRef .tc Cert.KernelIdeal.main_arg11) = K (Proc.devRef .tc Cert.KernelIdeal.main_arg11) :=
  after_of_forall_not_mem _ _ (by decide)
theorem keepK_kP1_main_arg11 (K : KVal) : after Cert.KernelIdeal.Reg.kP1 K (Proc.devRef .tc Cert.KernelIdeal.main_arg11) = K (Proc.devRef .tc Cert.KernelIdeal.main_arg11) :=
  after_of_forall_not_mem _ _ (by decide)
theorem keepR_rC5_main_arg10 (R : RVal) : after Cert.ReferenceIdeal.Line.rC5 R (Proc.devRef .tc Cert.ReferenceIdeal.main_arg10) = R (Proc.devRef .tc Cert.ReferenceIdeal.main_arg10) :=
  after_of_forall_not_mem _ _ (by decide)
theorem keepR_rP5_main_arg10 (R : RVal) : after Cert.ReferenceIdeal.Line.rP5 R (Proc.devRef .tc Cert.ReferenceIdeal.main_arg10) = R (Proc.devRef .tc Cert.ReferenceIdeal.main_arg10) :=
  after_of_forall_not_mem _ _ (by decide)
theorem keepR_sD2_main_arg10 (R : RVal) : after Cert.ReferenceIdeal.Line.sD2 R (Proc.devRef .tc Cert.ReferenceIdeal.main_arg10) = R (Proc.devRef .tc Cert.ReferenceIdeal.main_arg10) :=
  after_of_forall_not_mem _ _ (by decide)
theorem keepR_rC4_main_arg10 (R : RVal) : after Cert.ReferenceIdeal.Line.rC4 R (Proc.devRef .tc Cert.ReferenceIdeal.main_arg10) = R (Proc.devRef .tc Cert.ReferenceIdeal.main_arg10) :=
  after_of_forall_not_mem _ _ (by decide)
theorem keepR_rP4_main_arg10 (R : RVal) : after Cert.ReferenceIdeal.Line.rP4 R (Proc.devRef .tc Cert.ReferenceIdeal.main_arg10) = R (Proc.devRef .tc Cert.ReferenceIdeal.main_arg10) :=
  after_of_forall_not_mem _ _ (by decide)
theorem keepR_sD1_main_arg10 (R : RVal) : after Cert.ReferenceIdeal.Line.sD1 R (Proc.devRef .tc Cert.ReferenceIdeal.main_arg10) = R (Proc.devRef .tc Cert.ReferenceIdeal.main_arg10) :=
  after_of_forall_not_mem _ _ (by decide)
theorem keepR_rC3_main_arg10 (R : RVal) : after Cert.ReferenceIdeal.Line.rC3 R (Proc.devRef .tc Cert.ReferenceIdeal.main_arg10) = R (Proc.devRef .tc Cert.ReferenceIdeal.main_arg10) :=
  after_of_forall_not_mem _ _ (by decide)
theorem keepR_rP3_main_arg10 (R : RVal) : after Cert.ReferenceIdeal.Line.rP3 R (Proc.devRef .tc Cert.ReferenceIdeal.main_arg10) = R (Proc.devRef .tc Cert.ReferenceIdeal.main_arg10) :=
  after_of_forall_not_mem _ _ (by decide)
theorem keepR_rC2_main_arg10 (R : RVal) : after Cert.ReferenceIdeal.Line.rC2 R (Proc.devRef .tc Cert.ReferenceIdeal.main_arg10) = R (Proc.devRef .tc Cert.ReferenceIdeal.main_arg10) :=
  after_of_forall_not_mem _ _ (by decide)
theorem keepR_rP2_main_arg10 (R : RVal) : after Cert.ReferenceIdeal.Line.rP2 R (Proc.devRef .tc Cert.ReferenceIdeal.main_arg10) = R (Proc.devRef .tc Cert.ReferenceIdeal.main_arg10) :=
  after_of_forall_not_mem _ _ (by decide)
theorem keepR_sD0_main_arg10 (R : RVal) : after Cert.ReferenceIdeal.Line.sD0 R (Proc.devRef .tc Cert.ReferenceIdeal.main_arg10) = R (Proc.devRef .tc Cert.ReferenceIdeal.main_arg10) :=
  after_of_forall_not_mem _ _ (by decide)
theorem keepR_rC1_main_arg10 (R : RVal) : after Cert.ReferenceIdeal.Line.rC1 R (Proc.devRef .tc Cert.ReferenceIdeal.main_arg10) = R (Proc.devRef .tc Cert.ReferenceIdeal.main_arg10) :=
  after_of_forall_not_mem _ _ (by decide)
theorem keepR_rP1_main_arg10 (R : RVal) : after Cert.ReferenceIdeal.Line.rP1 R (Proc.devRef .tc Cert.ReferenceIdeal.main_arg10) = R (Proc.devRef .tc Cert.ReferenceIdeal.main_arg10) :=
  after_of_forall_not_mem _ _ (by decide)
theorem keepR_rC5_main_arg11 (R : RVal) : after Cert.ReferenceIdeal.Line.rC5 R (Proc.devRef .tc Cert.ReferenceIdeal.main_arg11) = R (Proc.devRef .tc Cert.ReferenceIdeal.main_arg11) :=
  after_of_forall_not_mem _ _ (by decide)
theorem keepR_rP5_main_arg11 (R : RVal) : after Cert.ReferenceIdeal.Line.rP5 R (Proc.devRef .tc Cert.ReferenceIdeal.main_arg11) = R (Proc.devRef .tc Cert.ReferenceIdeal.main_arg11) :=
  after_of_forall_not_mem _ _ (by decide)
theorem keepR_sD2_main_arg11 (R : RVal) : after Cert.ReferenceIdeal.Line.sD2 R (Proc.devRef .tc Cert.ReferenceIdeal.main_arg11) = R (Proc.devRef .tc Cert.ReferenceIdeal.main_arg11) :=
  after_of_forall_not_mem _ _ (by decide)
theorem keepR_rC4_main_arg11 (R : RVal) : after Cert.ReferenceIdeal.Line.rC4 R (Proc.devRef .tc Cert.ReferenceIdeal.main_arg11) = R (Proc.devRef .tc Cert.ReferenceIdeal.main_arg11) :=
  after_of_forall_not_mem _ _ (by decide)
theorem keepR_rP4_main_arg11 (R : RVal) : after Cert.ReferenceIdeal.Line.rP4 R (Proc.devRef .tc Cert.ReferenceIdeal.main_arg11) = R (Proc.devRef .tc Cert.ReferenceIdeal.main_arg11) :=
  after_of_forall_not_mem _ _ (by decide)
theorem keepR_sD1_main_arg11 (R : RVal) : after Cert.ReferenceIdeal.Line.sD1 R (Proc.devRef .tc Cert.ReferenceIdeal.main_arg11) = R (Proc.devRef .tc Cert.ReferenceIdeal.main_arg11) :=
  after_of_forall_not_mem _ _ (by decide)
theorem keepR_rC3_main_arg11 (R : RVal) : after Cert.ReferenceIdeal.Line.rC3 R (Proc.devRef .tc Cert.ReferenceIdeal.main_arg11) = R (Proc.devRef .tc Cert.ReferenceIdeal.main_arg11) :=
  after_of_forall_not_mem _ _ (by decide)
theorem keepR_rP3_main_arg11 (R : RVal) : after Cert.ReferenceIdeal.Line.rP3 R (Proc.devRef .tc Cert.ReferenceIdeal.main_arg11) = R (Proc.devRef .tc Cert.ReferenceIdeal.main_arg11) :=
  after_of_forall_not_mem _ _ (by decide)
theorem keepR_rC2_main_arg11 (R : RVal) : after Cert.ReferenceIdeal.Line.rC2 R (Proc.devRef .tc Cert.ReferenceIdeal.main_arg11) = R (Proc.devRef .tc Cert.ReferenceIdeal.main_arg11) :=
  after_of_forall_not_mem _ _ (by decide)
theorem keepR_rP2_main_arg11 (R : RVal) : after Cert.ReferenceIdeal.Line.rP2 R (Proc.devRef .tc Cert.ReferenceIdeal.main_arg11) = R (Proc.devRef .tc Cert.ReferenceIdeal.main_arg11) :=
  after_of_forall_not_mem _ _ (by decide)
theorem keepR_sD0_main_arg11 (R : RVal) : after Cert.ReferenceIdeal.Line.sD0 R (Proc.devRef .tc Cert.ReferenceIdeal.main_arg11) = R (Proc.devRef .tc Cert.ReferenceIdeal.main_arg11) :=
  after_of_forall_not_mem _ _ (by decide)
theorem keepR_rC1_main_arg11 (R : RVal) : after Cert.ReferenceIdeal.Line.rC1 R (Proc.devRef .tc Cert.ReferenceIdeal.main_arg11) = R (Proc.devRef .tc Cert.ReferenceIdeal.main_arg11) :=
  after_of_forall_not_mem _ _ (by decide)
theorem keepR_rP1_main_arg11 (R : RVal) : after Cert.ReferenceIdeal.Line.rP1 R (Proc.devRef .tc Cert.ReferenceIdeal.main_arg11) = R (Proc.devRef .tc Cert.ReferenceIdeal.main_arg11) :=
  after_of_forall_not_mem _ _ (by decide)
theorem keepK_kC5_main_arg10 (K : KVal) : after Cert.KernelIdeal.Reg.kC5 K (Proc.devRef .tc Cert.KernelIdeal.main_arg10) = K (Proc.devRef .tc Cert.KernelIdeal.main_arg10) :=
  after_of_forall_not_mem _ _ (by decide)
theorem keepK_kP5_main_arg10 (K : KVal) : after Cert.KernelIdeal.Reg.kP5 K (Proc.devRef .tc Cert.KernelIdeal.main_arg10) = K (Proc.devRef .tc Cert.KernelIdeal.main_arg10) :=
  after_of_forall_not_mem _ _ (by decide)
theorem keepK_kC4_main_arg10 (K : KVal) : after Cert.KernelIdeal.Reg.kC4 K (Proc.devRef .tc Cert.KernelIdeal.main_arg10) = K (Proc.devRef .tc Cert.KernelIdeal.main_arg10) :=
  after_of_forall_not_mem _ _ (by decide)
theorem keepK_kP4_main_arg10 (K : KVal) : after Cert.KernelIdeal.Reg.kP4 K (Proc.devRef .tc Cert.KernelIdeal.main_arg10) = K (Proc.devRef .tc Cert.KernelIdeal.main_arg10) :=
  after_of_forall_not_mem _ _ (by decide)
theorem keepK_kC3_main_arg10 (K : KVal) : after Cert.KernelIdeal.Reg.kC3 K (Proc.devRef .tc Cert.KernelIdeal.main_arg10) = K (Proc.devRef .tc Cert.KernelIdeal.main_arg10) :=
  after_of_forall_not_mem _ _ (by decide)
theorem keepK_kP3_main_arg10 (K : KVal) : after Cert.KernelIdeal.Reg.kP3 K (Proc.devRef .tc Cert.KernelIdeal.main_arg10) = K (Proc.devRef .tc Cert.KernelIdeal.main_arg10) :=
  after_of_forall_not_mem _ _ (by decide)
theorem keepK_kC2_main_arg10 (K : KVal) : after Cert.KernelIdeal.Reg.kC2 K (Proc.devRef .tc Cert.KernelIdeal.main_arg10) = K (Proc.devRef .tc Cert.KernelIdeal.main_arg10) :=
  after_of_forall_not_mem _ _ (by decide)
theorem keepK_kP2_main_arg10 (K : KVal) : after Cert.KernelIdeal.Reg.kP2 K (Proc.devRef .tc Cert.KernelIdeal.main_arg10) = K (Proc.devRef .tc Cert.KernelIdeal.main_arg10) :=
  after_of_forall_not_mem _ _ (by decide)
theorem keepK_kC1_main_arg10 (K : KVal) : after Cert.KernelIdeal.Reg.kC1 K (Proc.devRef .tc Cert.KernelIdeal.main_arg10) = K (Proc.devRef .tc Cert.KernelIdeal.main_arg10) :=
  after_of_forall_not_mem _ _ (by decide)
theorem keepK_kP1_main_arg10 (K : KVal) : after Cert.KernelIdeal.Reg.kP1 K (Proc.devRef .tc Cert.KernelIdeal.main_arg10) = K (Proc.devRef .tc Cert.KernelIdeal.main_arg10) :=
  after_of_forall_not_mem _ _ (by decide)
theorem piece_kP6_main_v123 (K : KVal) (R : RVal) (h0 : K (Proc.devRef .tc Cert.KernelIdeal.main_v118) = R (Proc.devRef .tc Cert.ReferenceIdeal.main_v131)) (h1 : K (Proc.devRef .tc Cert.KernelIdeal.main_arg12) = R (Proc.devRef .tc Cert.ReferenceIdeal.main_arg12)) (h2 : K (Proc.devRef .tc Cert.KernelIdeal.main_arg13) = R (Proc.devRef .tc Cert.ReferenceIdeal.main_arg13)) :
    after Cert.KernelIdeal.Gen.hostOps5 K (Proc.devRef .tc Cert.KernelIdeal.main_v123) = after Cert.ReferenceIdeal.Line.sF R (Proc.devRef .tc Cert.ReferenceIdeal.main_v136) := by
  stage_simp
  rw [h0, h1, h2]
  all_goals rfl
theorem keepK_kC5_main_arg12 (K : KVal) : after Cert.KernelIdeal.Reg.kC5 K (Proc.devRef .tc Cert.KernelIdeal.main_arg12) = K (Proc.devRef .tc Cert.KernelIdeal.main_arg12) :=
  after_of_forall_not_mem _ _ (by decide)
theorem keepK_kP5_main_arg12 (K : KVal) : after Cert.KernelIdeal.Reg.kP5 K (Proc.devRef .tc Cert.KernelIdeal.main_arg12) = K (Proc.devRef .tc Cert.KernelIdeal.main_arg12) :=
  after_of_forall_not_mem _ _ (by decide)
theorem keepK_kC4_main_arg12 (K : KVal) : after Cert.KernelIdeal.Reg.kC4 K (Proc.devRef .tc Cert.KernelIdeal.main_arg12) = K (Proc.devRef .tc Cert.KernelIdeal.main_arg12) :=
  after_of_forall_not_mem _ _ (by decide)
theorem keepK_kP4_main_arg12 (K : KVal) : after Cert.KernelIdeal.Reg.kP4 K (Proc.devRef .tc Cert.KernelIdeal.main_arg12) = K (Proc.devRef .tc Cert.KernelIdeal.main_arg12) :=
  after_of_forall_not_mem _ _ (by decide)
theorem keepK_kC3_main_arg12 (K : KVal) : after Cert.KernelIdeal.Reg.kC3 K (Proc.devRef .tc Cert.KernelIdeal.main_arg12) = K (Proc.devRef .tc Cert.KernelIdeal.main_arg12) :=
  after_of_forall_not_mem _ _ (by decide)
theorem keepK_kP3_main_arg12 (K : KVal) : after Cert.KernelIdeal.Reg.kP3 K (Proc.devRef .tc Cert.KernelIdeal.main_arg12) = K (Proc.devRef .tc Cert.KernelIdeal.main_arg12) :=
  after_of_forall_not_mem _ _ (by decide)
theorem keepK_kC2_main_arg12 (K : KVal) : after Cert.KernelIdeal.Reg.kC2 K (Proc.devRef .tc Cert.KernelIdeal.main_arg12) = K (Proc.devRef .tc Cert.KernelIdeal.main_arg12) :=
  after_of_forall_not_mem _ _ (by decide)
theorem keepK_kP2_main_arg12 (K : KVal) : after Cert.KernelIdeal.Reg.kP2 K (Proc.devRef .tc Cert.KernelIdeal.main_arg12) = K (Proc.devRef .tc Cert.KernelIdeal.main_arg12) :=
  after_of_forall_not_mem _ _ (by decide)
theorem keepK_kC1_main_arg12 (K : KVal) : after Cert.KernelIdeal.Reg.kC1 K (Proc.devRef .tc Cert.KernelIdeal.main_arg12) = K (Proc.devRef .tc Cert.KernelIdeal.main_arg12) :=
  after_of_forall_not_mem _ _ (by decide)
theorem keepK_kP1_main_arg12 (K : KVal) : after Cert.KernelIdeal.Reg.kP1 K (Proc.devRef .tc Cert.KernelIdeal.main_arg12) = K (Proc.devRef .tc Cert.KernelIdeal.main_arg12) :=
  after_of_forall_not_mem _ _ (by decide)
theorem keepR_sS_main_arg12 (R : RVal) : after Cert.ReferenceIdeal.Line.sS R (Proc.devRef .tc Cert.ReferenceIdeal.main_arg12) = R (Proc.devRef .tc Cert.ReferenceIdeal.main_arg12) :=
  after_of_forall_not_mem _ _ (by decide)
theorem keepR_sD3_main_arg12 (R : RVal) : after Cert.ReferenceIdeal.Line.sD3 R (Proc.devRef .tc Cert.ReferenceIdeal.main_arg12) = R (Proc.devRef .tc Cert.ReferenceIdeal.main_arg12) :=
  after_of_forall_not_mem _ _ (by decide)
theorem keepR_rC5_main_arg12 (R : RVal) : after Cert.ReferenceIdeal.Line.rC5 R (Proc.devRef .tc Cert.ReferenceIdeal.main_arg12) = R (Proc.devRef .tc Cert.ReferenceIdeal.main_arg12) :=
  after_of_forall_not_mem _ _ (by decide)
theorem keepR_rP5_main_arg12 (R : RVal) : after Cert.ReferenceIdeal.Line.rP5 R (Proc.devRef .tc Cert.ReferenceIdeal.main_arg12) = R (Proc.devRef .tc Cert.ReferenceIdeal.main_arg12) :=
  after_of_forall_not_mem _ _ (by decide)
theorem keepR_sD2_main_arg12 (R : RVal) : after Cert.ReferenceIdeal.Line.sD2 R (Proc.devRef .tc Cert.ReferenceIdeal.main_arg12) = R (Proc.devRef .tc Cert.ReferenceIdeal.main_arg12) :=
  after_of_forall_not_mem _ _ (by decide)
theorem keepR_rC4_main_arg12 (R : RVal) : after Cert.ReferenceIdeal.Line.rC4 R (Proc.devRef .tc Cert.ReferenceIdeal.main_arg12) = R (Proc.devRef .tc Cert.ReferenceIdeal.main_arg12) :=
  after_of_forall_not_mem _ _ (by decide)
theorem keepR_rP4_main_arg12 (R : RVal) : after Cert.ReferenceIdeal.Line.rP4 R (Proc.devRef .tc Cert.ReferenceIdeal.main_arg12) = R (Proc.devRef .tc Cert.ReferenceIdeal.main_arg12) :=
  after_of_forall_not_mem _ _ (by decide)
theorem keepR_sD1_main_arg12 (R : RVal) : after Cert.ReferenceIdeal.Line.sD1 R (Proc.devRef .tc Cert.ReferenceIdeal.main_arg12) = R (Proc.devRef .tc Cert.ReferenceIdeal.main_arg12) :=
  after_of_forall_not_mem _ _ (by decide)
theorem keepR_rC3_main_arg12 (R : RVal) : after Cert.ReferenceIdeal.Line.rC3 R (Proc.devRef .tc Cert.ReferenceIdeal.main_arg12) = R (Proc.devRef .tc Cert.ReferenceIdeal.main_arg12) :=
  after_of_forall_not_mem _ _ (by decide)
theorem keepR_rP3_main_arg12 (R : RVal) : after Cert.ReferenceIdeal.Line.rP3 R (Proc.devRef .tc Cert.ReferenceIdeal.main_arg12) = R (Proc.devRef .tc Cert.ReferenceIdeal.main_arg12) :=
  after_of_forall_not_mem _ _ (by decide)
theorem keepR_rC2_main_arg12 (R : RVal) : after Cert.ReferenceIdeal.Line.rC2 R (Proc.devRef .tc Cert.ReferenceIdeal.main_arg12) = R (Proc.devRef .tc Cert.ReferenceIdeal.main_arg12) :=
  after_of_forall_not_mem _ _ (by decide)
theorem keepR_rP2_main_arg12 (R : RVal) : after Cert.ReferenceIdeal.Line.rP2 R (Proc.devRef .tc Cert.ReferenceIdeal.main_arg12) = R (Proc.devRef .tc Cert.ReferenceIdeal.main_arg12) :=
  after_of_forall_not_mem _ _ (by decide)
theorem keepR_sD0_main_arg12 (R : RVal) : after Cert.ReferenceIdeal.Line.sD0 R (Proc.devRef .tc Cert.ReferenceIdeal.main_arg12) = R (Proc.devRef .tc Cert.ReferenceIdeal.main_arg12) :=
  after_of_forall_not_mem _ _ (by decide)
theorem keepR_rC1_main_arg12 (R : RVal) : after Cert.ReferenceIdeal.Line.rC1 R (Proc.devRef .tc Cert.ReferenceIdeal.main_arg12) = R (Proc.devRef .tc Cert.ReferenceIdeal.main_arg12) :=
  after_of_forall_not_mem _ _ (by decide)
theorem keepR_rP1_main_arg12 (R : RVal) : after Cert.ReferenceIdeal.Line.rP1 R (Proc.devRef .tc Cert.ReferenceIdeal.main_arg12) = R (Proc.devRef .tc Cert.ReferenceIdeal.main_arg12) :=
  after_of_forall_not_mem _ _ (by decide)
theorem keepK_kC5_main_arg13 (K : KVal) : after Cert.KernelIdeal.Reg.kC5 K (Proc.devRef .tc Cert.KernelIdeal.main_arg13) = K (Proc.devRef .tc Cert.KernelIdeal.main_arg13) :=
  after_of_forall_not_mem _ _ (by decide)
theorem keepK_kP5_main_arg13 (K : KVal) : after Cert.KernelIdeal.Reg.kP5 K (Proc.devRef .tc Cert.KernelIdeal.main_arg13) = K (Proc.devRef .tc Cert.KernelIdeal.main_arg13) :=
  after_of_forall_not_mem _ _ (by decide)
theorem keepK_kC4_main_arg13 (K : KVal) : after Cert.KernelIdeal.Reg.kC4 K (Proc.devRef .tc Cert.KernelIdeal.main_arg13) = K (Proc.devRef .tc Cert.KernelIdeal.main_arg13) :=
  after_of_forall_not_mem _ _ (by decide)
theorem keepK_kP4_main_arg13 (K : KVal) : after Cert.KernelIdeal.Reg.kP4 K (Proc.devRef .tc Cert.KernelIdeal.main_arg13) = K (Proc.devRef .tc Cert.KernelIdeal.main_arg13) :=
  after_of_forall_not_mem _ _ (by decide)
theorem keepK_kC3_main_arg13 (K : KVal) : after Cert.KernelIdeal.Reg.kC3 K (Proc.devRef .tc Cert.KernelIdeal.main_arg13) = K (Proc.devRef .tc Cert.KernelIdeal.main_arg13) :=
  after_of_forall_not_mem _ _ (by decide)
theorem keepK_kP3_main_arg13 (K : KVal) : after Cert.KernelIdeal.Reg.kP3 K (Proc.devRef .tc Cert.KernelIdeal.main_arg13) = K (Proc.devRef .tc Cert.KernelIdeal.main_arg13) :=
  after_of_forall_not_mem _ _ (by decide)
theorem keepK_kC2_main_arg13 (K : KVal) : after Cert.KernelIdeal.Reg.kC2 K (Proc.devRef .tc Cert.KernelIdeal.main_arg13) = K (Proc.devRef .tc Cert.KernelIdeal.main_arg13) :=
  after_of_forall_not_mem _ _ (by decide)
theorem keepK_kP2_main_arg13 (K : KVal) : after Cert.KernelIdeal.Reg.kP2 K (Proc.devRef .tc Cert.KernelIdeal.main_arg13) = K (Proc.devRef .tc Cert.KernelIdeal.main_arg13) :=
  after_of_forall_not_mem _ _ (by decide)
theorem keepK_kC1_main_arg13 (K : KVal) : after Cert.KernelIdeal.Reg.kC1 K (Proc.devRef .tc Cert.KernelIdeal.main_arg13) = K (Proc.devRef .tc Cert.KernelIdeal.main_arg13) :=
  after_of_forall_not_mem _ _ (by decide)
theorem keepK_kP1_main_arg13 (K : KVal) : after Cert.KernelIdeal.Reg.kP1 K (Proc.devRef .tc Cert.KernelIdeal.main_arg13) = K (Proc.devRef .tc Cert.KernelIdeal.main_arg13) :=
  after_of_forall_not_mem _ _ (by decide)
theorem keepR_sS_main_arg13 (R : RVal) : after Cert.ReferenceIdeal.Line.sS R (Proc.devRef .tc Cert.ReferenceIdeal.main_arg13) = R (Proc.devRef .tc Cert.ReferenceIdeal.main_arg13) :=
  after_of_forall_not_mem _ _ (by decide)
theorem keepR_sD3_main_arg13 (R : RVal) : after Cert.ReferenceIdeal.Line.sD3 R (Proc.devRef .tc Cert.ReferenceIdeal.main_arg13) = R (Proc.devRef .tc Cert.ReferenceIdeal.main_arg13) :=
  after_of_forall_not_mem _ _ (by decide)
theorem keepR_rC5_main_arg13 (R : RVal) : after Cert.ReferenceIdeal.Line.rC5 R (Proc.devRef .tc Cert.ReferenceIdeal.main_arg13) = R (Proc.devRef .tc Cert.ReferenceIdeal.main_arg13) :=
  after_of_forall_not_mem _ _ (by decide)
theorem keepR_rP5_main_arg13 (R : RVal) : after Cert.ReferenceIdeal.Line.rP5 R (Proc.devRef .tc Cert.ReferenceIdeal.main_arg13) = R (Proc.devRef .tc Cert.ReferenceIdeal.main_arg13) :=
  after_of_forall_not_mem _ _ (by decide)
theorem keepR_sD2_main_arg13 (R : RVal) : after Cert.ReferenceIdeal.Line.sD2 R (Proc.devRef .tc Cert.ReferenceIdeal.main_arg13) = R (Proc.devRef .tc Cert.ReferenceIdeal.main_arg13) :=
  after_of_forall_not_mem _ _ (by decide)
theorem keepR_rC4_main_arg13 (R : RVal) : after Cert.ReferenceIdeal.Line.rC4 R (Proc.devRef .tc Cert.ReferenceIdeal.main_arg13) = R (Proc.devRef .tc Cert.ReferenceIdeal.main_arg13) :=
  after_of_forall_not_mem _ _ (by decide)
theorem keepR_rP4_main_arg13 (R : RVal) : after Cert.ReferenceIdeal.Line.rP4 R (Proc.devRef .tc Cert.ReferenceIdeal.main_arg13) = R (Proc.devRef .tc Cert.ReferenceIdeal.main_arg13) :=
  after_of_forall_not_mem _ _ (by decide)
theorem keepR_sD1_main_arg13 (R : RVal) : after Cert.ReferenceIdeal.Line.sD1 R (Proc.devRef .tc Cert.ReferenceIdeal.main_arg13) = R (Proc.devRef .tc Cert.ReferenceIdeal.main_arg13) :=
  after_of_forall_not_mem _ _ (by decide)
theorem keepR_rC3_main_arg13 (R : RVal) : after Cert.ReferenceIdeal.Line.rC3 R (Proc.devRef .tc Cert.ReferenceIdeal.main_arg13) = R (Proc.devRef .tc Cert.ReferenceIdeal.main_arg13) :=
  after_of_forall_not_mem _ _ (by decide)
theorem keepR_rP3_main_arg13 (R : RVal) : after Cert.ReferenceIdeal.Line.rP3 R (Proc.devRef .tc Cert.ReferenceIdeal.main_arg13) = R (Proc.devRef .tc Cert.ReferenceIdeal.main_arg13) :=
  after_of_forall_not_mem _ _ (by decide)
theorem keepR_rC2_main_arg13 (R : RVal) : after Cert.ReferenceIdeal.Line.rC2 R (Proc.devRef .tc Cert.ReferenceIdeal.main_arg13) = R (Proc.devRef .tc Cert.ReferenceIdeal.main_arg13) :=
  after_of_forall_not_mem _ _ (by decide)
theorem keepR_rP2_main_arg13 (R : RVal) : after Cert.ReferenceIdeal.Line.rP2 R (Proc.devRef .tc Cert.ReferenceIdeal.main_arg13) = R (Proc.devRef .tc Cert.ReferenceIdeal.main_arg13) :=
  after_of_forall_not_mem _ _ (by decide)
theorem keepR_sD0_main_arg13 (R : RVal) : after Cert.ReferenceIdeal.Line.sD0 R (Proc.devRef .tc Cert.ReferenceIdeal.main_arg13) = R (Proc.devRef .tc Cert.ReferenceIdeal.main_arg13) :=
  after_of_forall_not_mem _ _ (by decide)
theorem keepR_rC1_main_arg13 (R : RVal) : after Cert.ReferenceIdeal.Line.rC1 R (Proc.devRef .tc Cert.ReferenceIdeal.main_arg13) = R (Proc.devRef .tc Cert.ReferenceIdeal.main_arg13) :=
  after_of_forall_not_mem _ _ (by decide)
theorem keepR_rP1_main_arg13 (R : RVal) : after Cert.ReferenceIdeal.Line.rP1 R (Proc.devRef .tc Cert.ReferenceIdeal.main_arg13) = R (Proc.devRef .tc Cert.ReferenceIdeal.main_arg13) :=
  after_of_forall_not_mem _ _ (by decide)
theorem keepR_rP1_main_arg0 (R : RVal) : after Cert.ReferenceIdeal.Line.rP1 R (Proc.devRef .tc Cert.ReferenceIdeal.main_arg0) = R (Proc.devRef .tc Cert.ReferenceIdeal.main_arg0) :=
  after_of_forall_not_mem _ _ (by decide)
theorem keepR_rC1_main_arg0 (R : RVal) : after Cert.ReferenceIdeal.Line.rC1 R (Proc.devRef .tc Cert.ReferenceIdeal.main_arg0) = R (Proc.devRef .tc Cert.ReferenceIdeal.main_arg0) :=
  after_of_forall_not_mem _ _ (by decide)
theorem keepR_rC1_main_arg1 (R : RVal) : after Cert.ReferenceIdeal.Line.rC1 R (Proc.devRef .tc Cert.ReferenceIdeal.main_arg1) = R (Proc.devRef .tc Cert.ReferenceIdeal.main_arg1) :=
  after_of_forall_not_mem _ _ (by decide)
theorem keepR_sD0_main_arg0 (R : RVal) : after Cert.ReferenceIdeal.Line.sD0 R (Proc.devRef .tc Cert.ReferenceIdeal.main_arg0) = R (Proc.devRef .tc Cert.ReferenceIdeal.main_arg0) :=
  after_of_forall_not_mem _ _ (by decide)
theorem keepR_sD0_main_arg1 (R : RVal) : after Cert.ReferenceIdeal.Line.sD0 R (Proc.devRef .tc Cert.ReferenceIdeal.main_arg1) = R (Proc.devRef .tc Cert.ReferenceIdeal.main_arg1) :=
  after_of_forall_not_mem _ _ (by decide)
theorem keepR_sD0_main_arg4 (R : RVal) : after Cert.ReferenceIdeal.Line.sD0 R (Proc.devRef .tc Cert.ReferenceIdeal.main_arg4) = R (Proc.devRef .tc Cert.ReferenceIdeal.main_arg4) :=
  after_of_forall_not_mem _ _ (by decide)
theorem keepR_sD0_main_arg5 (R : RVal) : after Cert.ReferenceIdeal.Line.sD0 R (Proc.devRef .tc Cert.ReferenceIdeal.main_arg5) = R (Proc.devRef .tc Cert.ReferenceIdeal.main_arg5) :=
  after_of_forall_not_mem _ _ (by decide)
theorem keepR_rP2_main_arg0 (R : RVal) : after Cert.ReferenceIdeal.Line.rP2 R (Proc.devRef .tc Cert.ReferenceIdeal.main_arg0) = R (Proc.devRef .tc Cert.ReferenceIdeal.main_arg0) :=
  after_of_forall_not_mem _ _ (by decide)
theorem keepR_rP2_main_arg1 (R : RVal) : after Cert.ReferenceIdeal.Line.rP2 R (Proc.devRef .tc Cert.ReferenceIdeal.main_arg1) = R (Proc.devRef .tc Cert.ReferenceIdeal.main_arg1) :=
  after_of_forall_not_mem _ _ (by decide)
theorem keepR_rP2_main_arg4 (R : RVal) : after Cert.ReferenceIdeal.Line.rP2 R (Proc.devRef .tc Cert.ReferenceIdeal.main_arg4) = R (Proc.devRef .tc Cert.ReferenceIdeal.main_arg4) :=
  after_of_forall_not_mem _ _ (by decide)
theorem keepR_rP2_main_arg5 (R : RVal) : after Cert.ReferenceIdeal.Line.rP2 R (Proc.devRef .tc Cert.ReferenceIdeal.main_arg5) = R (Proc.devRef .tc Cert.ReferenceIdeal.main_arg5) :=
  after_of_forall_not_mem _ _ (by decide)
theorem keepR_rC2_main_arg0 (R : RVal) : after Cert.ReferenceIdeal.Line.rC2 R (Proc.devRef .tc Cert.ReferenceIdeal.main_arg0) = R (Proc.devRef .tc Cert.ReferenceIdeal.main_arg0) :=
  after_of_forall_not_mem _ _ (by decide)
theorem keepR_rC2_main_arg1 (R : RVal) : after Cert.ReferenceIdeal.Line.rC2 R (Proc.devRef .tc Cert.ReferenceIdeal.main_arg1) = R (Proc.devRef .tc Cert.ReferenceIdeal.main_arg1) :=
  after_of_forall_not_mem _ _ (by decide)
theorem keepR_rC2_main_arg4 (R : RVal) : after Cert.ReferenceIdeal.Line.rC2 R (Proc.devRef .tc Cert.ReferenceIdeal.main_arg4) = R (Proc.devRef .tc Cert.ReferenceIdeal.main_arg4) :=
  after_of_forall_not_mem _ _ (by decide)
theorem keepR_rC2_main_arg5 (R : RVal) : after Cert.ReferenceIdeal.Line.rC2 R (Proc.devRef .tc Cert.ReferenceIdeal.main_arg5) = R (Proc.devRef .tc Cert.ReferenceIdeal.main_arg5) :=
  after_of_forall_not_mem _ _ (by decide)
theorem keepR_rP3_main_arg0 (R : RVal) : after Cert.ReferenceIdeal.Line.rP3 R (Proc.devRef .tc Cert.ReferenceIdeal.main_arg0) = R (Proc.devRef .tc Cert.ReferenceIdeal.main_arg0) :=
  after_of_forall_not_mem _ _ (by decide)
theorem keepR_rP3_main_arg1 (R : RVal) : after Cert.ReferenceIdeal.Line.rP3 R (Proc.devRef .tc Cert.ReferenceIdeal.main_arg1) = R (Proc.devRef .tc Cert.ReferenceIdeal.main_arg1) :=
  after_of_forall_not_mem _ _ (by decide)
theorem keepR_rP3_main_arg4 (R : RVal) : after Cert.ReferenceIdeal.Line.rP3 R (Proc.devRef .tc Cert.ReferenceIdeal.main_arg4) = R (Proc.devRef .tc Cert.ReferenceIdeal.main_arg4) :=
  after_of_forall_not_mem _ _ (by decide)
theorem keepR_rP3_main_arg5 (R : RVal) : after Cert.ReferenceIdeal.Line.rP3 R (Proc.devRef .tc Cert.ReferenceIdeal.main_arg5) = R (Proc.devRef .tc Cert.ReferenceIdeal.main_arg5) :=
  after_of_forall_not_mem _ _ (by decide)
theorem keepR_rC3_main_arg0 (R : RVal) : after Cert.ReferenceIdeal.Line.rC3 R (Proc.devRef .tc Cert.ReferenceIdeal.main_arg0) = R (Proc.devRef .tc Cert.ReferenceIdeal.main_arg0) :=
  after_of_forall_not_mem _ _ (by decide)
theorem keepR_rC3_main_arg1 (R : RVal) : after Cert.ReferenceIdeal.Line.rC3 R (Proc.devRef .tc Cert.ReferenceIdeal.main_arg1) = R (Proc.devRef .tc Cert.ReferenceIdeal.main_arg1) :=
  after_of_forall_not_mem _ _ (by decide)
theorem keepR_rC3_main_arg4 (R : RVal) : after Cert.ReferenceIdeal.Line.rC3 R (Proc.devRef .tc Cert.ReferenceIdeal.main_arg4) = R (Proc.devRef .tc Cert.ReferenceIdeal.main_arg4) :=
  after_of_forall_not_mem _ _ (by decide)
theorem keepR_rC3_main_arg5 (R : RVal) : after Cert.ReferenceIdeal.Line.rC3 R (Proc.devRef .tc Cert.ReferenceIdeal.main_arg5) = R (Proc.devRef .tc Cert.ReferenceIdeal.main_arg5) :=
  after_of_forall_not_mem _ _ (by decide)
theorem keepR_sD1_main_arg0 (R : RVal) : after Cert.ReferenceIdeal.Line.sD1 R (Proc.devRef .tc Cert.ReferenceIdeal.main_arg0) = R (Proc.devRef .tc Cert.ReferenceIdeal.main_arg0) :=
  after_of_forall_not_mem _ _ (by decide)
theorem keepR_sD1_main_arg1 (R : RVal) : after Cert.ReferenceIdeal.Line.sD1 R (Proc.devRef .tc Cert.ReferenceIdeal.main_arg1) = R (Proc.devRef .tc Cert.ReferenceIdeal.main_arg1) :=
  after_of_forall_not_mem _ _ (by decide)
theorem keepR_sD1_main_arg4 (R : RVal) : after Cert.ReferenceIdeal.Line.sD1 R (Proc.devRef .tc Cert.ReferenceIdeal.main_arg4) = R (Proc.devRef .tc Cert.ReferenceIdeal.main_arg4) :=
  after_of_forall_not_mem _ _ (by decide)
theorem keepR_sD1_main_arg5 (R : RVal) : after Cert.ReferenceIdeal.Line.sD1 R (Proc.devRef .tc Cert.ReferenceIdeal.main_arg5) = R (Proc.devRef .tc Cert.ReferenceIdeal.main_arg5) :=
  after_of_forall_not_mem _ _ (by decide)
theorem keepR_sD1_main_arg6 (R : RVal) : after Cert.ReferenceIdeal.Line.sD1 R (Proc.devRef .tc Cert.ReferenceIdeal.main_arg6) = R (Proc.devRef .tc Cert.ReferenceIdeal.main_arg6) :=
  after_of_forall_not_mem _ _ (by decide)
theorem keepR_sD1_main_arg7 (R : RVal) : after Cert.ReferenceIdeal.Line.sD1 R (Proc.devRef .tc Cert.ReferenceIdeal.main_arg7) = R (Proc.devRef .tc Cert.ReferenceIdeal.main_arg7) :=
  after_of_forall_not_mem _ _ (by decide)
theorem keepR_rP4_main_arg0 (R : RVal) : after Cert.ReferenceIdeal.Line.rP4 R (Proc.devRef .tc Cert.ReferenceIdeal.main_arg0) = R (Proc.devRef .tc Cert.ReferenceIdeal.main_arg0) :=
  after_of_forall_not_mem _ _ (by decide)
theorem keepR_rP4_main_arg1 (R : RVal) : after Cert.ReferenceIdeal.Line.rP4 R (Proc.devRef .tc Cert.ReferenceIdeal.main_arg1) = R (Proc.devRef .tc Cert.ReferenceIdeal.main_arg1) :=
  after_of_forall_not_mem _ _ (by decide)
theorem keepR_rP4_main_arg4 (R : RVal) : after Cert.ReferenceIdeal.Line.rP4 R (Proc.devRef .tc Cert.ReferenceIdeal.main_arg4) = R (Proc.devRef .tc Cert.ReferenceIdeal.main_arg4) :=
  after_of_forall_not_mem _ _ (by decide)
theorem keepR_rP4_main_arg5 (R : RVal) : after Cert.ReferenceIdeal.Line.rP4 R (Proc.devRef .tc Cert.ReferenceIdeal.main_arg5) = R (Proc.devRef .tc Cert.ReferenceIdeal.main_arg5) :=
  after_of_forall_not_mem _ _ (by decide)
theorem keepR_rP4_main_arg6 (R : RVal) : after Cert.ReferenceIdeal.Line.rP4 R (Proc.devRef .tc Cert.ReferenceIdeal.main_arg6) = R (Proc.devRef .tc Cert.ReferenceIdeal.main_arg6) :=
  after_of_forall_not_mem _ _ (by decide)
theorem keepR_rP4_main_arg7 (R : RVal) : after Cert.ReferenceIdeal.Line.rP4 R (Proc.devRef .tc Cert.ReferenceIdeal.main_arg7) = R (Proc.devRef .tc Cert.ReferenceIdeal.main_arg7) :=
  after_of_forall_not_mem _ _ (by decide)
theorem keepR_rC4_main_arg0 (R : RVal) : after Cert.ReferenceIdeal.Line.rC4 R (Proc.devRef .tc Cert.ReferenceIdeal.main_arg0) = R (Proc.devRef .tc Cert.ReferenceIdeal.main_arg0) :=
  after_of_forall_not_mem _ _ (by decide)
theorem keepR_rC4_main_arg1 (R : RVal) : after Cert.ReferenceIdeal.Line.rC4 R (Proc.devRef .tc Cert.ReferenceIdeal.main_arg1) = R (Proc.devRef .tc Cert.ReferenceIdeal.main_arg1) :=
  after_of_forall_not_mem _ _ (by decide)
theorem keepR_rC4_main_arg4 (R : RVal) : after Cert.ReferenceIdeal.Line.rC4 R (Proc.devRef .tc Cert.ReferenceIdeal.main_arg4) = R (Proc.devRef .tc Cert.ReferenceIdeal.main_arg4) :=
  after_of_forall_not_mem _ _ (by decide)
theorem keepR_rC4_main_arg5 (R : RVal) : after Cert.ReferenceIdeal.Line.rC4 R (Proc.devRef .tc Cert.ReferenceIdeal.main_arg5) = R (Proc.devRef .tc Cert.ReferenceIdeal.main_arg5) :=
  after_of_forall_not_mem _ _ (by decide)
theorem keepR_rC4_main_arg6 (R : RVal) : after Cert.ReferenceIdeal.Line.rC4 R (Proc.devRef .tc Cert.ReferenceIdeal.main_arg6) = R (Proc.devRef .tc Cert.ReferenceIdeal.main_arg6) :=
  after_of_forall_not_mem _ _ (by decide)
theorem keepR_rC4_main_arg7 (R : RVal) : after Cert.ReferenceIdeal.Line.rC4 R (Proc.devRef .tc Cert.ReferenceIdeal.main_arg7) = R (Proc.devRef .tc Cert.ReferenceIdeal.main_arg7) :=
  after_of_forall_not_mem _ _ (by decide)
theorem keepR_sD2_main_arg0 (R : RVal) : after Cert.ReferenceIdeal.Line.sD2 R (Proc.devRef .tc Cert.ReferenceIdeal.main_arg0) = R (Proc.devRef .tc Cert.ReferenceIdeal.main_arg0) :=
  after_of_forall_not_mem _ _ (by decide)
theorem keepR_sD2_main_arg1 (R : RVal) : after Cert.ReferenceIdeal.Line.sD2 R (Proc.devRef .tc Cert.ReferenceIdeal.main_arg1) = R (Proc.devRef .tc Cert.ReferenceIdeal.main_arg1) :=
  after_of_forall_not_mem _ _ (by decide)
theorem keepR_sD2_main_arg4 (R : RVal) : after Cert.ReferenceIdeal.Line.sD2 R (Proc.devRef .tc Cert.ReferenceIdeal.main_arg4) = R (Proc.devRef .tc Cert.ReferenceIdeal.main_arg4) :=
  after_of_forall_not_mem _ _ (by decide)
theorem keepR_sD2_main_arg5 (R : RVal) : after Cert.ReferenceIdeal.Line.sD2 R (Proc.devRef .tc Cert.ReferenceIdeal.main_arg5) = R (Proc.devRef .tc Cert.ReferenceIdeal.main_arg5) :=
  after_of_forall_not_mem _ _ (by decide)
theorem keepR_sD2_main_arg6 (R : RVal) : after Cert.ReferenceIdeal.Line.sD2 R (Proc.devRef .tc Cert.ReferenceIdeal.main_arg6) = R (Proc.devRef .tc Cert.ReferenceIdeal.main_arg6) :=
  after_of_forall_not_mem _ _ (by decide)
theorem keepR_sD2_main_arg7 (R : RVal) : after Cert.ReferenceIdeal.Line.sD2 R (Proc.devRef .tc Cert.ReferenceIdeal.main_arg7) = R (Proc.devRef .tc Cert.ReferenceIdeal.main_arg7) :=
  after_of_forall_not_mem _ _ (by decide)
theorem keepR_sD2_main_arg8 (R : RVal) : after Cert.ReferenceIdeal.Line.sD2 R (Proc.devRef .tc Cert.ReferenceIdeal.main_arg8) = R (Proc.devRef .tc Cert.ReferenceIdeal.main_arg8) :=
  after_of_forall_not_mem _ _ (by decide)
theorem keepR_sD2_main_arg9 (R : RVal) : after Cert.ReferenceIdeal.Line.sD2 R (Proc.devRef .tc Cert.ReferenceIdeal.main_arg9) = R (Proc.devRef .tc Cert.ReferenceIdeal.main_arg9) :=
  after_of_forall_not_mem _ _ (by decide)
theorem keepR_rP5_main_arg0 (R : RVal) : after Cert.ReferenceIdeal.Line.rP5 R (Proc.devRef .tc Cert.ReferenceIdeal.main_arg0) = R (Proc.devRef .tc Cert.ReferenceIdeal.main_arg0) :=
  after_of_forall_not_mem _ _ (by decide)
theorem keepR_rP5_main_arg1 (R : RVal) : after Cert.ReferenceIdeal.Line.rP5 R (Proc.devRef .tc Cert.ReferenceIdeal.main_arg1) = R (Proc.devRef .tc Cert.ReferenceIdeal.main_arg1) :=
  after_of_forall_not_mem _ _ (by decide)
theorem keepR_rP5_main_arg2 (R : RVal) : after Cert.ReferenceIdeal.Line.rP5 R (Proc.devRef .tc Cert.ReferenceIdeal.main_arg2) = R (Proc.devRef .tc Cert.ReferenceIdeal.main_arg2) :=
  after_of_forall_not_mem _ _ (by decide)
theorem keepR_rP5_main_arg3 (R : RVal) : after Cert.ReferenceIdeal.Line.rP5 R (Proc.devRef .tc Cert.ReferenceIdeal.main_arg3) = R (Proc.devRef .tc Cert.ReferenceIdeal.main_arg3) :=
  after_of_forall_not_mem _ _ (by decide)
theorem keepR_rP5_main_arg4 (R : RVal) : after Cert.ReferenceIdeal.Line.rP5 R (Proc.devRef .tc Cert.ReferenceIdeal.main_arg4) = R (Proc.devRef .tc Cert.ReferenceIdeal.main_arg4) :=
  after_of_forall_not_mem _ _ (by decide)
theorem keepR_rP5_main_arg5 (R : RVal) : after Cert.ReferenceIdeal.Line.rP5 R (Proc.devRef .tc Cert.ReferenceIdeal.main_arg5) = R (Proc.devRef .tc Cert.ReferenceIdeal.main_arg5) :=
  after_of_forall_not_mem _ _ (by decide)
theorem keepR_rP5_main_arg6 (R : RVal) : after Cert.ReferenceIdeal.Line.rP5 R (Proc.devRef .tc Cert.ReferenceIdeal.main_arg6) = R (Proc.devRef .tc Cert.ReferenceIdeal.main_arg6) :=
  after_of_forall_not_mem _ _ (by decide)
theorem keepR_rP5_main_arg7 (R : RVal) : after Cert.ReferenceIdeal.Line.rP5 R (Proc.devRef .tc Cert.ReferenceIdeal.main_arg7) = R (Proc.devRef .tc Cert.ReferenceIdeal.main_arg7) :=
  after_of_forall_not_mem _ _ (by decide)
theorem keepR_rP5_main_arg8 (R : RVal) : after Cert.ReferenceIdeal.Line.rP5 R (Proc.devRef .tc Cert.ReferenceIdeal.main_arg8) = R (Proc.devRef .tc Cert.ReferenceIdeal.main_arg8) :=
  after_of_forall_not_mem _ _ (by decide)
theorem keepR_rP5_main_arg9 (R : RVal) : after Cert.ReferenceIdeal.Line.rP5 R (Proc.devRef .tc Cert.ReferenceIdeal.main_arg9) = R (Proc.devRef .tc Cert.ReferenceIdeal.main_arg9) :=
  after_of_forall_not_mem _ _ (by decide)
theorem keepR_rC5_main_arg0 (R : RVal) : after Cert.ReferenceIdeal.Line.rC5 R (Proc.devRef .tc Cert.ReferenceIdeal.main_arg0) = R (Proc.devRef .tc Cert.ReferenceIdeal.main_arg0) :=
  after_of_forall_not_mem _ _ (by decide)
theorem keepR_rC5_main_arg1 (R : RVal) : after Cert.ReferenceIdeal.Line.rC5 R (Proc.devRef .tc Cert.ReferenceIdeal.main_arg1) = R (Proc.devRef .tc Cert.ReferenceIdeal.main_arg1) :=
  after_of_forall_not_mem _ _ (by decide)
theorem keepR_rC5_main_arg2 (R : RVal) : after Cert.ReferenceIdeal.Line.rC5 R (Proc.devRef .tc Cert.ReferenceIdeal.main_arg2) = R (Proc.devRef .tc Cert.ReferenceIdeal.main_arg2) :=
  after_of_forall_not_mem _ _ (by decide)
theorem keepR_rC5_main_arg3 (R : RVal) : after Cert.ReferenceIdeal.Line.rC5 R (Proc.devRef .tc Cert.ReferenceIdeal.main_arg3) = R (Proc.devRef .tc Cert.ReferenceIdeal.main_arg3) :=
  after_of_forall_not_mem _ _ (by decide)
theorem keepR_rC5_main_arg4 (R : RVal) : after Cert.ReferenceIdeal.Line.rC5 R (Proc.devRef .tc Cert.ReferenceIdeal.main_arg4) = R (Proc.devRef .tc Cert.ReferenceIdeal.main_arg4) :=
  after_of_forall_not_mem _ _ (by decide)
theorem keepR_rC5_main_arg5 (R : RVal) : after Cert.ReferenceIdeal.Line.rC5 R (Proc.devRef .tc Cert.ReferenceIdeal.main_arg5) = R (Proc.devRef .tc Cert.ReferenceIdeal.main_arg5) :=
  after_of_forall_not_mem _ _ (by decide)
theorem keepR_rC5_main_arg6 (R : RVal) : after Cert.ReferenceIdeal.Line.rC5 R (Proc.devRef .tc Cert.ReferenceIdeal.main_arg6) = R (Proc.devRef .tc Cert.ReferenceIdeal.main_arg6) :=
  after_of_forall_not_mem _ _ (by decide)
theorem keepR_rC5_main_arg7 (R : RVal) : after Cert.ReferenceIdeal.Line.rC5 R (Proc.devRef .tc Cert.ReferenceIdeal.main_arg7) = R (Proc.devRef .tc Cert.ReferenceIdeal.main_arg7) :=
  after_of_forall_not_mem _ _ (by decide)
theorem keepR_rC5_main_arg8 (R : RVal) : after Cert.ReferenceIdeal.Line.rC5 R (Proc.devRef .tc Cert.ReferenceIdeal.main_arg8) = R (Proc.devRef .tc Cert.ReferenceIdeal.main_arg8) :=
  after_of_forall_not_mem _ _ (by decide)
theorem keepR_rC5_main_arg9 (R : RVal) : after Cert.ReferenceIdeal.Line.rC5 R (Proc.devRef .tc Cert.ReferenceIdeal.main_arg9) = R (Proc.devRef .tc Cert.ReferenceIdeal.main_arg9) :=
  after_of_forall_not_mem _ _ (by decide)
theorem keepR_sD3_main_arg0 (R : RVal) : after Cert.ReferenceIdeal.Line.sD3 R (Proc.devRef .tc Cert.ReferenceIdeal.main_arg0) = R (Proc.devRef .tc Cert.ReferenceIdeal.main_arg0) :=
  after_of_forall_not_mem _ _ (by decide)
theorem keepR_sD3_main_arg1 (R : RVal) : after Cert.ReferenceIdeal.Line.sD3 R (Proc.devRef .tc Cert.ReferenceIdeal.main_arg1) = R (Proc.devRef .tc Cert.ReferenceIdeal.main_arg1) :=
  after_of_forall_not_mem _ _ (by decide)
theorem keepR_sD3_main_arg2 (R : RVal) : after Cert.ReferenceIdeal.Line.sD3 R (Proc.devRef .tc Cert.ReferenceIdeal.main_arg2) = R (Proc.devRef .tc Cert.ReferenceIdeal.main_arg2) :=
  after_of_forall_not_mem _ _ (by decide)
theorem keepR_sD3_main_arg3 (R : RVal) : after Cert.ReferenceIdeal.Line.sD3 R (Proc.devRef .tc Cert.ReferenceIdeal.main_arg3) = R (Proc.devRef .tc Cert.ReferenceIdeal.main_arg3) :=
  after_of_forall_not_mem _ _ (by decide)
theorem keepR_sD3_main_arg4 (R : RVal) : after Cert.ReferenceIdeal.Line.sD3 R (Proc.devRef .tc Cert.ReferenceIdeal.main_arg4) = R (Proc.devRef .tc Cert.ReferenceIdeal.main_arg4) :=
  after_of_forall_not_mem _ _ (by decide)
theorem keepR_sD3_main_arg5 (R : RVal) : after Cert.ReferenceIdeal.Line.sD3 R (Proc.devRef .tc Cert.ReferenceIdeal.main_arg5) = R (Proc.devRef .tc Cert.ReferenceIdeal.main_arg5) :=
  after_of_forall_not_mem _ _ (by decide)
theorem keepR_sD3_main_arg6 (R : RVal) : after Cert.ReferenceIdeal.Line.sD3 R (Proc.devRef .tc Cert.ReferenceIdeal.main_arg6) = R (Proc.devRef .tc Cert.ReferenceIdeal.main_arg6) :=
  after_of_forall_not_mem _ _ (by decide)
theorem keepR_sD3_main_arg7 (R : RVal) : after Cert.ReferenceIdeal.Line.sD3 R (Proc.devRef .tc Cert.ReferenceIdeal.main_arg7) = R (Proc.devRef .tc Cert.ReferenceIdeal.main_arg7) :=
  after_of_forall_not_mem _ _ (by decide)
theorem keepR_sD3_main_arg8 (R : RVal) : after Cert.ReferenceIdeal.Line.sD3 R (Proc.devRef .tc Cert.ReferenceIdeal.main_arg8) = R (Proc.devRef .tc Cert.ReferenceIdeal.main_arg8) :=
  after_of_forall_not_mem _ _ (by decide)
theorem keepR_sD3_main_arg9 (R : RVal) : after Cert.ReferenceIdeal.Line.sD3 R (Proc.devRef .tc Cert.ReferenceIdeal.main_arg9) = R (Proc.devRef .tc Cert.ReferenceIdeal.main_arg9) :=
  after_of_forall_not_mem _ _ (by decide)
theorem keepR_sD3_main_arg10 (R : RVal) : after Cert.ReferenceIdeal.Line.sD3 R (Proc.devRef .tc Cert.ReferenceIdeal.main_arg10) = R (Proc.devRef .tc Cert.ReferenceIdeal.main_arg10) :=
  after_of_forall_not_mem _ _ (by decide)
theorem keepR_sD3_main_arg11 (R : RVal) : after Cert.ReferenceIdeal.Line.sD3 R (Proc.devRef .tc Cert.ReferenceIdeal.main_arg11) = R (Proc.devRef .tc Cert.ReferenceIdeal.main_arg11) :=
  after_of_forall_not_mem _ _ (by decide)
theorem keepR_sS_main_arg0 (R : RVal) : after Cert.ReferenceIdeal.Line.sS R (Proc.devRef .tc Cert.ReferenceIdeal.main_arg0) = R (Proc.devRef .tc Cert.ReferenceIdeal.main_arg0) :=
  after_of_forall_not_mem _ _ (by decide)
theorem keepR_sS_main_arg1 (R : RVal) : after Cert.ReferenceIdeal.Line.sS R (Proc.devRef .tc Cert.ReferenceIdeal.main_arg1) = R (Proc.devRef .tc Cert.ReferenceIdeal.main_arg1) :=
  after_of_forall_not_mem _ _ (by decide)
theorem keepR_sS_main_arg2 (R : RVal) : after Cert.ReferenceIdeal.Line.sS R (Proc.devRef .tc Cert.ReferenceIdeal.main_arg2) = R (Proc.devRef .tc Cert.ReferenceIdeal.main_arg2) :=
  after_of_forall_not_mem _ _ (by decide)
theorem keepR_sS_main_arg3 (R : RVal) : after Cert.ReferenceIdeal.Line.sS R (Proc.devRef .tc Cert.ReferenceIdeal.main_arg3) = R (Proc.devRef .tc Cert.ReferenceIdeal.main_arg3) :=
  after_of_forall_not_mem _ _ (by decide)
theorem keepR_sS_main_arg4 (R : RVal) : after Cert.ReferenceIdeal.Line.sS R (Proc.devRef .tc Cert.ReferenceIdeal.main_arg4) = R (Proc.devRef .tc Cert.ReferenceIdeal.main_arg4) :=
  after_of_forall_not_mem _ _ (by decide)
theorem keepR_sS_main_arg5 (R : RVal) : after Cert.ReferenceIdeal.Line.sS R (Proc.devRef .tc Cert.ReferenceIdeal.main_arg5) = R (Proc.devRef .tc Cert.ReferenceIdeal.main_arg5) :=
  after_of_forall_not_mem _ _ (by decide)
theorem keepR_sS_main_arg6 (R : RVal) : after Cert.ReferenceIdeal.Line.sS R (Proc.devRef .tc Cert.ReferenceIdeal.main_arg6) = R (Proc.devRef .tc Cert.ReferenceIdeal.main_arg6) :=
  after_of_forall_not_mem _ _ (by decide)
theorem keepR_sS_main_arg7 (R : RVal) : after Cert.ReferenceIdeal.Line.sS R (Proc.devRef .tc Cert.ReferenceIdeal.main_arg7) = R (Proc.devRef .tc Cert.ReferenceIdeal.main_arg7) :=
  after_of_forall_not_mem _ _ (by decide)
theorem keepR_sS_main_arg8 (R : RVal) : after Cert.ReferenceIdeal.Line.sS R (Proc.devRef .tc Cert.ReferenceIdeal.main_arg8) = R (Proc.devRef .tc Cert.ReferenceIdeal.main_arg8) :=
  after_of_forall_not_mem _ _ (by decide)
theorem keepR_sS_main_arg9 (R : RVal) : after Cert.ReferenceIdeal.Line.sS R (Proc.devRef .tc Cert.ReferenceIdeal.main_arg9) = R (Proc.devRef .tc Cert.ReferenceIdeal.main_arg9) :=
  after_of_forall_not_mem _ _ (by decide)
theorem keepR_sS_main_arg10 (R : RVal) : after Cert.ReferenceIdeal.Line.sS R (Proc.devRef .tc Cert.ReferenceIdeal.main_arg10) = R (Proc.devRef .tc Cert.ReferenceIdeal.main_arg10) :=
  after_of_forall_not_mem _ _ (by decide)
theorem keepR_sS_main_arg11 (R : RVal) : after Cert.ReferenceIdeal.Line.sS R (Proc.devRef .tc Cert.ReferenceIdeal.main_arg11) = R (Proc.devRef .tc Cert.ReferenceIdeal.main_arg11) :=
  after_of_forall_not_mem _ _ (by decide)
theorem keepR_rP6_main_arg0 (R : RVal) : after Cert.ReferenceIdeal.Line.sF R (Proc.devRef .tc Cert.ReferenceIdeal.main_arg0) = R (Proc.devRef .tc Cert.ReferenceIdeal.main_arg0) :=
  after_of_forall_not_mem _ _ (by decide)
theorem keepR_rP6_main_arg1 (R : RVal) : after Cert.ReferenceIdeal.Line.sF R (Proc.devRef .tc Cert.ReferenceIdeal.main_arg1) = R (Proc.devRef .tc Cert.ReferenceIdeal.main_arg1) :=
  after_of_forall_not_mem _ _ (by decide)
theorem keepR_rP6_main_arg2 (R : RVal) : after Cert.ReferenceIdeal.Line.sF R (Proc.devRef .tc Cert.ReferenceIdeal.main_arg2) = R (Proc.devRef .tc Cert.ReferenceIdeal.main_arg2) :=
  after_of_forall_not_mem _ _ (by decide)
theorem keepR_rP6_main_arg3 (R : RVal) : after Cert.ReferenceIdeal.Line.sF R (Proc.devRef .tc Cert.ReferenceIdeal.main_arg3) = R (Proc.devRef .tc Cert.ReferenceIdeal.main_arg3) :=
  after_of_forall_not_mem _ _ (by decide)
theorem keepR_rP6_main_arg4 (R : RVal) : after Cert.ReferenceIdeal.Line.sF R (Proc.devRef .tc Cert.ReferenceIdeal.main_arg4) = R (Proc.devRef .tc Cert.ReferenceIdeal.main_arg4) :=
  after_of_forall_not_mem _ _ (by decide)
theorem keepR_rP6_main_arg5 (R : RVal) : after Cert.ReferenceIdeal.Line.sF R (Proc.devRef .tc Cert.ReferenceIdeal.main_arg5) = R (Proc.devRef .tc Cert.ReferenceIdeal.main_arg5) :=
  after_of_forall_not_mem _ _ (by decide)
theorem keepR_rP6_main_arg6 (R : RVal) : after Cert.ReferenceIdeal.Line.sF R (Proc.devRef .tc Cert.ReferenceIdeal.main_arg6) = R (Proc.devRef .tc Cert.ReferenceIdeal.main_arg6) :=
  after_of_forall_not_mem _ _ (by decide)
theorem keepR_rP6_main_arg7 (R : RVal) : after Cert.ReferenceIdeal.Line.sF R (Proc.devRef .tc Cert.ReferenceIdeal.main_arg7) = R (Proc.devRef .tc Cert.ReferenceIdeal.main_arg7) :=
  after_of_forall_not_mem _ _ (by decide)
theorem keepR_rP6_main_arg8 (R : RVal) : after Cert.ReferenceIdeal.Line.sF R (Proc.devRef .tc Cert.ReferenceIdeal.main_arg8) = R (Proc.devRef .tc Cert.ReferenceIdeal.main_arg8) :=
  after_of_forall_not_mem _ _ (by decide)
theorem keepR_rP6_main_arg9 (R : RVal) : after Cert.ReferenceIdeal.Line.sF R (Proc.devRef .tc Cert.ReferenceIdeal.main_arg9) = R (Proc.devRef .tc Cert.ReferenceIdeal.main_arg9) :=
  after_of_forall_not_mem _ _ (by decide)
theorem keepR_rP6_main_arg10 (R : RVal) : after Cert.ReferenceIdeal.Line.sF R (Proc.devRef .tc Cert.ReferenceIdeal.main_arg10) = R (Proc.devRef .tc Cert.ReferenceIdeal.main_arg10) :=
  after_of_forall_not_mem _ _ (by decide)
theorem keepR_rP6_main_arg11 (R : RVal) : after Cert.ReferenceIdeal.Line.sF R (Proc.devRef .tc Cert.ReferenceIdeal.main_arg11) = R (Proc.devRef .tc Cert.ReferenceIdeal.main_arg11) :=
  after_of_forall_not_mem _ _ (by decide)
theorem keepR_rP6_main_arg12 (R : RVal) : after Cert.ReferenceIdeal.Line.sF R (Proc.devRef .tc Cert.ReferenceIdeal.main_arg12) = R (Proc.devRef .tc Cert.ReferenceIdeal.main_arg12) :=
  after_of_forall_not_mem _ _ (by decide)
theorem keepR_rP6_main_arg13 (R : RVal) : after Cert.ReferenceIdeal.Line.sF R (Proc.devRef .tc Cert.ReferenceIdeal.main_arg13) = R (Proc.devRef .tc Cert.ReferenceIdeal.main_arg13) :=
  after_of_forall_not_mem _ _ (by decide)

/-! ## The reference's dense layers and column sum -/

/-- The reference's dense layer 0, read off its piece of the line. -/
theorem refDense0 (R : RVal) : after Cert.ReferenceIdeal.Line.sD0 R (Proc.devRef .tc Cert.ReferenceIdeal.main_v13) = denseRef0 (R (Proc.devRef .tc Cert.ReferenceIdeal.main_v8)) (R (Proc.devRef .tc Cert.ReferenceIdeal.main_arg4)) (R (Proc.devRef .tc Cert.ReferenceIdeal.main_arg5)) := by
  stage_simp
  all_goals rfl

/-- The reference's dense layer 1, read off its piece of the line. -/
theorem refDense1 (R : RVal) : after Cert.ReferenceIdeal.Line.sD1 R (Proc.devRef .tc Cert.ReferenceIdeal.main_v61) = denseRef1 (R (Proc.devRef .tc Cert.ReferenceIdeal.main_v56)) (R (Proc.devRef .tc Cert.ReferenceIdeal.main_arg6)) (R (Proc.devRef .tc Cert.ReferenceIdeal.main_arg7)) := by
  stage_simp
  all_goals rfl

/-- The reference's dense layer 2, read off its piece of the line. -/
theorem refDense2 (R : RVal) : after Cert.ReferenceIdeal.Line.sD2 R (Proc.devRef .tc Cert.ReferenceIdeal.main_v95) = denseRef2 (R (Proc.devRef .tc Cert.ReferenceIdeal.main_v90)) (R (Proc.devRef .tc Cert.ReferenceIdeal.main_arg8)) (R (Proc.devRef .tc Cert.ReferenceIdeal.main_arg9)) := by
  stage_simp
  all_goals rfl

/-- The reference's dense layer 3, read off its piece of the line. -/
theorem refDense3 (R : RVal) : after Cert.ReferenceIdeal.Line.sD3 R (Proc.devRef .tc Cert.ReferenceIdeal.main_v129) = denseRef3 (R (Proc.devRef .tc Cert.ReferenceIdeal.main_v124)) (R (Proc.devRef .tc Cert.ReferenceIdeal.main_arg10)) (R (Proc.devRef .tc Cert.ReferenceIdeal.main_arg11)) := by
  stage_simp
  all_goals rfl

/-- The reference's column sum, read off its piece of the line. -/
theorem refSum (R : RVal) : after Cert.ReferenceIdeal.Line.sS R (Proc.devRef .tc Cert.ReferenceIdeal.main_v131) = sumRef (R (Proc.devRef .tc Cert.ReferenceIdeal.main_v129)) := by
  stage_simp
  all_goals rfl

end Cert.Bridge

end
-- ==== Proof.KernelIdeal.Keep.lean ====
import proofs.«163259_j24927990186434_1_alg».proof.Proof.KernelIdeal.Segs

/-!
# Buffers the items of @main leave alone

An item of @main changes only the buffers it writes: a host stretch its operations' results, a region its result array.
So a buffer outside an item's list holds after the item what it held before; in particular each argument array holds
its launch contents at every boundary.
-/

set_option maxRecDepth 16384

noncomputable section

namespace Cert.KernelIdeal.Reg

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

theorem U2_at (c : Dev nD) (r : Ref sig .tc) (h0 : r ∉ hostOps0_W) (h1 : r ∉ hostOps0_1_W) :
    U2 m c (Proc.devRef .tc r) = m ((c : Thread nD τ).loc r) :=
  (V2_of m c r h1).trans ((V1_of m c r h0).trans rfl)
theorem U3_of (c : Dev nD) (r : Ref sig .tc) (h : r ∉ ([main_v10] : List (Ref sig .tc))) :
    U3 m c (Proc.devRef .tc r) = U2 m c (Proc.devRef .tc r) :=
  (congrFun (V3_eq m c) _).symm.trans ((V3_of m (outsOf m) c r h).trans rfl)
theorem U4_of (c : Dev nD) (r : Ref sig .tc) (h : r ∉ hostOps1_W) :
    U4 m c (Proc.devRef .tc r) = U3 m c (Proc.devRef .tc r) :=
  (congrFun (V4_eq m c) _).symm.trans ((V4_of m (outsOf m) c r h).trans (congrFun (V3_eq m c) _))
theorem U5_of (c : Dev nD) (r : Ref sig .tc) (h : r ∉ hostOps1_1_W) :
    U5 m c (Proc.devRef .tc r) = U4 m c (Proc.devRef .tc r) :=
  (congrFun (V5_eq m c) _).symm.trans ((V5_of m (outsOf m) c r h).trans (congrFun (V4_eq m c) _))
theorem U6_of (c : Dev nD) (r : Ref sig .tc) (h : r ∉ hostOps1_2_W) :
    U6 m c (Proc.devRef .tc r) = U5 m c (Proc.devRef .tc r) :=
  (congrFun (V6_eq m c) _).symm.trans ((V6_of m (outsOf m) c r h).trans (congrFun (V5_eq m c) _))
theorem U7_of (c : Dev nD) (r : Ref sig .tc) (h : r ∉ ([main_v55] : List (Ref sig .tc))) :
    U7 m c (Proc.devRef .tc r) = U6 m c (Proc.devRef .tc r) :=
  (congrFun (V7_eq m c) _).symm.trans ((V7_of m (outsOf m) c r h).trans (congrFun (V6_eq m c) _))
theorem U8_of (c : Dev nD) (r : Ref sig .tc) (h : r ∉ hostOps2_W) :
    U8 m c (Proc.devRef .tc r) = U7 m c (Proc.devRef .tc r) :=
  (congrFun (V8_eq m c) _).symm.trans ((V8_of m (outsOf m) c r h).trans (congrFun (V7_eq m c) _))
theorem U9_of (c : Dev nD) (r : Ref sig .tc) (h : r ∉ ([main_v86] : List (Ref sig .tc))) :
    U9 m c (Proc.devRef .tc r) = U8 m c (Proc.devRef .tc r) :=
  (congrFun (V9_eq m c) _).symm.trans ((V9_of m (outsOf m) c r h).trans (congrFun (V8_eq m c) _))
theorem U10_of (c : Dev nD) (r : Ref sig .tc) (h : r ∉ hostOps3_W) :
    U10 m c (Proc.devRef .tc r) = U9 m c (Proc.devRef .tc r) :=
  (congrFun (V10_eq m c) _).symm.trans ((V10_of m (outsOf m) c r h).trans (congrFun (V9_eq m c) _))
theorem U11_of (c : Dev nD) (r : Ref sig .tc) (h : r ∉ ([main_v117] : List (Ref sig .tc))) :
    U11 m c (Proc.devRef .tc r) = U10 m c (Proc.devRef .tc r) :=
  (congrFun (V11_eq m c) _).symm.trans ((V11_of m (outsOf m) c r h).trans (congrFun (V10_eq m c) _))
theorem U12_of (c : Dev nD) (r : Ref sig .tc) (h : r ∉ ([main_v118] : List (Ref sig .tc))) :
    U12 m c (Proc.devRef .tc r) = U11 m c (Proc.devRef .tc r) :=
  (congrFun (V12_eq m c) _).symm.trans ((V12_of m (outsOf m) c r h).trans (congrFun (V11_eq m c) _))

theorem U2_main_arg4 (c : Dev nD) : U2 m c (Proc.devRef .tc main_arg4) = m ((c : Thread nD τ).loc main_arg4) :=
  U2_at m c main_arg4 (by decide) (by decide)
theorem U2_main_arg5 (c : Dev nD) : U2 m c (Proc.devRef .tc main_arg5) = m ((c : Thread nD τ).loc main_arg5) :=
  U2_at m c main_arg5 (by decide) (by decide)
theorem U3_main_arg2 (c : Dev nD) : U3 m c (Proc.devRef .tc main_arg2) = m ((c : Thread nD τ).loc main_arg2) :=
  (U3_of m c main_arg2 (by decide)).trans (U2_at m c main_arg2 (by decide) (by decide))
theorem U3_main_arg3 (c : Dev nD) : U3 m c (Proc.devRef .tc main_arg3) = m ((c : Thread nD τ).loc main_arg3) :=
  (U3_of m c main_arg3 (by decide)).trans (U2_at m c main_arg3 (by decide) (by decide))
theorem U3_main_arg7 (c : Dev nD) : U3 m c (Proc.devRef .tc main_arg7) = m ((c : Thread nD τ).loc main_arg7) :=
  (U3_of m c main_arg7 (by decide)).trans (U2_at m c main_arg7 (by decide) (by decide))
theorem U6_main_arg6 (c : Dev nD) : U6 m c (Proc.devRef .tc main_arg6) = m ((c : Thread nD τ).loc main_arg6) :=
  (U6_of m c main_arg6 (by decide)).trans ((U5_of m c main_arg6 (by decide)).trans ((U4_of m c main_arg6 (by decide)).trans ((U3_of m c main_arg6 (by decide)).trans (U2_at m c main_arg6 (by decide) (by decide)))))
theorem U7_main_arg2 (c : Dev nD) : U7 m c (Proc.devRef .tc main_arg2) = m ((c : Thread nD τ).loc main_arg2) :=
  (U7_of m c main_arg2 (by decide)).trans ((U6_of m c main_arg2 (by decide)).trans ((U5_of m c main_arg2 (by decide)).trans ((U4_of m c main_arg2 (by decide)).trans ((U3_of m c main_arg2 (by decide)).trans (U2_at m c main_arg2 (by decide) (by decide))))))
theorem U7_main_arg3 (c : Dev nD) : U7 m c (Proc.devRef .tc main_arg3) = m ((c : Thread nD τ).loc main_arg3) :=
  (U7_of m c main_arg3 (by decide)).trans ((U6_of m c main_arg3 (by decide)).trans ((U5_of m c main_arg3 (by decide)).trans ((U4_of m c main_arg3 (by decide)).trans ((U3_of m c main_arg3 (by decide)).trans (U2_at m c main_arg3 (by decide) (by decide))))))
theorem U7_main_arg9 (c : Dev nD) : U7 m c (Proc.devRef .tc main_arg9) = m ((c : Thread nD τ).loc main_arg9) :=
  (U7_of m c main_arg9 (by decide)).trans ((U6_of m c main_arg9 (by decide)).trans ((U5_of m c main_arg9 (by decide)).trans ((U4_of m c main_arg9 (by decide)).trans ((U3_of m c main_arg9 (by decide)).trans (U2_at m c main_arg9 (by decide) (by decide))))))
theorem U8_main_arg8 (c : Dev nD) : U8 m c (Proc.devRef .tc main_arg8) = m ((c : Thread nD τ).loc main_arg8) :=
  (U8_of m c main_arg8 (by decide)).trans ((U7_of m c main_arg8 (by decide)).trans ((U6_of m c main_arg8 (by decide)).trans ((U5_of m c main_arg8 (by decide)).trans ((U4_of m c main_arg8 (by decide)).trans ((U3_of m c main_arg8 (by decide)).trans (U2_at m c main_arg8 (by decide) (by decide)))))))
theorem U9_main_arg2 (c : Dev nD) : U9 m c (Proc.devRef .tc main_arg2) = m ((c : Thread nD τ).loc main_arg2) :=
  (U9_of m c main_arg2 (by decide)).trans ((U8_of m c main_arg2 (by decide)).trans ((U7_of m c main_arg2 (by decide)).trans ((U6_of m c main_arg2 (by decide)).trans ((U5_of m c main_arg2 (by decide)).trans ((U4_of m c main_arg2 (by decide)).trans ((U3_of m c main_arg2 (by decide)).trans (U2_at m c main_arg2 (by decide) (by decide))))))))
theorem U9_main_arg3 (c : Dev nD) : U9 m c (Proc.devRef .tc main_arg3) = m ((c : Thread nD τ).loc main_arg3) :=
  (U9_of m c main_arg3 (by decide)).trans ((U8_of m c main_arg3 (by decide)).trans ((U7_of m c main_arg3 (by decide)).trans ((U6_of m c main_arg3 (by decide)).trans ((U5_of m c main_arg3 (by decide)).trans ((U4_of m c main_arg3 (by decide)).trans ((U3_of m c main_arg3 (by decide)).trans (U2_at m c main_arg3 (by decide) (by decide))))))))
theorem U9_main_arg11 (c : Dev nD) : U9 m c (Proc.devRef .tc main_arg11) = m ((c : Thread nD τ).loc main_arg11) :=
  (U9_of m c main_arg11 (by decide)).trans ((U8_of m c main_arg11 (by decide)).trans ((U7_of m c main_arg11 (by decide)).trans ((U6_of m c main_arg11 (by decide)).trans ((U5_of m c main_arg11 (by decide)).trans ((U4_of m c main_arg11 (by decide)).trans ((U3_of m c main_arg11 (by decide)).trans (U2_at m c main_arg11 (by decide) (by decide))))))))
theorem U10_main_arg10 (c : Dev nD) : U10 m c (Proc.devRef .tc main_arg10) = m ((c : Thread nD τ).loc main_arg10) :=
  (U10_of m c main_arg10 (by decide)).trans ((U9_of m c main_arg10 (by decide)).trans ((U8_of m c main_arg10 (by decide)).trans ((U7_of m c main_arg10 (by decide)).trans ((U6_of m c main_arg10 (by decide)).trans ((U5_of m c main_arg10 (by decide)).trans ((U4_of m c main_arg10 (by decide)).trans ((U3_of m c main_arg10 (by decide)).trans (U2_at m c main_arg10 (by decide) (by decide)))))))))
theorem U12_main_arg12 (c : Dev nD) : U12 m c (Proc.devRef .tc main_arg12) = m ((c : Thread nD τ).loc main_arg12) :=
  (U12_of m c main_arg12 (by decide)).trans ((U11_of m c main_arg12 (by decide)).trans ((U10_of m c main_arg12 (by decide)).trans ((U9_of m c main_arg12 (by decide)).trans ((U8_of m c main_arg12 (by decide)).trans ((U7_of m c main_arg12 (by decide)).trans ((U6_of m c main_arg12 (by decide)).trans ((U5_of m c main_arg12 (by decide)).trans ((U4_of m c main_arg12 (by decide)).trans ((U3_of m c main_arg12 (by decide)).trans (U2_at m c main_arg12 (by decide) (by decide)))))))))))
theorem U12_main_arg13 (c : Dev nD) : U12 m c (Proc.devRef .tc main_arg13) = m ((c : Thread nD τ).loc main_arg13) :=
  (U12_of m c main_arg13 (by decide)).trans ((U11_of m c main_arg13 (by decide)).trans ((U10_of m c main_arg13 (by decide)).trans ((U9_of m c main_arg13 (by decide)).trans ((U8_of m c main_arg13 (by decide)).trans ((U7_of m c main_arg13 (by decide)).trans ((U6_of m c main_arg13 (by decide)).trans ((U5_of m c main_arg13 (by decide)).trans ((U4_of m c main_arg13 (by decide)).trans ((U3_of m c main_arg13 (by decide)).trans (U2_at m c main_arg13 (by decide) (by decide)))))))))))

/-- The normalization column, written before region 1, is still there before regions 2 and 3. -/
theorem U7_v23 (c : Dev nD) : U7 m c (Proc.devRef .tc main_v23) = U6 m c (Proc.devRef .tc main_v23) := U7_of m c main_v23 (by decide)
theorem U9_v23 (c : Dev nD) : U9 m c (Proc.devRef .tc main_v23) = U6 m c (Proc.devRef .tc main_v23) :=
  (U9_of m c main_v23 (by decide)).trans ((U8_of m c main_v23 (by decide)).trans (U7_v23 m c))
/-- The cleaned node features, written before region 0, are still there after it. -/
theorem U3_v0 (c : Dev nD) : U3 m c (Proc.devRef .tc main_v0) = U2 m c (Proc.devRef .tc main_v0) := U3_of m c main_v0 (by decide)

end Cert.KernelIdeal.Reg

end
-- ==== Proof.Bridge.Main.lean ====
import proofs.«163259_j24927990186434_1_alg».proof.Proof.Bridge.Stages
import proofs.«163259_j24927990186434_1_alg».proof.Proof.KernelIdeal.Keep

/-!
# The two programs compute the same number

Boundary by boundary through @main: the buffers the rest of the kernel's program reads hold, on the extended reals,
what the corresponding buffers of the reference hold after the matching piece of its line. Host pieces are matched
operation for operation; each dense region's result array is the reference's matrix product, bias and maximum with
zero of the arrays the region found; the accumulating region's result row is the reference's column sum. At the end
the kernel's result buffer and the reference's hold the same `[1, 1]` array.
-/

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal.Reg

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-! ## The buffers of the two programs after each piece -/

abbrev KS0 : KVal := Cert.KernelIdeal.Gen.V0 m c
abbrev KS1 : KVal := after Cert.KernelIdeal.Reg.kP1 (KS0 m c)
abbrev KS2 : KVal := U2 m c
abbrev KS3 : KVal := U3 m c
abbrev KS4 : KVal := after Cert.KernelIdeal.Reg.kP2 (KS3 m c)
abbrev KS5 : KVal := after Cert.KernelIdeal.Reg.kC2 (KS4 m c)
abbrev KS6 : KVal := after Cert.KernelIdeal.Reg.kP3 (KS5 m c)
abbrev KS7 : KVal := U6 m c
abbrev KS8 : KVal := U7 m c
abbrev KS9 : KVal := after Cert.KernelIdeal.Reg.kP4 (KS8 m c)
abbrev KS10 : KVal := U8 m c
abbrev KS11 : KVal := U9 m c
abbrev KS12 : KVal := after Cert.KernelIdeal.Reg.kP5 (KS11 m c)
abbrev KS13 : KVal := U10 m c
abbrev KS14 : KVal := U11 m c
abbrev KS15 : KVal := U12 m c
abbrev KS16 : KVal := U13 m c
abbrev RS0 : RVal := launchContents m' c
abbrev RS1 : RVal := after Cert.ReferenceIdeal.Line.rP1 (RS0 m' c)
abbrev RS2 : RVal := after Cert.ReferenceIdeal.Line.rC1 (RS1 m' c)
abbrev RS3 : RVal := after Cert.ReferenceIdeal.Line.sD0 (RS2 m' c)
abbrev RS4 : RVal := after Cert.ReferenceIdeal.Line.rP2 (RS3 m' c)
abbrev RS5 : RVal := after Cert.ReferenceIdeal.Line.rC2 (RS4 m' c)
abbrev RS6 : RVal := after Cert.ReferenceIdeal.Line.rP3 (RS5 m' c)
abbrev RS7 : RVal := after Cert.ReferenceIdeal.Line.rC3 (RS6 m' c)
abbrev RS8 : RVal := after Cert.ReferenceIdeal.Line.sD1 (RS7 m' c)
abbrev RS9 : RVal := after Cert.ReferenceIdeal.Line.rP4 (RS8 m' c)
abbrev RS10 : RVal := after Cert.ReferenceIdeal.Line.rC4 (RS9 m' c)
abbrev RS11 : RVal := after Cert.ReferenceIdeal.Line.sD2 (RS10 m' c)
abbrev RS12 : RVal := after Cert.ReferenceIdeal.Line.rP5 (RS11 m' c)
abbrev RS13 : RVal := after Cert.ReferenceIdeal.Line.rC5 (RS12 m' c)
abbrev RS14 : RVal := after Cert.ReferenceIdeal.Line.sD3 (RS13 m' c)
abbrev RS15 : RVal := after Cert.ReferenceIdeal.Line.sS (RS14 m' c)
abbrev RS16 : RVal := after Cert.ReferenceIdeal.Line.sF (RS15 m' c)

theorem KS1_eq : KS1 m c = after Cert.KernelIdeal.Reg.kP1 (KS0 m c) := rfl
theorem KS2_eq : KS2 m c = after Cert.KernelIdeal.Reg.kC1 (KS1 m c) := (afterA (Cert.KernelIdeal.Gen.V0 m c))
theorem KS4_eq : KS4 m c = after Cert.KernelIdeal.Reg.kP2 (KS3 m c) := rfl
theorem KS5_eq : KS5 m c = after Cert.KernelIdeal.Reg.kC2 (KS4 m c) := rfl
theorem KS6_eq : KS6 m c = after Cert.KernelIdeal.Reg.kP3 (KS5 m c) := rfl
theorem KS7_eq : KS7 m c = after Cert.KernelIdeal.Reg.kC3 (KS6 m c) := (afterB (U3 m c))
theorem KS9_eq : KS9 m c = after Cert.KernelIdeal.Reg.kP4 (KS8 m c) := rfl
theorem KS10_eq : KS10 m c = after Cert.KernelIdeal.Reg.kC4 (KS9 m c) := (afterC (U7 m c))
theorem KS12_eq : KS12 m c = after Cert.KernelIdeal.Reg.kP5 (KS11 m c) := rfl
theorem KS13_eq : KS13 m c = after Cert.KernelIdeal.Reg.kC5 (KS12 m c) := (afterE (U9 m c))
theorem KS16_eq : KS16 m c = after Cert.KernelIdeal.Gen.hostOps5 (KS15 m c) := rfl

/-! ## The arguments at each boundary -/

theorem KS0_main_arg0 : KS0 m c (Proc.devRef .tc Cert.KernelIdeal.main_arg0) = m ((c.tc : Thread Cert.KernelIdeal.nD Cert.KernelIdeal.τ).loc Cert.KernelIdeal.main_arg0) :=
  rfl
theorem RS0_main_arg0 : RS0 m' c (Proc.devRef .tc Cert.ReferenceIdeal.main_arg0) = m' ((c.tc : Thread Cert.ReferenceIdeal.nD Cert.ReferenceIdeal.τ).loc Cert.ReferenceIdeal.main_arg0) :=
  rfl
theorem KS0_main_arg2 : KS0 m c (Proc.devRef .tc Cert.KernelIdeal.main_arg2) = m ((c.tc : Thread Cert.KernelIdeal.nD Cert.KernelIdeal.τ).loc Cert.KernelIdeal.main_arg2) :=
  rfl
theorem RS0_main_arg2 : RS0 m' c (Proc.devRef .tc Cert.ReferenceIdeal.main_arg2) = m' ((c.tc : Thread Cert.ReferenceIdeal.nD Cert.ReferenceIdeal.τ).loc Cert.ReferenceIdeal.main_arg2) :=
  rfl
theorem KS0_main_arg1 : KS0 m c (Proc.devRef .tc Cert.KernelIdeal.main_arg1) = m ((c.tc : Thread Cert.KernelIdeal.nD Cert.KernelIdeal.τ).loc Cert.KernelIdeal.main_arg1) :=
  rfl
theorem KS1_main_arg1 : KS1 m c (Proc.devRef .tc Cert.KernelIdeal.main_arg1) = m ((c.tc : Thread Cert.KernelIdeal.nD Cert.KernelIdeal.τ).loc Cert.KernelIdeal.main_arg1) :=
  (congrFun (KS1_eq m c) _).trans ((keepK_kP1_main_arg1 _).trans (KS0_main_arg1 m c))
theorem RS0_main_arg1 : RS0 m' c (Proc.devRef .tc Cert.ReferenceIdeal.main_arg1) = m' ((c.tc : Thread Cert.ReferenceIdeal.nD Cert.ReferenceIdeal.τ).loc Cert.ReferenceIdeal.main_arg1) :=
  rfl
theorem RS1_main_arg1 : RS1 m' c (Proc.devRef .tc Cert.ReferenceIdeal.main_arg1) = m' ((c.tc : Thread Cert.ReferenceIdeal.nD Cert.ReferenceIdeal.τ).loc Cert.ReferenceIdeal.main_arg1) :=
  (keepR_rP1_main_arg1 _).trans (RS0_main_arg1 m' c)
theorem KS0_main_arg5 : KS0 m c (Proc.devRef .tc Cert.KernelIdeal.main_arg5) = m ((c.tc : Thread Cert.KernelIdeal.nD Cert.KernelIdeal.τ).loc Cert.KernelIdeal.main_arg5) :=
  rfl
theorem KS1_main_arg5 : KS1 m c (Proc.devRef .tc Cert.KernelIdeal.main_arg5) = m ((c.tc : Thread Cert.KernelIdeal.nD Cert.KernelIdeal.τ).loc Cert.KernelIdeal.main_arg5) :=
  (congrFun (KS1_eq m c) _).trans ((keepK_kP1_main_arg5 _).trans (KS0_main_arg5 m c))
theorem RS0_main_arg4 : RS0 m' c (Proc.devRef .tc Cert.ReferenceIdeal.main_arg4) = m' ((c.tc : Thread Cert.ReferenceIdeal.nD Cert.ReferenceIdeal.τ).loc Cert.ReferenceIdeal.main_arg4) :=
  rfl
theorem RS1_main_arg4 : RS1 m' c (Proc.devRef .tc Cert.ReferenceIdeal.main_arg4) = m' ((c.tc : Thread Cert.ReferenceIdeal.nD Cert.ReferenceIdeal.τ).loc Cert.ReferenceIdeal.main_arg4) :=
  (keepR_rP1_main_arg4 _).trans (RS0_main_arg4 m' c)
theorem RS2_main_arg4 : RS2 m' c (Proc.devRef .tc Cert.ReferenceIdeal.main_arg4) = m' ((c.tc : Thread Cert.ReferenceIdeal.nD Cert.ReferenceIdeal.τ).loc Cert.ReferenceIdeal.main_arg4) :=
  (keepR_rC1_main_arg4 _).trans (RS1_main_arg4 m' c)
theorem RS0_main_arg5 : RS0 m' c (Proc.devRef .tc Cert.ReferenceIdeal.main_arg5) = m' ((c.tc : Thread Cert.ReferenceIdeal.nD Cert.ReferenceIdeal.τ).loc Cert.ReferenceIdeal.main_arg5) :=
  rfl
theorem RS1_main_arg5 : RS1 m' c (Proc.devRef .tc Cert.ReferenceIdeal.main_arg5) = m' ((c.tc : Thread Cert.ReferenceIdeal.nD Cert.ReferenceIdeal.τ).loc Cert.ReferenceIdeal.main_arg5) :=
  (keepR_rP1_main_arg5 _).trans (RS0_main_arg5 m' c)
theorem RS2_main_arg5 : RS2 m' c (Proc.devRef .tc Cert.ReferenceIdeal.main_arg5) = m' ((c.tc : Thread Cert.ReferenceIdeal.nD Cert.ReferenceIdeal.τ).loc Cert.ReferenceIdeal.main_arg5) :=
  (keepR_rC1_main_arg5 _).trans (RS1_main_arg5 m' c)
theorem KS0_main_arg4 : KS0 m c (Proc.devRef .tc Cert.KernelIdeal.main_arg4) = m ((c.tc : Thread Cert.KernelIdeal.nD Cert.KernelIdeal.τ).loc Cert.KernelIdeal.main_arg4) :=
  rfl
theorem KS1_main_arg4 : KS1 m c (Proc.devRef .tc Cert.KernelIdeal.main_arg4) = m ((c.tc : Thread Cert.KernelIdeal.nD Cert.KernelIdeal.τ).loc Cert.KernelIdeal.main_arg4) :=
  (congrFun (KS1_eq m c) _).trans ((keepK_kP1_main_arg4 _).trans (KS0_main_arg4 m c))
theorem KS2_main_arg4 : KS2 m c (Proc.devRef .tc Cert.KernelIdeal.main_arg4) = m ((c.tc : Thread Cert.KernelIdeal.nD Cert.KernelIdeal.τ).loc Cert.KernelIdeal.main_arg4) :=
  (congrFun (KS2_eq m c) _).trans ((keepK_kC1_main_arg4 _).trans (KS1_main_arg4 m c))
theorem KS0_main_arg3 : KS0 m c (Proc.devRef .tc Cert.KernelIdeal.main_arg3) = m ((c.tc : Thread Cert.KernelIdeal.nD Cert.KernelIdeal.τ).loc Cert.KernelIdeal.main_arg3) :=
  rfl
theorem KS1_main_arg3 : KS1 m c (Proc.devRef .tc Cert.KernelIdeal.main_arg3) = m ((c.tc : Thread Cert.KernelIdeal.nD Cert.KernelIdeal.τ).loc Cert.KernelIdeal.main_arg3) :=
  (congrFun (KS1_eq m c) _).trans ((keepK_kP1_main_arg3 _).trans (KS0_main_arg3 m c))
theorem KS2_main_arg3 : KS2 m c (Proc.devRef .tc Cert.KernelIdeal.main_arg3) = m ((c.tc : Thread Cert.KernelIdeal.nD Cert.KernelIdeal.τ).loc Cert.KernelIdeal.main_arg3) :=
  (congrFun (KS2_eq m c) _).trans ((keepK_kC1_main_arg3 _).trans (KS1_main_arg3 m c))
theorem KS3_main_arg3 : KS3 m c (Proc.devRef .tc Cert.KernelIdeal.main_arg3) = m ((c.tc : Thread Cert.KernelIdeal.nD Cert.KernelIdeal.τ).loc Cert.KernelIdeal.main_arg3) :=
  (Function.update_of_ne (StableHlo.devRef_ne_of_ne (by decide)) _ _).trans (KS2_main_arg3 m c)
theorem RS0_main_arg3 : RS0 m' c (Proc.devRef .tc Cert.ReferenceIdeal.main_arg3) = m' ((c.tc : Thread Cert.ReferenceIdeal.nD Cert.ReferenceIdeal.τ).loc Cert.ReferenceIdeal.main_arg3) :=
  rfl
theorem RS1_main_arg3 : RS1 m' c (Proc.devRef .tc Cert.ReferenceIdeal.main_arg3) = m' ((c.tc : Thread Cert.ReferenceIdeal.nD Cert.ReferenceIdeal.τ).loc Cert.ReferenceIdeal.main_arg3) :=
  (keepR_rP1_main_arg3 _).trans (RS0_main_arg3 m' c)
theorem RS2_main_arg3 : RS2 m' c (Proc.devRef .tc Cert.ReferenceIdeal.main_arg3) = m' ((c.tc : Thread Cert.ReferenceIdeal.nD Cert.ReferenceIdeal.τ).loc Cert.ReferenceIdeal.main_arg3) :=
  (keepR_rC1_main_arg3 _).trans (RS1_main_arg3 m' c)
theorem RS3_main_arg3 : RS3 m' c (Proc.devRef .tc Cert.ReferenceIdeal.main_arg3) = m' ((c.tc : Thread Cert.ReferenceIdeal.nD Cert.ReferenceIdeal.τ).loc Cert.ReferenceIdeal.main_arg3) :=
  (keepR_sD0_main_arg3 _).trans (RS2_main_arg3 m' c)
theorem KS4_main_arg3 : KS4 m c (Proc.devRef .tc Cert.KernelIdeal.main_arg3) = m ((c.tc : Thread Cert.KernelIdeal.nD Cert.KernelIdeal.τ).loc Cert.KernelIdeal.main_arg3) :=
  (congrFun (KS4_eq m c) _).trans ((keepK_kP2_main_arg3 _).trans (KS3_main_arg3 m c))
theorem KS5_main_arg3 : KS5 m c (Proc.devRef .tc Cert.KernelIdeal.main_arg3) = m ((c.tc : Thread Cert.KernelIdeal.nD Cert.KernelIdeal.τ).loc Cert.KernelIdeal.main_arg3) :=
  (congrFun (KS5_eq m c) _).trans ((keepK_kC2_main_arg3 _).trans (KS4_main_arg3 m c))
theorem RS4_main_arg3 : RS4 m' c (Proc.devRef .tc Cert.ReferenceIdeal.main_arg3) = m' ((c.tc : Thread Cert.ReferenceIdeal.nD Cert.ReferenceIdeal.τ).loc Cert.ReferenceIdeal.main_arg3) :=
  (keepR_rP2_main_arg3 _).trans (RS3_main_arg3 m' c)
theorem RS5_main_arg3 : RS5 m' c (Proc.devRef .tc Cert.ReferenceIdeal.main_arg3) = m' ((c.tc : Thread Cert.ReferenceIdeal.nD Cert.ReferenceIdeal.τ).loc Cert.ReferenceIdeal.main_arg3) :=
  (keepR_rC2_main_arg3 _).trans (RS4_main_arg3 m' c)
theorem KS1_main_arg2 : KS1 m c (Proc.devRef .tc Cert.KernelIdeal.main_arg2) = m ((c.tc : Thread Cert.KernelIdeal.nD Cert.KernelIdeal.τ).loc Cert.KernelIdeal.main_arg2) :=
  (congrFun (KS1_eq m c) _).trans ((keepK_kP1_main_arg2 _).trans (KS0_main_arg2 m c))
theorem KS2_main_arg2 : KS2 m c (Proc.devRef .tc Cert.KernelIdeal.main_arg2) = m ((c.tc : Thread Cert.KernelIdeal.nD Cert.KernelIdeal.τ).loc Cert.KernelIdeal.main_arg2) :=
  (congrFun (KS2_eq m c) _).trans ((keepK_kC1_main_arg2 _).trans (KS1_main_arg2 m c))
theorem KS3_main_arg2 : KS3 m c (Proc.devRef .tc Cert.KernelIdeal.main_arg2) = m ((c.tc : Thread Cert.KernelIdeal.nD Cert.KernelIdeal.τ).loc Cert.KernelIdeal.main_arg2) :=
  (Function.update_of_ne (StableHlo.devRef_ne_of_ne (by decide)) _ _).trans (KS2_main_arg2 m c)
theorem KS4_main_arg2 : KS4 m c (Proc.devRef .tc Cert.KernelIdeal.main_arg2) = m ((c.tc : Thread Cert.KernelIdeal.nD Cert.KernelIdeal.τ).loc Cert.KernelIdeal.main_arg2) :=
  (congrFun (KS4_eq m c) _).trans ((keepK_kP2_main_arg2 _).trans (KS3_main_arg2 m c))
theorem KS5_main_arg2 : KS5 m c (Proc.devRef .tc Cert.KernelIdeal.main_arg2) = m ((c.tc : Thread Cert.KernelIdeal.nD Cert.KernelIdeal.τ).loc Cert.KernelIdeal.main_arg2) :=
  (congrFun (KS5_eq m c) _).trans ((keepK_kC2_main_arg2 _).trans (KS4_main_arg2 m c))
theorem RS1_main_arg2 : RS1 m' c (Proc.devRef .tc Cert.ReferenceIdeal.main_arg2) = m' ((c.tc : Thread Cert.ReferenceIdeal.nD Cert.ReferenceIdeal.τ).loc Cert.ReferenceIdeal.main_arg2) :=
  (keepR_rP1_main_arg2 _).trans (RS0_main_arg2 m' c)
theorem RS2_main_arg2 : RS2 m' c (Proc.devRef .tc Cert.ReferenceIdeal.main_arg2) = m' ((c.tc : Thread Cert.ReferenceIdeal.nD Cert.ReferenceIdeal.τ).loc Cert.ReferenceIdeal.main_arg2) :=
  (keepR_rC1_main_arg2 _).trans (RS1_main_arg2 m' c)
theorem RS3_main_arg2 : RS3 m' c (Proc.devRef .tc Cert.ReferenceIdeal.main_arg2) = m' ((c.tc : Thread Cert.ReferenceIdeal.nD Cert.ReferenceIdeal.τ).loc Cert.ReferenceIdeal.main_arg2) :=
  (keepR_sD0_main_arg2 _).trans (RS2_main_arg2 m' c)
theorem RS4_main_arg2 : RS4 m' c (Proc.devRef .tc Cert.ReferenceIdeal.main_arg2) = m' ((c.tc : Thread Cert.ReferenceIdeal.nD Cert.ReferenceIdeal.τ).loc Cert.ReferenceIdeal.main_arg2) :=
  (keepR_rP2_main_arg2 _).trans (RS3_main_arg2 m' c)
theorem RS5_main_arg2 : RS5 m' c (Proc.devRef .tc Cert.ReferenceIdeal.main_arg2) = m' ((c.tc : Thread Cert.ReferenceIdeal.nD Cert.ReferenceIdeal.τ).loc Cert.ReferenceIdeal.main_arg2) :=
  (keepR_rC2_main_arg2 _).trans (RS4_main_arg2 m' c)
theorem KS0_main_arg7 : KS0 m c (Proc.devRef .tc Cert.KernelIdeal.main_arg7) = m ((c.tc : Thread Cert.KernelIdeal.nD Cert.KernelIdeal.τ).loc Cert.KernelIdeal.main_arg7) :=
  rfl
theorem KS1_main_arg7 : KS1 m c (Proc.devRef .tc Cert.KernelIdeal.main_arg7) = m ((c.tc : Thread Cert.KernelIdeal.nD Cert.KernelIdeal.τ).loc Cert.KernelIdeal.main_arg7) :=
  (congrFun (KS1_eq m c) _).trans ((keepK_kP1_main_arg7 _).trans (KS0_main_arg7 m c))
theorem KS2_main_arg7 : KS2 m c (Proc.devRef .tc Cert.KernelIdeal.main_arg7) = m ((c.tc : Thread Cert.KernelIdeal.nD Cert.KernelIdeal.τ).loc Cert.KernelIdeal.main_arg7) :=
  (congrFun (KS2_eq m c) _).trans ((keepK_kC1_main_arg7 _).trans (KS1_main_arg7 m c))
theorem KS3_main_arg7 : KS3 m c (Proc.devRef .tc Cert.KernelIdeal.main_arg7) = m ((c.tc : Thread Cert.KernelIdeal.nD Cert.KernelIdeal.τ).loc Cert.KernelIdeal.main_arg7) :=
  (Function.update_of_ne (StableHlo.devRef_ne_of_ne (by decide)) _ _).trans (KS2_main_arg7 m c)
theorem KS4_main_arg7 : KS4 m c (Proc.devRef .tc Cert.KernelIdeal.main_arg7) = m ((c.tc : Thread Cert.KernelIdeal.nD Cert.KernelIdeal.τ).loc Cert.KernelIdeal.main_arg7) :=
  (congrFun (KS4_eq m c) _).trans ((keepK_kP2_main_arg7 _).trans (KS3_main_arg7 m c))
theorem KS5_main_arg7 : KS5 m c (Proc.devRef .tc Cert.KernelIdeal.main_arg7) = m ((c.tc : Thread Cert.KernelIdeal.nD Cert.KernelIdeal.τ).loc Cert.KernelIdeal.main_arg7) :=
  (congrFun (KS5_eq m c) _).trans ((keepK_kC2_main_arg7 _).trans (KS4_main_arg7 m c))
theorem KS6_main_arg7 : KS6 m c (Proc.devRef .tc Cert.KernelIdeal.main_arg7) = m ((c.tc : Thread Cert.KernelIdeal.nD Cert.KernelIdeal.τ).loc Cert.KernelIdeal.main_arg7) :=
  (congrFun (KS6_eq m c) _).trans ((keepK_kP3_main_arg7 _).trans (KS5_main_arg7 m c))
theorem RS0_main_arg6 : RS0 m' c (Proc.devRef .tc Cert.ReferenceIdeal.main_arg6) = m' ((c.tc : Thread Cert.ReferenceIdeal.nD Cert.ReferenceIdeal.τ).loc Cert.ReferenceIdeal.main_arg6) :=
  rfl
theorem RS1_main_arg6 : RS1 m' c (Proc.devRef .tc Cert.ReferenceIdeal.main_arg6) = m' ((c.tc : Thread Cert.ReferenceIdeal.nD Cert.ReferenceIdeal.τ).loc Cert.ReferenceIdeal.main_arg6) :=
  (keepR_rP1_main_arg6 _).trans (RS0_main_arg6 m' c)
theorem RS2_main_arg6 : RS2 m' c (Proc.devRef .tc Cert.ReferenceIdeal.main_arg6) = m' ((c.tc : Thread Cert.ReferenceIdeal.nD Cert.ReferenceIdeal.τ).loc Cert.ReferenceIdeal.main_arg6) :=
  (keepR_rC1_main_arg6 _).trans (RS1_main_arg6 m' c)
theorem RS3_main_arg6 : RS3 m' c (Proc.devRef .tc Cert.ReferenceIdeal.main_arg6) = m' ((c.tc : Thread Cert.ReferenceIdeal.nD Cert.ReferenceIdeal.τ).loc Cert.ReferenceIdeal.main_arg6) :=
  (keepR_sD0_main_arg6 _).trans (RS2_main_arg6 m' c)
theorem RS4_main_arg6 : RS4 m' c (Proc.devRef .tc Cert.ReferenceIdeal.main_arg6) = m' ((c.tc : Thread Cert.ReferenceIdeal.nD Cert.ReferenceIdeal.τ).loc Cert.ReferenceIdeal.main_arg6) :=
  (keepR_rP2_main_arg6 _).trans (RS3_main_arg6 m' c)
theorem RS5_main_arg6 : RS5 m' c (Proc.devRef .tc Cert.ReferenceIdeal.main_arg6) = m' ((c.tc : Thread Cert.ReferenceIdeal.nD Cert.ReferenceIdeal.τ).loc Cert.ReferenceIdeal.main_arg6) :=
  (keepR_rC2_main_arg6 _).trans (RS4_main_arg6 m' c)
theorem RS6_main_arg6 : RS6 m' c (Proc.devRef .tc Cert.ReferenceIdeal.main_arg6) = m' ((c.tc : Thread Cert.ReferenceIdeal.nD Cert.ReferenceIdeal.τ).loc Cert.ReferenceIdeal.main_arg6) :=
  (keepR_rP3_main_arg6 _).trans (RS5_main_arg6 m' c)
theorem RS7_main_arg6 : RS7 m' c (Proc.devRef .tc Cert.ReferenceIdeal.main_arg6) = m' ((c.tc : Thread Cert.ReferenceIdeal.nD Cert.ReferenceIdeal.τ).loc Cert.ReferenceIdeal.main_arg6) :=
  (keepR_rC3_main_arg6 _).trans (RS6_main_arg6 m' c)
theorem RS0_main_arg7 : RS0 m' c (Proc.devRef .tc Cert.ReferenceIdeal.main_arg7) = m' ((c.tc : Thread Cert.ReferenceIdeal.nD Cert.ReferenceIdeal.τ).loc Cert.ReferenceIdeal.main_arg7) :=
  rfl
theorem RS1_main_arg7 : RS1 m' c (Proc.devRef .tc Cert.ReferenceIdeal.main_arg7) = m' ((c.tc : Thread Cert.ReferenceIdeal.nD Cert.ReferenceIdeal.τ).loc Cert.ReferenceIdeal.main_arg7) :=
  (keepR_rP1_main_arg7 _).trans (RS0_main_arg7 m' c)
theorem RS2_main_arg7 : RS2 m' c (Proc.devRef .tc Cert.ReferenceIdeal.main_arg7) = m' ((c.tc : Thread Cert.ReferenceIdeal.nD Cert.ReferenceIdeal.τ).loc Cert.ReferenceIdeal.main_arg7) :=
  (keepR_rC1_main_arg7 _).trans (RS1_main_arg7 m' c)
theorem RS3_main_arg7 : RS3 m' c (Proc.devRef .tc Cert.ReferenceIdeal.main_arg7) = m' ((c.tc : Thread Cert.ReferenceIdeal.nD Cert.ReferenceIdeal.τ).loc Cert.ReferenceIdeal.main_arg7) :=
  (keepR_sD0_main_arg7 _).trans (RS2_main_arg7 m' c)
theorem RS4_main_arg7 : RS4 m' c (Proc.devRef .tc Cert.ReferenceIdeal.main_arg7) = m' ((c.tc : Thread Cert.ReferenceIdeal.nD Cert.ReferenceIdeal.τ).loc Cert.ReferenceIdeal.main_arg7) :=
  (keepR_rP2_main_arg7 _).trans (RS3_main_arg7 m' c)
theorem RS5_main_arg7 : RS5 m' c (Proc.devRef .tc Cert.ReferenceIdeal.main_arg7) = m' ((c.tc : Thread Cert.ReferenceIdeal.nD Cert.ReferenceIdeal.τ).loc Cert.ReferenceIdeal.main_arg7) :=
  (keepR_rC2_main_arg7 _).trans (RS4_main_arg7 m' c)
theorem RS6_main_arg7 : RS6 m' c (Proc.devRef .tc Cert.ReferenceIdeal.main_arg7) = m' ((c.tc : Thread Cert.ReferenceIdeal.nD Cert.ReferenceIdeal.τ).loc Cert.ReferenceIdeal.main_arg7) :=
  (keepR_rP3_main_arg7 _).trans (RS5_main_arg7 m' c)
theorem RS7_main_arg7 : RS7 m' c (Proc.devRef .tc Cert.ReferenceIdeal.main_arg7) = m' ((c.tc : Thread Cert.ReferenceIdeal.nD Cert.ReferenceIdeal.τ).loc Cert.ReferenceIdeal.main_arg7) :=
  (keepR_rC3_main_arg7 _).trans (RS6_main_arg7 m' c)
theorem KS0_main_arg6 : KS0 m c (Proc.devRef .tc Cert.KernelIdeal.main_arg6) = m ((c.tc : Thread Cert.KernelIdeal.nD Cert.KernelIdeal.τ).loc Cert.KernelIdeal.main_arg6) :=
  rfl
theorem KS1_main_arg6 : KS1 m c (Proc.devRef .tc Cert.KernelIdeal.main_arg6) = m ((c.tc : Thread Cert.KernelIdeal.nD Cert.KernelIdeal.τ).loc Cert.KernelIdeal.main_arg6) :=
  (congrFun (KS1_eq m c) _).trans ((keepK_kP1_main_arg6 _).trans (KS0_main_arg6 m c))
theorem KS2_main_arg6 : KS2 m c (Proc.devRef .tc Cert.KernelIdeal.main_arg6) = m ((c.tc : Thread Cert.KernelIdeal.nD Cert.KernelIdeal.τ).loc Cert.KernelIdeal.main_arg6) :=
  (congrFun (KS2_eq m c) _).trans ((keepK_kC1_main_arg6 _).trans (KS1_main_arg6 m c))
theorem KS3_main_arg6 : KS3 m c (Proc.devRef .tc Cert.KernelIdeal.main_arg6) = m ((c.tc : Thread Cert.KernelIdeal.nD Cert.KernelIdeal.τ).loc Cert.KernelIdeal.main_arg6) :=
  (Function.update_of_ne (StableHlo.devRef_ne_of_ne (by decide)) _ _).trans (KS2_main_arg6 m c)
theorem KS4_main_arg6 : KS4 m c (Proc.devRef .tc Cert.KernelIdeal.main_arg6) = m ((c.tc : Thread Cert.KernelIdeal.nD Cert.KernelIdeal.τ).loc Cert.KernelIdeal.main_arg6) :=
  (congrFun (KS4_eq m c) _).trans ((keepK_kP2_main_arg6 _).trans (KS3_main_arg6 m c))
theorem KS5_main_arg6 : KS5 m c (Proc.devRef .tc Cert.KernelIdeal.main_arg6) = m ((c.tc : Thread Cert.KernelIdeal.nD Cert.KernelIdeal.τ).loc Cert.KernelIdeal.main_arg6) :=
  (congrFun (KS5_eq m c) _).trans ((keepK_kC2_main_arg6 _).trans (KS4_main_arg6 m c))
theorem KS6_main_arg6 : KS6 m c (Proc.devRef .tc Cert.KernelIdeal.main_arg6) = m ((c.tc : Thread Cert.KernelIdeal.nD Cert.KernelIdeal.τ).loc Cert.KernelIdeal.main_arg6) :=
  (congrFun (KS6_eq m c) _).trans ((keepK_kP3_main_arg6 _).trans (KS5_main_arg6 m c))
theorem KS7_main_arg6 : KS7 m c (Proc.devRef .tc Cert.KernelIdeal.main_arg6) = m ((c.tc : Thread Cert.KernelIdeal.nD Cert.KernelIdeal.τ).loc Cert.KernelIdeal.main_arg6) :=
  (congrFun (KS7_eq m c) _).trans ((keepK_kC3_main_arg6 _).trans (KS6_main_arg6 m c))
theorem KS6_main_arg3 : KS6 m c (Proc.devRef .tc Cert.KernelIdeal.main_arg3) = m ((c.tc : Thread Cert.KernelIdeal.nD Cert.KernelIdeal.τ).loc Cert.KernelIdeal.main_arg3) :=
  (congrFun (KS6_eq m c) _).trans ((keepK_kP3_main_arg3 _).trans (KS5_main_arg3 m c))
theorem KS7_main_arg3 : KS7 m c (Proc.devRef .tc Cert.KernelIdeal.main_arg3) = m ((c.tc : Thread Cert.KernelIdeal.nD Cert.KernelIdeal.τ).loc Cert.KernelIdeal.main_arg3) :=
  (congrFun (KS7_eq m c) _).trans ((keepK_kC3_main_arg3 _).trans (KS6_main_arg3 m c))
theorem KS8_main_arg3 : KS8 m c (Proc.devRef .tc Cert.KernelIdeal.main_arg3) = m ((c.tc : Thread Cert.KernelIdeal.nD Cert.KernelIdeal.τ).loc Cert.KernelIdeal.main_arg3) :=
  (Function.update_of_ne (StableHlo.devRef_ne_of_ne (by decide)) _ _).trans (KS7_main_arg3 m c)
theorem RS6_main_arg3 : RS6 m' c (Proc.devRef .tc Cert.ReferenceIdeal.main_arg3) = m' ((c.tc : Thread Cert.ReferenceIdeal.nD Cert.ReferenceIdeal.τ).loc Cert.ReferenceIdeal.main_arg3) :=
  (keepR_rP3_main_arg3 _).trans (RS5_main_arg3 m' c)
theorem RS7_main_arg3 : RS7 m' c (Proc.devRef .tc Cert.ReferenceIdeal.main_arg3) = m' ((c.tc : Thread Cert.ReferenceIdeal.nD Cert.ReferenceIdeal.τ).loc Cert.ReferenceIdeal.main_arg3) :=
  (keepR_rC3_main_arg3 _).trans (RS6_main_arg3 m' c)
theorem RS8_main_arg3 : RS8 m' c (Proc.devRef .tc Cert.ReferenceIdeal.main_arg3) = m' ((c.tc : Thread Cert.ReferenceIdeal.nD Cert.ReferenceIdeal.τ).loc Cert.ReferenceIdeal.main_arg3) :=
  (keepR_sD1_main_arg3 _).trans (RS7_main_arg3 m' c)
theorem KS6_main_arg2 : KS6 m c (Proc.devRef .tc Cert.KernelIdeal.main_arg2) = m ((c.tc : Thread Cert.KernelIdeal.nD Cert.KernelIdeal.τ).loc Cert.KernelIdeal.main_arg2) :=
  (congrFun (KS6_eq m c) _).trans ((keepK_kP3_main_arg2 _).trans (KS5_main_arg2 m c))
theorem KS7_main_arg2 : KS7 m c (Proc.devRef .tc Cert.KernelIdeal.main_arg2) = m ((c.tc : Thread Cert.KernelIdeal.nD Cert.KernelIdeal.τ).loc Cert.KernelIdeal.main_arg2) :=
  (congrFun (KS7_eq m c) _).trans ((keepK_kC3_main_arg2 _).trans (KS6_main_arg2 m c))
theorem KS8_main_arg2 : KS8 m c (Proc.devRef .tc Cert.KernelIdeal.main_arg2) = m ((c.tc : Thread Cert.KernelIdeal.nD Cert.KernelIdeal.τ).loc Cert.KernelIdeal.main_arg2) :=
  (Function.update_of_ne (StableHlo.devRef_ne_of_ne (by decide)) _ _).trans (KS7_main_arg2 m c)
theorem RS6_main_arg2 : RS6 m' c (Proc.devRef .tc Cert.ReferenceIdeal.main_arg2) = m' ((c.tc : Thread Cert.ReferenceIdeal.nD Cert.ReferenceIdeal.τ).loc Cert.ReferenceIdeal.main_arg2) :=
  (keepR_rP3_main_arg2 _).trans (RS5_main_arg2 m' c)
theorem RS7_main_arg2 : RS7 m' c (Proc.devRef .tc Cert.ReferenceIdeal.main_arg2) = m' ((c.tc : Thread Cert.ReferenceIdeal.nD Cert.ReferenceIdeal.τ).loc Cert.ReferenceIdeal.main_arg2) :=
  (keepR_rC3_main_arg2 _).trans (RS6_main_arg2 m' c)
theorem RS8_main_arg2 : RS8 m' c (Proc.devRef .tc Cert.ReferenceIdeal.main_arg2) = m' ((c.tc : Thread Cert.ReferenceIdeal.nD Cert.ReferenceIdeal.τ).loc Cert.ReferenceIdeal.main_arg2) :=
  (keepR_sD1_main_arg2 _).trans (RS7_main_arg2 m' c)
theorem KS0_main_arg9 : KS0 m c (Proc.devRef .tc Cert.KernelIdeal.main_arg9) = m ((c.tc : Thread Cert.KernelIdeal.nD Cert.KernelIdeal.τ).loc Cert.KernelIdeal.main_arg9) :=
  rfl
theorem KS1_main_arg9 : KS1 m c (Proc.devRef .tc Cert.KernelIdeal.main_arg9) = m ((c.tc : Thread Cert.KernelIdeal.nD Cert.KernelIdeal.τ).loc Cert.KernelIdeal.main_arg9) :=
  (congrFun (KS1_eq m c) _).trans ((keepK_kP1_main_arg9 _).trans (KS0_main_arg9 m c))
theorem KS2_main_arg9 : KS2 m c (Proc.devRef .tc Cert.KernelIdeal.main_arg9) = m ((c.tc : Thread Cert.KernelIdeal.nD Cert.KernelIdeal.τ).loc Cert.KernelIdeal.main_arg9) :=
  (congrFun (KS2_eq m c) _).trans ((keepK_kC1_main_arg9 _).trans (KS1_main_arg9 m c))
theorem KS3_main_arg9 : KS3 m c (Proc.devRef .tc Cert.KernelIdeal.main_arg9) = m ((c.tc : Thread Cert.KernelIdeal.nD Cert.KernelIdeal.τ).loc Cert.KernelIdeal.main_arg9) :=
  (Function.update_of_ne (StableHlo.devRef_ne_of_ne (by decide)) _ _).trans (KS2_main_arg9 m c)
theorem KS4_main_arg9 : KS4 m c (Proc.devRef .tc Cert.KernelIdeal.main_arg9) = m ((c.tc : Thread Cert.KernelIdeal.nD Cert.KernelIdeal.τ).loc Cert.KernelIdeal.main_arg9) :=
  (congrFun (KS4_eq m c) _).trans ((keepK_kP2_main_arg9 _).trans (KS3_main_arg9 m c))
theorem KS5_main_arg9 : KS5 m c (Proc.devRef .tc Cert.KernelIdeal.main_arg9) = m ((c.tc : Thread Cert.KernelIdeal.nD Cert.KernelIdeal.τ).loc Cert.KernelIdeal.main_arg9) :=
  (congrFun (KS5_eq m c) _).trans ((keepK_kC2_main_arg9 _).trans (KS4_main_arg9 m c))
theorem KS6_main_arg9 : KS6 m c (Proc.devRef .tc Cert.KernelIdeal.main_arg9) = m ((c.tc : Thread Cert.KernelIdeal.nD Cert.KernelIdeal.τ).loc Cert.KernelIdeal.main_arg9) :=
  (congrFun (KS6_eq m c) _).trans ((keepK_kP3_main_arg9 _).trans (KS5_main_arg9 m c))
theorem KS7_main_arg9 : KS7 m c (Proc.devRef .tc Cert.KernelIdeal.main_arg9) = m ((c.tc : Thread Cert.KernelIdeal.nD Cert.KernelIdeal.τ).loc Cert.KernelIdeal.main_arg9) :=
  (congrFun (KS7_eq m c) _).trans ((keepK_kC3_main_arg9 _).trans (KS6_main_arg9 m c))
theorem KS8_main_arg9 : KS8 m c (Proc.devRef .tc Cert.KernelIdeal.main_arg9) = m ((c.tc : Thread Cert.KernelIdeal.nD Cert.KernelIdeal.τ).loc Cert.KernelIdeal.main_arg9) :=
  (Function.update_of_ne (StableHlo.devRef_ne_of_ne (by decide)) _ _).trans (KS7_main_arg9 m c)
theorem KS9_main_arg9 : KS9 m c (Proc.devRef .tc Cert.KernelIdeal.main_arg9) = m ((c.tc : Thread Cert.KernelIdeal.nD Cert.KernelIdeal.τ).loc Cert.KernelIdeal.main_arg9) :=
  (congrFun (KS9_eq m c) _).trans ((keepK_kP4_main_arg9 _).trans (KS8_main_arg9 m c))
theorem RS0_main_arg8 : RS0 m' c (Proc.devRef .tc Cert.ReferenceIdeal.main_arg8) = m' ((c.tc : Thread Cert.ReferenceIdeal.nD Cert.ReferenceIdeal.τ).loc Cert.ReferenceIdeal.main_arg8) :=
  rfl
theorem RS1_main_arg8 : RS1 m' c (Proc.devRef .tc Cert.ReferenceIdeal.main_arg8) = m' ((c.tc : Thread Cert.ReferenceIdeal.nD Cert.ReferenceIdeal.τ).loc Cert.ReferenceIdeal.main_arg8) :=
  (keepR_rP1_main_arg8 _).trans (RS0_main_arg8 m' c)
theorem RS2_main_arg8 : RS2 m' c (Proc.devRef .tc Cert.ReferenceIdeal.main_arg8) = m' ((c.tc : Thread Cert.ReferenceIdeal.nD Cert.ReferenceIdeal.τ).loc Cert.ReferenceIdeal.main_arg8) :=
  (keepR_rC1_main_arg8 _).trans (RS1_main_arg8 m' c)
theorem RS3_main_arg8 : RS3 m' c (Proc.devRef .tc Cert.ReferenceIdeal.main_arg8) = m' ((c.tc : Thread Cert.ReferenceIdeal.nD Cert.ReferenceIdeal.τ).loc Cert.ReferenceIdeal.main_arg8) :=
  (keepR_sD0_main_arg8 _).trans (RS2_main_arg8 m' c)
theorem RS4_main_arg8 : RS4 m' c (Proc.devRef .tc Cert.ReferenceIdeal.main_arg8) = m' ((c.tc : Thread Cert.ReferenceIdeal.nD Cert.ReferenceIdeal.τ).loc Cert.ReferenceIdeal.main_arg8) :=
  (keepR_rP2_main_arg8 _).trans (RS3_main_arg8 m' c)
theorem RS5_main_arg8 : RS5 m' c (Proc.devRef .tc Cert.ReferenceIdeal.main_arg8) = m' ((c.tc : Thread Cert.ReferenceIdeal.nD Cert.ReferenceIdeal.τ).loc Cert.ReferenceIdeal.main_arg8) :=
  (keepR_rC2_main_arg8 _).trans (RS4_main_arg8 m' c)
theorem RS6_main_arg8 : RS6 m' c (Proc.devRef .tc Cert.ReferenceIdeal.main_arg8) = m' ((c.tc : Thread Cert.ReferenceIdeal.nD Cert.ReferenceIdeal.τ).loc Cert.ReferenceIdeal.main_arg8) :=
  (keepR_rP3_main_arg8 _).trans (RS5_main_arg8 m' c)
theorem RS7_main_arg8 : RS7 m' c (Proc.devRef .tc Cert.ReferenceIdeal.main_arg8) = m' ((c.tc : Thread Cert.ReferenceIdeal.nD Cert.ReferenceIdeal.τ).loc Cert.ReferenceIdeal.main_arg8) :=
  (keepR_rC3_main_arg8 _).trans (RS6_main_arg8 m' c)
theorem RS8_main_arg8 : RS8 m' c (Proc.devRef .tc Cert.ReferenceIdeal.main_arg8) = m' ((c.tc : Thread Cert.ReferenceIdeal.nD Cert.ReferenceIdeal.τ).loc Cert.ReferenceIdeal.main_arg8) :=
  (keepR_sD1_main_arg8 _).trans (RS7_main_arg8 m' c)
theorem RS9_main_arg8 : RS9 m' c (Proc.devRef .tc Cert.ReferenceIdeal.main_arg8) = m' ((c.tc : Thread Cert.ReferenceIdeal.nD Cert.ReferenceIdeal.τ).loc Cert.ReferenceIdeal.main_arg8) :=
  (keepR_rP4_main_arg8 _).trans (RS8_main_arg8 m' c)
theorem RS10_main_arg8 : RS10 m' c (Proc.devRef .tc Cert.ReferenceIdeal.main_arg8) = m' ((c.tc : Thread Cert.ReferenceIdeal.nD Cert.ReferenceIdeal.τ).loc Cert.ReferenceIdeal.main_arg8) :=
  (keepR_rC4_main_arg8 _).trans (RS9_main_arg8 m' c)
theorem RS0_main_arg9 : RS0 m' c (Proc.devRef .tc Cert.ReferenceIdeal.main_arg9) = m' ((c.tc : Thread Cert.ReferenceIdeal.nD Cert.ReferenceIdeal.τ).loc Cert.ReferenceIdeal.main_arg9) :=
  rfl
theorem RS1_main_arg9 : RS1 m' c (Proc.devRef .tc Cert.ReferenceIdeal.main_arg9) = m' ((c.tc : Thread Cert.ReferenceIdeal.nD Cert.ReferenceIdeal.τ).loc Cert.ReferenceIdeal.main_arg9) :=
  (keepR_rP1_main_arg9 _).trans (RS0_main_arg9 m' c)
theorem RS2_main_arg9 : RS2 m' c (Proc.devRef .tc Cert.ReferenceIdeal.main_arg9) = m' ((c.tc : Thread Cert.ReferenceIdeal.nD Cert.ReferenceIdeal.τ).loc Cert.ReferenceIdeal.main_arg9) :=
  (keepR_rC1_main_arg9 _).trans (RS1_main_arg9 m' c)
theorem RS3_main_arg9 : RS3 m' c (Proc.devRef .tc Cert.ReferenceIdeal.main_arg9) = m' ((c.tc : Thread Cert.ReferenceIdeal.nD Cert.ReferenceIdeal.τ).loc Cert.ReferenceIdeal.main_arg9) :=
  (keepR_sD0_main_arg9 _).trans (RS2_main_arg9 m' c)
theorem RS4_main_arg9 : RS4 m' c (Proc.devRef .tc Cert.ReferenceIdeal.main_arg9) = m' ((c.tc : Thread Cert.ReferenceIdeal.nD Cert.ReferenceIdeal.τ).loc Cert.ReferenceIdeal.main_arg9) :=
  (keepR_rP2_main_arg9 _).trans (RS3_main_arg9 m' c)
theorem RS5_main_arg9 : RS5 m' c (Proc.devRef .tc Cert.ReferenceIdeal.main_arg9) = m' ((c.tc : Thread Cert.ReferenceIdeal.nD Cert.ReferenceIdeal.τ).loc Cert.ReferenceIdeal.main_arg9) :=
  (keepR_rC2_main_arg9 _).trans (RS4_main_arg9 m' c)
theorem RS6_main_arg9 : RS6 m' c (Proc.devRef .tc Cert.ReferenceIdeal.main_arg9) = m' ((c.tc : Thread Cert.ReferenceIdeal.nD Cert.ReferenceIdeal.τ).loc Cert.ReferenceIdeal.main_arg9) :=
  (keepR_rP3_main_arg9 _).trans (RS5_main_arg9 m' c)
theorem RS7_main_arg9 : RS7 m' c (Proc.devRef .tc Cert.ReferenceIdeal.main_arg9) = m' ((c.tc : Thread Cert.ReferenceIdeal.nD Cert.ReferenceIdeal.τ).loc Cert.ReferenceIdeal.main_arg9) :=
  (keepR_rC3_main_arg9 _).trans (RS6_main_arg9 m' c)
theorem RS8_main_arg9 : RS8 m' c (Proc.devRef .tc Cert.ReferenceIdeal.main_arg9) = m' ((c.tc : Thread Cert.ReferenceIdeal.nD Cert.ReferenceIdeal.τ).loc Cert.ReferenceIdeal.main_arg9) :=
  (keepR_sD1_main_arg9 _).trans (RS7_main_arg9 m' c)
theorem RS9_main_arg9 : RS9 m' c (Proc.devRef .tc Cert.ReferenceIdeal.main_arg9) = m' ((c.tc : Thread Cert.ReferenceIdeal.nD Cert.ReferenceIdeal.τ).loc Cert.ReferenceIdeal.main_arg9) :=
  (keepR_rP4_main_arg9 _).trans (RS8_main_arg9 m' c)
theorem RS10_main_arg9 : RS10 m' c (Proc.devRef .tc Cert.ReferenceIdeal.main_arg9) = m' ((c.tc : Thread Cert.ReferenceIdeal.nD Cert.ReferenceIdeal.τ).loc Cert.ReferenceIdeal.main_arg9) :=
  (keepR_rC4_main_arg9 _).trans (RS9_main_arg9 m' c)
theorem KS0_main_arg8 : KS0 m c (Proc.devRef .tc Cert.KernelIdeal.main_arg8) = m ((c.tc : Thread Cert.KernelIdeal.nD Cert.KernelIdeal.τ).loc Cert.KernelIdeal.main_arg8) :=
  rfl
theorem KS1_main_arg8 : KS1 m c (Proc.devRef .tc Cert.KernelIdeal.main_arg8) = m ((c.tc : Thread Cert.KernelIdeal.nD Cert.KernelIdeal.τ).loc Cert.KernelIdeal.main_arg8) :=
  (congrFun (KS1_eq m c) _).trans ((keepK_kP1_main_arg8 _).trans (KS0_main_arg8 m c))
theorem KS2_main_arg8 : KS2 m c (Proc.devRef .tc Cert.KernelIdeal.main_arg8) = m ((c.tc : Thread Cert.KernelIdeal.nD Cert.KernelIdeal.τ).loc Cert.KernelIdeal.main_arg8) :=
  (congrFun (KS2_eq m c) _).trans ((keepK_kC1_main_arg8 _).trans (KS1_main_arg8 m c))
theorem KS3_main_arg8 : KS3 m c (Proc.devRef .tc Cert.KernelIdeal.main_arg8) = m ((c.tc : Thread Cert.KernelIdeal.nD Cert.KernelIdeal.τ).loc Cert.KernelIdeal.main_arg8) :=
  (Function.update_of_ne (StableHlo.devRef_ne_of_ne (by decide)) _ _).trans (KS2_main_arg8 m c)
theorem KS4_main_arg8 : KS4 m c (Proc.devRef .tc Cert.KernelIdeal.main_arg8) = m ((c.tc : Thread Cert.KernelIdeal.nD Cert.KernelIdeal.τ).loc Cert.KernelIdeal.main_arg8) :=
  (congrFun (KS4_eq m c) _).trans ((keepK_kP2_main_arg8 _).trans (KS3_main_arg8 m c))
theorem KS5_main_arg8 : KS5 m c (Proc.devRef .tc Cert.KernelIdeal.main_arg8) = m ((c.tc : Thread Cert.KernelIdeal.nD Cert.KernelIdeal.τ).loc Cert.KernelIdeal.main_arg8) :=
  (congrFun (KS5_eq m c) _).trans ((keepK_kC2_main_arg8 _).trans (KS4_main_arg8 m c))
theorem KS6_main_arg8 : KS6 m c (Proc.devRef .tc Cert.KernelIdeal.main_arg8) = m ((c.tc : Thread Cert.KernelIdeal.nD Cert.KernelIdeal.τ).loc Cert.KernelIdeal.main_arg8) :=
  (congrFun (KS6_eq m c) _).trans ((keepK_kP3_main_arg8 _).trans (KS5_main_arg8 m c))
theorem KS7_main_arg8 : KS7 m c (Proc.devRef .tc Cert.KernelIdeal.main_arg8) = m ((c.tc : Thread Cert.KernelIdeal.nD Cert.KernelIdeal.τ).loc Cert.KernelIdeal.main_arg8) :=
  (congrFun (KS7_eq m c) _).trans ((keepK_kC3_main_arg8 _).trans (KS6_main_arg8 m c))
theorem KS8_main_arg8 : KS8 m c (Proc.devRef .tc Cert.KernelIdeal.main_arg8) = m ((c.tc : Thread Cert.KernelIdeal.nD Cert.KernelIdeal.τ).loc Cert.KernelIdeal.main_arg8) :=
  (Function.update_of_ne (StableHlo.devRef_ne_of_ne (by decide)) _ _).trans (KS7_main_arg8 m c)
theorem KS9_main_arg8 : KS9 m c (Proc.devRef .tc Cert.KernelIdeal.main_arg8) = m ((c.tc : Thread Cert.KernelIdeal.nD Cert.KernelIdeal.τ).loc Cert.KernelIdeal.main_arg8) :=
  (congrFun (KS9_eq m c) _).trans ((keepK_kP4_main_arg8 _).trans (KS8_main_arg8 m c))
theorem KS10_main_arg8 : KS10 m c (Proc.devRef .tc Cert.KernelIdeal.main_arg8) = m ((c.tc : Thread Cert.KernelIdeal.nD Cert.KernelIdeal.τ).loc Cert.KernelIdeal.main_arg8) :=
  (congrFun (KS10_eq m c) _).trans ((keepK_kC4_main_arg8 _).trans (KS9_main_arg8 m c))
theorem KS9_main_arg3 : KS9 m c (Proc.devRef .tc Cert.KernelIdeal.main_arg3) = m ((c.tc : Thread Cert.KernelIdeal.nD Cert.KernelIdeal.τ).loc Cert.KernelIdeal.main_arg3) :=
  (congrFun (KS9_eq m c) _).trans ((keepK_kP4_main_arg3 _).trans (KS8_main_arg3 m c))
theorem KS10_main_arg3 : KS10 m c (Proc.devRef .tc Cert.KernelIdeal.main_arg3) = m ((c.tc : Thread Cert.KernelIdeal.nD Cert.KernelIdeal.τ).loc Cert.KernelIdeal.main_arg3) :=
  (congrFun (KS10_eq m c) _).trans ((keepK_kC4_main_arg3 _).trans (KS9_main_arg3 m c))
theorem KS11_main_arg3 : KS11 m c (Proc.devRef .tc Cert.KernelIdeal.main_arg3) = m ((c.tc : Thread Cert.KernelIdeal.nD Cert.KernelIdeal.τ).loc Cert.KernelIdeal.main_arg3) :=
  (Function.update_of_ne (StableHlo.devRef_ne_of_ne (by decide)) _ _).trans (KS10_main_arg3 m c)
theorem RS9_main_arg3 : RS9 m' c (Proc.devRef .tc Cert.ReferenceIdeal.main_arg3) = m' ((c.tc : Thread Cert.ReferenceIdeal.nD Cert.ReferenceIdeal.τ).loc Cert.ReferenceIdeal.main_arg3) :=
  (keepR_rP4_main_arg3 _).trans (RS8_main_arg3 m' c)
theorem RS10_main_arg3 : RS10 m' c (Proc.devRef .tc Cert.ReferenceIdeal.main_arg3) = m' ((c.tc : Thread Cert.ReferenceIdeal.nD Cert.ReferenceIdeal.τ).loc Cert.ReferenceIdeal.main_arg3) :=
  (keepR_rC4_main_arg3 _).trans (RS9_main_arg3 m' c)
theorem RS11_main_arg3 : RS11 m' c (Proc.devRef .tc Cert.ReferenceIdeal.main_arg3) = m' ((c.tc : Thread Cert.ReferenceIdeal.nD Cert.ReferenceIdeal.τ).loc Cert.ReferenceIdeal.main_arg3) :=
  (keepR_sD2_main_arg3 _).trans (RS10_main_arg3 m' c)
theorem KS9_main_arg2 : KS9 m c (Proc.devRef .tc Cert.KernelIdeal.main_arg2) = m ((c.tc : Thread Cert.KernelIdeal.nD Cert.KernelIdeal.τ).loc Cert.KernelIdeal.main_arg2) :=
  (congrFun (KS9_eq m c) _).trans ((keepK_kP4_main_arg2 _).trans (KS8_main_arg2 m c))
theorem KS10_main_arg2 : KS10 m c (Proc.devRef .tc Cert.KernelIdeal.main_arg2) = m ((c.tc : Thread Cert.KernelIdeal.nD Cert.KernelIdeal.τ).loc Cert.KernelIdeal.main_arg2) :=
  (congrFun (KS10_eq m c) _).trans ((keepK_kC4_main_arg2 _).trans (KS9_main_arg2 m c))
theorem KS11_main_arg2 : KS11 m c (Proc.devRef .tc Cert.KernelIdeal.main_arg2) = m ((c.tc : Thread Cert.KernelIdeal.nD Cert.KernelIdeal.τ).loc Cert.KernelIdeal.main_arg2) :=
  (Function.update_of_ne (StableHlo.devRef_ne_of_ne (by decide)) _ _).trans (KS10_main_arg2 m c)
theorem RS9_main_arg2 : RS9 m' c (Proc.devRef .tc Cert.ReferenceIdeal.main_arg2) = m' ((c.tc : Thread Cert.ReferenceIdeal.nD Cert.ReferenceIdeal.τ).loc Cert.ReferenceIdeal.main_arg2) :=
  (keepR_rP4_main_arg2 _).trans (RS8_main_arg2 m' c)
theorem RS10_main_arg2 : RS10 m' c (Proc.devRef .tc Cert.ReferenceIdeal.main_arg2) = m' ((c.tc : Thread Cert.ReferenceIdeal.nD Cert.ReferenceIdeal.τ).loc Cert.ReferenceIdeal.main_arg2) :=
  (keepR_rC4_main_arg2 _).trans (RS9_main_arg2 m' c)
theorem RS11_main_arg2 : RS11 m' c (Proc.devRef .tc Cert.ReferenceIdeal.main_arg2) = m' ((c.tc : Thread Cert.ReferenceIdeal.nD Cert.ReferenceIdeal.τ).loc Cert.ReferenceIdeal.main_arg2) :=
  (keepR_sD2_main_arg2 _).trans (RS10_main_arg2 m' c)
theorem KS0_main_arg11 : KS0 m c (Proc.devRef .tc Cert.KernelIdeal.main_arg11) = m ((c.tc : Thread Cert.KernelIdeal.nD Cert.KernelIdeal.τ).loc Cert.KernelIdeal.main_arg11) :=
  rfl
theorem KS1_main_arg11 : KS1 m c (Proc.devRef .tc Cert.KernelIdeal.main_arg11) = m ((c.tc : Thread Cert.KernelIdeal.nD Cert.KernelIdeal.τ).loc Cert.KernelIdeal.main_arg11) :=
  (congrFun (KS1_eq m c) _).trans ((keepK_kP1_main_arg11 _).trans (KS0_main_arg11 m c))
theorem KS2_main_arg11 : KS2 m c (Proc.devRef .tc Cert.KernelIdeal.main_arg11) = m ((c.tc : Thread Cert.KernelIdeal.nD Cert.KernelIdeal.τ).loc Cert.KernelIdeal.main_arg11) :=
  (congrFun (KS2_eq m c) _).trans ((keepK_kC1_main_arg11 _).trans (KS1_main_arg11 m c))
theorem KS3_main_arg11 : KS3 m c (Proc.devRef .tc Cert.KernelIdeal.main_arg11) = m ((c.tc : Thread Cert.KernelIdeal.nD Cert.KernelIdeal.τ).loc Cert.KernelIdeal.main_arg11) :=
  (Function.update_of_ne (StableHlo.devRef_ne_of_ne (by decide)) _ _).trans (KS2_main_arg11 m c)
theorem KS4_main_arg11 : KS4 m c (Proc.devRef .tc Cert.KernelIdeal.main_arg11) = m ((c.tc : Thread Cert.KernelIdeal.nD Cert.KernelIdeal.τ).loc Cert.KernelIdeal.main_arg11) :=
  (congrFun (KS4_eq m c) _).trans ((keepK_kP2_main_arg11 _).trans (KS3_main_arg11 m c))
theorem KS5_main_arg11 : KS5 m c (Proc.devRef .tc Cert.KernelIdeal.main_arg11) = m ((c.tc : Thread Cert.KernelIdeal.nD Cert.KernelIdeal.τ).loc Cert.KernelIdeal.main_arg11) :=
  (congrFun (KS5_eq m c) _).trans ((keepK_kC2_main_arg11 _).trans (KS4_main_arg11 m c))
theorem KS6_main_arg11 : KS6 m c (Proc.devRef .tc Cert.KernelIdeal.main_arg11) = m ((c.tc : Thread Cert.KernelIdeal.nD Cert.KernelIdeal.τ).loc Cert.KernelIdeal.main_arg11) :=
  (congrFun (KS6_eq m c) _).trans ((keepK_kP3_main_arg11 _).trans (KS5_main_arg11 m c))
theorem KS7_main_arg11 : KS7 m c (Proc.devRef .tc Cert.KernelIdeal.main_arg11) = m ((c.tc : Thread Cert.KernelIdeal.nD Cert.KernelIdeal.τ).loc Cert.KernelIdeal.main_arg11) :=
  (congrFun (KS7_eq m c) _).trans ((keepK_kC3_main_arg11 _).trans (KS6_main_arg11 m c))
theorem KS8_main_arg11 : KS8 m c (Proc.devRef .tc Cert.KernelIdeal.main_arg11) = m ((c.tc : Thread Cert.KernelIdeal.nD Cert.KernelIdeal.τ).loc Cert.KernelIdeal.main_arg11) :=
  (Function.update_of_ne (StableHlo.devRef_ne_of_ne (by decide)) _ _).trans (KS7_main_arg11 m c)
theorem KS9_main_arg11 : KS9 m c (Proc.devRef .tc Cert.KernelIdeal.main_arg11) = m ((c.tc : Thread Cert.KernelIdeal.nD Cert.KernelIdeal.τ).loc Cert.KernelIdeal.main_arg11) :=
  (congrFun (KS9_eq m c) _).trans ((keepK_kP4_main_arg11 _).trans (KS8_main_arg11 m c))
theorem KS10_main_arg11 : KS10 m c (Proc.devRef .tc Cert.KernelIdeal.main_arg11) = m ((c.tc : Thread Cert.KernelIdeal.nD Cert.KernelIdeal.τ).loc Cert.KernelIdeal.main_arg11) :=
  (congrFun (KS10_eq m c) _).trans ((keepK_kC4_main_arg11 _).trans (KS9_main_arg11 m c))
theorem KS11_main_arg11 : KS11 m c (Proc.devRef .tc Cert.KernelIdeal.main_arg11) = m ((c.tc : Thread Cert.KernelIdeal.nD Cert.KernelIdeal.τ).loc Cert.KernelIdeal.main_arg11) :=
  (Function.update_of_ne (StableHlo.devRef_ne_of_ne (by decide)) _ _).trans (KS10_main_arg11 m c)
theorem KS12_main_arg11 : KS12 m c (Proc.devRef .tc Cert.KernelIdeal.main_arg11) = m ((c.tc : Thread Cert.KernelIdeal.nD Cert.KernelIdeal.τ).loc Cert.KernelIdeal.main_arg11) :=
  (congrFun (KS12_eq m c) _).trans ((keepK_kP5_main_arg11 _).trans (KS11_main_arg11 m c))
theorem RS0_main_arg10 : RS0 m' c (Proc.devRef .tc Cert.ReferenceIdeal.main_arg10) = m' ((c.tc : Thread Cert.ReferenceIdeal.nD Cert.ReferenceIdeal.τ).loc Cert.ReferenceIdeal.main_arg10) :=
  rfl
theorem RS1_main_arg10 : RS1 m' c (Proc.devRef .tc Cert.ReferenceIdeal.main_arg10) = m' ((c.tc : Thread Cert.ReferenceIdeal.nD Cert.ReferenceIdeal.τ).loc Cert.ReferenceIdeal.main_arg10) :=
  (keepR_rP1_main_arg10 _).trans (RS0_main_arg10 m' c)
theorem RS2_main_arg10 : RS2 m' c (Proc.devRef .tc Cert.ReferenceIdeal.main_arg10) = m' ((c.tc : Thread Cert.ReferenceIdeal.nD Cert.ReferenceIdeal.τ).loc Cert.ReferenceIdeal.main_arg10) :=
  (keepR_rC1_main_arg10 _).trans (RS1_main_arg10 m' c)
theorem RS3_main_arg10 : RS3 m' c (Proc.devRef .tc Cert.ReferenceIdeal.main_arg10) = m' ((c.tc : Thread Cert.ReferenceIdeal.nD Cert.ReferenceIdeal.τ).loc Cert.ReferenceIdeal.main_arg10) :=
  (keepR_sD0_main_arg10 _).trans (RS2_main_arg10 m' c)
theorem RS4_main_arg10 : RS4 m' c (Proc.devRef .tc Cert.ReferenceIdeal.main_arg10) = m' ((c.tc : Thread Cert.ReferenceIdeal.nD Cert.ReferenceIdeal.τ).loc Cert.ReferenceIdeal.main_arg10) :=
  (keepR_rP2_main_arg10 _).trans (RS3_main_arg10 m' c)
theorem RS5_main_arg10 : RS5 m' c (Proc.devRef .tc Cert.ReferenceIdeal.main_arg10) = m' ((c.tc : Thread Cert.ReferenceIdeal.nD Cert.ReferenceIdeal.τ).loc Cert.ReferenceIdeal.main_arg10) :=
  (keepR_rC2_main_arg10 _).trans (RS4_main_arg10 m' c)
theorem RS6_main_arg10 : RS6 m' c (Proc.devRef .tc Cert.ReferenceIdeal.main_arg10) = m' ((c.tc : Thread Cert.ReferenceIdeal.nD Cert.ReferenceIdeal.τ).loc Cert.ReferenceIdeal.main_arg10) :=
  (keepR_rP3_main_arg10 _).trans (RS5_main_arg10 m' c)
theorem RS7_main_arg10 : RS7 m' c (Proc.devRef .tc Cert.ReferenceIdeal.main_arg10) = m' ((c.tc : Thread Cert.ReferenceIdeal.nD Cert.ReferenceIdeal.τ).loc Cert.ReferenceIdeal.main_arg10) :=
  (keepR_rC3_main_arg10 _).trans (RS6_main_arg10 m' c)
theorem RS8_main_arg10 : RS8 m' c (Proc.devRef .tc Cert.ReferenceIdeal.main_arg10) = m' ((c.tc : Thread Cert.ReferenceIdeal.nD Cert.ReferenceIdeal.τ).loc Cert.ReferenceIdeal.main_arg10) :=
  (keepR_sD1_main_arg10 _).trans (RS7_main_arg10 m' c)
theorem RS9_main_arg10 : RS9 m' c (Proc.devRef .tc Cert.ReferenceIdeal.main_arg10) = m' ((c.tc : Thread Cert.ReferenceIdeal.nD Cert.ReferenceIdeal.τ).loc Cert.ReferenceIdeal.main_arg10) :=
  (keepR_rP4_main_arg10 _).trans (RS8_main_arg10 m' c)
theorem RS10_main_arg10 : RS10 m' c (Proc.devRef .tc Cert.ReferenceIdeal.main_arg10) = m' ((c.tc : Thread Cert.ReferenceIdeal.nD Cert.ReferenceIdeal.τ).loc Cert.ReferenceIdeal.main_arg10) :=
  (keepR_rC4_main_arg10 _).trans (RS9_main_arg10 m' c)
theorem RS11_main_arg10 : RS11 m' c (Proc.devRef .tc Cert.ReferenceIdeal.main_arg10) = m' ((c.tc : Thread Cert.ReferenceIdeal.nD Cert.ReferenceIdeal.τ).loc Cert.ReferenceIdeal.main_arg10) :=
  (keepR_sD2_main_arg10 _).trans (RS10_main_arg10 m' c)
theorem RS12_main_arg10 : RS12 m' c (Proc.devRef .tc Cert.ReferenceIdeal.main_arg10) = m' ((c.tc : Thread Cert.ReferenceIdeal.nD Cert.ReferenceIdeal.τ).loc Cert.ReferenceIdeal.main_arg10) :=
  (keepR_rP5_main_arg10 _).trans (RS11_main_arg10 m' c)
theorem RS13_main_arg10 : RS13 m' c (Proc.devRef .tc Cert.ReferenceIdeal.main_arg10) = m' ((c.tc : Thread Cert.ReferenceIdeal.nD Cert.ReferenceIdeal.τ).loc Cert.ReferenceIdeal.main_arg10) :=
  (keepR_rC5_main_arg10 _).trans (RS12_main_arg10 m' c)
theorem RS0_main_arg11 : RS0 m' c (Proc.devRef .tc Cert.ReferenceIdeal.main_arg11) = m' ((c.tc : Thread Cert.ReferenceIdeal.nD Cert.ReferenceIdeal.τ).loc Cert.ReferenceIdeal.main_arg11) :=
  rfl
theorem RS1_main_arg11 : RS1 m' c (Proc.devRef .tc Cert.ReferenceIdeal.main_arg11) = m' ((c.tc : Thread Cert.ReferenceIdeal.nD Cert.ReferenceIdeal.τ).loc Cert.ReferenceIdeal.main_arg11) :=
  (keepR_rP1_main_arg11 _).trans (RS0_main_arg11 m' c)
theorem RS2_main_arg11 : RS2 m' c (Proc.devRef .tc Cert.ReferenceIdeal.main_arg11) = m' ((c.tc : Thread Cert.ReferenceIdeal.nD Cert.ReferenceIdeal.τ).loc Cert.ReferenceIdeal.main_arg11) :=
  (keepR_rC1_main_arg11 _).trans (RS1_main_arg11 m' c)
theorem RS3_main_arg11 : RS3 m' c (Proc.devRef .tc Cert.ReferenceIdeal.main_arg11) = m' ((c.tc : Thread Cert.ReferenceIdeal.nD Cert.ReferenceIdeal.τ).loc Cert.ReferenceIdeal.main_arg11) :=
  (keepR_sD0_main_arg11 _).trans (RS2_main_arg11 m' c)
theorem RS4_main_arg11 : RS4 m' c (Proc.devRef .tc Cert.ReferenceIdeal.main_arg11) = m' ((c.tc : Thread Cert.ReferenceIdeal.nD Cert.ReferenceIdeal.τ).loc Cert.ReferenceIdeal.main_arg11) :=
  (keepR_rP2_main_arg11 _).trans (RS3_main_arg11 m' c)
theorem RS5_main_arg11 : RS5 m' c (Proc.devRef .tc Cert.ReferenceIdeal.main_arg11) = m' ((c.tc : Thread Cert.ReferenceIdeal.nD Cert.ReferenceIdeal.τ).loc Cert.ReferenceIdeal.main_arg11) :=
  (keepR_rC2_main_arg11 _).trans (RS4_main_arg11 m' c)
theorem RS6_main_arg11 : RS6 m' c (Proc.devRef .tc Cert.ReferenceIdeal.main_arg11) = m' ((c.tc : Thread Cert.ReferenceIdeal.nD Cert.ReferenceIdeal.τ).loc Cert.ReferenceIdeal.main_arg11) :=
  (keepR_rP3_main_arg11 _).trans (RS5_main_arg11 m' c)
theorem RS7_main_arg11 : RS7 m' c (Proc.devRef .tc Cert.ReferenceIdeal.main_arg11) = m' ((c.tc : Thread Cert.ReferenceIdeal.nD Cert.ReferenceIdeal.τ).loc Cert.ReferenceIdeal.main_arg11) :=
  (keepR_rC3_main_arg11 _).trans (RS6_main_arg11 m' c)
theorem RS8_main_arg11 : RS8 m' c (Proc.devRef .tc Cert.ReferenceIdeal.main_arg11) = m' ((c.tc : Thread Cert.ReferenceIdeal.nD Cert.ReferenceIdeal.τ).loc Cert.ReferenceIdeal.main_arg11) :=
  (keepR_sD1_main_arg11 _).trans (RS7_main_arg11 m' c)
theorem RS9_main_arg11 : RS9 m' c (Proc.devRef .tc Cert.ReferenceIdeal.main_arg11) = m' ((c.tc : Thread Cert.ReferenceIdeal.nD Cert.ReferenceIdeal.τ).loc Cert.ReferenceIdeal.main_arg11) :=
  (keepR_rP4_main_arg11 _).trans (RS8_main_arg11 m' c)
theorem RS10_main_arg11 : RS10 m' c (Proc.devRef .tc Cert.ReferenceIdeal.main_arg11) = m' ((c.tc : Thread Cert.ReferenceIdeal.nD Cert.ReferenceIdeal.τ).loc Cert.ReferenceIdeal.main_arg11) :=
  (keepR_rC4_main_arg11 _).trans (RS9_main_arg11 m' c)
theorem RS11_main_arg11 : RS11 m' c (Proc.devRef .tc Cert.ReferenceIdeal.main_arg11) = m' ((c.tc : Thread Cert.ReferenceIdeal.nD Cert.ReferenceIdeal.τ).loc Cert.ReferenceIdeal.main_arg11) :=
  (keepR_sD2_main_arg11 _).trans (RS10_main_arg11 m' c)
theorem RS12_main_arg11 : RS12 m' c (Proc.devRef .tc Cert.ReferenceIdeal.main_arg11) = m' ((c.tc : Thread Cert.ReferenceIdeal.nD Cert.ReferenceIdeal.τ).loc Cert.ReferenceIdeal.main_arg11) :=
  (keepR_rP5_main_arg11 _).trans (RS11_main_arg11 m' c)
theorem RS13_main_arg11 : RS13 m' c (Proc.devRef .tc Cert.ReferenceIdeal.main_arg11) = m' ((c.tc : Thread Cert.ReferenceIdeal.nD Cert.ReferenceIdeal.τ).loc Cert.ReferenceIdeal.main_arg11) :=
  (keepR_rC5_main_arg11 _).trans (RS12_main_arg11 m' c)
theorem KS0_main_arg10 : KS0 m c (Proc.devRef .tc Cert.KernelIdeal.main_arg10) = m ((c.tc : Thread Cert.KernelIdeal.nD Cert.KernelIdeal.τ).loc Cert.KernelIdeal.main_arg10) :=
  rfl
theorem KS1_main_arg10 : KS1 m c (Proc.devRef .tc Cert.KernelIdeal.main_arg10) = m ((c.tc : Thread Cert.KernelIdeal.nD Cert.KernelIdeal.τ).loc Cert.KernelIdeal.main_arg10) :=
  (congrFun (KS1_eq m c) _).trans ((keepK_kP1_main_arg10 _).trans (KS0_main_arg10 m c))
theorem KS2_main_arg10 : KS2 m c (Proc.devRef .tc Cert.KernelIdeal.main_arg10) = m ((c.tc : Thread Cert.KernelIdeal.nD Cert.KernelIdeal.τ).loc Cert.KernelIdeal.main_arg10) :=
  (congrFun (KS2_eq m c) _).trans ((keepK_kC1_main_arg10 _).trans (KS1_main_arg10 m c))
theorem KS3_main_arg10 : KS3 m c (Proc.devRef .tc Cert.KernelIdeal.main_arg10) = m ((c.tc : Thread Cert.KernelIdeal.nD Cert.KernelIdeal.τ).loc Cert.KernelIdeal.main_arg10) :=
  (Function.update_of_ne (StableHlo.devRef_ne_of_ne (by decide)) _ _).trans (KS2_main_arg10 m c)
theorem KS4_main_arg10 : KS4 m c (Proc.devRef .tc Cert.KernelIdeal.main_arg10) = m ((c.tc : Thread Cert.KernelIdeal.nD Cert.KernelIdeal.τ).loc Cert.KernelIdeal.main_arg10) :=
  (congrFun (KS4_eq m c) _).trans ((keepK_kP2_main_arg10 _).trans (KS3_main_arg10 m c))
theorem KS5_main_arg10 : KS5 m c (Proc.devRef .tc Cert.KernelIdeal.main_arg10) = m ((c.tc : Thread Cert.KernelIdeal.nD Cert.KernelIdeal.τ).loc Cert.KernelIdeal.main_arg10) :=
  (congrFun (KS5_eq m c) _).trans ((keepK_kC2_main_arg10 _).trans (KS4_main_arg10 m c))
theorem KS6_main_arg10 : KS6 m c (Proc.devRef .tc Cert.KernelIdeal.main_arg10) = m ((c.tc : Thread Cert.KernelIdeal.nD Cert.KernelIdeal.τ).loc Cert.KernelIdeal.main_arg10) :=
  (congrFun (KS6_eq m c) _).trans ((keepK_kP3_main_arg10 _).trans (KS5_main_arg10 m c))
theorem KS7_main_arg10 : KS7 m c (Proc.devRef .tc Cert.KernelIdeal.main_arg10) = m ((c.tc : Thread Cert.KernelIdeal.nD Cert.KernelIdeal.τ).loc Cert.KernelIdeal.main_arg10) :=
  (congrFun (KS7_eq m c) _).trans ((keepK_kC3_main_arg10 _).trans (KS6_main_arg10 m c))
theorem KS8_main_arg10 : KS8 m c (Proc.devRef .tc Cert.KernelIdeal.main_arg10) = m ((c.tc : Thread Cert.KernelIdeal.nD Cert.KernelIdeal.τ).loc Cert.KernelIdeal.main_arg10) :=
  (Function.update_of_ne (StableHlo.devRef_ne_of_ne (by decide)) _ _).trans (KS7_main_arg10 m c)
theorem KS9_main_arg10 : KS9 m c (Proc.devRef .tc Cert.KernelIdeal.main_arg10) = m ((c.tc : Thread Cert.KernelIdeal.nD Cert.KernelIdeal.τ).loc Cert.KernelIdeal.main_arg10) :=
  (congrFun (KS9_eq m c) _).trans ((keepK_kP4_main_arg10 _).trans (KS8_main_arg10 m c))
theorem KS10_main_arg10 : KS10 m c (Proc.devRef .tc Cert.KernelIdeal.main_arg10) = m ((c.tc : Thread Cert.KernelIdeal.nD Cert.KernelIdeal.τ).loc Cert.KernelIdeal.main_arg10) :=
  (congrFun (KS10_eq m c) _).trans ((keepK_kC4_main_arg10 _).trans (KS9_main_arg10 m c))
theorem KS11_main_arg10 : KS11 m c (Proc.devRef .tc Cert.KernelIdeal.main_arg10) = m ((c.tc : Thread Cert.KernelIdeal.nD Cert.KernelIdeal.τ).loc Cert.KernelIdeal.main_arg10) :=
  (Function.update_of_ne (StableHlo.devRef_ne_of_ne (by decide)) _ _).trans (KS10_main_arg10 m c)
theorem KS12_main_arg10 : KS12 m c (Proc.devRef .tc Cert.KernelIdeal.main_arg10) = m ((c.tc : Thread Cert.KernelIdeal.nD Cert.KernelIdeal.τ).loc Cert.KernelIdeal.main_arg10) :=
  (congrFun (KS12_eq m c) _).trans ((keepK_kP5_main_arg10 _).trans (KS11_main_arg10 m c))
theorem KS13_main_arg10 : KS13 m c (Proc.devRef .tc Cert.KernelIdeal.main_arg10) = m ((c.tc : Thread Cert.KernelIdeal.nD Cert.KernelIdeal.τ).loc Cert.KernelIdeal.main_arg10) :=
  (congrFun (KS13_eq m c) _).trans ((keepK_kC5_main_arg10 _).trans (KS12_main_arg10 m c))
theorem KS0_main_arg12 : KS0 m c (Proc.devRef .tc Cert.KernelIdeal.main_arg12) = m ((c.tc : Thread Cert.KernelIdeal.nD Cert.KernelIdeal.τ).loc Cert.KernelIdeal.main_arg12) :=
  rfl
theorem KS1_main_arg12 : KS1 m c (Proc.devRef .tc Cert.KernelIdeal.main_arg12) = m ((c.tc : Thread Cert.KernelIdeal.nD Cert.KernelIdeal.τ).loc Cert.KernelIdeal.main_arg12) :=
  (congrFun (KS1_eq m c) _).trans ((keepK_kP1_main_arg12 _).trans (KS0_main_arg12 m c))
theorem KS2_main_arg12 : KS2 m c (Proc.devRef .tc Cert.KernelIdeal.main_arg12) = m ((c.tc : Thread Cert.KernelIdeal.nD Cert.KernelIdeal.τ).loc Cert.KernelIdeal.main_arg12) :=
  (congrFun (KS2_eq m c) _).trans ((keepK_kC1_main_arg12 _).trans (KS1_main_arg12 m c))
theorem KS3_main_arg12 : KS3 m c (Proc.devRef .tc Cert.KernelIdeal.main_arg12) = m ((c.tc : Thread Cert.KernelIdeal.nD Cert.KernelIdeal.τ).loc Cert.KernelIdeal.main_arg12) :=
  (Function.update_of_ne (StableHlo.devRef_ne_of_ne (by decide)) _ _).trans (KS2_main_arg12 m c)
theorem KS4_main_arg12 : KS4 m c (Proc.devRef .tc Cert.KernelIdeal.main_arg12) = m ((c.tc : Thread Cert.KernelIdeal.nD Cert.KernelIdeal.τ).loc Cert.KernelIdeal.main_arg12) :=
  (congrFun (KS4_eq m c) _).trans ((keepK_kP2_main_arg12 _).trans (KS3_main_arg12 m c))
theorem KS5_main_arg12 : KS5 m c (Proc.devRef .tc Cert.KernelIdeal.main_arg12) = m ((c.tc : Thread Cert.KernelIdeal.nD Cert.KernelIdeal.τ).loc Cert.KernelIdeal.main_arg12) :=
  (congrFun (KS5_eq m c) _).trans ((keepK_kC2_main_arg12 _).trans (KS4_main_arg12 m c))
theorem KS6_main_arg12 : KS6 m c (Proc.devRef .tc Cert.KernelIdeal.main_arg12) = m ((c.tc : Thread Cert.KernelIdeal.nD Cert.KernelIdeal.τ).loc Cert.KernelIdeal.main_arg12) :=
  (congrFun (KS6_eq m c) _).trans ((keepK_kP3_main_arg12 _).trans (KS5_main_arg12 m c))
theorem KS7_main_arg12 : KS7 m c (Proc.devRef .tc Cert.KernelIdeal.main_arg12) = m ((c.tc : Thread Cert.KernelIdeal.nD Cert.KernelIdeal.τ).loc Cert.KernelIdeal.main_arg12) :=
  (congrFun (KS7_eq m c) _).trans ((keepK_kC3_main_arg12 _).trans (KS6_main_arg12 m c))
theorem KS8_main_arg12 : KS8 m c (Proc.devRef .tc Cert.KernelIdeal.main_arg12) = m ((c.tc : Thread Cert.KernelIdeal.nD Cert.KernelIdeal.τ).loc Cert.KernelIdeal.main_arg12) :=
  (Function.update_of_ne (StableHlo.devRef_ne_of_ne (by decide)) _ _).trans (KS7_main_arg12 m c)
theorem KS9_main_arg12 : KS9 m c (Proc.devRef .tc Cert.KernelIdeal.main_arg12) = m ((c.tc : Thread Cert.KernelIdeal.nD Cert.KernelIdeal.τ).loc Cert.KernelIdeal.main_arg12) :=
  (congrFun (KS9_eq m c) _).trans ((keepK_kP4_main_arg12 _).trans (KS8_main_arg12 m c))
theorem KS10_main_arg12 : KS10 m c (Proc.devRef .tc Cert.KernelIdeal.main_arg12) = m ((c.tc : Thread Cert.KernelIdeal.nD Cert.KernelIdeal.τ).loc Cert.KernelIdeal.main_arg12) :=
  (congrFun (KS10_eq m c) _).trans ((keepK_kC4_main_arg12 _).trans (KS9_main_arg12 m c))
theorem KS11_main_arg12 : KS11 m c (Proc.devRef .tc Cert.KernelIdeal.main_arg12) = m ((c.tc : Thread Cert.KernelIdeal.nD Cert.KernelIdeal.τ).loc Cert.KernelIdeal.main_arg12) :=
  (Function.update_of_ne (StableHlo.devRef_ne_of_ne (by decide)) _ _).trans (KS10_main_arg12 m c)
theorem KS12_main_arg12 : KS12 m c (Proc.devRef .tc Cert.KernelIdeal.main_arg12) = m ((c.tc : Thread Cert.KernelIdeal.nD Cert.KernelIdeal.τ).loc Cert.KernelIdeal.main_arg12) :=
  (congrFun (KS12_eq m c) _).trans ((keepK_kP5_main_arg12 _).trans (KS11_main_arg12 m c))
theorem KS13_main_arg12 : KS13 m c (Proc.devRef .tc Cert.KernelIdeal.main_arg12) = m ((c.tc : Thread Cert.KernelIdeal.nD Cert.KernelIdeal.τ).loc Cert.KernelIdeal.main_arg12) :=
  (congrFun (KS13_eq m c) _).trans ((keepK_kC5_main_arg12 _).trans (KS12_main_arg12 m c))
theorem KS14_main_arg12 : KS14 m c (Proc.devRef .tc Cert.KernelIdeal.main_arg12) = m ((c.tc : Thread Cert.KernelIdeal.nD Cert.KernelIdeal.τ).loc Cert.KernelIdeal.main_arg12) :=
  (Function.update_of_ne (StableHlo.devRef_ne_of_ne (by decide)) _ _).trans (KS13_main_arg12 m c)
theorem KS15_main_arg12 : KS15 m c (Proc.devRef .tc Cert.KernelIdeal.main_arg12) = m ((c.tc : Thread Cert.KernelIdeal.nD Cert.KernelIdeal.τ).loc Cert.KernelIdeal.main_arg12) :=
  (Function.update_of_ne (StableHlo.devRef_ne_of_ne (by decide)) _ _).trans (KS14_main_arg12 m c)
theorem RS0_main_arg12 : RS0 m' c (Proc.devRef .tc Cert.ReferenceIdeal.main_arg12) = m' ((c.tc : Thread Cert.ReferenceIdeal.nD Cert.ReferenceIdeal.τ).loc Cert.ReferenceIdeal.main_arg12) :=
  rfl
theorem RS1_main_arg12 : RS1 m' c (Proc.devRef .tc Cert.ReferenceIdeal.main_arg12) = m' ((c.tc : Thread Cert.ReferenceIdeal.nD Cert.ReferenceIdeal.τ).loc Cert.ReferenceIdeal.main_arg12) :=
  (keepR_rP1_main_arg12 _).trans (RS0_main_arg12 m' c)
theorem RS2_main_arg12 : RS2 m' c (Proc.devRef .tc Cert.ReferenceIdeal.main_arg12) = m' ((c.tc : Thread Cert.ReferenceIdeal.nD Cert.ReferenceIdeal.τ).loc Cert.ReferenceIdeal.main_arg12) :=
  (keepR_rC1_main_arg12 _).trans (RS1_main_arg12 m' c)
theorem RS3_main_arg12 : RS3 m' c (Proc.devRef .tc Cert.ReferenceIdeal.main_arg12) = m' ((c.tc : Thread Cert.ReferenceIdeal.nD Cert.ReferenceIdeal.τ).loc Cert.ReferenceIdeal.main_arg12) :=
  (keepR_sD0_main_arg12 _).trans (RS2_main_arg12 m' c)
theorem RS4_main_arg12 : RS4 m' c (Proc.devRef .tc Cert.ReferenceIdeal.main_arg12) = m' ((c.tc : Thread Cert.ReferenceIdeal.nD Cert.ReferenceIdeal.τ).loc Cert.ReferenceIdeal.main_arg12) :=
  (keepR_rP2_main_arg12 _).trans (RS3_main_arg12 m' c)
theorem RS5_main_arg12 : RS5 m' c (Proc.devRef .tc Cert.ReferenceIdeal.main_arg12) = m' ((c.tc : Thread Cert.ReferenceIdeal.nD Cert.ReferenceIdeal.τ).loc Cert.ReferenceIdeal.main_arg12) :=
  (keepR_rC2_main_arg12 _).trans (RS4_main_arg12 m' c)
theorem RS6_main_arg12 : RS6 m' c (Proc.devRef .tc Cert.ReferenceIdeal.main_arg12) = m' ((c.tc : Thread Cert.ReferenceIdeal.nD Cert.ReferenceIdeal.τ).loc Cert.ReferenceIdeal.main_arg12) :=
  (keepR_rP3_main_arg12 _).trans (RS5_main_arg12 m' c)
theorem RS7_main_arg12 : RS7 m' c (Proc.devRef .tc Cert.ReferenceIdeal.main_arg12) = m' ((c.tc : Thread Cert.ReferenceIdeal.nD Cert.ReferenceIdeal.τ).loc Cert.ReferenceIdeal.main_arg12) :=
  (keepR_rC3_main_arg12 _).trans (RS6_main_arg12 m' c)
theorem RS8_main_arg12 : RS8 m' c (Proc.devRef .tc Cert.ReferenceIdeal.main_arg12) = m' ((c.tc : Thread Cert.ReferenceIdeal.nD Cert.ReferenceIdeal.τ).loc Cert.ReferenceIdeal.main_arg12) :=
  (keepR_sD1_main_arg12 _).trans (RS7_main_arg12 m' c)
theorem RS9_main_arg12 : RS9 m' c (Proc.devRef .tc Cert.ReferenceIdeal.main_arg12) = m' ((c.tc : Thread Cert.ReferenceIdeal.nD Cert.ReferenceIdeal.τ).loc Cert.ReferenceIdeal.main_arg12) :=
  (keepR_rP4_main_arg12 _).trans (RS8_main_arg12 m' c)
theorem RS10_main_arg12 : RS10 m' c (Proc.devRef .tc Cert.ReferenceIdeal.main_arg12) = m' ((c.tc : Thread Cert.ReferenceIdeal.nD Cert.ReferenceIdeal.τ).loc Cert.ReferenceIdeal.main_arg12) :=
  (keepR_rC4_main_arg12 _).trans (RS9_main_arg12 m' c)
theorem RS11_main_arg12 : RS11 m' c (Proc.devRef .tc Cert.ReferenceIdeal.main_arg12) = m' ((c.tc : Thread Cert.ReferenceIdeal.nD Cert.ReferenceIdeal.τ).loc Cert.ReferenceIdeal.main_arg12) :=
  (keepR_sD2_main_arg12 _).trans (RS10_main_arg12 m' c)
theorem RS12_main_arg12 : RS12 m' c (Proc.devRef .tc Cert.ReferenceIdeal.main_arg12) = m' ((c.tc : Thread Cert.ReferenceIdeal.nD Cert.ReferenceIdeal.τ).loc Cert.ReferenceIdeal.main_arg12) :=
  (keepR_rP5_main_arg12 _).trans (RS11_main_arg12 m' c)
theorem RS13_main_arg12 : RS13 m' c (Proc.devRef .tc Cert.ReferenceIdeal.main_arg12) = m' ((c.tc : Thread Cert.ReferenceIdeal.nD Cert.ReferenceIdeal.τ).loc Cert.ReferenceIdeal.main_arg12) :=
  (keepR_rC5_main_arg12 _).trans (RS12_main_arg12 m' c)
theorem RS14_main_arg12 : RS14 m' c (Proc.devRef .tc Cert.ReferenceIdeal.main_arg12) = m' ((c.tc : Thread Cert.ReferenceIdeal.nD Cert.ReferenceIdeal.τ).loc Cert.ReferenceIdeal.main_arg12) :=
  (keepR_sD3_main_arg12 _).trans (RS13_main_arg12 m' c)
theorem RS15_main_arg12 : RS15 m' c (Proc.devRef .tc Cert.ReferenceIdeal.main_arg12) = m' ((c.tc : Thread Cert.ReferenceIdeal.nD Cert.ReferenceIdeal.τ).loc Cert.ReferenceIdeal.main_arg12) :=
  (keepR_sS_main_arg12 _).trans (RS14_main_arg12 m' c)
theorem KS0_main_arg13 : KS0 m c (Proc.devRef .tc Cert.KernelIdeal.main_arg13) = m ((c.tc : Thread Cert.KernelIdeal.nD Cert.KernelIdeal.τ).loc Cert.KernelIdeal.main_arg13) :=
  rfl
theorem KS1_main_arg13 : KS1 m c (Proc.devRef .tc Cert.KernelIdeal.main_arg13) = m ((c.tc : Thread Cert.KernelIdeal.nD Cert.KernelIdeal.τ).loc Cert.KernelIdeal.main_arg13) :=
  (congrFun (KS1_eq m c) _).trans ((keepK_kP1_main_arg13 _).trans (KS0_main_arg13 m c))
theorem KS2_main_arg13 : KS2 m c (Proc.devRef .tc Cert.KernelIdeal.main_arg13) = m ((c.tc : Thread Cert.KernelIdeal.nD Cert.KernelIdeal.τ).loc Cert.KernelIdeal.main_arg13) :=
  (congrFun (KS2_eq m c) _).trans ((keepK_kC1_main_arg13 _).trans (KS1_main_arg13 m c))
theorem KS3_main_arg13 : KS3 m c (Proc.devRef .tc Cert.KernelIdeal.main_arg13) = m ((c.tc : Thread Cert.KernelIdeal.nD Cert.KernelIdeal.τ).loc Cert.KernelIdeal.main_arg13) :=
  (Function.update_of_ne (StableHlo.devRef_ne_of_ne (by decide)) _ _).trans (KS2_main_arg13 m c)
theorem KS4_main_arg13 : KS4 m c (Proc.devRef .tc Cert.KernelIdeal.main_arg13) = m ((c.tc : Thread Cert.KernelIdeal.nD Cert.KernelIdeal.τ).loc Cert.KernelIdeal.main_arg13) :=
  (congrFun (KS4_eq m c) _).trans ((keepK_kP2_main_arg13 _).trans (KS3_main_arg13 m c))
theorem KS5_main_arg13 : KS5 m c (Proc.devRef .tc Cert.KernelIdeal.main_arg13) = m ((c.tc : Thread Cert.KernelIdeal.nD Cert.KernelIdeal.τ).loc Cert.KernelIdeal.main_arg13) :=
  (congrFun (KS5_eq m c) _).trans ((keepK_kC2_main_arg13 _).trans (KS4_main_arg13 m c))
theorem KS6_main_arg13 : KS6 m c (Proc.devRef .tc Cert.KernelIdeal.main_arg13) = m ((c.tc : Thread Cert.KernelIdeal.nD Cert.KernelIdeal.τ).loc Cert.KernelIdeal.main_arg13) :=
  (congrFun (KS6_eq m c) _).trans ((keepK_kP3_main_arg13 _).trans (KS5_main_arg13 m c))
theorem KS7_main_arg13 : KS7 m c (Proc.devRef .tc Cert.KernelIdeal.main_arg13) = m ((c.tc : Thread Cert.KernelIdeal.nD Cert.KernelIdeal.τ).loc Cert.KernelIdeal.main_arg13) :=
  (congrFun (KS7_eq m c) _).trans ((keepK_kC3_main_arg13 _).trans (KS6_main_arg13 m c))
theorem KS8_main_arg13 : KS8 m c (Proc.devRef .tc Cert.KernelIdeal.main_arg13) = m ((c.tc : Thread Cert.KernelIdeal.nD Cert.KernelIdeal.τ).loc Cert.KernelIdeal.main_arg13) :=
  (Function.update_of_ne (StableHlo.devRef_ne_of_ne (by decide)) _ _).trans (KS7_main_arg13 m c)
theorem KS9_main_arg13 : KS9 m c (Proc.devRef .tc Cert.KernelIdeal.main_arg13) = m ((c.tc : Thread Cert.KernelIdeal.nD Cert.KernelIdeal.τ).loc Cert.KernelIdeal.main_arg13) :=
  (congrFun (KS9_eq m c) _).trans ((keepK_kP4_main_arg13 _).trans (KS8_main_arg13 m c))
theorem KS10_main_arg13 : KS10 m c (Proc.devRef .tc Cert.KernelIdeal.main_arg13) = m ((c.tc : Thread Cert.KernelIdeal.nD Cert.KernelIdeal.τ).loc Cert.KernelIdeal.main_arg13) :=
  (congrFun (KS10_eq m c) _).trans ((keepK_kC4_main_arg13 _).trans (KS9_main_arg13 m c))
theorem KS11_main_arg13 : KS11 m c (Proc.devRef .tc Cert.KernelIdeal.main_arg13) = m ((c.tc : Thread Cert.KernelIdeal.nD Cert.KernelIdeal.τ).loc Cert.KernelIdeal.main_arg13) :=
  (Function.update_of_ne (StableHlo.devRef_ne_of_ne (by decide)) _ _).trans (KS10_main_arg13 m c)
theorem KS12_main_arg13 : KS12 m c (Proc.devRef .tc Cert.KernelIdeal.main_arg13) = m ((c.tc : Thread Cert.KernelIdeal.nD Cert.KernelIdeal.τ).loc Cert.KernelIdeal.main_arg13) :=
  (congrFun (KS12_eq m c) _).trans ((keepK_kP5_main_arg13 _).trans (KS11_main_arg13 m c))
theorem KS13_main_arg13 : KS13 m c (Proc.devRef .tc Cert.KernelIdeal.main_arg13) = m ((c.tc : Thread Cert.KernelIdeal.nD Cert.KernelIdeal.τ).loc Cert.KernelIdeal.main_arg13) :=
  (congrFun (KS13_eq m c) _).trans ((keepK_kC5_main_arg13 _).trans (KS12_main_arg13 m c))
theorem KS14_main_arg13 : KS14 m c (Proc.devRef .tc Cert.KernelIdeal.main_arg13) = m ((c.tc : Thread Cert.KernelIdeal.nD Cert.KernelIdeal.τ).loc Cert.KernelIdeal.main_arg13) :=
  (Function.update_of_ne (StableHlo.devRef_ne_of_ne (by decide)) _ _).trans (KS13_main_arg13 m c)
theorem KS15_main_arg13 : KS15 m c (Proc.devRef .tc Cert.KernelIdeal.main_arg13) = m ((c.tc : Thread Cert.KernelIdeal.nD Cert.KernelIdeal.τ).loc Cert.KernelIdeal.main_arg13) :=
  (Function.update_of_ne (StableHlo.devRef_ne_of_ne (by decide)) _ _).trans (KS14_main_arg13 m c)
theorem RS0_main_arg13 : RS0 m' c (Proc.devRef .tc Cert.ReferenceIdeal.main_arg13) = m' ((c.tc : Thread Cert.ReferenceIdeal.nD Cert.ReferenceIdeal.τ).loc Cert.ReferenceIdeal.main_arg13) :=
  rfl
theorem RS1_main_arg13 : RS1 m' c (Proc.devRef .tc Cert.ReferenceIdeal.main_arg13) = m' ((c.tc : Thread Cert.ReferenceIdeal.nD Cert.ReferenceIdeal.τ).loc Cert.ReferenceIdeal.main_arg13) :=
  (keepR_rP1_main_arg13 _).trans (RS0_main_arg13 m' c)
theorem RS2_main_arg13 : RS2 m' c (Proc.devRef .tc Cert.ReferenceIdeal.main_arg13) = m' ((c.tc : Thread Cert.ReferenceIdeal.nD Cert.ReferenceIdeal.τ).loc Cert.ReferenceIdeal.main_arg13) :=
  (keepR_rC1_main_arg13 _).trans (RS1_main_arg13 m' c)
theorem RS3_main_arg13 : RS3 m' c (Proc.devRef .tc Cert.ReferenceIdeal.main_arg13) = m' ((c.tc : Thread Cert.ReferenceIdeal.nD Cert.ReferenceIdeal.τ).loc Cert.ReferenceIdeal.main_arg13) :=
  (keepR_sD0_main_arg13 _).trans (RS2_main_arg13 m' c)
theorem RS4_main_arg13 : RS4 m' c (Proc.devRef .tc Cert.ReferenceIdeal.main_arg13) = m' ((c.tc : Thread Cert.ReferenceIdeal.nD Cert.ReferenceIdeal.τ).loc Cert.ReferenceIdeal.main_arg13) :=
  (keepR_rP2_main_arg13 _).trans (RS3_main_arg13 m' c)
theorem RS5_main_arg13 : RS5 m' c (Proc.devRef .tc Cert.ReferenceIdeal.main_arg13) = m' ((c.tc : Thread Cert.ReferenceIdeal.nD Cert.ReferenceIdeal.τ).loc Cert.ReferenceIdeal.main_arg13) :=
  (keepR_rC2_main_arg13 _).trans (RS4_main_arg13 m' c)
theorem RS6_main_arg13 : RS6 m' c (Proc.devRef .tc Cert.ReferenceIdeal.main_arg13) = m' ((c.tc : Thread Cert.ReferenceIdeal.nD Cert.ReferenceIdeal.τ).loc Cert.ReferenceIdeal.main_arg13) :=
  (keepR_rP3_main_arg13 _).trans (RS5_main_arg13 m' c)
theorem RS7_main_arg13 : RS7 m' c (Proc.devRef .tc Cert.ReferenceIdeal.main_arg13) = m' ((c.tc : Thread Cert.ReferenceIdeal.nD Cert.ReferenceIdeal.τ).loc Cert.ReferenceIdeal.main_arg13) :=
  (keepR_rC3_main_arg13 _).trans (RS6_main_arg13 m' c)
theorem RS8_main_arg13 : RS8 m' c (Proc.devRef .tc Cert.ReferenceIdeal.main_arg13) = m' ((c.tc : Thread Cert.ReferenceIdeal.nD Cert.ReferenceIdeal.τ).loc Cert.ReferenceIdeal.main_arg13) :=
  (keepR_sD1_main_arg13 _).trans (RS7_main_arg13 m' c)
theorem RS9_main_arg13 : RS9 m' c (Proc.devRef .tc Cert.ReferenceIdeal.main_arg13) = m' ((c.tc : Thread Cert.ReferenceIdeal.nD Cert.ReferenceIdeal.τ).loc Cert.ReferenceIdeal.main_arg13) :=
  (keepR_rP4_main_arg13 _).trans (RS8_main_arg13 m' c)
theorem RS10_main_arg13 : RS10 m' c (Proc.devRef .tc Cert.ReferenceIdeal.main_arg13) = m' ((c.tc : Thread Cert.ReferenceIdeal.nD Cert.ReferenceIdeal.τ).loc Cert.ReferenceIdeal.main_arg13) :=
  (keepR_rC4_main_arg13 _).trans (RS9_main_arg13 m' c)
theorem RS11_main_arg13 : RS11 m' c (Proc.devRef .tc Cert.ReferenceIdeal.main_arg13) = m' ((c.tc : Thread Cert.ReferenceIdeal.nD Cert.ReferenceIdeal.τ).loc Cert.ReferenceIdeal.main_arg13) :=
  (keepR_sD2_main_arg13 _).trans (RS10_main_arg13 m' c)
theorem RS12_main_arg13 : RS12 m' c (Proc.devRef .tc Cert.ReferenceIdeal.main_arg13) = m' ((c.tc : Thread Cert.ReferenceIdeal.nD Cert.ReferenceIdeal.τ).loc Cert.ReferenceIdeal.main_arg13) :=
  (keepR_rP5_main_arg13 _).trans (RS11_main_arg13 m' c)
theorem RS13_main_arg13 : RS13 m' c (Proc.devRef .tc Cert.ReferenceIdeal.main_arg13) = m' ((c.tc : Thread Cert.ReferenceIdeal.nD Cert.ReferenceIdeal.τ).loc Cert.ReferenceIdeal.main_arg13) :=
  (keepR_rC5_main_arg13 _).trans (RS12_main_arg13 m' c)
theorem RS14_main_arg13 : RS14 m' c (Proc.devRef .tc Cert.ReferenceIdeal.main_arg13) = m' ((c.tc : Thread Cert.ReferenceIdeal.nD Cert.ReferenceIdeal.τ).loc Cert.ReferenceIdeal.main_arg13) :=
  (keepR_sD3_main_arg13 _).trans (RS13_main_arg13 m' c)
theorem RS15_main_arg13 : RS15 m' c (Proc.devRef .tc Cert.ReferenceIdeal.main_arg13) = m' ((c.tc : Thread Cert.ReferenceIdeal.nD Cert.ReferenceIdeal.τ).loc Cert.ReferenceIdeal.main_arg13) :=
  (keepR_sS_main_arg13 _).trans (RS14_main_arg13 m' c)

/-! ## The bridge -/

/-- THE BRIDGE: from memories agreeing on the fourteen arguments, the reference's result buffer after its whole line
    holds what the kernel's result buffer holds after @main's last host stretch. -/
theorem bridge
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    after Cert.ReferenceIdeal.Line.ops (launchContents m' c) (Proc.devRef .tc Cert.ReferenceIdeal.main_v136) = U13 m c (Proc.devRef .tc Cert.KernelIdeal.main_v123) := by
  have e1_main_v0 : KS1 m c (Proc.devRef .tc Cert.KernelIdeal.main_v0) = RS1 m' c (Proc.devRef .tc Cert.ReferenceIdeal.main_v0) :=
    (congrFun (KS1_eq m c) _).trans (piece_kP1_main_v0 (KS0 m c) (RS0 m' c) ((KS0_main_arg0 m c).trans ((RS0_main_arg0 m' c).trans h0).symm))
  have e1_main_v7 : KS1 m c (Proc.devRef .tc Cert.KernelIdeal.main_v7) = RS1 m' c (Proc.devRef .tc Cert.ReferenceIdeal.main_v7) :=
    (congrFun (KS1_eq m c) _).trans (piece_kP1_main_v7 (KS0 m c) (RS0 m' c) ((KS0_main_arg0 m c).trans ((RS0_main_arg0 m' c).trans h0).symm) ((KS0_main_arg2 m c).trans ((RS0_main_arg2 m' c).trans h2).symm))
  have e2_main_v0 : KS2 m c (Proc.devRef .tc Cert.KernelIdeal.main_v0) = RS2 m' c (Proc.devRef .tc Cert.ReferenceIdeal.main_v0) :=
    (congrFun (KS2_eq m c) _).trans ((keepK_kC1_main_v0 _).trans (e1_main_v0.trans (keepR_rC1_main_v0 _).symm))
  have e2_main_v8 : KS2 m c (Proc.devRef .tc Cert.KernelIdeal.main_v8) = RS2 m' c (Proc.devRef .tc Cert.ReferenceIdeal.main_v8) :=
    (congrFun (KS2_eq m c) _).trans (piece_kC1_main_v8 (KS1 m c) (RS1 m' c) e1_main_v7 ((KS1_main_arg1 m c).trans ((RS1_main_arg1 m' c).trans h1).symm))
  have b2 : ∀ q : Fin 64, KS2 m c (Proc.devRef .tc Cert.KernelIdeal.main_v9) (ix2 (0 : Fin 1) q) = m ((c.tc : Thread Cert.KernelIdeal.nD Cert.KernelIdeal.τ).loc Cert.KernelIdeal.main_arg5) (ix1 q) :=
    fun q => (congrFun (congrFun (KS2_eq m c) _) _).trans ((piece_kC1_main_v9 (KS1 m c) q).trans (congrFun (KS1_main_arg5 m c) _))
  have e3_main_v10 : KS3 m c (Proc.devRef .tc Cert.KernelIdeal.main_v10) = RS3 m' c (Proc.devRef .tc Cert.ReferenceIdeal.main_v13) := by
    refine (Function.update_self _ _ _).trans ((dense0_final (atTc (U2 m)) c _ b2).trans ?_)
    show _ = after Cert.ReferenceIdeal.Line.sD0 (RS2 m' c) (Proc.devRef .tc Cert.ReferenceIdeal.main_v13)
    rw [refDense0 (RS2 m' c), ← e2_main_v8, RS2_main_arg4, RS2_main_arg5, h4, h5]
    exact congrArg (fun W => denseRef0 _ W _) (KS2_main_arg4 m c)
  have e3_main_v0 : KS3 m c (Proc.devRef .tc Cert.KernelIdeal.main_v0) = RS3 m' c (Proc.devRef .tc Cert.ReferenceIdeal.main_v0) :=
    (Function.update_of_ne (StableHlo.devRef_ne_of_ne (by decide)) _ _).trans (e2_main_v0.trans (keepR_sD0_main_v0 _).symm)
  have e4_main_v0 : KS4 m c (Proc.devRef .tc Cert.KernelIdeal.main_v0) = RS4 m' c (Proc.devRef .tc Cert.ReferenceIdeal.main_v0) :=
    (congrFun (KS4_eq m c) _).trans ((keepK_kP2_main_v0 _).trans (e3_main_v0.trans (keepR_rP2_main_v0 _).symm))
  have e4_main_v14 : KS4 m c (Proc.devRef .tc Cert.KernelIdeal.main_v14) = RS4 m' c (Proc.devRef .tc Cert.ReferenceIdeal.main_v17) :=
    (congrFun (KS4_eq m c) _).trans (piece_kP2_main_v14 (KS3 m c) (RS3 m' c) ((KS3_main_arg3 m c).trans ((RS3_main_arg3 m' c).trans h3).symm) e3_main_v10)
  have e4_main_v23 : KS4 m c (Proc.devRef .tc Cert.KernelIdeal.main_v23) = RS4 m' c (Proc.devRef .tc Cert.ReferenceIdeal.main_v26) :=
    (congrFun (KS4_eq m c) _).trans (piece_kP2_main_v23 (KS3 m c) (RS3 m' c) ((KS3_main_arg3 m c).trans ((RS3_main_arg3 m' c).trans h3).symm))
  have e5_main_v24 : KS5 m c (Proc.devRef .tc Cert.KernelIdeal.main_v24) = RS5 m' c (Proc.devRef .tc Cert.ReferenceIdeal.main_v27) :=
    (congrFun (KS5_eq m c) _).trans (piece_kC2_main_v24 (KS4 m c) (RS4 m' c) e4_main_v0 e4_main_v14)
  have e5_main_v23 : KS5 m c (Proc.devRef .tc Cert.KernelIdeal.main_v23) = RS5 m' c (Proc.devRef .tc Cert.ReferenceIdeal.main_v26) :=
    (congrFun (KS5_eq m c) _).trans ((keepK_kC2_main_v23 _).trans (e4_main_v23.trans (keepR_rC2_main_v26 _).symm))
  have e6_main_v24 : KS6 m c (Proc.devRef .tc Cert.KernelIdeal.main_v24) = RS6 m' c (Proc.devRef .tc Cert.ReferenceIdeal.main_v27) :=
    (congrFun (KS6_eq m c) _).trans ((keepK_kP3_main_v24 _).trans (e5_main_v24.trans (keepR_rP3_main_v27 _).symm))
  have e6_main_v38 : KS6 m c (Proc.devRef .tc Cert.KernelIdeal.main_v38) = RS6 m' c (Proc.devRef .tc Cert.ReferenceIdeal.main_v41) :=
    (congrFun (KS6_eq m c) _).trans (piece_kP3_main_v38 (KS5 m c) (RS5 m' c) ((KS5_main_arg3 m c).trans ((RS5_main_arg3 m' c).trans h3).symm) e5_main_v24 e5_main_v23 ((KS5_main_arg2 m c).trans ((RS5_main_arg2 m' c).trans h2).symm))
  have e6_main_v52 : KS6 m c (Proc.devRef .tc Cert.KernelIdeal.main_v52) = RS6 m' c (Proc.devRef .tc Cert.ReferenceIdeal.main_v55) :=
    (congrFun (KS6_eq m c) _).trans (piece_kP3_main_v52 (KS5 m c) (RS5 m' c) ((KS5_main_arg3 m c).trans ((RS5_main_arg3 m' c).trans h3).symm) e5_main_v24 e5_main_v23 ((KS5_main_arg2 m c).trans ((RS5_main_arg2 m' c).trans h2).symm))
  have e6_main_v23 : KS6 m c (Proc.devRef .tc Cert.KernelIdeal.main_v23) = RS6 m' c (Proc.devRef .tc Cert.ReferenceIdeal.main_v26) :=
    (congrFun (KS6_eq m c) _).trans ((keepK_kP3_main_v23 _).trans (e5_main_v23.trans (keepR_rP3_main_v26 _).symm))
  have e7_main_v53 : KS7 m c (Proc.devRef .tc Cert.KernelIdeal.main_v53) = RS7 m' c (Proc.devRef .tc Cert.ReferenceIdeal.main_v56) :=
    (congrFun (KS7_eq m c) _).trans (piece_kC3_main_v53 (KS6 m c) (RS6 m' c) e6_main_v24 e6_main_v38 e6_main_v52)
  have e7_main_v23 : KS7 m c (Proc.devRef .tc Cert.KernelIdeal.main_v23) = RS7 m' c (Proc.devRef .tc Cert.ReferenceIdeal.main_v26) :=
    (congrFun (KS7_eq m c) _).trans ((keepK_kC3_main_v23 _).trans (e6_main_v23.trans (keepR_rC3_main_v26 _).symm))
  have b7 : ∀ q : Fin 64, KS7 m c (Proc.devRef .tc Cert.KernelIdeal.main_v54) (ix2 (0 : Fin 1) q) = m ((c.tc : Thread Cert.KernelIdeal.nD Cert.KernelIdeal.τ).loc Cert.KernelIdeal.main_arg7) (ix1 q) :=
    fun q => (congrFun (congrFun (KS7_eq m c) _) _).trans ((piece_kC3_main_v54 (KS6 m c) q).trans (congrFun (KS6_main_arg7 m c) _))
  have e8_main_v55 : KS8 m c (Proc.devRef .tc Cert.KernelIdeal.main_v55) = RS8 m' c (Proc.devRef .tc Cert.ReferenceIdeal.main_v61) := by
    refine (Function.update_self _ _ _).trans ((dense1_final (atTc (U6 m)) c _ b7).trans ?_)
    show _ = after Cert.ReferenceIdeal.Line.sD1 (RS7 m' c) (Proc.devRef .tc Cert.ReferenceIdeal.main_v61)
    rw [refDense1 (RS7 m' c), ← e7_main_v53, RS7_main_arg6, RS7_main_arg7, h6, h7]
    exact congrArg (fun W => denseRef1 _ W _) (KS7_main_arg6 m c)
  have e8_main_v23 : KS8 m c (Proc.devRef .tc Cert.KernelIdeal.main_v23) = RS8 m' c (Proc.devRef .tc Cert.ReferenceIdeal.main_v26) :=
    (Function.update_of_ne (StableHlo.devRef_ne_of_ne (by decide)) _ _).trans (e7_main_v23.trans (keepR_sD1_main_v26 _).symm)
  have e9_main_v55 : KS9 m c (Proc.devRef .tc Cert.KernelIdeal.main_v55) = RS9 m' c (Proc.devRef .tc Cert.ReferenceIdeal.main_v61) :=
    (congrFun (KS9_eq m c) _).trans ((keepK_kP4_main_v55 _).trans (e8_main_v55.trans (keepR_rP4_main_v61 _).symm))
  have e9_main_v69 : KS9 m c (Proc.devRef .tc Cert.KernelIdeal.main_v69) = RS9 m' c (Proc.devRef .tc Cert.ReferenceIdeal.main_v75) :=
    (congrFun (KS9_eq m c) _).trans (piece_kP4_main_v69 (KS8 m c) (RS8 m' c) ((KS8_main_arg3 m c).trans ((RS8_main_arg3 m' c).trans h3).symm) e8_main_v55 e8_main_v23 ((KS8_main_arg2 m c).trans ((RS8_main_arg2 m' c).trans h2).symm))
  have e9_main_v83 : KS9 m c (Proc.devRef .tc Cert.KernelIdeal.main_v83) = RS9 m' c (Proc.devRef .tc Cert.ReferenceIdeal.main_v89) :=
    (congrFun (KS9_eq m c) _).trans (piece_kP4_main_v83 (KS8 m c) (RS8 m' c) ((KS8_main_arg3 m c).trans ((RS8_main_arg3 m' c).trans h3).symm) e8_main_v55 e8_main_v23 ((KS8_main_arg2 m c).trans ((RS8_main_arg2 m' c).trans h2).symm))
  have e9_main_v23 : KS9 m c (Proc.devRef .tc Cert.KernelIdeal.main_v23) = RS9 m' c (Proc.devRef .tc Cert.ReferenceIdeal.main_v26) :=
    (congrFun (KS9_eq m c) _).trans ((keepK_kP4_main_v23 _).trans (e8_main_v23.trans (keepR_rP4_main_v26 _).symm))
  have e10_main_v84 : KS10 m c (Proc.devRef .tc Cert.KernelIdeal.main_v84) = RS10 m' c (Proc.devRef .tc Cert.ReferenceIdeal.main_v90) :=
    (congrFun (KS10_eq m c) _).trans (piece_kC4_main_v84 (KS9 m c) (RS9 m' c) e9_main_v55 e9_main_v69 e9_main_v83)
  have e10_main_v23 : KS10 m c (Proc.devRef .tc Cert.KernelIdeal.main_v23) = RS10 m' c (Proc.devRef .tc Cert.ReferenceIdeal.main_v26) :=
    (congrFun (KS10_eq m c) _).trans ((keepK_kC4_main_v23 _).trans (e9_main_v23.trans (keepR_rC4_main_v26 _).symm))
  have b10 : ∀ q : Fin 64, KS10 m c (Proc.devRef .tc Cert.KernelIdeal.main_v85) (ix2 (0 : Fin 1) q) = m ((c.tc : Thread Cert.KernelIdeal.nD Cert.KernelIdeal.τ).loc Cert.KernelIdeal.main_arg9) (ix1 q) :=
    fun q => (congrFun (congrFun (KS10_eq m c) _) _).trans ((piece_kC4_main_v85 (KS9 m c) q).trans (congrFun (KS9_main_arg9 m c) _))
  have e11_main_v86 : KS11 m c (Proc.devRef .tc Cert.KernelIdeal.main_v86) = RS11 m' c (Proc.devRef .tc Cert.ReferenceIdeal.main_v95) := by
    refine (Function.update_self _ _ _).trans ((dense2_final (atTc (U8 m)) c _ b10).trans ?_)
    show _ = after Cert.ReferenceIdeal.Line.sD2 (RS10 m' c) (Proc.devRef .tc Cert.ReferenceIdeal.main_v95)
    rw [refDense2 (RS10 m' c), ← e10_main_v84, RS10_main_arg8, RS10_main_arg9, h8, h9]
    exact congrArg (fun W => denseRef2 _ W _) (KS10_main_arg8 m c)
  have e11_main_v23 : KS11 m c (Proc.devRef .tc Cert.KernelIdeal.main_v23) = RS11 m' c (Proc.devRef .tc Cert.ReferenceIdeal.main_v26) :=
    (Function.update_of_ne (StableHlo.devRef_ne_of_ne (by decide)) _ _).trans (e10_main_v23.trans (keepR_sD2_main_v26 _).symm)
  have e12_main_v86 : KS12 m c (Proc.devRef .tc Cert.KernelIdeal.main_v86) = RS12 m' c (Proc.devRef .tc Cert.ReferenceIdeal.main_v95) :=
    (congrFun (KS12_eq m c) _).trans ((keepK_kP5_main_v86 _).trans (e11_main_v86.trans (keepR_rP5_main_v95 _).symm))
  have e12_main_v100 : KS12 m c (Proc.devRef .tc Cert.KernelIdeal.main_v100) = RS12 m' c (Proc.devRef .tc Cert.ReferenceIdeal.main_v109) :=
    (congrFun (KS12_eq m c) _).trans (piece_kP5_main_v100 (KS11 m c) (RS11 m' c) ((KS11_main_arg3 m c).trans ((RS11_main_arg3 m' c).trans h3).symm) e11_main_v86 e11_main_v23 ((KS11_main_arg2 m c).trans ((RS11_main_arg2 m' c).trans h2).symm))
  have e12_main_v114 : KS12 m c (Proc.devRef .tc Cert.KernelIdeal.main_v114) = RS12 m' c (Proc.devRef .tc Cert.ReferenceIdeal.main_v123) :=
    (congrFun (KS12_eq m c) _).trans (piece_kP5_main_v114 (KS11 m c) (RS11 m' c) ((KS11_main_arg3 m c).trans ((RS11_main_arg3 m' c).trans h3).symm) e11_main_v86 e11_main_v23 ((KS11_main_arg2 m c).trans ((RS11_main_arg2 m' c).trans h2).symm))
  have e13_main_v115 : KS13 m c (Proc.devRef .tc Cert.KernelIdeal.main_v115) = RS13 m' c (Proc.devRef .tc Cert.ReferenceIdeal.main_v124) :=
    (congrFun (KS13_eq m c) _).trans (piece_kC5_main_v115 (KS12 m c) (RS12 m' c) e12_main_v86 e12_main_v100 e12_main_v114)
  have b13 : ∀ q : Fin 64, KS13 m c (Proc.devRef .tc Cert.KernelIdeal.main_v116) (ix2 (0 : Fin 1) q) = m ((c.tc : Thread Cert.KernelIdeal.nD Cert.KernelIdeal.τ).loc Cert.KernelIdeal.main_arg11) (ix1 q) :=
    fun q => (congrFun (congrFun (KS13_eq m c) _) _).trans ((piece_kC5_main_v116 (KS12 m c) q).trans (congrFun (KS12_main_arg11 m c) _))
  have e14_main_v117 : KS14 m c (Proc.devRef .tc Cert.KernelIdeal.main_v117) = RS14 m' c (Proc.devRef .tc Cert.ReferenceIdeal.main_v129) := by
    refine (Function.update_self _ _ _).trans ((dense3_final (atTc (U10 m)) c _ b13).trans ?_)
    show _ = after Cert.ReferenceIdeal.Line.sD3 (RS13 m' c) (Proc.devRef .tc Cert.ReferenceIdeal.main_v129)
    rw [refDense3 (RS13 m' c), ← e13_main_v115, RS13_main_arg10, RS13_main_arg11, h10, h11]
    exact congrArg (fun W => denseRef3 _ W _) (KS13_main_arg10 m c)
  have e15_main_v118 : KS15 m c (Proc.devRef .tc Cert.KernelIdeal.main_v118) = RS15 m' c (Proc.devRef .tc Cert.ReferenceIdeal.main_v131) := by
    refine (Function.update_self _ _ _).trans ((sum4_value (atTc (U11 m)) c).trans ?_)
    show _ = after Cert.ReferenceIdeal.Line.sS (RS14 m' c) (Proc.devRef .tc Cert.ReferenceIdeal.main_v131)
    rw [refSum (RS14 m' c), ← e14_main_v117]
  have e16_main_v123 : KS16 m c (Proc.devRef .tc Cert.KernelIdeal.main_v123) = RS16 m' c (Proc.devRef .tc Cert.ReferenceIdeal.main_v136) :=
    (congrFun (KS16_eq m c) _).trans (piece_kP6_main_v123 (KS15 m c) (RS15 m' c) e15_main_v118 ((KS15_main_arg12 m c).trans ((RS15_main_arg12 m' c).trans h12).symm) ((KS15_main_arg13 m c).trans ((RS15_main_arg13 m' c).trans h13).symm))
  rw [Cert.ReferenceIdeal.Line.after_ops]
  exact e16_main_v123.symm

end Cert.Bridge

end
-- ==== Proof.Bridge.RefKeep.lean ====
import proofs.«163259_j24927990186434_1_alg».proof.Proof.Bridge.Stages

/-!
# The reference leaves its arguments alone

No operation of the reference's line writes an argument array: piece by piece each keeps its launch contents.
-/

noncomputable section

namespace Cert.Bridge

open Idealize.ShloMosaic Idealize.ShloMosaic.TcCoe Idealize.SL.Sem Idealize.ShloMosaic.StableHlo

theorem refKeep_main_arg0 (R : RVal) : after Cert.ReferenceIdeal.Line.ops R (Proc.devRef .tc Cert.ReferenceIdeal.main_arg0) = R (Proc.devRef .tc Cert.ReferenceIdeal.main_arg0) := by
  rw [Cert.ReferenceIdeal.Line.after_ops]
  exact (keepR_rP6_main_arg0 _).trans ((keepR_sS_main_arg0 _).trans ((keepR_sD3_main_arg0 _).trans ((keepR_rC5_main_arg0 _).trans ((keepR_rP5_main_arg0 _).trans ((keepR_sD2_main_arg0 _).trans ((keepR_rC4_main_arg0 _).trans ((keepR_rP4_main_arg0 _).trans ((keepR_sD1_main_arg0 _).trans ((keepR_rC3_main_arg0 _).trans ((keepR_rP3_main_arg0 _).trans ((keepR_rC2_main_arg0 _).trans ((keepR_rP2_main_arg0 _).trans ((keepR_sD0_main_arg0 _).trans ((keepR_rC1_main_arg0 _).trans ((keepR_rP1_main_arg0 _))))))))))))))))
theorem refKeep_main_arg1 (R : RVal) : after Cert.ReferenceIdeal.Line.ops R (Proc.devRef .tc Cert.ReferenceIdeal.main_arg1) = R (Proc.devRef .tc Cert.ReferenceIdeal.main_arg1) := by
  rw [Cert.ReferenceIdeal.Line.after_ops]
  exact (keepR_rP6_main_arg1 _).trans ((keepR_sS_main_arg1 _).trans ((keepR_sD3_main_arg1 _).trans ((keepR_rC5_main_arg1 _).trans ((keepR_rP5_main_arg1 _).trans ((keepR_sD2_main_arg1 _).trans ((keepR_rC4_main_arg1 _).trans ((keepR_rP4_main_arg1 _).trans ((keepR_sD1_main_arg1 _).trans ((keepR_rC3_main_arg1 _).trans ((keepR_rP3_main_arg1 _).trans ((keepR_rC2_main_arg1 _).trans ((keepR_rP2_main_arg1 _).trans ((keepR_sD0_main_arg1 _).trans ((keepR_rC1_main_arg1 _).trans ((keepR_rP1_main_arg1 _))))))))))))))))
theorem refKeep_main_arg2 (R : RVal) : after Cert.ReferenceIdeal.Line.ops R (Proc.devRef .tc Cert.ReferenceIdeal.main_arg2) = R (Proc.devRef .tc Cert.ReferenceIdeal.main_arg2) := by
  rw [Cert.ReferenceIdeal.Line.after_ops]
  exact (keepR_rP6_main_arg2 _).trans ((keepR_sS_main_arg2 _).trans ((keepR_sD3_main_arg2 _).trans ((keepR_rC5_main_arg2 _).trans ((keepR_rP5_main_arg2 _).trans ((keepR_sD2_main_arg2 _).trans ((keepR_rC4_main_arg2 _).trans ((keepR_rP4_main_arg2 _).trans ((keepR_sD1_main_arg2 _).trans ((keepR_rC3_main_arg2 _).trans ((keepR_rP3_main_arg2 _).trans ((keepR_rC2_main_arg2 _).trans ((keepR_rP2_main_arg2 _).trans ((keepR_sD0_main_arg2 _).trans ((keepR_rC1_main_arg2 _).trans ((keepR_rP1_main_arg2 _))))))))))))))))
theorem refKeep_main_arg3 (R : RVal) : after Cert.ReferenceIdeal.Line.ops R (Proc.devRef .tc Cert.ReferenceIdeal.main_arg3) = R (Proc.devRef .tc Cert.ReferenceIdeal.main_arg3) := by
  rw [Cert.ReferenceIdeal.Line.after_ops]
  exact (keepR_rP6_main_arg3 _).trans ((keepR_sS_main_arg3 _).trans ((keepR_sD3_main_arg3 _).trans ((keepR_rC5_main_arg3 _).trans ((keepR_rP5_main_arg3 _).trans ((keepR_sD2_main_arg3 _).trans ((keepR_rC4_main_arg3 _).trans ((keepR_rP4_main_arg3 _).trans ((keepR_sD1_main_arg3 _).trans ((keepR_rC3_main_arg3 _).trans ((keepR_rP3_main_arg3 _).trans ((keepR_rC2_main_arg3 _).trans ((keepR_rP2_main_arg3 _).trans ((keepR_sD0_main_arg3 _).trans ((keepR_rC1_main_arg3 _).trans ((keepR_rP1_main_arg3 _))))))))))))))))
theorem refKeep_main_arg4 (R : RVal) : after Cert.ReferenceIdeal.Line.ops R (Proc.devRef .tc Cert.ReferenceIdeal.main_arg4) = R (Proc.devRef .tc Cert.ReferenceIdeal.main_arg4) := by
  rw [Cert.ReferenceIdeal.Line.after_ops]
  exact (keepR_rP6_main_arg4 _).trans ((keepR_sS_main_arg4 _).trans ((keepR_sD3_main_arg4 _).trans ((keepR_rC5_main_arg4 _).trans ((keepR_rP5_main_arg4 _).trans ((keepR_sD2_main_arg4 _).trans ((keepR_rC4_main_arg4 _).trans ((keepR_rP4_main_arg4 _).trans ((keepR_sD1_main_arg4 _).trans ((keepR_rC3_main_arg4 _).trans ((keepR_rP3_main_arg4 _).trans ((keepR_rC2_main_arg4 _).trans ((keepR_rP2_main_arg4 _).trans ((keepR_sD0_main_arg4 _).trans ((keepR_rC1_main_arg4 _).trans ((keepR_rP1_main_arg4 _))))))))))))))))
theorem refKeep_main_arg5 (R : RVal) : after Cert.ReferenceIdeal.Line.ops R (Proc.devRef .tc Cert.ReferenceIdeal.main_arg5) = R (Proc.devRef .tc Cert.ReferenceIdeal.main_arg5) := by
  rw [Cert.ReferenceIdeal.Line.after_ops]
  exact (keepR_rP6_main_arg5 _).trans ((keepR_sS_main_arg5 _).trans ((keepR_sD3_main_arg5 _).trans ((keepR_rC5_main_arg5 _).trans ((keepR_rP5_main_arg5 _).trans ((keepR_sD2_main_arg5 _).trans ((keepR_rC4_main_arg5 _).trans ((keepR_rP4_main_arg5 _).trans ((keepR_sD1_main_arg5 _).trans ((keepR_rC3_main_arg5 _).trans ((keepR_rP3_main_arg5 _).trans ((keepR_rC2_main_arg5 _).trans ((keepR_rP2_main_arg5 _).trans ((keepR_sD0_main_arg5 _).trans ((keepR_rC1_main_arg5 _).trans ((keepR_rP1_main_arg5 _))))))))))))))))
theorem refKeep_main_arg6 (R : RVal) : after Cert.ReferenceIdeal.Line.ops R (Proc.devRef .tc Cert.ReferenceIdeal.main_arg6) = R (Proc.devRef .tc Cert.ReferenceIdeal.main_arg6) := by
  rw [Cert.ReferenceIdeal.Line.after_ops]
  exact (keepR_rP6_main_arg6 _).trans ((keepR_sS_main_arg6 _).trans ((keepR_sD3_main_arg6 _).trans ((keepR_rC5_main_arg6 _).trans ((keepR_rP5_main_arg6 _).trans ((keepR_sD2_main_arg6 _).trans ((keepR_rC4_main_arg6 _).trans ((keepR_rP4_main_arg6 _).trans ((keepR_sD1_main_arg6 _).trans ((keepR_rC3_main_arg6 _).trans ((keepR_rP3_main_arg6 _).trans ((keepR_rC2_main_arg6 _).trans ((keepR_rP2_main_arg6 _).trans ((keepR_sD0_main_arg6 _).trans ((keepR_rC1_main_arg6 _).trans ((keepR_rP1_main_arg6 _))))))))))))))))
theorem refKeep_main_arg7 (R : RVal) : after Cert.ReferenceIdeal.Line.ops R (Proc.devRef .tc Cert.ReferenceIdeal.main_arg7) = R (Proc.devRef .tc Cert.ReferenceIdeal.main_arg7) := by
  rw [Cert.ReferenceIdeal.Line.after_ops]
  exact (keepR_rP6_main_arg7 _).trans ((keepR_sS_main_arg7 _).trans ((keepR_sD3_main_arg7 _).trans ((keepR_rC5_main_arg7 _).trans ((keepR_rP5_main_arg7 _).trans ((keepR_sD2_main_arg7 _).trans ((keepR_rC4_main_arg7 _).trans ((keepR_rP4_main_arg7 _).trans ((keepR_sD1_main_arg7 _).trans ((keepR_rC3_main_arg7 _).trans ((keepR_rP3_main_arg7 _).trans ((keepR_rC2_main_arg7 _).trans ((keepR_rP2_main_arg7 _).trans ((keepR_sD0_main_arg7 _).trans ((keepR_rC1_main_arg7 _).trans ((keepR_rP1_main_arg7 _))))))))))))))))
theorem refKeep_main_arg8 (R : RVal) : after Cert.ReferenceIdeal.Line.ops R (Proc.devRef .tc Cert.ReferenceIdeal.main_arg8) = R (Proc.devRef .tc Cert.ReferenceIdeal.main_arg8) := by
  rw [Cert.ReferenceIdeal.Line.after_ops]
  exact (keepR_rP6_main_arg8 _).trans ((keepR_sS_main_arg8 _).trans ((keepR_sD3_main_arg8 _).trans ((keepR_rC5_main_arg8 _).trans ((keepR_rP5_main_arg8 _).trans ((keepR_sD2_main_arg8 _).trans ((keepR_rC4_main_arg8 _).trans ((keepR_rP4_main_arg8 _).trans ((keepR_sD1_main_arg8 _).trans ((keepR_rC3_main_arg8 _).trans ((keepR_rP3_main_arg8 _).trans ((keepR_rC2_main_arg8 _).trans ((keepR_rP2_main_arg8 _).trans ((keepR_sD0_main_arg8 _).trans ((keepR_rC1_main_arg8 _).trans ((keepR_rP1_main_arg8 _))))))))))))))))
theorem refKeep_main_arg9 (R : RVal) : after Cert.ReferenceIdeal.Line.ops R (Proc.devRef .tc Cert.ReferenceIdeal.main_arg9) = R (Proc.devRef .tc Cert.ReferenceIdeal.main_arg9) := by
  rw [Cert.ReferenceIdeal.Line.after_ops]
  exact (keepR_rP6_main_arg9 _).trans ((keepR_sS_main_arg9 _).trans ((keepR_sD3_main_arg9 _).trans ((keepR_rC5_main_arg9 _).trans ((keepR_rP5_main_arg9 _).trans ((keepR_sD2_main_arg9 _).trans ((keepR_rC4_main_arg9 _).trans ((keepR_rP4_main_arg9 _).trans ((keepR_sD1_main_arg9 _).trans ((keepR_rC3_main_arg9 _).trans ((keepR_rP3_main_arg9 _).trans ((keepR_rC2_main_arg9 _).trans ((keepR_rP2_main_arg9 _).trans ((keepR_sD0_main_arg9 _).trans ((keepR_rC1_main_arg9 _).trans ((keepR_rP1_main_arg9 _))))))))))))))))
theorem refKeep_main_arg10 (R : RVal) : after Cert.ReferenceIdeal.Line.ops R (Proc.devRef .tc Cert.ReferenceIdeal.main_arg10) = R (Proc.devRef .tc Cert.ReferenceIdeal.main_arg10) := by
  rw [Cert.ReferenceIdeal.Line.after_ops]
  exact (keepR_rP6_main_arg10 _).trans ((keepR_sS_main_arg10 _).trans ((keepR_sD3_main_arg10 _).trans ((keepR_rC5_main_arg10 _).trans ((keepR_rP5_main_arg10 _).trans ((keepR_sD2_main_arg10 _).trans ((keepR_rC4_main_arg10 _).trans ((keepR_rP4_main_arg10 _).trans ((keepR_sD1_main_arg10 _).trans ((keepR_rC3_main_arg10 _).trans ((keepR_rP3_main_arg10 _).trans ((keepR_rC2_main_arg10 _).trans ((keepR_rP2_main_arg10 _).trans ((keepR_sD0_main_arg10 _).trans ((keepR_rC1_main_arg10 _).trans ((keepR_rP1_main_arg10 _))))))))))))))))
theorem refKeep_main_arg11 (R : RVal) : after Cert.ReferenceIdeal.Line.ops R (Proc.devRef .tc Cert.ReferenceIdeal.main_arg11) = R (Proc.devRef .tc Cert.ReferenceIdeal.main_arg11) := by
  rw [Cert.ReferenceIdeal.Line.after_ops]
  exact (keepR_rP6_main_arg11 _).trans ((keepR_sS_main_arg11 _).trans ((keepR_sD3_main_arg11 _).trans ((keepR_rC5_main_arg11 _).trans ((keepR_rP5_main_arg11 _).trans ((keepR_sD2_main_arg11 _).trans ((keepR_rC4_main_arg11 _).trans ((keepR_rP4_main_arg11 _).trans ((keepR_sD1_main_arg11 _).trans ((keepR_rC3_main_arg11 _).trans ((keepR_rP3_main_arg11 _).trans ((keepR_rC2_main_arg11 _).trans ((keepR_rP2_main_arg11 _).trans ((keepR_sD0_main_arg11 _).trans ((keepR_rC1_main_arg11 _).trans ((keepR_rP1_main_arg11 _))))))))))))))))
theorem refKeep_main_arg12 (R : RVal) : after Cert.ReferenceIdeal.Line.ops R (Proc.devRef .tc Cert.ReferenceIdeal.main_arg12) = R (Proc.devRef .tc Cert.ReferenceIdeal.main_arg12) := by
  rw [Cert.ReferenceIdeal.Line.after_ops]
  exact (keepR_rP6_main_arg12 _).trans ((keepR_sS_main_arg12 _).trans ((keepR_sD3_main_arg12 _).trans ((keepR_rC5_main_arg12 _).trans ((keepR_rP5_main_arg12 _).trans ((keepR_sD2_main_arg12 _).trans ((keepR_rC4_main_arg12 _).trans ((keepR_rP4_main_arg12 _).trans ((keepR_sD1_main_arg12 _).trans ((keepR_rC3_main_arg12 _).trans ((keepR_rP3_main_arg12 _).trans ((keepR_rC2_main_arg12 _).trans ((keepR_rP2_main_arg12 _).trans ((keepR_sD0_main_arg12 _).trans ((keepR_rC1_main_arg12 _).trans ((keepR_rP1_main_arg12 _))))))))))))))))
theorem refKeep_main_arg13 (R : RVal) : after Cert.ReferenceIdeal.Line.ops R (Proc.devRef .tc Cert.ReferenceIdeal.main_arg13) = R (Proc.devRef .tc Cert.ReferenceIdeal.main_arg13) := by
  rw [Cert.ReferenceIdeal.Line.after_ops]
  exact (keepR_rP6_main_arg13 _).trans ((keepR_sS_main_arg13 _).trans ((keepR_sD3_main_arg13 _).trans ((keepR_rC5_main_arg13 _).trans ((keepR_rP5_main_arg13 _).trans ((keepR_sD2_main_arg13 _).trans ((keepR_rC4_main_arg13 _).trans ((keepR_rP4_main_arg13 _).trans ((keepR_sD1_main_arg13 _).trans ((keepR_rC3_main_arg13 _).trans ((keepR_rP3_main_arg13 _).trans ((keepR_rC2_main_arg13 _).trans ((keepR_rP2_main_arg13 _).trans ((keepR_sD0_main_arg13 _).trans ((keepR_rC1_main_arg13 _).trans ((keepR_rP1_main_arg13 _))))))))))))))))

end Cert.Bridge

end
-- ==== Proof.lean ====
/-
  The proof of `Cert.Claim`: a graph network's forward pass — a message layer, three propagation layers and a mean
  readout — written with four row-tiled dense kernels and one accumulating column-sum kernel, against the plain
  reference. The three frames: each kernel region's per-point obligation gives its segment of @main, the segments and
  the host stretches give the run of the whole program (Kernel/, KernelIdeal/), and the reference is one straight line
  of host operations once its calls are written out (ReferenceIdeal/). The idealization rewrote nothing. The value:
  on the extended reals the host stretches of the two programs are the same operations on corresponding buffers, a
  dense kernel's tiles are rows of the reference's matrix product with the bias added and the maximum with zero taken,
  and the accumulated column sums are the reference's sum over all rows (Bridge/).
-/
import proofs.«163259_j24927990186434_1_alg».proof.Defs
import proofs.«163259_j24927990186434_1_alg».proof.Proof.Gen.Kernel
import proofs.«163259_j24927990186434_1_alg».proof.Proof.Gen.KernelIdeal
import proofs.«163259_j24927990186434_1_alg».proof.Proof.Gen.ReferenceIdeal
import proofs.«163259_j24927990186434_1_alg».proof.Proof.Gen.Pre_finite_inputs
import proofs.«163259_j24927990186434_1_alg».proof.Proof.Kernel.Frame
import proofs.«163259_j24927990186434_1_alg».proof.Proof.KernelIdeal.Frame
import proofs.«163259_j24927990186434_1_alg».proof.Proof.ReferenceIdeal.Line
import proofs.«163259_j24927990186434_1_alg».proof.Proof.Bridge.Main
import proofs.«163259_j24927990186434_1_alg».proof.Proof.Bridge.RefKeep
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_k : Cert.frame_Kernel := fun m ρ _ => Cert.Kernel.Reg.frame m ρ
theorem frame_ki : Cert.frame_KernelIdeal := fun m ρ _ => Cert.KernelIdeal.Reg.frame m ρ
/-- The reference's run with the result dropped: each argument array is written by no operation of the line. -/
theorem frame_ri : Cert.frame_ReferenceIdeal := fun m ρ _ =>
  (θ_run Cert.ReferenceIdeal.defs _ _).mono (fun _ h c => ⟨(h c Cert.ReferenceIdeal.main_arg0).trans (Cert.Bridge.refKeep_main_arg0 _),
    (h c Cert.ReferenceIdeal.main_arg1).trans (Cert.Bridge.refKeep_main_arg1 _),
    (h c Cert.ReferenceIdeal.main_arg2).trans (Cert.Bridge.refKeep_main_arg2 _),
    (h c Cert.ReferenceIdeal.main_arg3).trans (Cert.Bridge.refKeep_main_arg3 _),
    (h c Cert.ReferenceIdeal.main_arg4).trans (Cert.Bridge.refKeep_main_arg4 _),
    (h c Cert.ReferenceIdeal.main_arg5).trans (Cert.Bridge.refKeep_main_arg5 _),
    (h c Cert.ReferenceIdeal.main_arg6).trans (Cert.Bridge.refKeep_main_arg6 _),
    (h c Cert.ReferenceIdeal.main_arg7).trans (Cert.Bridge.refKeep_main_arg7 _),
    (h c Cert.ReferenceIdeal.main_arg8).trans (Cert.Bridge.refKeep_main_arg8 _),
    (h c Cert.ReferenceIdeal.main_arg9).trans (Cert.Bridge.refKeep_main_arg9 _),
    (h c Cert.ReferenceIdeal.main_arg10).trans (Cert.Bridge.refKeep_main_arg10 _),
    (h c Cert.ReferenceIdeal.main_arg11).trans (Cert.Bridge.refKeep_main_arg11 _),
    (h c Cert.ReferenceIdeal.main_arg12).trans (Cert.Bridge.refKeep_main_arg12 _),
    (h c Cert.ReferenceIdeal.main_arg13).trans (Cert.Bridge.refKeep_main_arg13 _)⟩)
    (Cert.ReferenceIdeal.Line.run (F := Ideal) m ρ)

/-- The idealization rewrote no operation. -/
theorem preserves : Cert.preserves_Kernel_KernelIdeal := trivial

/-- Both programs run; the kernel's result buffer ends at the contents after @main's last host stretch, the reference's
    at the fold of its line, and from memories agreeing on the arguments those are the same array. -/
theorem algebraic : Cert.algebraic_KernelIdeal_ReferenceIdeal := by
  intro m ρ m' ρ' _ hagree
  refine ⟨fun c => Cert.KernelIdeal.Reg.U13 m c (Proc.devRef .tc Cert.KernelIdeal.main_v123), ?_, ?_⟩
  · exact (θ_run Cert.KernelIdeal.defs _ _).mono (fun _ h c => ⟨h c _ (Cert.KernelIdeal.Reg.mem_uc Cert.KernelIdeal.main_v123 (by decide)),
      (h c _ (Cert.KernelIdeal.Reg.mem_uc Cert.KernelIdeal.main_arg0 (by decide))).trans (Cert.KernelIdeal.Reg.U13_main_arg0 m c),
      (h c _ (Cert.KernelIdeal.Reg.mem_uc Cert.KernelIdeal.main_arg1 (by decide))).trans (Cert.KernelIdeal.Reg.U13_main_arg1 m c),
      (h c _ (Cert.KernelIdeal.Reg.mem_uc Cert.KernelIdeal.main_arg2 (by decide))).trans (Cert.KernelIdeal.Reg.U13_main_arg2 m c),
      (h c _ (Cert.KernelIdeal.Reg.mem_uc Cert.KernelIdeal.main_arg3 (by decide))).trans (Cert.KernelIdeal.Reg.U13_main_arg3 m c),
      (h c _ (Cert.KernelIdeal.Reg.mem_uc Cert.KernelIdeal.main_arg4 (by decide))).trans (Cert.KernelIdeal.Reg.U13_main_arg4 m c),
      (h c _ (Cert.KernelIdeal.Reg.mem_uc Cert.KernelIdeal.main_arg5 (by decide))).trans (Cert.KernelIdeal.Reg.U13_main_arg5 m c),
      (h c _ (Cert.KernelIdeal.Reg.mem_uc Cert.KernelIdeal.main_arg6 (by decide))).trans (Cert.KernelIdeal.Reg.U13_main_arg6 m c),
      (h c _ (Cert.KernelIdeal.Reg.mem_uc Cert.KernelIdeal.main_arg7 (by decide))).trans (Cert.KernelIdeal.Reg.U13_main_arg7 m c),
      (h c _ (Cert.KernelIdeal.Reg.mem_uc Cert.KernelIdeal.main_arg8 (by decide))).trans (Cert.KernelIdeal.Reg.U13_main_arg8 m c),
      (h c _ (Cert.KernelIdeal.Reg.mem_uc Cert.KernelIdeal.main_arg9 (by decide))).trans (Cert.KernelIdeal.Reg.U13_main_arg9 m c),
      (h c _ (Cert.KernelIdeal.Reg.mem_uc Cert.KernelIdeal.main_arg10 (by decide))).trans (Cert.KernelIdeal.Reg.U13_main_arg10 m c),
      (h c _ (Cert.KernelIdeal.Reg.mem_uc Cert.KernelIdeal.main_arg11 (by decide))).trans (Cert.KernelIdeal.Reg.U13_main_arg11 m c),
      (h c _ (Cert.KernelIdeal.Reg.mem_uc Cert.KernelIdeal.main_arg12 (by decide))).trans (Cert.KernelIdeal.Reg.U13_main_arg12 m c),
      (h c _ (Cert.KernelIdeal.Reg.mem_uc Cert.KernelIdeal.main_arg13 (by decide))).trans (Cert.KernelIdeal.Reg.U13_main_arg13 m c)⟩)
      (Cert.KernelIdeal.Reg.run (F := Ideal) m ρ)
  · exact (θ_run Cert.ReferenceIdeal.defs _ _).mono (fun _ h c => ⟨(h c Cert.ReferenceIdeal.main_v136).trans
        (Cert.Bridge.bridge m m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2),
      (h c Cert.ReferenceIdeal.main_arg0).trans (Cert.Bridge.refKeep_main_arg0 _),
      (h c Cert.ReferenceIdeal.main_arg1).trans (Cert.Bridge.refKeep_main_arg1 _),
      (h c Cert.ReferenceIdeal.main_arg2).trans (Cert.Bridge.refKeep_main_arg2 _),
      (h c Cert.ReferenceIdeal.main_arg3).trans (Cert.Bridge.refKeep_main_arg3 _),
      (h c Cert.ReferenceIdeal.main_arg4).trans (Cert.Bridge.refKeep_main_arg4 _),
      (h c Cert.ReferenceIdeal.main_arg5).trans (Cert.Bridge.refKeep_main_arg5 _),
      (h c Cert.ReferenceIdeal.main_arg6).trans (Cert.Bridge.refKeep_main_arg6 _),
      (h c Cert.ReferenceIdeal.main_arg7).trans (Cert.Bridge.refKeep_main_arg7 _),
      (h c Cert.ReferenceIdeal.main_arg8).trans (Cert.Bridge.refKeep_main_arg8 _),
      (h c Cert.ReferenceIdeal.main_arg9).trans (Cert.Bridge.refKeep_main_arg9 _),
      (h c Cert.ReferenceIdeal.main_arg10).trans (Cert.Bridge.refKeep_main_arg10 _),
      (h c Cert.ReferenceIdeal.main_arg11).trans (Cert.Bridge.refKeep_main_arg11 _),
      (h c Cert.ReferenceIdeal.main_arg12).trans (Cert.Bridge.refKeep_main_arg12 _),
      (h c Cert.ReferenceIdeal.main_arg13).trans (Cert.Bridge.refKeep_main_arg13 _)⟩)
      (Cert.ReferenceIdeal.Line.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
